-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S64x1024 : Shape := ⟨2, ![64, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn_part1 {F : FTy → Type} [FloatOps F] (main_arg4 : FVec F S64x1024 .f32) (main_arg5 : FVec F S64x1024 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S64x1024 .f32 := Host.absf main_arg4
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S64x1024 .f32 := Host.absf main_arg5
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  main_v28

def fn {F : FTy → Type} [FloatOps F] (main_arg0 : FVec F S4x4096x1024 .f32) (main_arg1 : FVec F S4x4096x1024 .f32) (main_arg2 : FVec F S4x4096x1024 .f32) (main_arg3 : FVec F S64x1024 .f32) (main_arg4 : FVec F S64x1024 .f32) (main_arg5 : FVec F S64x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_v13 main_v16
-- ==== Kernel.lean ====
abbrev S4x4096x1024 : Shape := ⟨3, ![4, 4096, 1024]⟩
abbrev S64x1024 : Shape := ⟨2, ![64, 1024]⟩
abbrev S1024x64 : Shape := ⟨2, ![1024, 64]⟩
abbrev S4x4096x64 : Shape := ⟨3, ![4, 4096, 64]⟩
abbrev S1x1024x1024 : Shape := ⟨3, ![1, 1024, 1024]⟩
abbrev S1x1024x64 : Shape := ⟨3, ![1, 1024, 64]⟩
abbrev S1024x1024 : Shape := ⟨2, ![1024, 1024]⟩
abbrev S1x512x1024 : Shape := ⟨3, ![1, 512, 1024]⟩
abbrev S1x512x64 : Shape := ⟨3, ![1, 512, 64]⟩
abbrev S512x64 : Shape := ⟨2, ![512, 64]⟩
abbrev S512x1 : Shape := ⟨2, ![512, 1]⟩
abbrev S512x1024 : Shape := ⟨2, ![512, 1024]⟩
abbrev S512x512 : Shape := ⟨2, ![512, 512]⟩
abbrev S512 : Shape := ⟨1, ![512]⟩

abbrev nBuf : Space → Nat
  | .hbm => 12
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S64x1024, .f32⟩
  | .hbm, ⟨4, _⟩ => ⟨S64x1024, .f32⟩
  | .hbm, ⟨5, _⟩ => ⟨S64x1024, .f32⟩
  | .hbm, ⟨6, _⟩ => ⟨S1024x64, .f32⟩
  | .hbm, ⟨7, _⟩ => ⟨S1024x64, .f32⟩
  | .hbm, ⟨8, _⟩ => ⟨S1024x64, .f32⟩
  | .hbm, ⟨9, _⟩ => ⟨S4x4096x64, .f32⟩
  | .hbm, ⟨10, _⟩ => ⟨S4x4096x64, .f32⟩
  | .hbm, ⟨11, _⟩ => ⟨S4x4096x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x64, .f32⟩
  | .local _ .vmem, ⟨5, _⟩ => ⟨S1024x64, .f32⟩
  | .local _ .vmem, ⟨6, _⟩ => ⟨S1x1024x64, .f32⟩
  | .local _ .vmem, ⟨7, _⟩ => ⟨S1x1024x64, .f32⟩
  | .local _ .vmem, ⟨8, _⟩ => ⟨S1x1024x64, .f32⟩
  | .local _ .vmem, ⟨9, _⟩ => ⟨S1x1024x64, .f32⟩
  | .local _ .vmem, ⟨10, _⟩ => ⟨S1x512x1024, .f32⟩
  | .local _ .vmem, ⟨11, _⟩ => ⟨S1x512x1024, .f32⟩
  | .local _ .vmem, ⟨12, _⟩ => ⟨S1024x64, .f32⟩
  | .local _ .vmem, ⟨13, _⟩ => ⟨S1x512x64, .f32⟩
  | .local _ .vmem, ⟨14, _⟩ => ⟨S1x512x64, .f32⟩
  | .local _ .vmem, ⟨15, _⟩ => ⟨S1x512x64, .f32⟩
  | .local _ .vmem, ⟨16, _⟩ => ⟨S1x512x64, .f32⟩
  | .local _ .vmem, ⟨17, _⟩ => ⟨S1x512x64, .f32⟩
  | .local _ .vmem, ⟨18, _⟩ => ⟨S1x512x64, .f32⟩
  | .local _ .vmem, ⟨19, _⟩ => ⟨S512x64, .f32⟩
  | .local _ .vmem, ⟨20, _⟩ => ⟨S512x1, .f32⟩
  | .local _ .vmem, ⟨21, _⟩ => ⟨S512x1, .f32⟩
  | .local _ .vmem, ⟨22, _⟩ => ⟨S512x64, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc1_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![4, 8, 8], ![false, false, false]⟩

def k1_cond3 (i : grid1.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 1 → Memref sig .tc .vmem S1024x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S1x512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  transposes_S64x1024_S1024x64_1_0 : S64x1024.Transposes [1, 0] S1024x64
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  shapeCasts_S512x64_S1x512x64 : S512x64.ShapeCasts S1x512x64
  dot_S1024x1024_S1024x64_S1024x64_1_0_0_1_n_n_wf : DotDims.WF S1024x1024 S1024x64 S1024x64 [1] [0] [0] [1] [] []
  dot_S512x1024_S1024x64_S512x64_1_0_0_1_n_n_wf : DotDims.WF S512x1024 S1024x64 S512x64 [1] [0] [0] [1] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S4x4096x1024.size a
  hwx0_1 : ∀ i : grid0.Coords, EltTy.bits .f32 = 32 ∨ (Rect.block (s := S4x4096x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S4x4096x64.size a
  hwx0_4 : ∀ i : grid0.Coords, EltTy.bits .f32 = 32 ∨ (Rect.block (s := S4x4096x64) S1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x64.size a ≤ S4x4096x64.size a
  hwx0_5 : ∀ i : grid0.Coords, EltTy.bits .f32 = 32 ∨ (Rect.block (s := S4x4096x64) S1x1024x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x4096x1024.size a
  hwx1_0 : ∀ i : grid1.Coords, EltTy.bits .f32 = 32 ∨ (Rect.block (s := S4x4096x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S1024x64.size a
  hwx1_1 : ∀ i : grid1.Coords, EltTy.bits .f32 = 32 ∨ (Rect.block (s := S1024x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S4x4096x64.size a
  hwx1_2 : ∀ i : grid1.Coords, EltTy.bits .f32 = 32 ∨ (Rect.block (s := S4x4096x64) S1x512x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S4x4096x64.size a
  hwx1_3 : ∀ i : grid1.Coords, EltTy.bits .f32 = 32 ∨ (Rect.block (s := S4x4096x64) S1x512x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x64.size a ≤ S4x4096x64.size a
  hwx1_4 : ∀ i : grid1.Coords, EltTy.bits .f32 = 32 ∨ (Rect.block (s := S4x4096x64) S1x512x64.size (cc1_transform_4 i) (hinb1_4 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_1) S1x512x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x512x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond3 i == 1#1) | ⟨_ + 5, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S64x1024 : Shape := ⟨2, ![64, 1024]⟩
abbrev S4x4096x64 : Shape := ⟨3, ![4, 4096, 64]⟩
abbrev S4x4096x4096 : Shape := ⟨3, ![4, 4096, 4096]⟩
abbrev S_ : Shape := ⟨0, ![]⟩
abbrev S4096x4096 : Shape := ⟨2, ![4096, 4096]⟩
abbrev S4x4096 : Shape := ⟨2, ![4, 4096]⟩
abbrev S4x4096x1 : Shape := ⟨3, ![4, 4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S64x1024, .f32⟩
  | .hbm, ⟨4, _⟩ => ⟨S64x1024, .f32⟩
  | .hbm, ⟨5, _⟩ => ⟨S64x1024, .f32⟩
  | .hbm, ⟨6, _⟩ => ⟨S4x4096x64, .f32⟩
  | .hbm, ⟨7, _⟩ => ⟨S4x4096x64, .f32⟩
  | .hbm, ⟨8, _⟩ => ⟨S4x4096x64, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S_, .i1⟩
  | .hbm, ⟨14, _⟩ => ⟨S4096x4096, .i1⟩
  | .hbm, ⟨15, _⟩ => ⟨S4096x4096, .i32⟩
  | .hbm, ⟨16, _⟩ => ⟨S_, .i32⟩
  | .hbm, ⟨17, _⟩ => ⟨S4096x4096, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .i1⟩
  | .hbm, ⟨22, _⟩ => ⟨S4096x4096, .i1⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S4x4096x4096, .i1⟩
  | .hbm, ⟨27, _⟩ => ⟨S4x4096x4096, .f32⟩
  | .hbm, ⟨28, _⟩ => ⟨S4x4096x4096, .f32⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S4x4096, .f32⟩
  | .hbm, ⟨34, _⟩ => ⟨S4x4096x1, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S4x4096x4096, .f32⟩
  | .hbm, ⟨42, _⟩ => ⟨S4x4096x4096, .f32⟩
  | .hbm, ⟨43, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_0 : Ref sig .tc := ⟨.hbm, 21, rfl⟩
abbrev main_call0_v5 : Ref sig .tc := ⟨.hbm, 22, rfl⟩
abbrev main_v7 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  bcast_S4096x4096_S4x4096x4096_1_2 : S4096x4096.BroadcastsInDim S4x4096x4096 (![1, 2] : Fin 2 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S64x1024_S4x4096x64_2_1_01_0_n_n_wf : DotDims.WF S4x4096x1024 S64x1024 S4x4096x64 [2] [1] [0, 1] [0] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x1024_S64x1024_S4x4096x64_2_1_01_0_n_n : DotDims S4x4096x1024 S64x1024 S4x4096x64 where
  lhsContracting := [2]
  rhsContracting := [1]
  lhsNonContracting := [0, 1]
  rhsNonContracting := [0]
  lhsBatch := []
  rhsBatch := []
  wf := dot_S4x4096x1024_S64x1024_S4x4096x64_2_1_01_0_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.K0Body.lean ====
import proofs.«146551_j6992206758194_2_alg».proof.Proof.Gen.KernelIdeal.Launch
import proofs.«146551_j6992206758194_2_alg».proof.Proof.Gen.KernelIdeal.Skeleton
import proofs.«146551_j6992206758194_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The key/value projection call, point by point

The first kernel call projects the key and the value embeddings: on a grid of 4 × 4 points, point (b, j) takes rows
1024 j … 1024 j + 1023 of batch b of each embedding (windows 0 and 1, blocks [1,1024,1024]), the two transposed
weight matrices whole (windows 2 and 3, [1024,64], brought in at the first point only and left in place), and writes
the two products (windows 4 and 5, blocks [1,1024,64]), each block written back at every point.

Everything here is stated at a parameter V, the contents of the core's buffers when the call is entered, and at any
float instance: each window's block at a point as a read of V; that every input buffer holds its block at every point,
fetched there or not; what the body leaves in the two output buffers — one whole store each, the matrix product of the
row block by the weight matrix —; the body's triple; the proof data of the pipeline and its body obligation. -/

set_option maxRecDepth 16384

noncomputable section

namespace Cert.KernelIdeal.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The embedding windows' buffers hold their row block at every point, for any proof data whose array is V's and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The weight windows are brought in once, at the first point; at every later point the block index has not moved, so
    the buffer still holds the whole matrix. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rEmb : Rect S1x1024x1024 := Rect.unit (s := S1x1024x1024) ![0, 0, 0] S1x1024x1024.size inb_S1x1024x1024_S1x1024x1024_0_0_0
abbrev rWgt : Rect S1024x64 := Rect.unit (s := S1024x64) ![0, 0] S1024x64.size inb_S1024x64_S1024x64_0_0
abbrev rOut : Rect S1x1024x64 := Rect.unit (s := S1x1024x64) ![0, 0, 0] S1x1024x64.size inb_S1x1024x64_S1x1024x64_0_0_0

/-! ## What the body leaves in each output buffer -/

/-- The key output's buffer after the body: its one store, of the product of the key rows by the key weights. -/
def out0_4 (x0 : Vec F S1x1024x1024 .f32) (x2 : Vec F S1024x64 .f32) : Vec F S1x1024x64 .f32 :=
  View.canon [⟨rOut, k0_pay1 (View.ld x0 rEmb) (View.ld x2 rWgt)⟩]

/-- The value output's buffer after the body: its one store, of the product of the value rows by the value weights. -/
def out0_5 (x1 : Vec F S1x1024x1024 .f32) (x3 : Vec F S1024x64 .f32) : Vec F S1x1024x64 .f32 :=
  View.canon [⟨rOut, k0_pay2 (View.ld x1 rEmb) (View.ld x3 rWgt)⟩]

/-- A whole store covers the buffer. -/
theorem cover0_out (p0 : Vec F S1x1024x64 .f32) (y : S1x1024x64.Idx) :
    ∃ pc ∈ ([⟨rOut, p0⟩] : List (View.Piece (Elt F) S1x1024x64 .f32)), y ∈ pc.1.set :=
  View.cover_of_tiled [⟨rOut, p0⟩] S1x1024x64.size (by rfl) y

/-! ## The body's triple -/

set_option maxHeartbeats 1000000 in
/-- The body on whole buffers — the four inputs' at contents x0 … x3, the two outputs' at anything — runs to the
    continuation holding the inputs' as they were and each output's at its product. The body also loads each output
    buffer before storing it; the loaded value is not used. -/
theorem sound_kernel0 (c : Dev nD) (E : Set ℕ) (i : grid0.Coords)
    (arg2 : Memref sig .tc .vmem S1x1024x1024 .f32) (harg2 : arg2.IsWhole) (arg3 : Memref sig .tc .vmem S1x1024x1024 .f32) (harg3 : arg3.IsWhole)
    (arg4 : Memref sig .tc .vmem S1024x64 .f32) (harg4 : arg4.IsWhole) (arg5 : Memref sig .tc .vmem S1024x64 .f32) (harg5 : arg5.IsWhole)
    (arg6 : Memref sig .tc .vmem S1x1024x64 .f32) (harg6 : arg6.IsWhole) (arg7 : Memref sig .tc .vmem S1x1024x64 .f32) (harg7 : arg7.IsWhole)
    (x0 x1 : Vec F S1x1024x1024 .f32) (x2 x3 : Vec F S1024x64 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x2) ∗ owns (c : Thread nD τ) arg7 fullShare (out0_5 x1 x3)) -∗ K ⟨⟩))
      ⊢ wp frame (wpE (defs₀ (F := F)) Variants.none c none) E
          (cc0__proj_kv_kernel i arg2 harg2 arg3 harg3 arg4 harg4 arg5 harg5 arg6 harg6 arg7 harg7) K := by
  simp only [cc0__proj_kv_kernel_eq_skeleton]; unfold cc0__proj_kv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_out _)
  iexists _; isplitr
  swap; · iexact H5
  ipureintro
  exact View.read_writes_eq_canon _ _ _ (cover0_out _)

/-! ## The pipeline's proof data -/

/-- The proof data of the call on core c: the arrays as the call finds them; after the body at point t each input's
    buffer at its block and each output's at its product of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 2 t)
    | ⟨5, _⟩ => out0_5 (iblk0 V c 1 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 1 t) (iblk0 V c 3 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, the outputs' anything, so the body's triple applies;
    the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.K0

end
-- ==== Proof.K1Runs.lean ====
/-
  The flash-attention call's body, point by point: what is shared by its five control cases.

  A grid point is (b, qi, kv), the last coordinate fastest, so the linear point t has kv = t % 8 and
  qi = (t / 8) % 8. The body has three conditionals on the coordinates alone: kv = 0 (project and scale the
  query block into its scratch, reset the running maximum, sum and accumulator), kv ≤ qi (absorb the key /
  value block kv into the running state) and kv = qi (divide the accumulator by the sum into the output block).
  Five assignments of the three are met on the grid; each condition is decided over the 256 points in closed
  form. The output block is stored only where kv = qi and is written back only where kv = 7; between the two
  its staging buffer is left as found.
-/
import proofs.«146551_j6992206758194_2_alg».proof.Proof.Gen.KernelIdeal.Launch
import proofs.«146551_j6992206758194_2_alg».proof.Proof.Gen.KernelIdeal.Skeleton
import proofs.«146551_j6992206758194_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The three conditions, as the body computes them from the coordinates -/

/-- kv = 0, as the printed scalar chain. -/
abbrev cond1_0 (i : grid1.Coords) : Prop :=
  (Scalar.cmpi .ne (Scalar.extui (Scalar.cmpi .eq (BitVec.ofNat 32 (i 2).val) 0#32)) 0#32) = 1#1
/-- kv ≤ qi, as the printed scalar chain (a signed comparison of two small naturals). -/
abbrev cond1_1 (i : grid1.Coords) : Prop :=
  (Scalar.cmpi .ne (Scalar.extui (Scalar.cmpi .sle (BitVec.ofNat 32 (i 2).val) (BitVec.ofNat 32 (i 1).val))) 0#32) = 1#1
/-- kv = qi, as the printed condition of the output's store. -/
abbrev cond1_2 (i : grid1.Coords) : Prop := k1_cond3 i = 1#1

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 ≤ (t.val / 8) % 8 :=
  (by decide +kernel : ∀ t : Fin grid1.N, cond1_1 (grid1.coords t) ↔ t.val % 8 ≤ (t.val / 8) % 8)
theorem hcond1_2 : ∀ t : Fin cfg1.N, cond1_2 (grid1.coords t) ↔ t.val % 8 = (t.val / 8) % 8 :=
  (by decide +kernel : ∀ t : Fin grid1.N, cond1_2 (grid1.coords t) ↔ t.val % 8 = (t.val / 8) % 8)

/-! ## Where the output window is idle, and where it is written back -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Where kv ≠ qi the body stores nothing into the output block. -/
theorem idleAt1_4 : ∀ t : Fin cfg1.N, ¬cond1_2 (grid1.coords t) → cfg1.idle 4 (grid1.coords t) = true := by decide +kernel
/-- Where kv = qi it stores the whole block. -/
theorem liveAt1_4 : ∀ t : Fin cfg1.N, cond1_2 (grid1.coords t) → cfg1.idle 4 (grid1.coords t) = false := by decide +kernel

/-! ## The memrefs the body is called with -/

abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x64 .f32 := win1_4.stage (cfg1.slots t 4)
abbrev hs1_4 (t : Fin cfg1.N) : (ms1_4 t).IsWhole := hstage1_4 ((cfg1.slots t 4).cast nbuf1_4)
/-- The four scratch buffers: the scaled query block, the running maximum, the running sum, the accumulator. -/
abbrev scQ : Memref sig .tc .vmem S512x64 .f32 := Memref.whole cc1_scratch0
abbrev scM : Memref sig .tc .vmem S512x1 .f32 := Memref.whole cc1_scratch1
abbrev scL : Memref sig .tc .vmem S512x1 .f32 := Memref.whole cc1_scratch2
abbrev scA : Memref sig .tc .vmem S512x64 .f32 := Memref.whole cc1_scratch3
/-- Views through which stored contents are stated (any whole buffer of the shape serves). -/
abbrev VO : View sig .tc .vmem S1x512x64 .f32 := (Memref.whole cc1_stg4_0 : Memref sig .tc .vmem S1x512x64 .f32).view
abbrev VQ : View sig .tc .vmem S512x64 .f32 := scQ.view
abbrev VM : View sig .tc .vmem S512x1 .f32 := scM.view
abbrev VL : View sig .tc .vmem S512x1 .f32 := scL.view
abbrev VA : View sig .tc .vmem S512x64 .f32 := scA.view

end Cert.KernelIdeal.K1

end
-- ==== Proof.K1RunC.lean ====
/-
  The flash-attention body run symbolically in one control case (0 < kv < qi: absorb block kv).
-/
import proofs.«146551_j6992206758194_2_alg».proof.Proof.K1Runs

set_option maxRecDepth 16384

noncomputable section

namespace Cert.KernelIdeal.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body in the case 0 < kv < qi: absorb block kv: on whole memrefs, the buffers it reads at their contents, it runs to the
    continuation with each buffer it stores holding the listed pieces written (last store first); the lists are
    what the symbolic run of the printed skeleton finds, each conditional decided by the case's hypotheses. -/
noncomputable def runC (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : ¬cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) :
    Σ' (L9 : List (View.Piece (Elt F) S512x1 .f32)), Σ' (L10 : List (View.Piece (Elt F) S512x1 .f32)), { L11 : List (View.Piece (Elt F) S512x64 .f32) //
      ∀ (E : Set ℕ) (K : PUnit → sProp 𝕄),
        iprop(owns (c : Thread nD τ) arg5 fullShare x5 ∗ owns (c : Thread nD τ) arg6 fullShare x6 ∗ owns (c : Thread nD τ) arg8 fullShare xs8 ∗ owns (c : Thread nD τ) arg9 fullShare xs9 ∗ owns (c : Thread nD τ) arg10 fullShare xs10 ∗ owns (c : Thread nD τ) arg11 fullShare xs11
            ∗ (iprop(owns (c : Thread nD τ) arg5 fullShare x5 ∗ owns (c : Thread nD τ) arg6 fullShare x6 ∗ owns (c : Thread nD τ) arg8 fullShare xs8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨?_, ?_, ?_, fun E K => ?run⟩
  case run =>
    simp only [cc1__flash_kernel_eq_skeleton]; unfold cc1__flash_kernel_skel
    simp only [k1_part1_eq_skeleton]
    unfold owns
    iintro ⟨⟨%f5, %hf5, H5⟩, ⟨%f6, %hf6, H6⟩, ⟨%f8, %hf8, H8⟩, ⟨%f9, %hf9, H9⟩, ⟨%f10, %hf10, H10⟩, ⟨%f11, %hf11, H11⟩, Hk⟩
    obtain rfl := harg5.eq_unread hf5; obtain rfl := harg6.eq_unread hf6; obtain rfl := harg8.eq_unread hf8; obtain rfl := harg9.eq_unread hf9; obtain rfl := harg10.eq_unread hf10; obtain rfl := harg11.eq_unread hf11
    sl_exec (disch := first | exact hc0 | exact hc1 | exact hc2)
    sl_step
    iapply Hk
    isplitl [H5]
    · iexists _; isplitr; · ipureintro; exact harg5.read_unread _
      iexact H5
    isplitl [H6]
    · iexists _; isplitr; · ipureintro; exact harg6.read_unread _
      iexact H6
    isplitl [H8]
    · iexists _; isplitr; · ipureintro; exact harg8.read_unread _
      iexact H8
    isplitl [H9]; · iexists _; iexact H9
    isplitl [H10]; · iexists _; iexact H10
    iexists _; iexact H11

end Cert.KernelIdeal.K1

end
-- ==== Proof.K1RunD.lean ====
/-
  The flash-attention body run symbolically in one control case (0 < kv = qi: absorb block kv, store the output).
-/
import proofs.«146551_j6992206758194_2_alg».proof.Proof.K1RunC

set_option maxRecDepth 16384

noncomputable section

namespace Cert.KernelIdeal.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body in the case 0 < kv = qi: absorb block kv, store the output: on whole memrefs, the buffers it reads at their contents, it runs to the
    continuation with each buffer it stores holding the listed pieces written (last store first); the lists are
    what the symbolic run of the printed skeleton finds, each conditional decided by the case's hypotheses. -/
noncomputable def runD (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) :
    Σ' (L7 : List (View.Piece (Elt F) S1x512x64 .f32)), Σ' (L9 : List (View.Piece (Elt F) S512x1 .f32)), Σ' (L10 : List (View.Piece (Elt F) S512x1 .f32)), { L11 : List (View.Piece (Elt F) S512x64 .f32) //
      ∀ (E : Set ℕ) (K : PUnit → sProp 𝕄),
        iprop(owns (c : Thread nD τ) arg5 fullShare x5 ∗ owns (c : Thread nD τ) arg6 fullShare x6 ∗ (∃ d, owns (c : Thread nD τ) arg7 fullShare d) ∗ owns (c : Thread nD τ) arg8 fullShare xs8 ∗ owns (c : Thread nD τ) arg9 fullShare xs9 ∗ owns (c : Thread nD τ) arg10 fullShare xs10 ∗ owns (c : Thread nD τ) arg11 fullShare xs11
            ∗ (iprop(owns (c : Thread nD τ) arg5 fullShare x5 ∗ owns (c : Thread nD τ) arg6 fullShare x6 ∗ (∃ f, arg7.view.loc (c : Thread nD τ) ↦[arg7.view.set]{fullShare} arg7.view.writes (Elt F) f L7) ∗ owns (c : Thread nD τ) arg8 fullShare xs8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
    obtain rfl := harg5.eq_unread hf5; obtain rfl := harg6.eq_unread hf6; obtain rfl := harg8.eq_unread hf8; obtain rfl := harg9.eq_unread hf9; obtain rfl := harg10.eq_unread hf10; obtain rfl := harg11.eq_unread hf11
    sl_exec (disch := first | exact hc0 | exact hc1 | exact hc2)
    sl_step
    iapply Hk
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    isplitl [H9]; · iexists _; iexact H9
    isplitl [H10]; · iexists _; iexact H10
    iexists _; iexact H11

end Cert.KernelIdeal.K1

end
-- ==== Proof.K1RunB.lean ====
/-
  The flash-attention body run symbolically in one control case (kv = 0 < qi: reset, absorb block 0).
-/
import proofs.«146551_j6992206758194_2_alg».proof.Proof.K1RunD

set_option maxRecDepth 16384

noncomputable section

namespace Cert.KernelIdeal.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body in the case kv = 0 < qi: reset, absorb block 0: on whole memrefs, the buffers it reads at their contents, it runs to the
    continuation with each buffer it stores holding the listed pieces written (last store first); the lists are
    what the symbolic run of the printed skeleton finds, each conditional decided by the case's hypotheses. -/
noncomputable def runB (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) :
    Σ' (L8 : List (View.Piece (Elt F) S512x64 .f32)), Σ' (L9 : List (View.Piece (Elt F) S512x1 .f32)), Σ' (L10 : List (View.Piece (Elt F) S512x1 .f32)), { L11 : List (View.Piece (Elt F) S512x64 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, ⟨%d11, %f11, -, H11⟩, Hk⟩
    obtain rfl := harg3.eq_unread hf3; obtain rfl := harg4.eq_unread hf4; obtain rfl := harg5.eq_unread hf5; obtain rfl := harg6.eq_unread hf6
    sl_exec (disch := first | exact hc0 | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]; · iexists _; iexact H8
    isplitl [H9]; · iexists _; iexact H9
    isplitl [H10]; · iexists _; iexact H10
    iexists _; iexact H11

end Cert.KernelIdeal.K1

end
-- ==== Proof.K1RunA.lean ====
/-
  The flash-attention body run symbolically in one control case (kv = 0 = qi: reset, absorb block 0, store the output).
-/
import proofs.«146551_j6992206758194_2_alg».proof.Proof.K1RunB

set_option maxRecDepth 16384

noncomputable section

namespace Cert.KernelIdeal.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body in the case kv = 0 = qi: reset, absorb block 0, store the output: on whole memrefs, the buffers it reads at their contents, it runs to the
    continuation with each buffer it stores holding the listed pieces written (last store first); the lists are
    what the symbolic run of the printed skeleton finds, each conditional decided by the case's hypotheses. -/
noncomputable def runA (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) :
    Σ' (L7 : List (View.Piece (Elt F) S1x512x64 .f32)), Σ' (L8 : List (View.Piece (Elt F) S512x64 .f32)), Σ' (L9 : List (View.Piece (Elt F) S512x1 .f32)), Σ' (L10 : List (View.Piece (Elt F) S512x1 .f32)), { L11 : List (View.Piece (Elt F) S512x64 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1__flash_kernel_eq_skeleton]; unfold cc1__flash_kernel_skel
    simp only [k1_part1_eq_skeleton]
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
    obtain rfl := harg3.eq_unread hf3; obtain rfl := harg4.eq_unread hf4; obtain rfl := harg5.eq_unread hf5; obtain rfl := harg6.eq_unread hf6
    sl_exec (disch := first | exact hc0 | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.KernelIdeal.K1

end
-- ==== Proof.K1RunE.lean ====
/-
  The flash-attention body where kv > qi: none of its three conditionals is taken, and it touches nothing.
-/
import proofs.«146551_j6992206758194_2_alg».proof.Proof.K1Runs

set_option maxRecDepth 16384

noncomputable section

namespace Cert.KernelIdeal.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body in the case kv > qi: it returns at once, whatever the buffers hold. -/
theorem runE (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : ¬cond1_1 i) (hc2 : ¬cond1_2 i)
    (E : Set ℕ) (K : PUnit → sProp 𝕄) :
    K ⟨⟩ ⊢ wp frame (wpE (defs₀ (F := F)) Variants.none c none) E (cc1__flash_kernel i arg3 harg3 arg4 harg4 arg5 harg5 arg6 harg6 arg7 harg7 arg8 harg8 arg9 harg9 arg10 harg10 arg11 harg11) K := by
  simp only [cc1__flash_kernel_eq_skeleton]; unfold cc1__flash_kernel_skel
  iintro Hk
  sl_exec (disch := first | exact hc0 | exact hc1 | exact hc2)
  sl_step
  iexact Hk

end Cert.KernelIdeal.K1

end
-- ==== Proof.K1Cases.lean ====
/-
  What each control case of the flash-attention body leaves in the buffers it stores: the pieces the symbolic
  run found, read back, and that they tile each buffer (so the buffer's contents do not depend on what it held).
-/
import proofs.«146551_j6992206758194_2_alg».proof.Proof.K1RunA
import proofs.«146551_j6992206758194_2_alg».proof.Proof.K1RunE

set_option maxRecDepth 16384

noncomputable section

namespace Cert.KernelIdeal.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the case leaves in the output block: its pieces read back. -/
def oA (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) : Vec F S1x512x64 .f32 :=
  VO.read (Elt F) (VO.writes (Elt F) VO.junk (runA c i arg3 harg3 arg4 harg4 arg5 harg5 arg6 harg6 arg7 harg7 arg8 harg8 arg9 harg9 arg10 harg10 arg11 harg11 hc0 hc1 hc2 x3 x4 x5 x6).1)
/-- Those pieces tile the buffer. -/
theorem covA_7 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) (y : S1x512x64.Idx) :
    ∃ pc ∈ (runA c i arg3 harg3 arg4 harg4 arg5 harg5 arg6 harg6 arg7 harg7 arg8 harg8 arg9 harg9 arg10 harg10 arg11 harg11 hc0 hc1 hc2 x3 x4 x5 x6).1, y ∈ pc.1.set :=
  View.cover_of_tiledL ((runA c i arg3 harg3 arg4 harg4 arg5 harg5 arg6 harg6 arg7 harg7 arg8 harg8 arg9 harg9 arg10 harg10 arg11 harg11 hc0 hc1 hc2 x3 x4 x5 x6).1) S1x512x64.size (by sl_kernel_rfl) y

/-- What the case leaves in the query scratch: its pieces read back. -/
def qA (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) : Vec F S512x64 .f32 :=
  VQ.read (Elt F) (VQ.writes (Elt F) VQ.junk (runA c i arg3 harg3 arg4 harg4 arg5 harg5 arg6 harg6 arg7 harg7 arg8 harg8 arg9 harg9 arg10 harg10 arg11 harg11 hc0 hc1 hc2 x3 x4 x5 x6).2.1)
/-- Those pieces tile the buffer. -/
theorem covA_8 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) (y : S512x64.Idx) :
    ∃ pc ∈ (runA c i arg3 harg3 arg4 harg4 arg5 harg5 arg6 harg6 arg7 harg7 arg8 harg8 arg9 harg9 arg10 harg10 arg11 harg11 hc0 hc1 hc2 x3 x4 x5 x6).2.1, y ∈ pc.1.set :=
  View.cover_of_tiledL ((runA c i arg3 harg3 arg4 harg4 arg5 harg5 arg6 harg6 arg7 harg7 arg8 harg8 arg9 harg9 arg10 harg10 arg11 harg11 hc0 hc1 hc2 x3 x4 x5 x6).2.1) S512x64.size (by sl_kernel_rfl) y

/-- What the case leaves in the running maximum: its pieces read back. -/
def mA (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) : Vec F S512x1 .f32 :=
  VM.read (Elt F) (VM.writes (Elt F) VM.junk (runA c i arg3 harg3 arg4 harg4 arg5 harg5 arg6 harg6 arg7 harg7 arg8 harg8 arg9 harg9 arg10 harg10 arg11 harg11 hc0 hc1 hc2 x3 x4 x5 x6).2.2.1)
/-- Those pieces tile the buffer. -/
theorem covA_9 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) (y : S512x1.Idx) :
    ∃ pc ∈ (runA c i arg3 harg3 arg4 harg4 arg5 harg5 arg6 harg6 arg7 harg7 arg8 harg8 arg9 harg9 arg10 harg10 arg11 harg11 hc0 hc1 hc2 x3 x4 x5 x6).2.2.1, y ∈ pc.1.set :=
  View.cover_of_tiledL ((runA c i arg3 harg3 arg4 harg4 arg5 harg5 arg6 harg6 arg7 harg7 arg8 harg8 arg9 harg9 arg10 harg10 arg11 harg11 hc0 hc1 hc2 x3 x4 x5 x6).2.2.1) S512x1.size (by sl_kernel_rfl) y

/-- What the case leaves in the running sum: its pieces read back. -/
def lA (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) : Vec F S512x1 .f32 :=
  VL.read (Elt F) (VL.writes (Elt F) VL.junk (runA c i arg3 harg3 arg4 harg4 arg5 harg5 arg6 harg6 arg7 harg7 arg8 harg8 arg9 harg9 arg10 harg10 arg11 harg11 hc0 hc1 hc2 x3 x4 x5 x6).2.2.2.1)
/-- Those pieces tile the buffer. -/
theorem covA_10 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) (y : S512x1.Idx) :
    ∃ pc ∈ (runA c i arg3 harg3 arg4 harg4 arg5 harg5 arg6 harg6 arg7 harg7 arg8 harg8 arg9 harg9 arg10 harg10 arg11 harg11 hc0 hc1 hc2 x3 x4 x5 x6).2.2.2.1, y ∈ pc.1.set :=
  View.cover_of_tiledL ((runA c i arg3 harg3 arg4 harg4 arg5 harg5 arg6 harg6 arg7 harg7 arg8 harg8 arg9 harg9 arg10 harg10 arg11 harg11 hc0 hc1 hc2 x3 x4 x5 x6).2.2.2.1) S512x1.size (by sl_kernel_rfl) y

/-- What the case leaves in the accumulator: its pieces read back. -/
def aA (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) : Vec F S512x64 .f32 :=
  VA.read (Elt F) (VA.writes (Elt F) VA.junk (runA c i arg3 harg3 arg4 harg4 arg5 harg5 arg6 harg6 arg7 harg7 arg8 harg8 arg9 harg9 arg10 harg10 arg11 harg11 hc0 hc1 hc2 x3 x4 x5 x6).2.2.2.2.1)
/-- Those pieces tile the buffer. -/
theorem covA_11 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) (y : S512x64.Idx) :
    ∃ pc ∈ (runA c i arg3 harg3 arg4 harg4 arg5 harg5 arg6 harg6 arg7 harg7 arg8 harg8 arg9 harg9 arg10 harg10 arg11 harg11 hc0 hc1 hc2 x3 x4 x5 x6).2.2.2.2.1, y ∈ pc.1.set :=
  View.cover_of_tiledL ((runA c i arg3 harg3 arg4 harg4 arg5 harg5 arg6 harg6 arg7 harg7 arg8 harg8 arg9 harg9 arg10 harg10 arg11 harg11 hc0 hc1 hc2 x3 x4 x5 x6).2.2.2.2.1) S512x64.size (by sl_kernel_rfl) y

/-- What the case leaves in the query scratch: its pieces read back. -/
def qB (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) : Vec F S512x64 .f32 :=
  VQ.read (Elt F) (VQ.writes (Elt F) VQ.junk (runB c i arg3 harg3 arg4 harg4 arg5 harg5 arg6 harg6 arg7 harg7 arg8 harg8 arg9 harg9 arg10 harg10 arg11 harg11 hc0 hc1 hc2 x3 x4 x5 x6).1)
/-- Those pieces tile the buffer. -/
theorem covB_8 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) (y : S512x64.Idx) :
    ∃ pc ∈ (runB c i arg3 harg3 arg4 harg4 arg5 harg5 arg6 harg6 arg7 harg7 arg8 harg8 arg9 harg9 arg10 harg10 arg11 harg11 hc0 hc1 hc2 x3 x4 x5 x6).1, y ∈ pc.1.set :=
  View.cover_of_tiledL ((runB c i arg3 harg3 arg4 harg4 arg5 harg5 arg6 harg6 arg7 harg7 arg8 harg8 arg9 harg9 arg10 harg10 arg11 harg11 hc0 hc1 hc2 x3 x4 x5 x6).1) S512x64.size (by sl_kernel_rfl) y

/-- What the case leaves in the running maximum: its pieces read back. -/
def mB (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) : Vec F S512x1 .f32 :=
  VM.read (Elt F) (VM.writes (Elt F) VM.junk (runB c i arg3 harg3 arg4 harg4 arg5 harg5 arg6 harg6 arg7 harg7 arg8 harg8 arg9 harg9 arg10 harg10 arg11 harg11 hc0 hc1 hc2 x3 x4 x5 x6).2.1)
/-- Those pieces tile the buffer. -/
theorem covB_9 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) (y : S512x1.Idx) :
    ∃ pc ∈ (runB c i arg3 harg3 arg4 harg4 arg5 harg5 arg6 harg6 arg7 harg7 arg8 harg8 arg9 harg9 arg10 harg10 arg11 harg11 hc0 hc1 hc2 x3 x4 x5 x6).2.1, y ∈ pc.1.set :=
  View.cover_of_tiledL ((runB c i arg3 harg3 arg4 harg4 arg5 harg5 arg6 harg6 arg7 harg7 arg8 harg8 arg9 harg9 arg10 harg10 arg11 harg11 hc0 hc1 hc2 x3 x4 x5 x6).2.1) S512x1.size (by sl_kernel_rfl) y

/-- What the case leaves in the running sum: its pieces read back. -/
def lB (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) : Vec F S512x1 .f32 :=
  VL.read (Elt F) (VL.writes (Elt F) VL.junk (runB c i arg3 harg3 arg4 harg4 arg5 harg5 arg6 harg6 arg7 harg7 arg8 harg8 arg9 harg9 arg10 harg10 arg11 harg11 hc0 hc1 hc2 x3 x4 x5 x6).2.2.1)
/-- Those pieces tile the buffer. -/
theorem covB_10 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) (y : S512x1.Idx) :
    ∃ pc ∈ (runB c i arg3 harg3 arg4 harg4 arg5 harg5 arg6 harg6 arg7 harg7 arg8 harg8 arg9 harg9 arg10 harg10 arg11 harg11 hc0 hc1 hc2 x3 x4 x5 x6).2.2.1, y ∈ pc.1.set :=
  View.cover_of_tiledL ((runB c i arg3 harg3 arg4 harg4 arg5 harg5 arg6 harg6 arg7 harg7 arg8 harg8 arg9 harg9 arg10 harg10 arg11 harg11 hc0 hc1 hc2 x3 x4 x5 x6).2.2.1) S512x1.size (by sl_kernel_rfl) y

/-- What the case leaves in the accumulator: its pieces read back. -/
def aB (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) : Vec F S512x64 .f32 :=
  VA.read (Elt F) (VA.writes (Elt F) VA.junk (runB c i arg3 harg3 arg4 harg4 arg5 harg5 arg6 harg6 arg7 harg7 arg8 harg8 arg9 harg9 arg10 harg10 arg11 harg11 hc0 hc1 hc2 x3 x4 x5 x6).2.2.2.1)
/-- Those pieces tile the buffer. -/
theorem covB_11 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) (y : S512x64.Idx) :
    ∃ pc ∈ (runB c i arg3 harg3 arg4 harg4 arg5 harg5 arg6 harg6 arg7 harg7 arg8 harg8 arg9 harg9 arg10 harg10 arg11 harg11 hc0 hc1 hc2 x3 x4 x5 x6).2.2.2.1, y ∈ pc.1.set :=
  View.cover_of_tiledL ((runB c i arg3 harg3 arg4 harg4 arg5 harg5 arg6 harg6 arg7 harg7 arg8 harg8 arg9 harg9 arg10 harg10 arg11 harg11 hc0 hc1 hc2 x3 x4 x5 x6).2.2.2.1) S512x64.size (by sl_kernel_rfl) y

/-- What the case leaves in the running maximum: its pieces read back. -/
def mC (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : ¬cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) : Vec F S512x1 .f32 :=
  VM.read (Elt F) (VM.writes (Elt F) VM.junk (runC c i arg3 harg3 arg4 harg4 arg5 harg5 arg6 harg6 arg7 harg7 arg8 harg8 arg9 harg9 arg10 harg10 arg11 harg11 hc0 hc1 hc2 x5 x6 xs8 xs9 xs10 xs11).1)
/-- Those pieces tile the buffer. -/
theorem covC_9 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : ¬cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) (y : S512x1.Idx) :
    ∃ pc ∈ (runC c i arg3 harg3 arg4 harg4 arg5 harg5 arg6 harg6 arg7 harg7 arg8 harg8 arg9 harg9 arg10 harg10 arg11 harg11 hc0 hc1 hc2 x5 x6 xs8 xs9 xs10 xs11).1, y ∈ pc.1.set :=
  View.cover_of_tiledL ((runC c i arg3 harg3 arg4 harg4 arg5 harg5 arg6 harg6 arg7 harg7 arg8 harg8 arg9 harg9 arg10 harg10 arg11 harg11 hc0 hc1 hc2 x5 x6 xs8 xs9 xs10 xs11).1) S512x1.size (by sl_kernel_rfl) y

/-- What the case leaves in the running sum: its pieces read back. -/
def lC (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : ¬cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) : Vec F S512x1 .f32 :=
  VL.read (Elt F) (VL.writes (Elt F) VL.junk (runC c i arg3 harg3 arg4 harg4 arg5 harg5 arg6 harg6 arg7 harg7 arg8 harg8 arg9 harg9 arg10 harg10 arg11 harg11 hc0 hc1 hc2 x5 x6 xs8 xs9 xs10 xs11).2.1)
/-- Those pieces tile the buffer. -/
theorem covC_10 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : ¬cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) (y : S512x1.Idx) :
    ∃ pc ∈ (runC c i arg3 harg3 arg4 harg4 arg5 harg5 arg6 harg6 arg7 harg7 arg8 harg8 arg9 harg9 arg10 harg10 arg11 harg11 hc0 hc1 hc2 x5 x6 xs8 xs9 xs10 xs11).2.1, y ∈ pc.1.set :=
  View.cover_of_tiledL ((runC c i arg3 harg3 arg4 harg4 arg5 harg5 arg6 harg6 arg7 harg7 arg8 harg8 arg9 harg9 arg10 harg10 arg11 harg11 hc0 hc1 hc2 x5 x6 xs8 xs9 xs10 xs11).2.1) S512x1.size (by sl_kernel_rfl) y

/-- What the case leaves in the accumulator: its pieces read back. -/
def aC (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : ¬cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) : Vec F S512x64 .f32 :=
  VA.read (Elt F) (VA.writes (Elt F) VA.junk (runC c i arg3 harg3 arg4 harg4 arg5 harg5 arg6 harg6 arg7 harg7 arg8 harg8 arg9 harg9 arg10 harg10 arg11 harg11 hc0 hc1 hc2 x5 x6 xs8 xs9 xs10 xs11).2.2.1)
/-- Those pieces tile the buffer. -/
theorem covC_11 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : ¬cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) (y : S512x64.Idx) :
    ∃ pc ∈ (runC c i arg3 harg3 arg4 harg4 arg5 harg5 arg6 harg6 arg7 harg7 arg8 harg8 arg9 harg9 arg10 harg10 arg11 harg11 hc0 hc1 hc2 x5 x6 xs8 xs9 xs10 xs11).2.2.1, y ∈ pc.1.set :=
  View.cover_of_tiledL ((runC c i arg3 harg3 arg4 harg4 arg5 harg5 arg6 harg6 arg7 harg7 arg8 harg8 arg9 harg9 arg10 harg10 arg11 harg11 hc0 hc1 hc2 x5 x6 xs8 xs9 xs10 xs11).2.2.1) S512x64.size (by sl_kernel_rfl) y

/-- What the case leaves in the output block: its pieces read back. -/
def oD (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) : Vec F S1x512x64 .f32 :=
  VO.read (Elt F) (VO.writes (Elt F) VO.junk (runD c i arg3 harg3 arg4 harg4 arg5 harg5 arg6 harg6 arg7 harg7 arg8 harg8 arg9 harg9 arg10 harg10 arg11 harg11 hc0 hc1 hc2 x5 x6 xs8 xs9 xs10 xs11).1)
/-- Those pieces tile the buffer. -/
theorem covD_7 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) (y : S1x512x64.Idx) :
    ∃ pc ∈ (runD c i arg3 harg3 arg4 harg4 arg5 harg5 arg6 harg6 arg7 harg7 arg8 harg8 arg9 harg9 arg10 harg10 arg11 harg11 hc0 hc1 hc2 x5 x6 xs8 xs9 xs10 xs11).1, y ∈ pc.1.set :=
  View.cover_of_tiledL ((runD c i arg3 harg3 arg4 harg4 arg5 harg5 arg6 harg6 arg7 harg7 arg8 harg8 arg9 harg9 arg10 harg10 arg11 harg11 hc0 hc1 hc2 x5 x6 xs8 xs9 xs10 xs11).1) S1x512x64.size (by sl_kernel_rfl) y

/-- What the case leaves in the running maximum: its pieces read back. -/
def mD (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) : Vec F S512x1 .f32 :=
  VM.read (Elt F) (VM.writes (Elt F) VM.junk (runD c i arg3 harg3 arg4 harg4 arg5 harg5 arg6 harg6 arg7 harg7 arg8 harg8 arg9 harg9 arg10 harg10 arg11 harg11 hc0 hc1 hc2 x5 x6 xs8 xs9 xs10 xs11).2.1)
/-- Those pieces tile the buffer. -/
theorem covD_9 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) (y : S512x1.Idx) :
    ∃ pc ∈ (runD c i arg3 harg3 arg4 harg4 arg5 harg5 arg6 harg6 arg7 harg7 arg8 harg8 arg9 harg9 arg10 harg10 arg11 harg11 hc0 hc1 hc2 x5 x6 xs8 xs9 xs10 xs11).2.1, y ∈ pc.1.set :=
  View.cover_of_tiledL ((runD c i arg3 harg3 arg4 harg4 arg5 harg5 arg6 harg6 arg7 harg7 arg8 harg8 arg9 harg9 arg10 harg10 arg11 harg11 hc0 hc1 hc2 x5 x6 xs8 xs9 xs10 xs11).2.1) S512x1.size (by sl_kernel_rfl) y

/-- What the case leaves in the running sum: its pieces read back. -/
def lD (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) : Vec F S512x1 .f32 :=
  VL.read (Elt F) (VL.writes (Elt F) VL.junk (runD c i arg3 harg3 arg4 harg4 arg5 harg5 arg6 harg6 arg7 harg7 arg8 harg8 arg9 harg9 arg10 harg10 arg11 harg11 hc0 hc1 hc2 x5 x6 xs8 xs9 xs10 xs11).2.2.1)
/-- Those pieces tile the buffer. -/
theorem covD_10 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) (y : S512x1.Idx) :
    ∃ pc ∈ (runD c i arg3 harg3 arg4 harg4 arg5 harg5 arg6 harg6 arg7 harg7 arg8 harg8 arg9 harg9 arg10 harg10 arg11 harg11 hc0 hc1 hc2 x5 x6 xs8 xs9 xs10 xs11).2.2.1, y ∈ pc.1.set :=
  View.cover_of_tiledL ((runD c i arg3 harg3 arg4 harg4 arg5 harg5 arg6 harg6 arg7 harg7 arg8 harg8 arg9 harg9 arg10 harg10 arg11 harg11 hc0 hc1 hc2 x5 x6 xs8 xs9 xs10 xs11).2.2.1) S512x1.size (by sl_kernel_rfl) y

/-- What the case leaves in the accumulator: its pieces read back. -/
def aD (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) : Vec F S512x64 .f32 :=
  VA.read (Elt F) (VA.writes (Elt F) VA.junk (runD c i arg3 harg3 arg4 harg4 arg5 harg5 arg6 harg6 arg7 harg7 arg8 harg8 arg9 harg9 arg10 harg10 arg11 harg11 hc0 hc1 hc2 x5 x6 xs8 xs9 xs10 xs11).2.2.2.1)
/-- Those pieces tile the buffer. -/
theorem covD_11 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) (y : S512x64.Idx) :
    ∃ pc ∈ (runD c i arg3 harg3 arg4 harg4 arg5 harg5 arg6 harg6 arg7 harg7 arg8 harg8 arg9 harg9 arg10 harg10 arg11 harg11 hc0 hc1 hc2 x5 x6 xs8 xs9 xs10 xs11).2.2.2.1, y ∈ pc.1.set :=
  View.cover_of_tiledL ((runD c i arg3 harg3 arg4 harg4 arg5 harg5 arg6 harg6 arg7 harg7 arg8 harg8 arg9 harg9 arg10 harg10 arg11 harg11 hc0 hc1 hc2 x5 x6 xs8 xs9 xs10 xs11).2.2.2.1) S512x64.size (by sl_kernel_rfl) y

end Cert.KernelIdeal.K1

end
-- ==== Proof.K1Body.lean ====
/-
  The flash-attention call, point by point: what its buffers hold after every point, and the body obligation.

  After the point t = (b, qi, kv) the four scratch buffers hold the running state of the row block (b, qi) — the
  scaled query block, the running maximum, the running sum, the accumulator — and the output's staging buffer holds
  the block stored at kv = qi from then on. The state is a recursion on the linear point: at kv = 0 the state is
  reset from the query block and the weights, whatever the scratch held; at kv ≤ qi the key / value block kv is
  absorbed; at kv = qi the quotient accumulator / sum is stored; at kv > qi nothing changes. The output block is
  written back at kv = 7 only: for qi < 7 what is written back is what the buffer has kept since kv = qi, which
  the look-back through the idle points identifies.
-/
import proofs.«146551_j6992206758194_2_alg».proof.Proof.K1Cases

set_option maxRecDepth 16384

noncomputable section

namespace Cert.KernelIdeal.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What every point leaves -/

/-- After the point at position `n`: the output block's buffer, then the four scratch buffers. -/
def outsAt1 (c : Dev nD) : (n : ℕ) → n < cfg1.N → Vec F S1x512x64 .f32 × Vec F S512x64 .f32 × Vec F S512x1 .f32 × Vec F S512x1 .f32 × Vec F S512x64 .f32
  | 0, hn => (oA c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scQ (Memref.isWhole_whole _) scM (Memref.isWhole_whole _) scL (Memref.isWhole_whole _) scA (Memref.isWhole_whole _) ((hcond1_0 ⟨0, hn⟩).mpr (show (0 : ℕ) % 8 = 0 from by decide)) ((hcond1_1 ⟨0, hn⟩).mpr (show (0 : ℕ) % 8 ≤ (0 / 8) % 8 from by decide)) ((hcond1_2 ⟨0, hn⟩).mpr (show (0 : ℕ) % 8 = (0 / 8) % 8 from by decide)) (iblk1 V c 0 ⟨0, hn⟩) (iblk1 V c 1 ⟨0, hn⟩) (iblk1 V c 2 ⟨0, hn⟩) (iblk1 V c 3 ⟨0, hn⟩), qA c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scQ (Memref.isWhole_whole _) scM (Memref.isWhole_whole _) scL (Memref.isWhole_whole _) scA (Memref.isWhole_whole _) ((hcond1_0 ⟨0, hn⟩).mpr (show (0 : ℕ) % 8 = 0 from by decide)) ((hcond1_1 ⟨0, hn⟩).mpr (show (0 : ℕ) % 8 ≤ (0 / 8) % 8 from by decide)) ((hcond1_2 ⟨0, hn⟩).mpr (show (0 : ℕ) % 8 = (0 / 8) % 8 from by decide)) (iblk1 V c 0 ⟨0, hn⟩) (iblk1 V c 1 ⟨0, hn⟩) (iblk1 V c 2 ⟨0, hn⟩) (iblk1 V c 3 ⟨0, hn⟩), mA c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scQ (Memref.isWhole_whole _) scM (Memref.isWhole_whole _) scL (Memref.isWhole_whole _) scA (Memref.isWhole_whole _) ((hcond1_0 ⟨0, hn⟩).mpr (show (0 : ℕ) % 8 = 0 from by decide)) ((hcond1_1 ⟨0, hn⟩).mpr (show (0 : ℕ) % 8 ≤ (0 / 8) % 8 from by decide)) ((hcond1_2 ⟨0, hn⟩).mpr (show (0 : ℕ) % 8 = (0 / 8) % 8 from by decide)) (iblk1 V c 0 ⟨0, hn⟩) (iblk1 V c 1 ⟨0, hn⟩) (iblk1 V c 2 ⟨0, hn⟩) (iblk1 V c 3 ⟨0, hn⟩), lA c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scQ (Memref.isWhole_whole _) scM (Memref.isWhole_whole _) scL (Memref.isWhole_whole _) scA (Memref.isWhole_whole _) ((hcond1_0 ⟨0, hn⟩).mpr (show (0 : ℕ) % 8 = 0 from by decide)) ((hcond1_1 ⟨0, hn⟩).mpr (show (0 : ℕ) % 8 ≤ (0 / 8) % 8 from by decide)) ((hcond1_2 ⟨0, hn⟩).mpr (show (0 : ℕ) % 8 = (0 / 8) % 8 from by decide)) (iblk1 V c 0 ⟨0, hn⟩) (iblk1 V c 1 ⟨0, hn⟩) (iblk1 V c 2 ⟨0, hn⟩) (iblk1 V c 3 ⟨0, hn⟩), aA c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scQ (Memref.isWhole_whole _) scM (Memref.isWhole_whole _) scL (Memref.isWhole_whole _) scA (Memref.isWhole_whole _) ((hcond1_0 ⟨0, hn⟩).mpr (show (0 : ℕ) % 8 = 0 from by decide)) ((hcond1_1 ⟨0, hn⟩).mpr (show (0 : ℕ) % 8 ≤ (0 / 8) % 8 from by decide)) ((hcond1_2 ⟨0, hn⟩).mpr (show (0 : ℕ) % 8 = (0 / 8) % 8 from by decide)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h2 : (n + 1) % 8 = ((n + 1) / 8) % 8 then
        (oA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) ((hcond1_0 ⟨n + 1, hn⟩).mpr h0) ((hcond1_1 ⟨n + 1, hn⟩).mpr (show (n + 1) % 8 ≤ ((n + 1) / 8) % 8 from by omega)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩), qA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) ((hcond1_0 ⟨n + 1, hn⟩).mpr h0) ((hcond1_1 ⟨n + 1, hn⟩).mpr (show (n + 1) % 8 ≤ ((n + 1) / 8) % 8 from by omega)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩), mA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) ((hcond1_0 ⟨n + 1, hn⟩).mpr h0) ((hcond1_1 ⟨n + 1, hn⟩).mpr (show (n + 1) % 8 ≤ ((n + 1) / 8) % 8 from by omega)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩), lA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) ((hcond1_0 ⟨n + 1, hn⟩).mpr h0) ((hcond1_1 ⟨n + 1, hn⟩).mpr (show (n + 1) % 8 ≤ ((n + 1) / 8) % 8 from by omega)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩), aA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) ((hcond1_0 ⟨n + 1, hn⟩).mpr h0) ((hcond1_1 ⟨n + 1, hn⟩).mpr (show (n + 1) % 8 ≤ ((n + 1) / 8) % 8 from by omega)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩))
      else
        ((outsAt1 c n (Nat.lt_of_succ_lt hn)).1, qB c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) ((hcond1_0 ⟨n + 1, hn⟩).mpr h0) ((hcond1_1 ⟨n + 1, hn⟩).mpr (show (n + 1) % 8 ≤ ((n + 1) / 8) % 8 from by omega)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), mB c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) ((hcond1_0 ⟨n + 1, hn⟩).mpr h0) ((hcond1_1 ⟨n + 1, hn⟩).mpr (show (n + 1) % 8 ≤ ((n + 1) / 8) % 8 from by omega)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), lB c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) ((hcond1_0 ⟨n + 1, hn⟩).mpr h0) ((hcond1_1 ⟨n + 1, hn⟩).mpr (show (n + 1) % 8 ≤ ((n + 1) / 8) % 8 from by omega)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), aB c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) ((hcond1_0 ⟨n + 1, hn⟩).mpr h0) ((hcond1_1 ⟨n + 1, hn⟩).mpr (show (n + 1) % 8 ≤ ((n + 1) / 8) % 8 from by omega)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 ≤ ((n + 1) / 8) % 8 then
        if h2 : (n + 1) % 8 = ((n + 1) / 8) % 8 then
          (oD c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) (fun h => h0 ((hcond1_0 ⟨n + 1, hn⟩).mp h)) ((hcond1_1 ⟨n + 1, hn⟩).mpr h1) ((hcond1_2 ⟨n + 1, hn⟩).mpr h2) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, (outsAt1 c n (Nat.lt_of_succ_lt hn)).2.1, mD c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) (fun h => h0 ((hcond1_0 ⟨n + 1, hn⟩).mp h)) ((hcond1_1 ⟨n + 1, hn⟩).mpr h1) ((hcond1_2 ⟨n + 1, hn⟩).mpr h2) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, lD c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) (fun h => h0 ((hcond1_0 ⟨n + 1, hn⟩).mp h)) ((hcond1_1 ⟨n + 1, hn⟩).mpr h1) ((hcond1_2 ⟨n + 1, hn⟩).mpr h2) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, aD c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) (fun h => h0 ((hcond1_0 ⟨n + 1, hn⟩).mp h)) ((hcond1_1 ⟨n + 1, hn⟩).mpr h1) ((hcond1_2 ⟨n + 1, hn⟩).mpr h2) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)
        else
          ((outsAt1 c n (Nat.lt_of_succ_lt hn)).1, (outsAt1 c n (Nat.lt_of_succ_lt hn)).2.1, mC c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, lC c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, aC c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)
      else
        (outsAt1 c n (Nat.lt_of_succ_lt hn))

theorem outsAt1_A (c : Dev nD) (t : Fin cfg1.N) (h0 : t.val % 8 = 0) (h2 : t.val % 8 = (t.val / 8) % 8) :
    outsAt1 V c t.val t.isLt = (oA c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) ((hcond1_0 t).mpr h0) ((hcond1_1 t).mpr (by omega)) ((hcond1_2 t).mpr h2) (iblk1 V c 0 t) (iblk1 V c 1 t) (iblk1 V c 2 t) (iblk1 V c 3 t), qA c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) ((hcond1_0 t).mpr h0) ((hcond1_1 t).mpr (by omega)) ((hcond1_2 t).mpr h2) (iblk1 V c 0 t) (iblk1 V c 1 t) (iblk1 V c 2 t) (iblk1 V c 3 t), mA c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) ((hcond1_0 t).mpr h0) ((hcond1_1 t).mpr (by omega)) ((hcond1_2 t).mpr h2) (iblk1 V c 0 t) (iblk1 V c 1 t) (iblk1 V c 2 t) (iblk1 V c 3 t), lA c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) ((hcond1_0 t).mpr h0) ((hcond1_1 t).mpr (by omega)) ((hcond1_2 t).mpr h2) (iblk1 V c 0 t) (iblk1 V c 1 t) (iblk1 V c 2 t) (iblk1 V c 3 t), aA c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) ((hcond1_0 t).mpr h0) ((hcond1_1 t).mpr (by omega)) ((hcond1_2 t).mpr h2) (iblk1 V c 0 t) (iblk1 V c 1 t) (iblk1 V c 2 t) (iblk1 V c 3 t)) := by
  obtain ⟨n, hn⟩ := t
  cases n with
  | zero => exact rfl
  | succ n => exact (dif_pos h0).trans ((dif_pos h2).trans rfl)

theorem outsAt1_B (c : Dev nD) (t : Fin cfg1.N) (h0 : t.val % 8 = 0) (h2 : ¬t.val % 8 = (t.val / 8) % 8) :
    outsAt1 V c t.val t.isLt = ((outsAt1 V c (t.val - 1) (Nat.lt_of_le_of_lt (Nat.sub_le _ _) t.isLt)).1, qB c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) ((hcond1_0 t).mpr h0) ((hcond1_1 t).mpr (by omega)) (fun h => h2 ((hcond1_2 t).mp h)) (iblk1 V c 0 t) (iblk1 V c 1 t) (iblk1 V c 2 t) (iblk1 V c 3 t), mB c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) ((hcond1_0 t).mpr h0) ((hcond1_1 t).mpr (by omega)) (fun h => h2 ((hcond1_2 t).mp h)) (iblk1 V c 0 t) (iblk1 V c 1 t) (iblk1 V c 2 t) (iblk1 V c 3 t), lB c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) ((hcond1_0 t).mpr h0) ((hcond1_1 t).mpr (by omega)) (fun h => h2 ((hcond1_2 t).mp h)) (iblk1 V c 0 t) (iblk1 V c 1 t) (iblk1 V c 2 t) (iblk1 V c 3 t), aB c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) ((hcond1_0 t).mpr h0) ((hcond1_1 t).mpr (by omega)) (fun h => h2 ((hcond1_2 t).mp h)) (iblk1 V c 0 t) (iblk1 V c 1 t) (iblk1 V c 2 t) (iblk1 V c 3 t)) := by
  obtain ⟨n, hn⟩ := t
  cases n with
  | zero => exact absurd (show (0 : ℕ) % 8 = (0 / 8) % 8 from by decide) h2
  | succ n => exact (dif_pos h0).trans ((dif_neg h2).trans rfl)

theorem outsAt1_C (c : Dev nD) (t : Fin cfg1.N) (h0 : ¬t.val % 8 = 0) (h1 : t.val % 8 ≤ (t.val / 8) % 8) (h2 : ¬t.val % 8 = (t.val / 8) % 8) :
    outsAt1 V c t.val t.isLt = ((outsAt1 V c (t.val - 1) (Nat.lt_of_le_of_lt (Nat.sub_le _ _) t.isLt)).1, (outsAt1 V c (t.val - 1) (Nat.lt_of_le_of_lt (Nat.sub_le _ _) t.isLt)).2.1, mC c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) (fun h => h0 ((hcond1_0 t).mp h)) ((hcond1_1 t).mpr h1) (fun h => h2 ((hcond1_2 t).mp h)) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, lC c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) (fun h => h0 ((hcond1_0 t).mp h)) ((hcond1_1 t).mpr h1) (fun h => h2 ((hcond1_2 t).mp h)) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, aC c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) (fun h => h0 ((hcond1_0 t).mp h)) ((hcond1_1 t).mpr h1) (fun h => h2 ((hcond1_2 t).mp h)) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd (show (0 : ℕ) % 8 = 0 from by decide) h0
  | succ n => exact (dif_neg h0).trans ((dif_pos h1).trans ((dif_neg h2).trans rfl))

theorem outsAt1_D (c : Dev nD) (t : Fin cfg1.N) (h0 : ¬t.val % 8 = 0) (h1 : t.val % 8 ≤ (t.val / 8) % 8) (h2 : t.val % 8 = (t.val / 8) % 8) :
    outsAt1 V c t.val t.isLt = (oD c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) (fun h => h0 ((hcond1_0 t).mp h)) ((hcond1_1 t).mpr h1) ((hcond1_2 t).mpr h2) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, (outsAt1 V c (t.val - 1) (Nat.lt_of_le_of_lt (Nat.sub_le _ _) t.isLt)).2.1, mD c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) (fun h => h0 ((hcond1_0 t).mp h)) ((hcond1_1 t).mpr h1) ((hcond1_2 t).mpr h2) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, lD c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) (fun h => h0 ((hcond1_0 t).mp h)) ((hcond1_1 t).mpr h1) ((hcond1_2 t).mpr h2) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, aD c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) (fun h => h0 ((hcond1_0 t).mp h)) ((hcond1_1 t).mpr h1) ((hcond1_2 t).mpr h2) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd (show (0 : ℕ) % 8 = 0 from by decide) h0
  | succ n => exact (dif_neg h0).trans ((dif_pos h1).trans ((dif_pos h2).trans rfl))

theorem outsAt1_E (c : Dev nD) (t : Fin cfg1.N) (h0 : ¬t.val % 8 = 0) (h1 : ¬t.val % 8 ≤ (t.val / 8) % 8) :
    outsAt1 V c t.val t.isLt = (outsAt1 V c (t.val - 1) (Nat.lt_of_le_of_lt (Nat.sub_le _ _) t.isLt)) := by
  obtain ⟨n, hn⟩ := t
  cases n with
  | zero => exact absurd (show (0 : ℕ) % 8 = 0 from by decide) h0
  | succ n => exact (dif_neg h0).trans ((dif_neg h1).trans rfl)

/-! ## The invariant: the scratch buffers at the state the point before left -/

/-- Before the first point the scoped buffers no window stages hold anything; afterwards the four scratch buffers
    hold the state the point before left, the other scoped buffers anything. -/
def PhiS (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scQ fullShare (outsAt1 V c n hn).2.1 ∗ owns (c : Thread nD τ) scM fullShare (outsAt1 V c n hn).2.2.1 ∗ owns (c : Thread nD τ) scL fullShare (outsAt1 V c n hn).2.2.2.1 ∗ owns (c : Thread nD τ) scA fullShare (outsAt1 V c n hn).2.2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scQ fullShare (outsAt1 V c n hn).2.1 ∗ owns (c : Thread nD τ) scM fullShare (outsAt1 V c n hn).2.2.1 ∗ owns (c : Thread nD τ) scL fullShare (outsAt1 V c n hn).2.2.2.1 ∗ owns (c : Thread nD τ) scA fullShare (outsAt1 V c n hn).2.2.2.2) ∗ (∃ r, prngReg c r)) := rfl

theorem PhiS_pos (c : Dev nD) (n : ℕ) (h : n ≤ cfg1.N) (hz : n ≠ 0) :
    PhiS V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scQ fullShare (outsAt1 V c (n - 1) (by omega)).2.1 ∗ owns (c : Thread nD τ) scM fullShare (outsAt1 V c (n - 1) (by omega)).2.2.1 ∗ owns (c : Thread nD τ) scL fullShare (outsAt1 V c (n - 1) (by omega)).2.2.2.1 ∗ owns (c : Thread nD τ) scA fullShare (outsAt1 V c (n - 1) (by omega)).2.2.2.2) ∗ (∃ r, prngReg c r)) := by
  cases n with
  | zero => exact absurd rfl hz
  | succ n => rfl

/-- The class invariant with the four scratch buffers named. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scQ fullShare d) ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scQ, scM, scL, scA, owns_whole]; try rfl

/-! ## The proof data -/

/-- The proof data of the call on core `c`: the arrays as the call finds them; after the body at point `t` each
    input's buffer at its block and the output's at the state's first component; the invariant above; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Input window 0's current buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
/-- Input window 1's current buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
/-- Input window 2's current buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
/-- Input window 3's current buffer holds its block at every point, fetched there or not. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- The output block is written back at kv = 7 only. -/
theorem noFlush1_4 (t : Fin cfg1.N) (h : t.val % 8 ≠ 7) : (cfg1.win 4).flush t = false :=
  Bool.eq_false_iff.mpr fun hf => h ((flush1_4 t).mp hf)

/-- Past its row block's diagonal tile (qi < kv) the output's buffer still holds what kv = qi stored: the points
    between store nothing into it and do not write it back, so the look-back reaches the store. -/
theorem before1_4_late (c : Dev nD) : ∀ (n : ℕ) (hn : n < cfg1.N), (n / 8) % 8 < n % 8 →
    ∀ d, (dat1 V c).before 4 ⟨n, hn⟩ d = (outsAt1 V c n hn).1 := by
  intro n
  induction n with
  | zero => intro hn h; exact absurd h (by decide)
  | succ k ih =>
    intro hn h d
    have hN : k + 1 < 256 := lt_of_lt_of_eq hn (show cfg1.N = 256 from N_1)
    have hk : k < cfg1.N := Nat.lt_of_succ_lt hn
    rw [(dat1 V c).before_of_pos 4 ⟨k + 1, hn⟩ (Nat.succ_ne_zero k) ((cfg1.win 4).fetch_out rfl _) d]
    rw [show (⟨(⟨k + 1, hn⟩ : Fin cfg1.N).val - 1, Nat.lt_of_le_of_lt (Nat.sub_le _ _) (⟨k + 1, hn⟩ : Fin cfg1.N).isLt⟩ : Fin cfg1.N) = ⟨k, hk⟩ from rfl]
    rw [noFlush1_4 ⟨k, hk⟩ (by show k % 8 ≠ 7; omega), if_neg Bool.false_ne_true]
    rw [outsAt1_E V c ⟨k + 1, hn⟩ (by show ¬(k + 1) % 8 = 0; omega) (by show ¬(k + 1) % 8 ≤ ((k + 1) / 8) % 8; omega)]
    show (dat1 V c).left 4 ⟨k, hk⟩ d = (outsAt1 V c k hk).1
    unfold Dat.left
    by_cases hl : k % 8 = (k / 8) % 8
    · rw [liveAt1_4 ⟨k, hk⟩ ((hcond1_2 ⟨k, hk⟩).mpr hl)]
      show (dat1 V c).kept 4 ⟨k, hk⟩ d = _
      unfold Dat.kept
      rw [Pipeline.fill_of_clip_none 4 _ (fun _ => rfl) d ((dat1 V c).after 4 ⟨k, hk⟩), Window.fill_cut, after1_4]
    · rw [idleAt1_4 ⟨k, hk⟩ (fun hh => hl ((hcond1_2 ⟨k, hk⟩).mp hh))]
      exact ih hk (by omega) d

theorem before1_4_late' (c : Dev nD) (t : Fin cfg1.N) (h : (t.val / 8) % 8 < t.val % 8) (d) :
    (dat1 V c).before 4 t d = (outsAt1 V c t.val t.isLt).1 := before1_4_late V c t.val t.isLt h d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 8000000 in
/-- The body at any point. The closed forms say which of the five cases the point is in; the invariant hands the
    body the scratch buffers at the state the point before left (at anything before the first point), and takes
    them back at this point's state; the output's buffer is stored where kv = qi, handed back as found where the
    point does not write it back, and where kv = 7 > qi handed back at what kv = qi stored. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 256 := lt_of_lt_of_eq t.isLt (show cfg1.N = 256 from N_1)
  by_cases h0 : t.val % 8 = 0
  · by_cases h2 : t.val % 8 = (t.val / 8) % 8
    · rw [show (dat1 V c).leavesExact 4 t = owns (c : Thread nD τ) (ms1_4 t) fullShare ((dat1 V c).after 4 t) from by
        unfold Dat.leavesExact; rw [liveAt1_4 t ((hcond1_2 t).mpr h2)], after1_4]
      rw [outsAt1_A V c t h0 h2]
      unfold oA qA mA lA aA; (try dsimp only)
      by_cases hz : t.val = 0
      · rw [PhiS_castSucc V c t, PhiS_zero V c _ _ hz, PhiA1_eq]
        iintro ⟨⟨⟨R0, R1, R2, R3, R4, R5, R6, R7, R8, R9, ⟨%dq, HQ⟩, ⟨%dm, HM⟩, ⟨%dl, HL⟩, ⟨%da, HA⟩⟩, Hg⟩, Ho, ⟨%d0, H0⟩, ⟨%d1, H1⟩, ⟨%d2, H2⟩, ⟨%d3, H3⟩, ⟨%d4, H4⟩⟩
        iapply ((runA c (grid1.coords t) _ _ _ _ _ _ _ _ _ _ _ _ _ _ _ _ _ _ ((hcond1_0 t).mpr h0) ((hcond1_1 t).mpr (by omega)) ((hcond1_2 t).mpr h2) (iblk1 V c 0 t) (iblk1 V c 1 t) (iblk1 V c 2 t) (iblk1 V c 3 t)).2.2.2.2.2 Set.univ _)
        isplitl [H0]; · iexact H0
        isplitl [H1]; · iexact H1
        isplitl [H2]; · iexact H2
        isplitl [H3]; · iexact H3
        isplitl [H4]; · iexists _; iexact H4
        isplitl [HQ]; · iexists _; iexact HQ
        isplitl [HM]; · iexists _; iexact HM
        isplitl [HL]; · iexists _; iexact HL
        isplitl [HA]; · iexists _; iexact HA
        iintro ⟨H0, H1, H2, H3, ⟨%e7, H4⟩, ⟨%e8, HQ⟩, ⟨%e9, HM⟩, ⟨%e10, HL⟩, ⟨%e11, HA⟩⟩
        isplitl [R0 R1 R2 R3 R4 R5 R6 R7 R8 R9 HQ HM HL HA Hg]
        · isplitl [R0 R1 R2 R3 R4 R5 R6 R7 R8 R9 HQ HM HL HA]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [HQ]
            · unfold owns; iexists _; isplitr
              swap; · iexact HQ
              ipureintro; exact View.read_writes_of_cover _ _ _ _ _ (covA_8 c _ _ _ _ _ _ _ _ _ _ _ _ _ _ _ _ _ _ _ _ _ _ _ _ _ _)
            isplitl [HM]
            · unfold owns; iexists _; isplitr
              swap; · iexact HM
              ipureintro; exact View.read_writes_of_cover _ _ _ _ _ (covA_9 c _ _ _ _ _ _ _ _ _ _ _ _ _ _ _ _ _ _ _ _ _ _ _ _ _ _)
            isplitl [HL]
            · unfold owns; iexists _; isplitr
              swap; · iexact HL
              ipureintro; exact View.read_writes_of_cover _ _ _ _ _ (covA_10 c _ _ _ _ _ _ _ _ _ _ _ _ _ _ _ _ _ _ _ _ _ _ _ _ _ _)
            unfold owns; iexists _; isplitr
            swap; · iexact HA
            ipureintro; exact View.read_writes_of_cover _ _ _ _ _ (covA_11 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (covA_7 c _ _ _ _ _ _ _ _ _ _ _ _ _ _ _ _ _ _ _ _ _ _ _ _ _ _)
      · rw [PhiS_castSucc V c t, PhiS_pos V c _ _ hz]
        iintro ⟨⟨⟨R0, R1, R2, R3, R4, R5, R6, R7, R8, R9, HQ, HM, HL, HA⟩, Hg⟩, Ho, ⟨%d0, H0⟩, ⟨%d1, H1⟩, ⟨%d2, H2⟩, ⟨%d3, H3⟩, ⟨%d4, H4⟩⟩
        iapply ((runA c (grid1.coords t) _ _ _ _ _ _ _ _ _ _ _ _ _ _ _ _ _ _ ((hcond1_0 t).mpr h0) ((hcond1_1 t).mpr (by omega)) ((hcond1_2 t).mpr h2) (iblk1 V c 0 t) (iblk1 V c 1 t) (iblk1 V c 2 t) (iblk1 V c 3 t)).2.2.2.2.2 Set.univ _)
        isplitl [H0]; · iexact H0
        isplitl [H1]; · iexact H1
        isplitl [H2]; · iexact H2
        isplitl [H3]; · iexact H3
        isplitl [H4]; · iexists _; iexact H4
        isplitl [HQ]; · iexists _; iexact HQ
        isplitl [HM]; · iexists _; iexact HM
        isplitl [HL]; · iexists _; iexact HL
        isplitl [HA]; · iexists _; iexact HA
        iintro ⟨H0, H1, H2, H3, ⟨%e7, H4⟩, ⟨%e8, HQ⟩, ⟨%e9, HM⟩, ⟨%e10, HL⟩, ⟨%e11, HA⟩⟩
        isplitl [R0 R1 R2 R3 R4 R5 R6 R7 R8 R9 HQ HM HL HA Hg]
        · isplitl [R0 R1 R2 R3 R4 R5 R6 R7 R8 R9 HQ HM HL HA]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [HQ]
            · unfold owns; iexists _; isplitr
              swap; · iexact HQ
              ipureintro; exact View.read_writes_of_cover _ _ _ _ _ (covA_8 c _ _ _ _ _ _ _ _ _ _ _ _ _ _ _ _ _ _ _ _ _ _ _ _ _ _)
            isplitl [HM]
            · unfold owns; iexists _; isplitr
              swap; · iexact HM
              ipureintro; exact View.read_writes_of_cover _ _ _ _ _ (covA_9 c _ _ _ _ _ _ _ _ _ _ _ _ _ _ _ _ _ _ _ _ _ _ _ _ _ _)
            isplitl [HL]
            · unfold owns; iexists _; isplitr
              swap; · iexact HL
              ipureintro; exact View.read_writes_of_cover _ _ _ _ _ (covA_10 c _ _ _ _ _ _ _ _ _ _ _ _ _ _ _ _ _ _ _ _ _ _ _ _ _ _)
            unfold owns; iexists _; isplitr
            swap; · iexact HA
            ipureintro; exact View.read_writes_of_cover _ _ _ _ _ (covA_11 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (covA_7 c _ _ _ _ _ _ _ _ _ _ _ _ _ _ _ _ _ _ _ _ _ _ _ _ _ _)
    · rw [Dat.leavesExact_idle (dat1 V c) 4 t (idleAt1_4 t (fun h => h2 ((hcond1_2 t).mp h))) (noFlush1_4 t (by omega))]
      rw [outsAt1_B V c t h0 h2]
      unfold qB mB lB aB; (try dsimp only)
      have hz : t.val ≠ 0 := by omega
      rw [PhiS_castSucc V c t, PhiS_pos V c _ _ hz]
      iintro ⟨⟨⟨R0, R1, R2, R3, R4, R5, R6, R7, R8, R9, HQ, HM, HL, HA⟩, Hg⟩, Ho, ⟨%d0, H0⟩, ⟨%d1, H1⟩, ⟨%d2, H2⟩, ⟨%d3, H3⟩, ⟨%d4, H4⟩⟩
      iapply ((runB c (grid1.coords t) _ _ _ _ _ _ _ _ _ _ _ _ _ _ _ _ _ _ ((hcond1_0 t).mpr h0) ((hcond1_1 t).mpr (by omega)) (fun h => h2 ((hcond1_2 t).mp h)) (iblk1 V c 0 t) (iblk1 V c 1 t) (iblk1 V c 2 t) (iblk1 V c 3 t)).2.2.2.2 Set.univ _)
      isplitl [H0]; · iexact H0
      isplitl [H1]; · iexact H1
      isplitl [H2]; · iexact H2
      isplitl [H3]; · iexact H3
      isplitl [HQ]; · iexists _; iexact HQ
      isplitl [HM]; · iexists _; iexact HM
      isplitl [HL]; · iexists _; iexact HL
      isplitl [HA]; · iexists _; iexact HA
      iintro ⟨H0, H1, H2, H3, ⟨%e8, HQ⟩, ⟨%e9, HM⟩, ⟨%e10, HL⟩, ⟨%e11, HA⟩⟩
      isplitl [R0 R1 R2 R3 R4 R5 R6 R7 R8 R9 HQ HM HL HA Hg]
      · isplitl [R0 R1 R2 R3 R4 R5 R6 R7 R8 R9 HQ HM HL HA]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HQ]
          · unfold owns; iexists _; isplitr
            swap; · iexact HQ
            ipureintro; exact View.read_writes_of_cover _ _ _ _ _ (covB_8 c _ _ _ _ _ _ _ _ _ _ _ _ _ _ _ _ _ _ _ _ _ _ _ _ _ _)
          isplitl [HM]
          · unfold owns; iexists _; isplitr
            swap; · iexact HM
            ipureintro; exact View.read_writes_of_cover _ _ _ _ _ (covB_9 c _ _ _ _ _ _ _ _ _ _ _ _ _ _ _ _ _ _ _ _ _ _ _ _ _ _)
          isplitl [HL]
          · unfold owns; iexists _; isplitr
            swap; · iexact HL
            ipureintro; exact View.read_writes_of_cover _ _ _ _ _ (covB_10 c _ _ _ _ _ _ _ _ _ _ _ _ _ _ _ _ _ _ _ _ _ _ _ _ _ _)
          unfold owns; iexists _; isplitr
          swap; · iexact HA
          ipureintro; exact View.read_writes_of_cover _ _ _ _ _ (covB_11 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · by_cases h1 : t.val % 8 ≤ (t.val / 8) % 8
    · have hz : t.val ≠ 0 := by omega
      by_cases h2 : t.val % 8 = (t.val / 8) % 8
      · rw [show (dat1 V c).leavesExact 4 t = owns (c : Thread nD τ) (ms1_4 t) fullShare ((dat1 V c).after 4 t) from by
        unfold Dat.leavesExact; rw [liveAt1_4 t ((hcond1_2 t).mpr h2)], after1_4]
        rw [outsAt1_D V c t h0 h1 h2]
        unfold oD mD lD aD; (try dsimp only)
        rw [PhiS_castSucc V c t, PhiS_pos V c _ _ hz]
        iintro ⟨⟨⟨R0, R1, R2, R3, R4, R5, R6, R7, R8, R9, HQ, HM, HL, HA⟩, Hg⟩, Ho, ⟨%d0, H0⟩, ⟨%d1, H1⟩, ⟨%d2, H2⟩, ⟨%d3, H3⟩, ⟨%d4, H4⟩⟩
        iapply ((runD c (grid1.coords t) _ _ _ _ _ _ _ _ _ _ _ _ _ _ _ _ _ _ (fun h => h0 ((hcond1_0 t).mp h)) ((hcond1_1 t).mpr h1) ((hcond1_2 t).mpr h2) (iblk1 V c 2 t) (iblk1 V c 3 t) _ _ _ _).2.2.2.2 Set.univ _)
        isplitl [H2]; · iexact H2
        isplitl [H3]; · iexact H3
        isplitl [H4]; · iexists _; iexact H4
        isplitl [HQ]; · iexact HQ
        isplitl [HM]; · iexact HM
        isplitl [HL]; · iexact HL
        isplitl [HA]; · iexact HA
        iintro ⟨H2, H3, ⟨%e7, H4⟩, HQ, ⟨%e9, HM⟩, ⟨%e10, HL⟩, ⟨%e11, HA⟩⟩
        isplitl [R0 R1 R2 R3 R4 R5 R6 R7 R8 R9 HQ HM HL HA Hg]
        · isplitl [R0 R1 R2 R3 R4 R5 R6 R7 R8 R9 HQ HM HL HA]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [HQ]; · iexact HQ
            isplitl [HM]
            · unfold owns; iexists _; isplitr
              swap; · iexact HM
              ipureintro; exact View.read_writes_of_cover _ _ _ _ _ (covD_9 c _ _ _ _ _ _ _ _ _ _ _ _ _ _ _ _ _ _ _ _ _ _ _ _ _ _ _ _)
            isplitl [HL]
            · unfold owns; iexists _; isplitr
              swap; · iexact HL
              ipureintro; exact View.read_writes_of_cover _ _ _ _ _ (covD_10 c _ _ _ _ _ _ _ _ _ _ _ _ _ _ _ _ _ _ _ _ _ _ _ _ _ _ _ _)
            unfold owns; iexists _; isplitr
            swap; · iexact HA
            ipureintro; exact View.read_writes_of_cover _ _ _ _ _ (covD_11 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (covD_7 c _ _ _ _ _ _ _ _ _ _ _ _ _ _ _ _ _ _ _ _ _ _ _ _ _ _ _ _)
      · rw [Dat.leavesExact_idle (dat1 V c) 4 t (idleAt1_4 t (fun h => h2 ((hcond1_2 t).mp h))) (noFlush1_4 t (by omega))]
        rw [outsAt1_C V c t h0 h1 h2]
        unfold mC lC aC; (try dsimp only)
        rw [PhiS_castSucc V c t, PhiS_pos V c _ _ hz]
        iintro ⟨⟨⟨R0, R1, R2, R3, R4, R5, R6, R7, R8, R9, HQ, HM, HL, HA⟩, Hg⟩, Ho, ⟨%d0, H0⟩, ⟨%d1, H1⟩, ⟨%d2, H2⟩, ⟨%d3, H3⟩, ⟨%d4, H4⟩⟩
        iapply ((runC c (grid1.coords t) _ _ _ _ _ _ _ _ _ _ _ _ _ _ _ _ _ _ (fun h => h0 ((hcond1_0 t).mp h)) ((hcond1_1 t).mpr h1) (fun h => h2 ((hcond1_2 t).mp h)) (iblk1 V c 2 t) (iblk1 V c 3 t) _ _ _ _).2.2.2 Set.univ _)
        isplitl [H2]; · iexact H2
        isplitl [H3]; · iexact H3
        isplitl [HQ]; · iexact HQ
        isplitl [HM]; · iexact HM
        isplitl [HL]; · iexact HL
        isplitl [HA]; · iexact HA
        iintro ⟨H2, H3, HQ, ⟨%e9, HM⟩, ⟨%e10, HL⟩, ⟨%e11, HA⟩⟩
        isplitl [R0 R1 R2 R3 R4 R5 R6 R7 R8 R9 HQ HM HL HA Hg]
        · isplitl [R0 R1 R2 R3 R4 R5 R6 R7 R8 R9 HQ HM HL HA]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [HQ]; · iexact HQ
            isplitl [HM]
            · unfold owns; iexists _; isplitr
              swap; · iexact HM
              ipureintro; exact View.read_writes_of_cover _ _ _ _ _ (covC_9 c _ _ _ _ _ _ _ _ _ _ _ _ _ _ _ _ _ _ _ _ _ _ _ _ _ _ _ _)
            isplitl [HL]
            · unfold owns; iexists _; isplitr
              swap; · iexact HL
              ipureintro; exact View.read_writes_of_cover _ _ _ _ _ (covC_10 c _ _ _ _ _ _ _ _ _ _ _ _ _ _ _ _ _ _ _ _ _ _ _ _ _ _ _ _)
            unfold owns; iexists _; isplitr
            swap; · iexact HA
            ipureintro; exact View.read_writes_of_cover _ _ _ _ _ (covC_11 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := by omega
      rw [outsAt1_E V c t h0 h1]
      rw [PhiS_castSucc V c t, PhiS_pos V c _ _ hz]
      by_cases h7 : t.val % 8 = 7
      · rw [show (dat1 V c).leavesExact 4 t = owns (c : Thread nD τ) (ms1_4 t) fullShare ((dat1 V c).after 4 t) from by
          unfold Dat.leavesExact; rw [idleAt1_4 t (fun h => h1 (le_of_eq ((hcond1_2 t).mp h))), (flush1_4 t).mpr h7], after1_4]
        rw [outsAt1_E V c t h0 h1]
        simp only [before1_4_late' V c t (by omega)]
        rw [outsAt1_E V c t h0 h1]
        iintro ⟨⟨⟨R0, R1, R2, R3, R4, R5, R6, R7, R8, R9, HQ, HM, HL, HA⟩, Hg⟩, Ho, ⟨%d0, H0⟩, ⟨%d1, H1⟩, ⟨%d2, H2⟩, ⟨%d3, H3⟩, ⟨%d4, H4⟩⟩
        iapply (runE c (grid1.coords t) _ _ _ _ _ _ _ _ _ _ _ _ _ _ _ _ _ _ (fun h => h0 ((hcond1_0 t).mp h)) (fun h => h1 ((hcond1_1 t).mp h)) (fun h => h1 (le_of_eq ((hcond1_2 t).mp h))) Set.univ _)
        isplitl [R0 R1 R2 R3 R4 R5 R6 R7 R8 R9 HQ HM HL HA Hg]
        · isplitl [R0 R1 R2 R3 R4 R5 R6 R7 R8 R9 HQ HM HL HA]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [HQ]; · iexact HQ
            isplitl [HM]; · iexact HM
            isplitl [HL]; · iexact HL
            iexact HA
          iexact Hg
        isplitl [Ho]; · iexact Ho
        isplitl [H0]; · iexact H0
        isplitl [H1]; · iexact H1
        isplitl [H2]; · iexact H2
        isplitl [H3]; · iexact H3
        iexact H4
      · rw [Dat.leavesExact_idle (dat1 V c) 4 t (idleAt1_4 t (fun h => h1 (le_of_eq ((hcond1_2 t).mp h)))) (noFlush1_4 t h7)]
        iintro ⟨⟨⟨R0, R1, R2, R3, R4, R5, R6, R7, R8, R9, HQ, HM, HL, HA⟩, Hg⟩, Ho, ⟨%d0, H0⟩, ⟨%d1, H1⟩, ⟨%d2, H2⟩, ⟨%d3, H3⟩, ⟨%d4, H4⟩⟩
        iapply (runE c (grid1.coords t) _ _ _ _ _ _ _ _ _ _ _ _ _ _ _ _ _ _ (fun h => h0 ((hcond1_0 t).mp h)) (fun h => h1 ((hcond1_1 t).mp h)) (fun h => h1 (le_of_eq ((hcond1_2 t).mp h))) Set.univ _)
        isplitl [R0 R1 R2 R3 R4 R5 R6 R7 R8 R9 HQ HM HL HA Hg]
        · isplitl [R0 R1 R2 R3 R4 R5 R6 R7 R8 R9 HQ HM HL HA]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [HQ]; · iexact HQ
            isplitl [HM]; · iexact HM
            isplitl [HL]; · iexact HL
            iexact HA
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the call is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the state's name is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨R0, R1, R2, R3, R4, R5, R6, R7, R8, R9, HQ, HM, HL, HA⟩, Hg⟩
  isplitl [R0 R1 R2 R3 R4 R5 R6 R7 R8 R9 HQ HM HL HA]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HQ]; · iexists _; iexact HQ
    isplitl [HM]; · iexists _; iexact HM
    isplitl [HL]; · iexists _; iexact HL
    iexists _; iexact HA
  iexact Hg

theorem hout1 (c : Dev nD) : (dat1 V c).Φ (Fin.last cfg1.N) ⊢ Pipeline.ΦA spec1 c :=
  Phi_out1 V c _ (by rw [Fin.val_last]; have : cfg1.N = 256 := N_1; omega)

end Cert.KernelIdeal.K1

end
-- ==== Proof.KRun.lean ====
/-
  The whole run of @main: three host transposes, the key / value projection call, the flash-attention call.

  The unscoped buffers' contents are followed through @main: at launch the memory; after the transposes the
  transposed weights written; after the projection call its two output arrays at what its write-backs leave;
  after the attention call its output array likewise. Each call is entered from the contents before it and left at
  the contents after it, and the run ends with every unscoped buffer at the last contents — which gives both that
  the argument arrays are unchanged (no transpose and no call writes one) and what the result array holds.
-/
import proofs.«146551_j6992206758194_2_alg».proof.Proof.K0Body
import proofs.«146551_j6992206758194_2_alg».proof.Proof.K1Body
import proofs.«146551_j6992206758194_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.K0 Cert.KernelIdeal.K1

variable (m : (ℓ : Loc nD τ sig) → Buf (Elt F) ℓ) (ρ : Dev nD → PrngReg)

/-! ## The buffers' contents at each boundary -/

/-- At launch. -/
abbrev WA : Dev nD → Valuation τ sig (Elt F) := fun c b => m (c, b)
/-- After the three transposes. -/
abbrev WB : Dev nD → Valuation τ sig (Elt F) := fun c => StableHlo.after hostOps0 (WA m c)
abbrev VB : (c : Dev nD) → (b : Ref sig .tc) → Buf (Elt F) ((c : Thread nD τ).loc b) := fun c b => WB m c b
/-- After the projection call: its arrays at what its write-backs leave, every other buffer as before. -/
def WC (c : Dev nD) : Valuation τ sig (Elt F) :=
  Pipeline.withArrays spec0 c (WB m c) fun w => (dat0 (VB m) c).arrAt w cfg0.N
theorem WC_arr (c : Dev nD) (w : Fin cfg0.W) :
    WC m c (Proc.devRef .tc (Pipeline.arrRef spec0 w)) = (dat0 (VB m) c).arrAt w cfg0.N := by
  unfold WC; exact Pipeline.withArrays_arr spec0 launch0.win.arr_inj c _ _ w
theorem WC_of_ne (c : Dev nD) (b : Ref sig .tc) (hb : ∀ w, Pipeline.arrRef spec0 w ≠ b) :
    WC m c (Proc.devRef .tc b) = WB m c (Proc.devRef .tc b) := by
  unfold WC; exact Pipeline.withArrays_of_ne spec0 c _ _ b hb
abbrev VC : (c : Dev nD) → (b : Ref sig .tc) → Buf (Elt F) ((c : Thread nD τ).loc b) := fun c b => WC m c b
theorem hF0 (c : Dev nD) (w : Fin cfg0.W) : (dat0 (VB m) c).arrAt w cfg0.N = VC m c (Pipeline.arrRef spec0 w) :=
  (WC_arr m c w).symm
theorem hrest0 (c : Dev nD) : ∀ b, b ∉ Finset.univ.image (Pipeline.arrRef spec0) → VC m c b = VB m c b :=
  fun b hb => WC_of_ne m c b fun w e => hb (Finset.mem_image.mpr ⟨w, Finset.mem_univ _, e⟩)
/-- After the attention call. -/
def WD (c : Dev nD) : Valuation τ sig (Elt F) :=
  Pipeline.withArrays spec1 c (WC m c) fun w => (dat1 (VC m) c).arrAt w cfg1.N
theorem WD_arr (c : Dev nD) (w : Fin cfg1.W) :
    WD m c (Proc.devRef .tc (Pipeline.arrRef spec1 w)) = (dat1 (VC m) c).arrAt w cfg1.N := by
  unfold WD; exact Pipeline.withArrays_arr spec1 launch1.win.arr_inj c _ _ w
theorem WD_of_ne (c : Dev nD) (b : Ref sig .tc) (hb : ∀ w, Pipeline.arrRef spec1 w ≠ b) :
    WD m c (Proc.devRef .tc b) = WC m c (Proc.devRef .tc b) := by
  unfold WD; exact Pipeline.withArrays_of_ne spec1 c _ _ b hb
abbrev VD : (c : Dev nD) → (b : Ref sig .tc) → Buf (Elt F) ((c : Thread nD τ).loc b) := fun c b => WD m c b
theorem hF1 (c : Dev nD) (w : Fin cfg1.W) : (dat1 (VC m) c).arrAt w cfg1.N = VD m c (Pipeline.arrRef spec1 w) :=
  (WD_arr m c w).symm
theorem hrest1 (c : Dev nD) : ∀ b, b ∉ Finset.univ.image (Pipeline.arrRef spec1) → VD m c b = VC m c b :=
  fun b hb => WD_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Both calls' proof data, each at the contents its call is entered from. -/
def pdats : (p : Fin 2) → (c : Dev nD) → Dat τ (Elt F) Unit ℕ (UR sig nD τ) ℕ (Pipeline.pin (pcfgs (F := F)) adm p) c
  | ⟨0, _⟩ => fun c => dat0 (VB m) c
  | ⟨1, _⟩ => fun c => dat1 (VC m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last contents, the generator register at some state. -/
abbrev Tₙ (c : Dev nD) : sProp 𝕄 := iprop(StableHlo.held (c : Thread nD τ) (Pipeline.ucRefs τ sig) (WD m c) ∗ ∃ r, prngReg c r)

/-! ## The two calls as segments -/

-- applying a library lemma stated over the pinned configuration unifies only when unification may unfold plain
-- definitions in a metavariable's type
set_option backward.isDefEq.respectTransparency.types false in
/-- Call 0 as a segment: entered from every unscoped buffer at `WB`, left at `WC`. Its windows' arrays are
    split out of the unscoped buffers and put back at what its write-backs leave; the generator register goes into
    the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VB m) c).loose
  hwaits := Pipeline.hwaits_of_owed_zero _ _ _ _ L lv 0 fun _ _ => rfl
  pre c := iprop(StableHlo.held (c : Thread nD τ) (Pipeline.ucRefs τ sig) (WB m c) ∗ R c)
  post c := iprop(StableHlo.held (c : Thread nD τ) (Pipeline.ucRefs τ sig) (WC m c) ∗ R c)
  X c := iprop(∃ r, prngReg c r)
  Y c := iprop(∃ r, prngReg c r)
  Z c := Pipeline.unscopedRest (Ix := Unit) (Name := ℕ) (U := UR sig nD τ) (Lvl := ℕ) spec0 c (VB m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VB m c) (VC m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies only when unification may unfold plain
-- definitions in a metavariable's type
set_option backward.isDefEq.respectTransparency.types false in
/-- Call 1 as a segment: entered from every unscoped buffer at `WC`, left at `WD`. Its windows' arrays are
    split out of the unscoped buffers and put back at what its write-backs leave; the generator register goes into
    the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VC m) c).loose
  hwaits := Pipeline.hwaits_of_owed_zero _ _ _ _ L lv 1 fun _ _ => rfl
  pre c := iprop(StableHlo.held (c : Thread nD τ) (Pipeline.ucRefs τ sig) (WC m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VC m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VC m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VC m) c)
    unfold Pipeline.ΦA
    iintro ⟨Hp, -, Hr⟩
    isplitl [Hr]; · iexact Hr
    iexact Hp
  hout c := by
    refine (hout1 (VC m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VC m c) (VD m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (WA m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and every final state has every unscoped buffer at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = WD m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WA m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (WA m c)
        from Pipeline.unscopedBufs_held c (WA m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WD m c b)
    (hfin := fun c s' => by
      iintro ⟨⟨Hh, -⟩, HSI⟩
      unfold StableHlo.held
      imodintro
      iapply (pointsTo_read_all (Pipeline.ucRefs τ sig) (fun b => (((c : Thread nD τ)).1, b)) (WD m c) s')
      isplitl [Hh] <;> iassumption)
    (hQ := fun s h => h)

end Cert.KernelIdeal.Run

end
-- ==== Proof.KFrame.lean ====
/-
  The argument arrays after the run, and the result array by name: the last contents read back through the boundaries.
-/
import proofs.«146551_j6992206758194_2_alg».proof.Proof.KRun

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.K0 Cert.KernelIdeal.K1

variable (m : (ℓ : Loc nD τ sig) → Buf (Elt F) ℓ) (ρ : Dev nD → PrngReg)

/-- Argument 0 ends as launched: no transpose writes it, and a call either reads it through an input window or leaves it alone. -/
theorem WD_main_arg0 (c : Dev nD) : WD m c (Proc.devRef .tc main_arg0) = m ((c.tc : Thread nD τ).loc main_arg0) :=
  calc WD m c (Proc.devRef .tc main_arg0)
    _ = WC m c (Proc.devRef .tc main_arg0) := (WD_arr m c 0).trans (((dat1 (VC m) c).arrAt_in 0 rfl _).trans (A_eq1 (VC m) c 0))
    _ = WB m c (Proc.devRef .tc main_arg0) := WC_of_ne m c main_arg0 (by decide)
    _ = m ((c.tc : Thread nD τ).loc main_arg0) := Gen.V1_of m c main_arg0 (by decide)
/-- Argument 1 ends as launched: no transpose writes it, and a call either reads it through an input window or leaves it alone. -/
theorem WD_main_arg1 (c : Dev nD) : WD m c (Proc.devRef .tc main_arg1) = m ((c.tc : Thread nD τ).loc main_arg1) :=
  calc WD m c (Proc.devRef .tc main_arg1)
    _ = WC m c (Proc.devRef .tc main_arg1) := WD_of_ne m c main_arg1 (by decide)
    _ = WB m c (Proc.devRef .tc main_arg1) := (WC_arr m c 0).trans (((dat0 (VB m) c).arrAt_in 0 rfl _).trans (A_eq0 (VB m) c 0))
    _ = m ((c.tc : Thread nD τ).loc main_arg1) := Gen.V1_of m c main_arg1 (by decide)
/-- Argument 2 ends as launched: no transpose writes it, and a call either reads it through an input window or leaves it alone. -/
theorem WD_main_arg2 (c : Dev nD) : WD m c (Proc.devRef .tc main_arg2) = m ((c.tc : Thread nD τ).loc main_arg2) :=
  calc WD m c (Proc.devRef .tc main_arg2)
    _ = WC m c (Proc.devRef .tc main_arg2) := WD_of_ne m c main_arg2 (by decide)
    _ = WB m c (Proc.devRef .tc main_arg2) := (WC_arr m c 1).trans (((dat0 (VB m) c).arrAt_in 1 rfl _).trans (A_eq0 (VB m) c 1))
    _ = m ((c.tc : Thread nD τ).loc main_arg2) := Gen.V1_of m c main_arg2 (by decide)
/-- Argument 3 ends as launched: no transpose writes it, and a call either reads it through an input window or leaves it alone. -/
theorem WD_main_arg3 (c : Dev nD) : WD m c (Proc.devRef .tc main_arg3) = m ((c.tc : Thread nD τ).loc main_arg3) :=
  calc WD m c (Proc.devRef .tc main_arg3)
    _ = WC m c (Proc.devRef .tc main_arg3) := WD_of_ne m c main_arg3 (by decide)
    _ = WB m c (Proc.devRef .tc main_arg3) := WC_of_ne m c main_arg3 (by decide)
    _ = m ((c.tc : Thread nD τ).loc main_arg3) := Gen.V1_of m c main_arg3 (by decide)
/-- Argument 4 ends as launched: no transpose writes it, and a call either reads it through an input window or leaves it alone. -/
theorem WD_main_arg4 (c : Dev nD) : WD m c (Proc.devRef .tc main_arg4) = m ((c.tc : Thread nD τ).loc main_arg4) :=
  calc WD m c (Proc.devRef .tc main_arg4)
    _ = WC m c (Proc.devRef .tc main_arg4) := WD_of_ne m c main_arg4 (by decide)
    _ = WB m c (Proc.devRef .tc main_arg4) := WC_of_ne m c main_arg4 (by decide)
    _ = m ((c.tc : Thread nD τ).loc main_arg4) := Gen.V1_of m c main_arg4 (by decide)
/-- Argument 5 ends as launched: no transpose writes it, and a call either reads it through an input window or leaves it alone. -/
theorem WD_main_arg5 (c : Dev nD) : WD m c (Proc.devRef .tc main_arg5) = m ((c.tc : Thread nD τ).loc main_arg5) :=
  calc WD m c (Proc.devRef .tc main_arg5)
    _ = WC m c (Proc.devRef .tc main_arg5) := WD_of_ne m c main_arg5 (by decide)
    _ = WB m c (Proc.devRef .tc main_arg5) := WC_of_ne m c main_arg5 (by decide)
    _ = m ((c.tc : Thread nD τ).loc main_arg5) := Gen.V1_of m c main_arg5 (by decide)

/-- The result array after the run is what the attention call's write-backs leave. -/
theorem WD_main_v4 (c : Dev nD) : WD m c (Proc.devRef .tc main_v4) = (dat1 (VC m) c).arrAt 4 cfg1.N := WD_arr m c 4

/-- THE FRAME: every weakly fair execution of @main terminates, nothing faulting, with every argument array as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_arg0 (by decide))).trans (WD_main_arg0 m c),
      (h c _ (mem_uc main_arg1 (by decide))).trans (WD_main_arg1 m c),
      (h c _ (mem_uc main_arg2 (by decide))).trans (WD_main_arg2 m c),
      (h c _ (mem_uc main_arg3 (by decide))).trans (WD_main_arg3 m c),
      (h c _ (mem_uc main_arg4 (by decide))).trans (WD_main_arg4 m c),
      (h c _ (mem_uc main_arg5 (by decide))).trans (WD_main_arg5 m c)⟩) (run_all m ρ)

/-- The same run with the result array named. -/
theorem run_value : θ_run defs (onTc (τ := τ) (main (F := F))) ⟨m, fun _ => 0, ρ⟩ (fun r => ∀ c : Dev nD,
      r.2.mem ((c.tc : Thread nD τ).loc main_v4) = (dat1 (VC m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_v4 (by decide))).trans (WD_main_v4 m c),
      (h c _ (mem_uc main_arg0 (by decide))).trans (WD_main_arg0 m c),
      (h c _ (mem_uc main_arg1 (by decide))).trans (WD_main_arg1 m c),
      (h c _ (mem_uc main_arg2 (by decide))).trans (WD_main_arg2 m c),
      (h c _ (mem_uc main_arg3 (by decide))).trans (WD_main_arg3 m c),
      (h c _ (mem_uc main_arg4 (by decide))).trans (WD_main_arg4 m c),
      (h c _ (mem_uc main_arg5 (by decide))).trans (WD_main_arg5 m c)⟩) (run_all m ρ)

end Cert.KernelIdeal.Run

end
-- ==== Proof.KB0Body.lean ====
import proofs.«146551_j6992206758194_2_alg».proof.Proof.Gen.Kernel.Launch
import proofs.«146551_j6992206758194_2_alg».proof.Proof.Gen.Kernel.Skeleton
import proofs.«146551_j6992206758194_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The key/value projection call, point by point

The first kernel call projects the key and the value embeddings: on a grid of 4 × 4 points, point (b, j) takes rows
1024 j … 1024 j + 1023 of batch b of each embedding (windows 0 and 1, blocks [1,1024,1024]), the two transposed
weight matrices whole (windows 2 and 3, [1024,64], brought in at the first point only and left in place), and writes
the two products (windows 4 and 5, blocks [1,1024,64]), each block written back at every point.

This is the word-level program's copy: the same call, the same body, read at any float instance.

Everything here is stated at a parameter V, the contents of the core's buffers when the call is entered, and at any
float instance: each window's block at a point as a read of V; that every input buffer holds its block at every point,
fetched there or not; what the body leaves in the two output buffers — one whole store each, the matrix product of the
row block by the weight matrix —; the body's triple; the proof data of the pipeline and its body obligation. -/

set_option maxRecDepth 16384

noncomputable section

namespace Cert.Kernel.K0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The embedding windows' buffers hold their row block at every point, for any proof data whose array is V's and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The weight windows are brought in once, at the first point; at every later point the block index has not moved, so
    the buffer still holds the whole matrix. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rEmb : Rect S1x1024x1024 := Rect.unit (s := S1x1024x1024) ![0, 0, 0] S1x1024x1024.size inb_S1x1024x1024_S1x1024x1024_0_0_0
abbrev rWgt : Rect S1024x64 := Rect.unit (s := S1024x64) ![0, 0] S1024x64.size inb_S1024x64_S1024x64_0_0
abbrev rOut : Rect S1x1024x64 := Rect.unit (s := S1x1024x64) ![0, 0, 0] S1x1024x64.size inb_S1x1024x64_S1x1024x64_0_0_0

/-! ## What the body leaves in each output buffer -/

/-- The key output's buffer after the body: its one store, of the product of the key rows by the key weights. -/
def out0_4 (x0 : Vec F S1x1024x1024 .f32) (x2 : Vec F S1024x64 .f32) : Vec F S1x1024x64 .f32 :=
  View.canon [⟨rOut, k0_pay1 (View.ld x0 rEmb) (View.ld x2 rWgt)⟩]

/-- The value output's buffer after the body: its one store, of the product of the value rows by the value weights. -/
def out0_5 (x1 : Vec F S1x1024x1024 .f32) (x3 : Vec F S1024x64 .f32) : Vec F S1x1024x64 .f32 :=
  View.canon [⟨rOut, k0_pay2 (View.ld x1 rEmb) (View.ld x3 rWgt)⟩]

/-- A whole store covers the buffer. -/
theorem cover0_out (p0 : Vec F S1x1024x64 .f32) (y : S1x1024x64.Idx) :
    ∃ pc ∈ ([⟨rOut, p0⟩] : List (View.Piece (Elt F) S1x1024x64 .f32)), y ∈ pc.1.set :=
  View.cover_of_tiled [⟨rOut, p0⟩] S1x1024x64.size (by rfl) y

/-! ## The body's triple -/

set_option maxHeartbeats 1000000 in
/-- The body on whole buffers — the four inputs' at contents x0 … x3, the two outputs' at anything — runs to the
    continuation holding the inputs' as they were and each output's at its product. The body also loads each output
    buffer before storing it; the loaded value is not used. -/
theorem sound_kernel0 (c : Dev nD) (E : Set ℕ) (i : grid0.Coords)
    (arg2 : Memref sig .tc .vmem S1x1024x1024 .f32) (harg2 : arg2.IsWhole) (arg3 : Memref sig .tc .vmem S1x1024x1024 .f32) (harg3 : arg3.IsWhole)
    (arg4 : Memref sig .tc .vmem S1024x64 .f32) (harg4 : arg4.IsWhole) (arg5 : Memref sig .tc .vmem S1024x64 .f32) (harg5 : arg5.IsWhole)
    (arg6 : Memref sig .tc .vmem S1x1024x64 .f32) (harg6 : arg6.IsWhole) (arg7 : Memref sig .tc .vmem S1x1024x64 .f32) (harg7 : arg7.IsWhole)
    (x0 x1 : Vec F S1x1024x1024 .f32) (x2 x3 : Vec F S1024x64 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x2) ∗ owns (c : Thread nD τ) arg7 fullShare (out0_5 x1 x3)) -∗ K ⟨⟩))
      ⊢ wp frame (wpE (defs₀ (F := F)) Variants.none c none) E
          (cc0__proj_kv_kernel i arg2 harg2 arg3 harg3 arg4 harg4 arg5 harg5 arg6 harg6 arg7 harg7) K := by
  simp only [cc0__proj_kv_kernel_eq_skeleton]; unfold cc0__proj_kv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_out _)
  iexists _; isplitr
  swap; · iexact H5
  ipureintro
  exact View.read_writes_eq_canon _ _ _ (cover0_out _)

/-! ## The pipeline's proof data -/

/-- The proof data of the call on core c: the arrays as the call finds them; after the body at point t each input's
    buffer at its block and each output's at its product of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 2 t)
    | ⟨5, _⟩ => out0_5 (iblk0 V c 1 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 1 t) (iblk0 V c 3 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, the outputs' anything, so the body's triple applies;
    the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.K0

end
-- ==== Proof.KB1Runs.lean ====
/-
  The flash-attention call's body, point by point: what is shared by its five control cases.

  A grid point is (b, qi, kv), the last coordinate fastest, so the linear point t has kv = t % 8 and
  qi = (t / 8) % 8. The body has three conditionals on the coordinates alone: kv = 0 (project and scale the
  query block into its scratch, reset the running maximum, sum and accumulator), kv ≤ qi (absorb the key /
  value block kv into the running state) and kv = qi (divide the accumulator by the sum into the output block).
  Five assignments of the three are met on the grid; each condition is decided over the 256 points in closed
  form. The output block is stored only where kv = qi and is written back only where kv = 7; between the two
  its staging buffer is left as found.
-/
import proofs.«146551_j6992206758194_2_alg».proof.Proof.Gen.Kernel.Launch
import proofs.«146551_j6992206758194_2_alg».proof.Proof.Gen.Kernel.Skeleton
import proofs.«146551_j6992206758194_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.K1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, as the body computes them from the coordinates -/

/-- kv = 0, as the printed scalar chain. -/
abbrev cond1_0 (i : grid1.Coords) : Prop :=
  (Scalar.cmpi .ne (Scalar.extui (Scalar.cmpi .eq (BitVec.ofNat 32 (i 2).val) 0#32)) 0#32) = 1#1
/-- kv ≤ qi, as the printed scalar chain (a signed comparison of two small naturals). -/
abbrev cond1_1 (i : grid1.Coords) : Prop :=
  (Scalar.cmpi .ne (Scalar.extui (Scalar.cmpi .sle (BitVec.ofNat 32 (i 2).val) (BitVec.ofNat 32 (i 1).val))) 0#32) = 1#1
/-- kv = qi, as the printed condition of the output's store. -/
abbrev cond1_2 (i : grid1.Coords) : Prop := k1_cond3 i = 1#1

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 ≤ (t.val / 8) % 8 :=
  (by decide +kernel : ∀ t : Fin grid1.N, cond1_1 (grid1.coords t) ↔ t.val % 8 ≤ (t.val / 8) % 8)
theorem hcond1_2 : ∀ t : Fin cfg1.N, cond1_2 (grid1.coords t) ↔ t.val % 8 = (t.val / 8) % 8 :=
  (by decide +kernel : ∀ t : Fin grid1.N, cond1_2 (grid1.coords t) ↔ t.val % 8 = (t.val / 8) % 8)

/-! ## Where the output window is idle, and where it is written back -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Where kv ≠ qi the body stores nothing into the output block. -/
theorem idleAt1_4 : ∀ t : Fin cfg1.N, ¬cond1_2 (grid1.coords t) → cfg1.idle 4 (grid1.coords t) = true := by decide +kernel
/-- Where kv = qi it stores the whole block. -/
theorem liveAt1_4 : ∀ t : Fin cfg1.N, cond1_2 (grid1.coords t) → cfg1.idle 4 (grid1.coords t) = false := by decide +kernel

/-! ## The memrefs the body is called with -/

abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x64 .f32 := win1_4.stage (cfg1.slots t 4)
abbrev hs1_4 (t : Fin cfg1.N) : (ms1_4 t).IsWhole := hstage1_4 ((cfg1.slots t 4).cast nbuf1_4)
/-- The four scratch buffers: the scaled query block, the running maximum, the running sum, the accumulator. -/
abbrev scQ : Memref sig .tc .vmem S512x64 .f32 := Memref.whole cc1_scratch0
abbrev scM : Memref sig .tc .vmem S512x1 .f32 := Memref.whole cc1_scratch1
abbrev scL : Memref sig .tc .vmem S512x1 .f32 := Memref.whole cc1_scratch2
abbrev scA : Memref sig .tc .vmem S512x64 .f32 := Memref.whole cc1_scratch3
/-- Views through which stored contents are stated (any whole buffer of the shape serves). -/
abbrev VO : View sig .tc .vmem S1x512x64 .f32 := (Memref.whole cc1_stg4_0 : Memref sig .tc .vmem S1x512x64 .f32).view
abbrev VQ : View sig .tc .vmem S512x64 .f32 := scQ.view
abbrev VM : View sig .tc .vmem S512x1 .f32 := scM.view
abbrev VL : View sig .tc .vmem S512x1 .f32 := scL.view
abbrev VA : View sig .tc .vmem S512x64 .f32 := scA.view

end Cert.Kernel.K1

end
-- ==== Proof.KB1RunC.lean ====
/-
  The flash-attention body run symbolically in one control case (0 < kv < qi: absorb block kv).
-/
import proofs.«146551_j6992206758194_2_alg».proof.Proof.KB1Runs

set_option maxRecDepth 16384

noncomputable section

namespace Cert.Kernel.K1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case 0 < kv < qi: absorb block kv: on whole memrefs, the buffers it reads at their contents, it runs to the
    continuation with each buffer it stores holding the listed pieces written (last store first); the lists are
    what the symbolic run of the printed skeleton finds, each conditional decided by the case's hypotheses. -/
noncomputable def runC (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : ¬cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) :
    Σ' (L9 : List (View.Piece (Elt F) S512x1 .f32)), Σ' (L10 : List (View.Piece (Elt F) S512x1 .f32)), { L11 : List (View.Piece (Elt F) S512x64 .f32) //
      ∀ (E : Set ℕ) (K : PUnit → sProp 𝕄),
        iprop(owns (c : Thread nD τ) arg5 fullShare x5 ∗ owns (c : Thread nD τ) arg6 fullShare x6 ∗ owns (c : Thread nD τ) arg8 fullShare xs8 ∗ owns (c : Thread nD τ) arg9 fullShare xs9 ∗ owns (c : Thread nD τ) arg10 fullShare xs10 ∗ owns (c : Thread nD τ) arg11 fullShare xs11
            ∗ (iprop(owns (c : Thread nD τ) arg5 fullShare x5 ∗ owns (c : Thread nD τ) arg6 fullShare x6 ∗ owns (c : Thread nD τ) arg8 fullShare xs8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨?_, ?_, ?_, fun E K => ?run⟩
  case run =>
    simp only [cc1__flash_kernel_eq_skeleton]; unfold cc1__flash_kernel_skel
    simp only [k1_part1_eq_skeleton]
    unfold owns
    iintro ⟨⟨%f5, %hf5, H5⟩, ⟨%f6, %hf6, H6⟩, ⟨%f8, %hf8, H8⟩, ⟨%f9, %hf9, H9⟩, ⟨%f10, %hf10, H10⟩, ⟨%f11, %hf11, H11⟩, Hk⟩
    obtain rfl := harg5.eq_unread hf5; obtain rfl := harg6.eq_unread hf6; obtain rfl := harg8.eq_unread hf8; obtain rfl := harg9.eq_unread hf9; obtain rfl := harg10.eq_unread hf10; obtain rfl := harg11.eq_unread hf11
    sl_exec (disch := first | exact hc0 | exact hc1 | exact hc2)
    sl_step
    iapply Hk
    isplitl [H5]
    · iexists _; isplitr; · ipureintro; exact harg5.read_unread _
      iexact H5
    isplitl [H6]
    · iexists _; isplitr; · ipureintro; exact harg6.read_unread _
      iexact H6
    isplitl [H8]
    · iexists _; isplitr; · ipureintro; exact harg8.read_unread _
      iexact H8
    isplitl [H9]; · iexists _; iexact H9
    isplitl [H10]; · iexists _; iexact H10
    iexists _; iexact H11

end Cert.Kernel.K1

end
-- ==== Proof.KB1RunD.lean ====
/-
  The flash-attention body run symbolically in one control case (0 < kv = qi: absorb block kv, store the output).
-/
import proofs.«146551_j6992206758194_2_alg».proof.Proof.KB1RunC

set_option maxRecDepth 16384

noncomputable section

namespace Cert.Kernel.K1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case 0 < kv = qi: absorb block kv, store the output: on whole memrefs, the buffers it reads at their contents, it runs to the
    continuation with each buffer it stores holding the listed pieces written (last store first); the lists are
    what the symbolic run of the printed skeleton finds, each conditional decided by the case's hypotheses. -/
noncomputable def runD (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) :
    Σ' (L7 : List (View.Piece (Elt F) S1x512x64 .f32)), Σ' (L9 : List (View.Piece (Elt F) S512x1 .f32)), Σ' (L10 : List (View.Piece (Elt F) S512x1 .f32)), { L11 : List (View.Piece (Elt F) S512x64 .f32) //
      ∀ (E : Set ℕ) (K : PUnit → sProp 𝕄),
        iprop(owns (c : Thread nD τ) arg5 fullShare x5 ∗ owns (c : Thread nD τ) arg6 fullShare x6 ∗ (∃ d, owns (c : Thread nD τ) arg7 fullShare d) ∗ owns (c : Thread nD τ) arg8 fullShare xs8 ∗ owns (c : Thread nD τ) arg9 fullShare xs9 ∗ owns (c : Thread nD τ) arg10 fullShare xs10 ∗ owns (c : Thread nD τ) arg11 fullShare xs11
            ∗ (iprop(owns (c : Thread nD τ) arg5 fullShare x5 ∗ owns (c : Thread nD τ) arg6 fullShare x6 ∗ (∃ f, arg7.view.loc (c : Thread nD τ) ↦[arg7.view.set]{fullShare} arg7.view.writes (Elt F) f L7) ∗ owns (c : Thread nD τ) arg8 fullShare xs8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
    obtain rfl := harg5.eq_unread hf5; obtain rfl := harg6.eq_unread hf6; obtain rfl := harg8.eq_unread hf8; obtain rfl := harg9.eq_unread hf9; obtain rfl := harg10.eq_unread hf10; obtain rfl := harg11.eq_unread hf11
    sl_exec (disch := first | exact hc0 | exact hc1 | exact hc2)
    sl_step
    iapply Hk
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    isplitl [H9]; · iexists _; iexact H9
    isplitl [H10]; · iexists _; iexact H10
    iexists _; iexact H11

end Cert.Kernel.K1

end
-- ==== Proof.KB1RunB.lean ====
/-
  The flash-attention body run symbolically in one control case (kv = 0 < qi: reset, absorb block 0).
-/
import proofs.«146551_j6992206758194_2_alg».proof.Proof.KB1RunD

set_option maxRecDepth 16384

noncomputable section

namespace Cert.Kernel.K1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case kv = 0 < qi: reset, absorb block 0: on whole memrefs, the buffers it reads at their contents, it runs to the
    continuation with each buffer it stores holding the listed pieces written (last store first); the lists are
    what the symbolic run of the printed skeleton finds, each conditional decided by the case's hypotheses. -/
noncomputable def runB (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) :
    Σ' (L8 : List (View.Piece (Elt F) S512x64 .f32)), Σ' (L9 : List (View.Piece (Elt F) S512x1 .f32)), Σ' (L10 : List (View.Piece (Elt F) S512x1 .f32)), { L11 : List (View.Piece (Elt F) S512x64 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, ⟨%d11, %f11, -, H11⟩, Hk⟩
    obtain rfl := harg3.eq_unread hf3; obtain rfl := harg4.eq_unread hf4; obtain rfl := harg5.eq_unread hf5; obtain rfl := harg6.eq_unread hf6
    sl_exec (disch := first | exact hc0 | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]; · iexists _; iexact H8
    isplitl [H9]; · iexists _; iexact H9
    isplitl [H10]; · iexists _; iexact H10
    iexists _; iexact H11

end Cert.Kernel.K1

end
-- ==== Proof.KB1RunA.lean ====
/-
  The flash-attention body run symbolically in one control case (kv = 0 = qi: reset, absorb block 0, store the output).
-/
import proofs.«146551_j6992206758194_2_alg».proof.Proof.KB1RunB

set_option maxRecDepth 16384

noncomputable section

namespace Cert.Kernel.K1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case kv = 0 = qi: reset, absorb block 0, store the output: on whole memrefs, the buffers it reads at their contents, it runs to the
    continuation with each buffer it stores holding the listed pieces written (last store first); the lists are
    what the symbolic run of the printed skeleton finds, each conditional decided by the case's hypotheses. -/
noncomputable def runA (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) :
    Σ' (L7 : List (View.Piece (Elt F) S1x512x64 .f32)), Σ' (L8 : List (View.Piece (Elt F) S512x64 .f32)), Σ' (L9 : List (View.Piece (Elt F) S512x1 .f32)), Σ' (L10 : List (View.Piece (Elt F) S512x1 .f32)), { L11 : List (View.Piece (Elt F) S512x64 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1__flash_kernel_eq_skeleton]; unfold cc1__flash_kernel_skel
    simp only [k1_part1_eq_skeleton]
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
    obtain rfl := harg3.eq_unread hf3; obtain rfl := harg4.eq_unread hf4; obtain rfl := harg5.eq_unread hf5; obtain rfl := harg6.eq_unread hf6
    sl_exec (disch := first | exact hc0 | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.Kernel.K1

end
-- ==== Proof.KB1RunE.lean ====
/-
  The flash-attention body where kv > qi: none of its three conditionals is taken, and it touches nothing.
-/
import proofs.«146551_j6992206758194_2_alg».proof.Proof.KB1Runs

set_option maxRecDepth 16384

noncomputable section

namespace Cert.Kernel.K1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the case kv > qi: it returns at once, whatever the buffers hold. -/
theorem runE (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : ¬cond1_1 i) (hc2 : ¬cond1_2 i)
    (E : Set ℕ) (K : PUnit → sProp 𝕄) :
    K ⟨⟩ ⊢ wp frame (wpE (defs₀ (F := F)) Variants.none c none) E (cc1__flash_kernel i arg3 harg3 arg4 harg4 arg5 harg5 arg6 harg6 arg7 harg7 arg8 harg8 arg9 harg9 arg10 harg10 arg11 harg11) K := by
  simp only [cc1__flash_kernel_eq_skeleton]; unfold cc1__flash_kernel_skel
  iintro Hk
  sl_exec (disch := first | exact hc0 | exact hc1 | exact hc2)
  sl_step
  iexact Hk

end Cert.Kernel.K1

end
-- ==== Proof.KB1Cases.lean ====
/-
  What each control case of the flash-attention body leaves in the buffers it stores: the pieces the symbolic
  run found, read back, and that they tile each buffer (so the buffer's contents do not depend on what it held).
-/
import proofs.«146551_j6992206758194_2_alg».proof.Proof.KB1RunA
import proofs.«146551_j6992206758194_2_alg».proof.Proof.KB1RunE

set_option maxRecDepth 16384

noncomputable section

namespace Cert.Kernel.K1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the case leaves in the output block: its pieces read back. -/
def oA (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) : Vec F S1x512x64 .f32 :=
  VO.read (Elt F) (VO.writes (Elt F) VO.junk (runA c i arg3 harg3 arg4 harg4 arg5 harg5 arg6 harg6 arg7 harg7 arg8 harg8 arg9 harg9 arg10 harg10 arg11 harg11 hc0 hc1 hc2 x3 x4 x5 x6).1)
/-- Those pieces tile the buffer. -/
theorem covA_7 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) (y : S1x512x64.Idx) :
    ∃ pc ∈ (runA c i arg3 harg3 arg4 harg4 arg5 harg5 arg6 harg6 arg7 harg7 arg8 harg8 arg9 harg9 arg10 harg10 arg11 harg11 hc0 hc1 hc2 x3 x4 x5 x6).1, y ∈ pc.1.set :=
  View.cover_of_tiledL ((runA c i arg3 harg3 arg4 harg4 arg5 harg5 arg6 harg6 arg7 harg7 arg8 harg8 arg9 harg9 arg10 harg10 arg11 harg11 hc0 hc1 hc2 x3 x4 x5 x6).1) S1x512x64.size (by sl_kernel_rfl) y

/-- What the case leaves in the query scratch: its pieces read back. -/
def qA (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) : Vec F S512x64 .f32 :=
  VQ.read (Elt F) (VQ.writes (Elt F) VQ.junk (runA c i arg3 harg3 arg4 harg4 arg5 harg5 arg6 harg6 arg7 harg7 arg8 harg8 arg9 harg9 arg10 harg10 arg11 harg11 hc0 hc1 hc2 x3 x4 x5 x6).2.1)
/-- Those pieces tile the buffer. -/
theorem covA_8 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) (y : S512x64.Idx) :
    ∃ pc ∈ (runA c i arg3 harg3 arg4 harg4 arg5 harg5 arg6 harg6 arg7 harg7 arg8 harg8 arg9 harg9 arg10 harg10 arg11 harg11 hc0 hc1 hc2 x3 x4 x5 x6).2.1, y ∈ pc.1.set :=
  View.cover_of_tiledL ((runA c i arg3 harg3 arg4 harg4 arg5 harg5 arg6 harg6 arg7 harg7 arg8 harg8 arg9 harg9 arg10 harg10 arg11 harg11 hc0 hc1 hc2 x3 x4 x5 x6).2.1) S512x64.size (by sl_kernel_rfl) y

/-- What the case leaves in the running maximum: its pieces read back. -/
def mA (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) : Vec F S512x1 .f32 :=
  VM.read (Elt F) (VM.writes (Elt F) VM.junk (runA c i arg3 harg3 arg4 harg4 arg5 harg5 arg6 harg6 arg7 harg7 arg8 harg8 arg9 harg9 arg10 harg10 arg11 harg11 hc0 hc1 hc2 x3 x4 x5 x6).2.2.1)
/-- Those pieces tile the buffer. -/
theorem covA_9 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) (y : S512x1.Idx) :
    ∃ pc ∈ (runA c i arg3 harg3 arg4 harg4 arg5 harg5 arg6 harg6 arg7 harg7 arg8 harg8 arg9 harg9 arg10 harg10 arg11 harg11 hc0 hc1 hc2 x3 x4 x5 x6).2.2.1, y ∈ pc.1.set :=
  View.cover_of_tiledL ((runA c i arg3 harg3 arg4 harg4 arg5 harg5 arg6 harg6 arg7 harg7 arg8 harg8 arg9 harg9 arg10 harg10 arg11 harg11 hc0 hc1 hc2 x3 x4 x5 x6).2.2.1) S512x1.size (by sl_kernel_rfl) y

/-- What the case leaves in the running sum: its pieces read back. -/
def lA (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) : Vec F S512x1 .f32 :=
  VL.read (Elt F) (VL.writes (Elt F) VL.junk (runA c i arg3 harg3 arg4 harg4 arg5 harg5 arg6 harg6 arg7 harg7 arg8 harg8 arg9 harg9 arg10 harg10 arg11 harg11 hc0 hc1 hc2 x3 x4 x5 x6).2.2.2.1)
/-- Those pieces tile the buffer. -/
theorem covA_10 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) (y : S512x1.Idx) :
    ∃ pc ∈ (runA c i arg3 harg3 arg4 harg4 arg5 harg5 arg6 harg6 arg7 harg7 arg8 harg8 arg9 harg9 arg10 harg10 arg11 harg11 hc0 hc1 hc2 x3 x4 x5 x6).2.2.2.1, y ∈ pc.1.set :=
  View.cover_of_tiledL ((runA c i arg3 harg3 arg4 harg4 arg5 harg5 arg6 harg6 arg7 harg7 arg8 harg8 arg9 harg9 arg10 harg10 arg11 harg11 hc0 hc1 hc2 x3 x4 x5 x6).2.2.2.1) S512x1.size (by sl_kernel_rfl) y

/-- What the case leaves in the accumulator: its pieces read back. -/
def aA (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) : Vec F S512x64 .f32 :=
  VA.read (Elt F) (VA.writes (Elt F) VA.junk (runA c i arg3 harg3 arg4 harg4 arg5 harg5 arg6 harg6 arg7 harg7 arg8 harg8 arg9 harg9 arg10 harg10 arg11 harg11 hc0 hc1 hc2 x3 x4 x5 x6).2.2.2.2.1)
/-- Those pieces tile the buffer. -/
theorem covA_11 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) (y : S512x64.Idx) :
    ∃ pc ∈ (runA c i arg3 harg3 arg4 harg4 arg5 harg5 arg6 harg6 arg7 harg7 arg8 harg8 arg9 harg9 arg10 harg10 arg11 harg11 hc0 hc1 hc2 x3 x4 x5 x6).2.2.2.2.1, y ∈ pc.1.set :=
  View.cover_of_tiledL ((runA c i arg3 harg3 arg4 harg4 arg5 harg5 arg6 harg6 arg7 harg7 arg8 harg8 arg9 harg9 arg10 harg10 arg11 harg11 hc0 hc1 hc2 x3 x4 x5 x6).2.2.2.2.1) S512x64.size (by sl_kernel_rfl) y

/-- What the case leaves in the query scratch: its pieces read back. -/
def qB (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) : Vec F S512x64 .f32 :=
  VQ.read (Elt F) (VQ.writes (Elt F) VQ.junk (runB c i arg3 harg3 arg4 harg4 arg5 harg5 arg6 harg6 arg7 harg7 arg8 harg8 arg9 harg9 arg10 harg10 arg11 harg11 hc0 hc1 hc2 x3 x4 x5 x6).1)
/-- Those pieces tile the buffer. -/
theorem covB_8 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) (y : S512x64.Idx) :
    ∃ pc ∈ (runB c i arg3 harg3 arg4 harg4 arg5 harg5 arg6 harg6 arg7 harg7 arg8 harg8 arg9 harg9 arg10 harg10 arg11 harg11 hc0 hc1 hc2 x3 x4 x5 x6).1, y ∈ pc.1.set :=
  View.cover_of_tiledL ((runB c i arg3 harg3 arg4 harg4 arg5 harg5 arg6 harg6 arg7 harg7 arg8 harg8 arg9 harg9 arg10 harg10 arg11 harg11 hc0 hc1 hc2 x3 x4 x5 x6).1) S512x64.size (by sl_kernel_rfl) y

/-- What the case leaves in the running maximum: its pieces read back. -/
def mB (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) : Vec F S512x1 .f32 :=
  VM.read (Elt F) (VM.writes (Elt F) VM.junk (runB c i arg3 harg3 arg4 harg4 arg5 harg5 arg6 harg6 arg7 harg7 arg8 harg8 arg9 harg9 arg10 harg10 arg11 harg11 hc0 hc1 hc2 x3 x4 x5 x6).2.1)
/-- Those pieces tile the buffer. -/
theorem covB_9 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) (y : S512x1.Idx) :
    ∃ pc ∈ (runB c i arg3 harg3 arg4 harg4 arg5 harg5 arg6 harg6 arg7 harg7 arg8 harg8 arg9 harg9 arg10 harg10 arg11 harg11 hc0 hc1 hc2 x3 x4 x5 x6).2.1, y ∈ pc.1.set :=
  View.cover_of_tiledL ((runB c i arg3 harg3 arg4 harg4 arg5 harg5 arg6 harg6 arg7 harg7 arg8 harg8 arg9 harg9 arg10 harg10 arg11 harg11 hc0 hc1 hc2 x3 x4 x5 x6).2.1) S512x1.size (by sl_kernel_rfl) y

/-- What the case leaves in the running sum: its pieces read back. -/
def lB (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) : Vec F S512x1 .f32 :=
  VL.read (Elt F) (VL.writes (Elt F) VL.junk (runB c i arg3 harg3 arg4 harg4 arg5 harg5 arg6 harg6 arg7 harg7 arg8 harg8 arg9 harg9 arg10 harg10 arg11 harg11 hc0 hc1 hc2 x3 x4 x5 x6).2.2.1)
/-- Those pieces tile the buffer. -/
theorem covB_10 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) (y : S512x1.Idx) :
    ∃ pc ∈ (runB c i arg3 harg3 arg4 harg4 arg5 harg5 arg6 harg6 arg7 harg7 arg8 harg8 arg9 harg9 arg10 harg10 arg11 harg11 hc0 hc1 hc2 x3 x4 x5 x6).2.2.1, y ∈ pc.1.set :=
  View.cover_of_tiledL ((runB c i arg3 harg3 arg4 harg4 arg5 harg5 arg6 harg6 arg7 harg7 arg8 harg8 arg9 harg9 arg10 harg10 arg11 harg11 hc0 hc1 hc2 x3 x4 x5 x6).2.2.1) S512x1.size (by sl_kernel_rfl) y

/-- What the case leaves in the accumulator: its pieces read back. -/
def aB (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) : Vec F S512x64 .f32 :=
  VA.read (Elt F) (VA.writes (Elt F) VA.junk (runB c i arg3 harg3 arg4 harg4 arg5 harg5 arg6 harg6 arg7 harg7 arg8 harg8 arg9 harg9 arg10 harg10 arg11 harg11 hc0 hc1 hc2 x3 x4 x5 x6).2.2.2.1)
/-- Those pieces tile the buffer. -/
theorem covB_11 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) (y : S512x64.Idx) :
    ∃ pc ∈ (runB c i arg3 harg3 arg4 harg4 arg5 harg5 arg6 harg6 arg7 harg7 arg8 harg8 arg9 harg9 arg10 harg10 arg11 harg11 hc0 hc1 hc2 x3 x4 x5 x6).2.2.2.1, y ∈ pc.1.set :=
  View.cover_of_tiledL ((runB c i arg3 harg3 arg4 harg4 arg5 harg5 arg6 harg6 arg7 harg7 arg8 harg8 arg9 harg9 arg10 harg10 arg11 harg11 hc0 hc1 hc2 x3 x4 x5 x6).2.2.2.1) S512x64.size (by sl_kernel_rfl) y

/-- What the case leaves in the running maximum: its pieces read back. -/
def mC (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : ¬cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) : Vec F S512x1 .f32 :=
  VM.read (Elt F) (VM.writes (Elt F) VM.junk (runC c i arg3 harg3 arg4 harg4 arg5 harg5 arg6 harg6 arg7 harg7 arg8 harg8 arg9 harg9 arg10 harg10 arg11 harg11 hc0 hc1 hc2 x5 x6 xs8 xs9 xs10 xs11).1)
/-- Those pieces tile the buffer. -/
theorem covC_9 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : ¬cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) (y : S512x1.Idx) :
    ∃ pc ∈ (runC c i arg3 harg3 arg4 harg4 arg5 harg5 arg6 harg6 arg7 harg7 arg8 harg8 arg9 harg9 arg10 harg10 arg11 harg11 hc0 hc1 hc2 x5 x6 xs8 xs9 xs10 xs11).1, y ∈ pc.1.set :=
  View.cover_of_tiledL ((runC c i arg3 harg3 arg4 harg4 arg5 harg5 arg6 harg6 arg7 harg7 arg8 harg8 arg9 harg9 arg10 harg10 arg11 harg11 hc0 hc1 hc2 x5 x6 xs8 xs9 xs10 xs11).1) S512x1.size (by sl_kernel_rfl) y

/-- What the case leaves in the running sum: its pieces read back. -/
def lC (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : ¬cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) : Vec F S512x1 .f32 :=
  VL.read (Elt F) (VL.writes (Elt F) VL.junk (runC c i arg3 harg3 arg4 harg4 arg5 harg5 arg6 harg6 arg7 harg7 arg8 harg8 arg9 harg9 arg10 harg10 arg11 harg11 hc0 hc1 hc2 x5 x6 xs8 xs9 xs10 xs11).2.1)
/-- Those pieces tile the buffer. -/
theorem covC_10 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : ¬cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) (y : S512x1.Idx) :
    ∃ pc ∈ (runC c i arg3 harg3 arg4 harg4 arg5 harg5 arg6 harg6 arg7 harg7 arg8 harg8 arg9 harg9 arg10 harg10 arg11 harg11 hc0 hc1 hc2 x5 x6 xs8 xs9 xs10 xs11).2.1, y ∈ pc.1.set :=
  View.cover_of_tiledL ((runC c i arg3 harg3 arg4 harg4 arg5 harg5 arg6 harg6 arg7 harg7 arg8 harg8 arg9 harg9 arg10 harg10 arg11 harg11 hc0 hc1 hc2 x5 x6 xs8 xs9 xs10 xs11).2.1) S512x1.size (by sl_kernel_rfl) y

/-- What the case leaves in the accumulator: its pieces read back. -/
def aC (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : ¬cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) : Vec F S512x64 .f32 :=
  VA.read (Elt F) (VA.writes (Elt F) VA.junk (runC c i arg3 harg3 arg4 harg4 arg5 harg5 arg6 harg6 arg7 harg7 arg8 harg8 arg9 harg9 arg10 harg10 arg11 harg11 hc0 hc1 hc2 x5 x6 xs8 xs9 xs10 xs11).2.2.1)
/-- Those pieces tile the buffer. -/
theorem covC_11 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : ¬cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) (y : S512x64.Idx) :
    ∃ pc ∈ (runC c i arg3 harg3 arg4 harg4 arg5 harg5 arg6 harg6 arg7 harg7 arg8 harg8 arg9 harg9 arg10 harg10 arg11 harg11 hc0 hc1 hc2 x5 x6 xs8 xs9 xs10 xs11).2.2.1, y ∈ pc.1.set :=
  View.cover_of_tiledL ((runC c i arg3 harg3 arg4 harg4 arg5 harg5 arg6 harg6 arg7 harg7 arg8 harg8 arg9 harg9 arg10 harg10 arg11 harg11 hc0 hc1 hc2 x5 x6 xs8 xs9 xs10 xs11).2.2.1) S512x64.size (by sl_kernel_rfl) y

/-- What the case leaves in the output block: its pieces read back. -/
def oD (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) : Vec F S1x512x64 .f32 :=
  VO.read (Elt F) (VO.writes (Elt F) VO.junk (runD c i arg3 harg3 arg4 harg4 arg5 harg5 arg6 harg6 arg7 harg7 arg8 harg8 arg9 harg9 arg10 harg10 arg11 harg11 hc0 hc1 hc2 x5 x6 xs8 xs9 xs10 xs11).1)
/-- Those pieces tile the buffer. -/
theorem covD_7 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) (y : S1x512x64.Idx) :
    ∃ pc ∈ (runD c i arg3 harg3 arg4 harg4 arg5 harg5 arg6 harg6 arg7 harg7 arg8 harg8 arg9 harg9 arg10 harg10 arg11 harg11 hc0 hc1 hc2 x5 x6 xs8 xs9 xs10 xs11).1, y ∈ pc.1.set :=
  View.cover_of_tiledL ((runD c i arg3 harg3 arg4 harg4 arg5 harg5 arg6 harg6 arg7 harg7 arg8 harg8 arg9 harg9 arg10 harg10 arg11 harg11 hc0 hc1 hc2 x5 x6 xs8 xs9 xs10 xs11).1) S1x512x64.size (by sl_kernel_rfl) y

/-- What the case leaves in the running maximum: its pieces read back. -/
def mD (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) : Vec F S512x1 .f32 :=
  VM.read (Elt F) (VM.writes (Elt F) VM.junk (runD c i arg3 harg3 arg4 harg4 arg5 harg5 arg6 harg6 arg7 harg7 arg8 harg8 arg9 harg9 arg10 harg10 arg11 harg11 hc0 hc1 hc2 x5 x6 xs8 xs9 xs10 xs11).2.1)
/-- Those pieces tile the buffer. -/
theorem covD_9 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) (y : S512x1.Idx) :
    ∃ pc ∈ (runD c i arg3 harg3 arg4 harg4 arg5 harg5 arg6 harg6 arg7 harg7 arg8 harg8 arg9 harg9 arg10 harg10 arg11 harg11 hc0 hc1 hc2 x5 x6 xs8 xs9 xs10 xs11).2.1, y ∈ pc.1.set :=
  View.cover_of_tiledL ((runD c i arg3 harg3 arg4 harg4 arg5 harg5 arg6 harg6 arg7 harg7 arg8 harg8 arg9 harg9 arg10 harg10 arg11 harg11 hc0 hc1 hc2 x5 x6 xs8 xs9 xs10 xs11).2.1) S512x1.size (by sl_kernel_rfl) y

/-- What the case leaves in the running sum: its pieces read back. -/
def lD (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) : Vec F S512x1 .f32 :=
  VL.read (Elt F) (VL.writes (Elt F) VL.junk (runD c i arg3 harg3 arg4 harg4 arg5 harg5 arg6 harg6 arg7 harg7 arg8 harg8 arg9 harg9 arg10 harg10 arg11 harg11 hc0 hc1 hc2 x5 x6 xs8 xs9 xs10 xs11).2.2.1)
/-- Those pieces tile the buffer. -/
theorem covD_10 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) (y : S512x1.Idx) :
    ∃ pc ∈ (runD c i arg3 harg3 arg4 harg4 arg5 harg5 arg6 harg6 arg7 harg7 arg8 harg8 arg9 harg9 arg10 harg10 arg11 harg11 hc0 hc1 hc2 x5 x6 xs8 xs9 xs10 xs11).2.2.1, y ∈ pc.1.set :=
  View.cover_of_tiledL ((runD c i arg3 harg3 arg4 harg4 arg5 harg5 arg6 harg6 arg7 harg7 arg8 harg8 arg9 harg9 arg10 harg10 arg11 harg11 hc0 hc1 hc2 x5 x6 xs8 xs9 xs10 xs11).2.2.1) S512x1.size (by sl_kernel_rfl) y

/-- What the case leaves in the accumulator: its pieces read back. -/
def aD (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) : Vec F S512x64 .f32 :=
  VA.read (Elt F) (VA.writes (Elt F) VA.junk (runD c i arg3 harg3 arg4 harg4 arg5 harg5 arg6 harg6 arg7 harg7 arg8 harg8 arg9 harg9 arg10 harg10 arg11 harg11 hc0 hc1 hc2 x5 x6 xs8 xs9 xs10 xs11).2.2.2.1)
/-- Those pieces tile the buffer. -/
theorem covD_11 (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) (y : S512x64.Idx) :
    ∃ pc ∈ (runD c i arg3 harg3 arg4 harg4 arg5 harg5 arg6 harg6 arg7 harg7 arg8 harg8 arg9 harg9 arg10 harg10 arg11 harg11 hc0 hc1 hc2 x5 x6 xs8 xs9 xs10 xs11).2.2.2.1, y ∈ pc.1.set :=
  View.cover_of_tiledL ((runD c i arg3 harg3 arg4 harg4 arg5 harg5 arg6 harg6 arg7 harg7 arg8 harg8 arg9 harg9 arg10 harg10 arg11 harg11 hc0 hc1 hc2 x5 x6 xs8 xs9 xs10 xs11).2.2.2.1) S512x64.size (by sl_kernel_rfl) y

end Cert.Kernel.K1

end
-- ==== Proof.KB1Body.lean ====
/-
  The flash-attention call, point by point: what its buffers hold after every point, and the body obligation.

  After the point t = (b, qi, kv) the four scratch buffers hold the running state of the row block (b, qi) — the
  scaled query block, the running maximum, the running sum, the accumulator — and the output's staging buffer holds
  the block stored at kv = qi from then on. The state is a recursion on the linear point: at kv = 0 the state is
  reset from the query block and the weights, whatever the scratch held; at kv ≤ qi the key / value block kv is
  absorbed; at kv = qi the quotient accumulator / sum is stored; at kv > qi nothing changes. The output block is
  written back at kv = 7 only: for qi < 7 what is written back is what the buffer has kept since kv = qi, which
  the look-back through the idle points identifies.
-/
import proofs.«146551_j6992206758194_2_alg».proof.Proof.KB1Cases

set_option maxRecDepth 16384

noncomputable section

namespace Cert.Kernel.K1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What every point leaves -/

/-- After the point at position `n`: the output block's buffer, then the four scratch buffers. -/
def outsAt1 (c : Dev nD) : (n : ℕ) → n < cfg1.N → Vec F S1x512x64 .f32 × Vec F S512x64 .f32 × Vec F S512x1 .f32 × Vec F S512x1 .f32 × Vec F S512x64 .f32
  | 0, hn => (oA c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scQ (Memref.isWhole_whole _) scM (Memref.isWhole_whole _) scL (Memref.isWhole_whole _) scA (Memref.isWhole_whole _) ((hcond1_0 ⟨0, hn⟩).mpr (show (0 : ℕ) % 8 = 0 from by decide)) ((hcond1_1 ⟨0, hn⟩).mpr (show (0 : ℕ) % 8 ≤ (0 / 8) % 8 from by decide)) ((hcond1_2 ⟨0, hn⟩).mpr (show (0 : ℕ) % 8 = (0 / 8) % 8 from by decide)) (iblk1 V c 0 ⟨0, hn⟩) (iblk1 V c 1 ⟨0, hn⟩) (iblk1 V c 2 ⟨0, hn⟩) (iblk1 V c 3 ⟨0, hn⟩), qA c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scQ (Memref.isWhole_whole _) scM (Memref.isWhole_whole _) scL (Memref.isWhole_whole _) scA (Memref.isWhole_whole _) ((hcond1_0 ⟨0, hn⟩).mpr (show (0 : ℕ) % 8 = 0 from by decide)) ((hcond1_1 ⟨0, hn⟩).mpr (show (0 : ℕ) % 8 ≤ (0 / 8) % 8 from by decide)) ((hcond1_2 ⟨0, hn⟩).mpr (show (0 : ℕ) % 8 = (0 / 8) % 8 from by decide)) (iblk1 V c 0 ⟨0, hn⟩) (iblk1 V c 1 ⟨0, hn⟩) (iblk1 V c 2 ⟨0, hn⟩) (iblk1 V c 3 ⟨0, hn⟩), mA c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scQ (Memref.isWhole_whole _) scM (Memref.isWhole_whole _) scL (Memref.isWhole_whole _) scA (Memref.isWhole_whole _) ((hcond1_0 ⟨0, hn⟩).mpr (show (0 : ℕ) % 8 = 0 from by decide)) ((hcond1_1 ⟨0, hn⟩).mpr (show (0 : ℕ) % 8 ≤ (0 / 8) % 8 from by decide)) ((hcond1_2 ⟨0, hn⟩).mpr (show (0 : ℕ) % 8 = (0 / 8) % 8 from by decide)) (iblk1 V c 0 ⟨0, hn⟩) (iblk1 V c 1 ⟨0, hn⟩) (iblk1 V c 2 ⟨0, hn⟩) (iblk1 V c 3 ⟨0, hn⟩), lA c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scQ (Memref.isWhole_whole _) scM (Memref.isWhole_whole _) scL (Memref.isWhole_whole _) scA (Memref.isWhole_whole _) ((hcond1_0 ⟨0, hn⟩).mpr (show (0 : ℕ) % 8 = 0 from by decide)) ((hcond1_1 ⟨0, hn⟩).mpr (show (0 : ℕ) % 8 ≤ (0 / 8) % 8 from by decide)) ((hcond1_2 ⟨0, hn⟩).mpr (show (0 : ℕ) % 8 = (0 / 8) % 8 from by decide)) (iblk1 V c 0 ⟨0, hn⟩) (iblk1 V c 1 ⟨0, hn⟩) (iblk1 V c 2 ⟨0, hn⟩) (iblk1 V c 3 ⟨0, hn⟩), aA c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scQ (Memref.isWhole_whole _) scM (Memref.isWhole_whole _) scL (Memref.isWhole_whole _) scA (Memref.isWhole_whole _) ((hcond1_0 ⟨0, hn⟩).mpr (show (0 : ℕ) % 8 = 0 from by decide)) ((hcond1_1 ⟨0, hn⟩).mpr (show (0 : ℕ) % 8 ≤ (0 / 8) % 8 from by decide)) ((hcond1_2 ⟨0, hn⟩).mpr (show (0 : ℕ) % 8 = (0 / 8) % 8 from by decide)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h2 : (n + 1) % 8 = ((n + 1) / 8) % 8 then
        (oA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) ((hcond1_0 ⟨n + 1, hn⟩).mpr h0) ((hcond1_1 ⟨n + 1, hn⟩).mpr (show (n + 1) % 8 ≤ ((n + 1) / 8) % 8 from by omega)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩), qA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) ((hcond1_0 ⟨n + 1, hn⟩).mpr h0) ((hcond1_1 ⟨n + 1, hn⟩).mpr (show (n + 1) % 8 ≤ ((n + 1) / 8) % 8 from by omega)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩), mA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) ((hcond1_0 ⟨n + 1, hn⟩).mpr h0) ((hcond1_1 ⟨n + 1, hn⟩).mpr (show (n + 1) % 8 ≤ ((n + 1) / 8) % 8 from by omega)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩), lA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) ((hcond1_0 ⟨n + 1, hn⟩).mpr h0) ((hcond1_1 ⟨n + 1, hn⟩).mpr (show (n + 1) % 8 ≤ ((n + 1) / 8) % 8 from by omega)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩), aA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) ((hcond1_0 ⟨n + 1, hn⟩).mpr h0) ((hcond1_1 ⟨n + 1, hn⟩).mpr (show (n + 1) % 8 ≤ ((n + 1) / 8) % 8 from by omega)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩))
      else
        ((outsAt1 c n (Nat.lt_of_succ_lt hn)).1, qB c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) ((hcond1_0 ⟨n + 1, hn⟩).mpr h0) ((hcond1_1 ⟨n + 1, hn⟩).mpr (show (n + 1) % 8 ≤ ((n + 1) / 8) % 8 from by omega)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), mB c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) ((hcond1_0 ⟨n + 1, hn⟩).mpr h0) ((hcond1_1 ⟨n + 1, hn⟩).mpr (show (n + 1) % 8 ≤ ((n + 1) / 8) % 8 from by omega)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), lB c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) ((hcond1_0 ⟨n + 1, hn⟩).mpr h0) ((hcond1_1 ⟨n + 1, hn⟩).mpr (show (n + 1) % 8 ≤ ((n + 1) / 8) % 8 from by omega)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), aB c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) ((hcond1_0 ⟨n + 1, hn⟩).mpr h0) ((hcond1_1 ⟨n + 1, hn⟩).mpr (show (n + 1) % 8 ≤ ((n + 1) / 8) % 8 from by omega)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 ≤ ((n + 1) / 8) % 8 then
        if h2 : (n + 1) % 8 = ((n + 1) / 8) % 8 then
          (oD c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) (fun h => h0 ((hcond1_0 ⟨n + 1, hn⟩).mp h)) ((hcond1_1 ⟨n + 1, hn⟩).mpr h1) ((hcond1_2 ⟨n + 1, hn⟩).mpr h2) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, (outsAt1 c n (Nat.lt_of_succ_lt hn)).2.1, mD c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) (fun h => h0 ((hcond1_0 ⟨n + 1, hn⟩).mp h)) ((hcond1_1 ⟨n + 1, hn⟩).mpr h1) ((hcond1_2 ⟨n + 1, hn⟩).mpr h2) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, lD c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) (fun h => h0 ((hcond1_0 ⟨n + 1, hn⟩).mp h)) ((hcond1_1 ⟨n + 1, hn⟩).mpr h1) ((hcond1_2 ⟨n + 1, hn⟩).mpr h2) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, aD c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) (fun h => h0 ((hcond1_0 ⟨n + 1, hn⟩).mp h)) ((hcond1_1 ⟨n + 1, hn⟩).mpr h1) ((hcond1_2 ⟨n + 1, hn⟩).mpr h2) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)
        else
          ((outsAt1 c n (Nat.lt_of_succ_lt hn)).1, (outsAt1 c n (Nat.lt_of_succ_lt hn)).2.1, mC c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, lC c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, aC c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scQ (Memref.isWhole_whole _) scM (Memref.isWhole_whole _) scL (Memref.isWhole_whole _) scA (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)
      else
        (outsAt1 c n (Nat.lt_of_succ_lt hn))

theorem outsAt1_A (c : Dev nD) (t : Fin cfg1.N) (h0 : t.val % 8 = 0) (h2 : t.val % 8 = (t.val / 8) % 8) :
    outsAt1 V c t.val t.isLt = (oA c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) ((hcond1_0 t).mpr h0) ((hcond1_1 t).mpr (by omega)) ((hcond1_2 t).mpr h2) (iblk1 V c 0 t) (iblk1 V c 1 t) (iblk1 V c 2 t) (iblk1 V c 3 t), qA c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) ((hcond1_0 t).mpr h0) ((hcond1_1 t).mpr (by omega)) ((hcond1_2 t).mpr h2) (iblk1 V c 0 t) (iblk1 V c 1 t) (iblk1 V c 2 t) (iblk1 V c 3 t), mA c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) ((hcond1_0 t).mpr h0) ((hcond1_1 t).mpr (by omega)) ((hcond1_2 t).mpr h2) (iblk1 V c 0 t) (iblk1 V c 1 t) (iblk1 V c 2 t) (iblk1 V c 3 t), lA c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) ((hcond1_0 t).mpr h0) ((hcond1_1 t).mpr (by omega)) ((hcond1_2 t).mpr h2) (iblk1 V c 0 t) (iblk1 V c 1 t) (iblk1 V c 2 t) (iblk1 V c 3 t), aA c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) ((hcond1_0 t).mpr h0) ((hcond1_1 t).mpr (by omega)) ((hcond1_2 t).mpr h2) (iblk1 V c 0 t) (iblk1 V c 1 t) (iblk1 V c 2 t) (iblk1 V c 3 t)) := by
  obtain ⟨n, hn⟩ := t
  cases n with
  | zero => exact rfl
  | succ n => exact (dif_pos h0).trans ((dif_pos h2).trans rfl)

theorem outsAt1_B (c : Dev nD) (t : Fin cfg1.N) (h0 : t.val % 8 = 0) (h2 : ¬t.val % 8 = (t.val / 8) % 8) :
    outsAt1 V c t.val t.isLt = ((outsAt1 V c (t.val - 1) (Nat.lt_of_le_of_lt (Nat.sub_le _ _) t.isLt)).1, qB c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) ((hcond1_0 t).mpr h0) ((hcond1_1 t).mpr (by omega)) (fun h => h2 ((hcond1_2 t).mp h)) (iblk1 V c 0 t) (iblk1 V c 1 t) (iblk1 V c 2 t) (iblk1 V c 3 t), mB c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) ((hcond1_0 t).mpr h0) ((hcond1_1 t).mpr (by omega)) (fun h => h2 ((hcond1_2 t).mp h)) (iblk1 V c 0 t) (iblk1 V c 1 t) (iblk1 V c 2 t) (iblk1 V c 3 t), lB c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) ((hcond1_0 t).mpr h0) ((hcond1_1 t).mpr (by omega)) (fun h => h2 ((hcond1_2 t).mp h)) (iblk1 V c 0 t) (iblk1 V c 1 t) (iblk1 V c 2 t) (iblk1 V c 3 t), aB c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) ((hcond1_0 t).mpr h0) ((hcond1_1 t).mpr (by omega)) (fun h => h2 ((hcond1_2 t).mp h)) (iblk1 V c 0 t) (iblk1 V c 1 t) (iblk1 V c 2 t) (iblk1 V c 3 t)) := by
  obtain ⟨n, hn⟩ := t
  cases n with
  | zero => exact absurd (show (0 : ℕ) % 8 = (0 / 8) % 8 from by decide) h2
  | succ n => exact (dif_pos h0).trans ((dif_neg h2).trans rfl)

theorem outsAt1_C (c : Dev nD) (t : Fin cfg1.N) (h0 : ¬t.val % 8 = 0) (h1 : t.val % 8 ≤ (t.val / 8) % 8) (h2 : ¬t.val % 8 = (t.val / 8) % 8) :
    outsAt1 V c t.val t.isLt = ((outsAt1 V c (t.val - 1) (Nat.lt_of_le_of_lt (Nat.sub_le _ _) t.isLt)).1, (outsAt1 V c (t.val - 1) (Nat.lt_of_le_of_lt (Nat.sub_le _ _) t.isLt)).2.1, mC c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) (fun h => h0 ((hcond1_0 t).mp h)) ((hcond1_1 t).mpr h1) (fun h => h2 ((hcond1_2 t).mp h)) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, lC c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) (fun h => h0 ((hcond1_0 t).mp h)) ((hcond1_1 t).mpr h1) (fun h => h2 ((hcond1_2 t).mp h)) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, aC c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) (fun h => h0 ((hcond1_0 t).mp h)) ((hcond1_1 t).mpr h1) (fun h => h2 ((hcond1_2 t).mp h)) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd (show (0 : ℕ) % 8 = 0 from by decide) h0
  | succ n => exact (dif_neg h0).trans ((dif_pos h1).trans ((dif_neg h2).trans rfl))

theorem outsAt1_D (c : Dev nD) (t : Fin cfg1.N) (h0 : ¬t.val % 8 = 0) (h1 : t.val % 8 ≤ (t.val / 8) % 8) (h2 : t.val % 8 = (t.val / 8) % 8) :
    outsAt1 V c t.val t.isLt = (oD c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) (fun h => h0 ((hcond1_0 t).mp h)) ((hcond1_1 t).mpr h1) ((hcond1_2 t).mpr h2) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, (outsAt1 V c (t.val - 1) (Nat.lt_of_le_of_lt (Nat.sub_le _ _) t.isLt)).2.1, mD c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) (fun h => h0 ((hcond1_0 t).mp h)) ((hcond1_1 t).mpr h1) ((hcond1_2 t).mpr h2) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, lD c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) (fun h => h0 ((hcond1_0 t).mp h)) ((hcond1_1 t).mpr h1) ((hcond1_2 t).mpr h2) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, aD c (grid1.coords t) (ms1_0 t) (hs1_0 t) (ms1_1 t) (hs1_1 t) (ms1_2 t) (hs1_2 t) (ms1_3 t) (hs1_3 t) (ms1_4 t) (hs1_4 t) scQ (Memref.isWhole_whole _) scM (Memref.isWhole_whole _) scL (Memref.isWhole_whole _) scA (Memref.isWhole_whole _) (fun h => h0 ((hcond1_0 t).mp h)) ((hcond1_1 t).mpr h1) ((hcond1_2 t).mpr h2) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd (show (0 : ℕ) % 8 = 0 from by decide) h0
  | succ n => exact (dif_neg h0).trans ((dif_pos h1).trans ((dif_pos h2).trans rfl))

theorem outsAt1_E (c : Dev nD) (t : Fin cfg1.N) (h0 : ¬t.val % 8 = 0) (h1 : ¬t.val % 8 ≤ (t.val / 8) % 8) :
    outsAt1 V c t.val t.isLt = (outsAt1 V c (t.val - 1) (Nat.lt_of_le_of_lt (Nat.sub_le _ _) t.isLt)) := by
  obtain ⟨n, hn⟩ := t
  cases n with
  | zero => exact absurd (show (0 : ℕ) % 8 = 0 from by decide) h0
  | succ n => exact (dif_neg h0).trans ((dif_neg h1).trans rfl)

/-! ## The invariant: the scratch buffers at the state the point before left -/

/-- Before the first point the scoped buffers no window stages hold anything; afterwards the four scratch buffers
    hold the state the point before left, the other scoped buffers anything. -/
def PhiS (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scQ fullShare (outsAt1 V c n hn).2.1 ∗ owns (c : Thread nD τ) scM fullShare (outsAt1 V c n hn).2.2.1 ∗ owns (c : Thread nD τ) scL fullShare (outsAt1 V c n hn).2.2.2.1 ∗ owns (c : Thread nD τ) scA fullShare (outsAt1 V c n hn).2.2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scQ fullShare (outsAt1 V c n hn).2.1 ∗ owns (c : Thread nD τ) scM fullShare (outsAt1 V c n hn).2.2.1 ∗ owns (c : Thread nD τ) scL fullShare (outsAt1 V c n hn).2.2.2.1 ∗ owns (c : Thread nD τ) scA fullShare (outsAt1 V c n hn).2.2.2.2) ∗ (∃ r, prngReg c r)) := rfl

theorem PhiS_pos (c : Dev nD) (n : ℕ) (h : n ≤ cfg1.N) (hz : n ≠ 0) :
    PhiS V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scQ fullShare (outsAt1 V c (n - 1) (by omega)).2.1 ∗ owns (c : Thread nD τ) scM fullShare (outsAt1 V c (n - 1) (by omega)).2.2.1 ∗ owns (c : Thread nD τ) scL fullShare (outsAt1 V c (n - 1) (by omega)).2.2.2.1 ∗ owns (c : Thread nD τ) scA fullShare (outsAt1 V c (n - 1) (by omega)).2.2.2.2) ∗ (∃ r, prngReg c r)) := by
  cases n with
  | zero => exact absurd rfl hz
  | succ n => rfl

/-- The class invariant with the four scratch buffers named. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scQ fullShare d) ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scQ, scM, scL, scA, owns_whole]; try rfl

/-! ## The proof data -/

/-- The proof data of the call on core `c`: the arrays as the call finds them; after the body at point `t` each
    input's buffer at its block and the output's at the state's first component; the invariant above; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Input window 0's current buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
/-- Input window 1's current buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
/-- Input window 2's current buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
/-- Input window 3's current buffer holds its block at every point, fetched there or not. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- The output block is written back at kv = 7 only. -/
theorem noFlush1_4 (t : Fin cfg1.N) (h : t.val % 8 ≠ 7) : (cfg1.win 4).flush t = false :=
  Bool.eq_false_iff.mpr fun hf => h ((flush1_4 t).mp hf)

/-- Past its row block's diagonal tile (qi < kv) the output's buffer still holds what kv = qi stored: the points
    between store nothing into it and do not write it back, so the look-back reaches the store. -/
theorem before1_4_late (c : Dev nD) : ∀ (n : ℕ) (hn : n < cfg1.N), (n / 8) % 8 < n % 8 →
    ∀ d, (dat1 V c).before 4 ⟨n, hn⟩ d = (outsAt1 V c n hn).1 := by
  intro n
  induction n with
  | zero => intro hn h; exact absurd h (by decide)
  | succ k ih =>
    intro hn h d
    have hN : k + 1 < 256 := lt_of_lt_of_eq hn (show cfg1.N = 256 from N_1)
    have hk : k < cfg1.N := Nat.lt_of_succ_lt hn
    rw [(dat1 V c).before_of_pos 4 ⟨k + 1, hn⟩ (Nat.succ_ne_zero k) ((cfg1.win 4).fetch_out rfl _) d]
    rw [show (⟨(⟨k + 1, hn⟩ : Fin cfg1.N).val - 1, Nat.lt_of_le_of_lt (Nat.sub_le _ _) (⟨k + 1, hn⟩ : Fin cfg1.N).isLt⟩ : Fin cfg1.N) = ⟨k, hk⟩ from rfl]
    rw [noFlush1_4 ⟨k, hk⟩ (by show k % 8 ≠ 7; omega), if_neg Bool.false_ne_true]
    rw [outsAt1_E V c ⟨k + 1, hn⟩ (by show ¬(k + 1) % 8 = 0; omega) (by show ¬(k + 1) % 8 ≤ ((k + 1) / 8) % 8; omega)]
    show (dat1 V c).left 4 ⟨k, hk⟩ d = (outsAt1 V c k hk).1
    unfold Dat.left
    by_cases hl : k % 8 = (k / 8) % 8
    · rw [liveAt1_4 ⟨k, hk⟩ ((hcond1_2 ⟨k, hk⟩).mpr hl)]
      show (dat1 V c).kept 4 ⟨k, hk⟩ d = _
      unfold Dat.kept
      rw [Pipeline.fill_of_clip_none 4 _ (fun _ => rfl) d ((dat1 V c).after 4 ⟨k, hk⟩), Window.fill_cut, after1_4]
    · rw [idleAt1_4 ⟨k, hk⟩ (fun hh => hl ((hcond1_2 ⟨k, hk⟩).mp hh))]
      exact ih hk (by omega) d

theorem before1_4_late' (c : Dev nD) (t : Fin cfg1.N) (h : (t.val / 8) % 8 < t.val % 8) (d) :
    (dat1 V c).before 4 t d = (outsAt1 V c t.val t.isLt).1 := before1_4_late V c t.val t.isLt h d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 8000000 in
/-- The body at any point. The closed forms say which of the five cases the point is in; the invariant hands the
    body the scratch buffers at the state the point before left (at anything before the first point), and takes
    them back at this point's state; the output's buffer is stored where kv = qi, handed back as found where the
    point does not write it back, and where kv = 7 > qi handed back at what kv = qi stored. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 256 := lt_of_lt_of_eq t.isLt (show cfg1.N = 256 from N_1)
  by_cases h0 : t.val % 8 = 0
  · by_cases h2 : t.val % 8 = (t.val / 8) % 8
    · rw [show (dat1 V c).leavesExact 4 t = owns (c : Thread nD τ) (ms1_4 t) fullShare ((dat1 V c).after 4 t) from by
        unfold Dat.leavesExact; rw [liveAt1_4 t ((hcond1_2 t).mpr h2)], after1_4]
      rw [outsAt1_A V c t h0 h2]
      unfold oA qA mA lA aA; (try dsimp only)
      by_cases hz : t.val = 0
      · rw [PhiS_castSucc V c t, PhiS_zero V c _ _ hz, PhiA1_eq]
        iintro ⟨⟨⟨R0, R1, R2, R3, R4, R5, R6, R7, R8, R9, ⟨%dq, HQ⟩, ⟨%dm, HM⟩, ⟨%dl, HL⟩, ⟨%da, HA⟩⟩, Hg⟩, Ho, ⟨%d0, H0⟩, ⟨%d1, H1⟩, ⟨%d2, H2⟩, ⟨%d3, H3⟩, ⟨%d4, H4⟩⟩
        iapply ((runA c (grid1.coords t) _ _ _ _ _ _ _ _ _ _ _ _ _ _ _ _ _ _ ((hcond1_0 t).mpr h0) ((hcond1_1 t).mpr (by omega)) ((hcond1_2 t).mpr h2) (iblk1 V c 0 t) (iblk1 V c 1 t) (iblk1 V c 2 t) (iblk1 V c 3 t)).2.2.2.2.2 Set.univ _)
        isplitl [H0]; · iexact H0
        isplitl [H1]; · iexact H1
        isplitl [H2]; · iexact H2
        isplitl [H3]; · iexact H3
        isplitl [H4]; · iexists _; iexact H4
        isplitl [HQ]; · iexists _; iexact HQ
        isplitl [HM]; · iexists _; iexact HM
        isplitl [HL]; · iexists _; iexact HL
        isplitl [HA]; · iexists _; iexact HA
        iintro ⟨H0, H1, H2, H3, ⟨%e7, H4⟩, ⟨%e8, HQ⟩, ⟨%e9, HM⟩, ⟨%e10, HL⟩, ⟨%e11, HA⟩⟩
        isplitl [R0 R1 R2 R3 R4 R5 R6 R7 R8 R9 HQ HM HL HA Hg]
        · isplitl [R0 R1 R2 R3 R4 R5 R6 R7 R8 R9 HQ HM HL HA]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [HQ]
            · unfold owns; iexists _; isplitr
              swap; · iexact HQ
              ipureintro; exact View.read_writes_of_cover _ _ _ _ _ (covA_8 c _ _ _ _ _ _ _ _ _ _ _ _ _ _ _ _ _ _ _ _ _ _ _ _ _ _)
            isplitl [HM]
            · unfold owns; iexists _; isplitr
              swap; · iexact HM
              ipureintro; exact View.read_writes_of_cover _ _ _ _ _ (covA_9 c _ _ _ _ _ _ _ _ _ _ _ _ _ _ _ _ _ _ _ _ _ _ _ _ _ _)
            isplitl [HL]
            · unfold owns; iexists _; isplitr
              swap; · iexact HL
              ipureintro; exact View.read_writes_of_cover _ _ _ _ _ (covA_10 c _ _ _ _ _ _ _ _ _ _ _ _ _ _ _ _ _ _ _ _ _ _ _ _ _ _)
            unfold owns; iexists _; isplitr
            swap; · iexact HA
            ipureintro; exact View.read_writes_of_cover _ _ _ _ _ (covA_11 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (covA_7 c _ _ _ _ _ _ _ _ _ _ _ _ _ _ _ _ _ _ _ _ _ _ _ _ _ _)
      · rw [PhiS_castSucc V c t, PhiS_pos V c _ _ hz]
        iintro ⟨⟨⟨R0, R1, R2, R3, R4, R5, R6, R7, R8, R9, HQ, HM, HL, HA⟩, Hg⟩, Ho, ⟨%d0, H0⟩, ⟨%d1, H1⟩, ⟨%d2, H2⟩, ⟨%d3, H3⟩, ⟨%d4, H4⟩⟩
        iapply ((runA c (grid1.coords t) _ _ _ _ _ _ _ _ _ _ _ _ _ _ _ _ _ _ ((hcond1_0 t).mpr h0) ((hcond1_1 t).mpr (by omega)) ((hcond1_2 t).mpr h2) (iblk1 V c 0 t) (iblk1 V c 1 t) (iblk1 V c 2 t) (iblk1 V c 3 t)).2.2.2.2.2 Set.univ _)
        isplitl [H0]; · iexact H0
        isplitl [H1]; · iexact H1
        isplitl [H2]; · iexact H2
        isplitl [H3]; · iexact H3
        isplitl [H4]; · iexists _; iexact H4
        isplitl [HQ]; · iexists _; iexact HQ
        isplitl [HM]; · iexists _; iexact HM
        isplitl [HL]; · iexists _; iexact HL
        isplitl [HA]; · iexists _; iexact HA
        iintro ⟨H0, H1, H2, H3, ⟨%e7, H4⟩, ⟨%e8, HQ⟩, ⟨%e9, HM⟩, ⟨%e10, HL⟩, ⟨%e11, HA⟩⟩
        isplitl [R0 R1 R2 R3 R4 R5 R6 R7 R8 R9 HQ HM HL HA Hg]
        · isplitl [R0 R1 R2 R3 R4 R5 R6 R7 R8 R9 HQ HM HL HA]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [HQ]
            · unfold owns; iexists _; isplitr
              swap; · iexact HQ
              ipureintro; exact View.read_writes_of_cover _ _ _ _ _ (covA_8 c _ _ _ _ _ _ _ _ _ _ _ _ _ _ _ _ _ _ _ _ _ _ _ _ _ _)
            isplitl [HM]
            · unfold owns; iexists _; isplitr
              swap; · iexact HM
              ipureintro; exact View.read_writes_of_cover _ _ _ _ _ (covA_9 c _ _ _ _ _ _ _ _ _ _ _ _ _ _ _ _ _ _ _ _ _ _ _ _ _ _)
            isplitl [HL]
            · unfold owns; iexists _; isplitr
              swap; · iexact HL
              ipureintro; exact View.read_writes_of_cover _ _ _ _ _ (covA_10 c _ _ _ _ _ _ _ _ _ _ _ _ _ _ _ _ _ _ _ _ _ _ _ _ _ _)
            unfold owns; iexists _; isplitr
            swap; · iexact HA
            ipureintro; exact View.read_writes_of_cover _ _ _ _ _ (covA_11 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (covA_7 c _ _ _ _ _ _ _ _ _ _ _ _ _ _ _ _ _ _ _ _ _ _ _ _ _ _)
    · rw [Dat.leavesExact_idle (dat1 V c) 4 t (idleAt1_4 t (fun h => h2 ((hcond1_2 t).mp h))) (noFlush1_4 t (by omega))]
      rw [outsAt1_B V c t h0 h2]
      unfold qB mB lB aB; (try dsimp only)
      have hz : t.val ≠ 0 := by omega
      rw [PhiS_castSucc V c t, PhiS_pos V c _ _ hz]
      iintro ⟨⟨⟨R0, R1, R2, R3, R4, R5, R6, R7, R8, R9, HQ, HM, HL, HA⟩, Hg⟩, Ho, ⟨%d0, H0⟩, ⟨%d1, H1⟩, ⟨%d2, H2⟩, ⟨%d3, H3⟩, ⟨%d4, H4⟩⟩
      iapply ((runB c (grid1.coords t) _ _ _ _ _ _ _ _ _ _ _ _ _ _ _ _ _ _ ((hcond1_0 t).mpr h0) ((hcond1_1 t).mpr (by omega)) (fun h => h2 ((hcond1_2 t).mp h)) (iblk1 V c 0 t) (iblk1 V c 1 t) (iblk1 V c 2 t) (iblk1 V c 3 t)).2.2.2.2 Set.univ _)
      isplitl [H0]; · iexact H0
      isplitl [H1]; · iexact H1
      isplitl [H2]; · iexact H2
      isplitl [H3]; · iexact H3
      isplitl [HQ]; · iexists _; iexact HQ
      isplitl [HM]; · iexists _; iexact HM
      isplitl [HL]; · iexists _; iexact HL
      isplitl [HA]; · iexists _; iexact HA
      iintro ⟨H0, H1, H2, H3, ⟨%e8, HQ⟩, ⟨%e9, HM⟩, ⟨%e10, HL⟩, ⟨%e11, HA⟩⟩
      isplitl [R0 R1 R2 R3 R4 R5 R6 R7 R8 R9 HQ HM HL HA Hg]
      · isplitl [R0 R1 R2 R3 R4 R5 R6 R7 R8 R9 HQ HM HL HA]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HQ]
          · unfold owns; iexists _; isplitr
            swap; · iexact HQ
            ipureintro; exact View.read_writes_of_cover _ _ _ _ _ (covB_8 c _ _ _ _ _ _ _ _ _ _ _ _ _ _ _ _ _ _ _ _ _ _ _ _ _ _)
          isplitl [HM]
          · unfold owns; iexists _; isplitr
            swap; · iexact HM
            ipureintro; exact View.read_writes_of_cover _ _ _ _ _ (covB_9 c _ _ _ _ _ _ _ _ _ _ _ _ _ _ _ _ _ _ _ _ _ _ _ _ _ _)
          isplitl [HL]
          · unfold owns; iexists _; isplitr
            swap; · iexact HL
            ipureintro; exact View.read_writes_of_cover _ _ _ _ _ (covB_10 c _ _ _ _ _ _ _ _ _ _ _ _ _ _ _ _ _ _ _ _ _ _ _ _ _ _)
          unfold owns; iexists _; isplitr
          swap; · iexact HA
          ipureintro; exact View.read_writes_of_cover _ _ _ _ _ (covB_11 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · by_cases h1 : t.val % 8 ≤ (t.val / 8) % 8
    · have hz : t.val ≠ 0 := by omega
      by_cases h2 : t.val % 8 = (t.val / 8) % 8
      · rw [show (dat1 V c).leavesExact 4 t = owns (c : Thread nD τ) (ms1_4 t) fullShare ((dat1 V c).after 4 t) from by
        unfold Dat.leavesExact; rw [liveAt1_4 t ((hcond1_2 t).mpr h2)], after1_4]
        rw [outsAt1_D V c t h0 h1 h2]
        unfold oD mD lD aD; (try dsimp only)
        rw [PhiS_castSucc V c t, PhiS_pos V c _ _ hz]
        iintro ⟨⟨⟨R0, R1, R2, R3, R4, R5, R6, R7, R8, R9, HQ, HM, HL, HA⟩, Hg⟩, Ho, ⟨%d0, H0⟩, ⟨%d1, H1⟩, ⟨%d2, H2⟩, ⟨%d3, H3⟩, ⟨%d4, H4⟩⟩
        iapply ((runD c (grid1.coords t) _ _ _ _ _ _ _ _ _ _ _ _ _ _ _ _ _ _ (fun h => h0 ((hcond1_0 t).mp h)) ((hcond1_1 t).mpr h1) ((hcond1_2 t).mpr h2) (iblk1 V c 2 t) (iblk1 V c 3 t) _ _ _ _).2.2.2.2 Set.univ _)
        isplitl [H2]; · iexact H2
        isplitl [H3]; · iexact H3
        isplitl [H4]; · iexists _; iexact H4
        isplitl [HQ]; · iexact HQ
        isplitl [HM]; · iexact HM
        isplitl [HL]; · iexact HL
        isplitl [HA]; · iexact HA
        iintro ⟨H2, H3, ⟨%e7, H4⟩, HQ, ⟨%e9, HM⟩, ⟨%e10, HL⟩, ⟨%e11, HA⟩⟩
        isplitl [R0 R1 R2 R3 R4 R5 R6 R7 R8 R9 HQ HM HL HA Hg]
        · isplitl [R0 R1 R2 R3 R4 R5 R6 R7 R8 R9 HQ HM HL HA]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [HQ]; · iexact HQ
            isplitl [HM]
            · unfold owns; iexists _; isplitr
              swap; · iexact HM
              ipureintro; exact View.read_writes_of_cover _ _ _ _ _ (covD_9 c _ _ _ _ _ _ _ _ _ _ _ _ _ _ _ _ _ _ _ _ _ _ _ _ _ _ _ _)
            isplitl [HL]
            · unfold owns; iexists _; isplitr
              swap; · iexact HL
              ipureintro; exact View.read_writes_of_cover _ _ _ _ _ (covD_10 c _ _ _ _ _ _ _ _ _ _ _ _ _ _ _ _ _ _ _ _ _ _ _ _ _ _ _ _)
            unfold owns; iexists _; isplitr
            swap; · iexact HA
            ipureintro; exact View.read_writes_of_cover _ _ _ _ _ (covD_11 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (covD_7 c _ _ _ _ _ _ _ _ _ _ _ _ _ _ _ _ _ _ _ _ _ _ _ _ _ _ _ _)
      · rw [Dat.leavesExact_idle (dat1 V c) 4 t (idleAt1_4 t (fun h => h2 ((hcond1_2 t).mp h))) (noFlush1_4 t (by omega))]
        rw [outsAt1_C V c t h0 h1 h2]
        unfold mC lC aC; (try dsimp only)
        rw [PhiS_castSucc V c t, PhiS_pos V c _ _ hz]
        iintro ⟨⟨⟨R0, R1, R2, R3, R4, R5, R6, R7, R8, R9, HQ, HM, HL, HA⟩, Hg⟩, Ho, ⟨%d0, H0⟩, ⟨%d1, H1⟩, ⟨%d2, H2⟩, ⟨%d3, H3⟩, ⟨%d4, H4⟩⟩
        iapply ((runC c (grid1.coords t) _ _ _ _ _ _ _ _ _ _ _ _ _ _ _ _ _ _ (fun h => h0 ((hcond1_0 t).mp h)) ((hcond1_1 t).mpr h1) (fun h => h2 ((hcond1_2 t).mp h)) (iblk1 V c 2 t) (iblk1 V c 3 t) _ _ _ _).2.2.2 Set.univ _)
        isplitl [H2]; · iexact H2
        isplitl [H3]; · iexact H3
        isplitl [HQ]; · iexact HQ
        isplitl [HM]; · iexact HM
        isplitl [HL]; · iexact HL
        isplitl [HA]; · iexact HA
        iintro ⟨H2, H3, HQ, ⟨%e9, HM⟩, ⟨%e10, HL⟩, ⟨%e11, HA⟩⟩
        isplitl [R0 R1 R2 R3 R4 R5 R6 R7 R8 R9 HQ HM HL HA Hg]
        · isplitl [R0 R1 R2 R3 R4 R5 R6 R7 R8 R9 HQ HM HL HA]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [HQ]; · iexact HQ
            isplitl [HM]
            · unfold owns; iexists _; isplitr
              swap; · iexact HM
              ipureintro; exact View.read_writes_of_cover _ _ _ _ _ (covC_9 c _ _ _ _ _ _ _ _ _ _ _ _ _ _ _ _ _ _ _ _ _ _ _ _ _ _ _ _)
            isplitl [HL]
            · unfold owns; iexists _; isplitr
              swap; · iexact HL
              ipureintro; exact View.read_writes_of_cover _ _ _ _ _ (covC_10 c _ _ _ _ _ _ _ _ _ _ _ _ _ _ _ _ _ _ _ _ _ _ _ _ _ _ _ _)
            unfold owns; iexists _; isplitr
            swap; · iexact HA
            ipureintro; exact View.read_writes_of_cover _ _ _ _ _ (covC_11 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := by omega
      rw [outsAt1_E V c t h0 h1]
      rw [PhiS_castSucc V c t, PhiS_pos V c _ _ hz]
      by_cases h7 : t.val % 8 = 7
      · rw [show (dat1 V c).leavesExact 4 t = owns (c : Thread nD τ) (ms1_4 t) fullShare ((dat1 V c).after 4 t) from by
          unfold Dat.leavesExact; rw [idleAt1_4 t (fun h => h1 (le_of_eq ((hcond1_2 t).mp h))), (flush1_4 t).mpr h7], after1_4]
        rw [outsAt1_E V c t h0 h1]
        simp only [before1_4_late' V c t (by omega)]
        rw [outsAt1_E V c t h0 h1]
        iintro ⟨⟨⟨R0, R1, R2, R3, R4, R5, R6, R7, R8, R9, HQ, HM, HL, HA⟩, Hg⟩, Ho, ⟨%d0, H0⟩, ⟨%d1, H1⟩, ⟨%d2, H2⟩, ⟨%d3, H3⟩, ⟨%d4, H4⟩⟩
        iapply (runE c (grid1.coords t) _ _ _ _ _ _ _ _ _ _ _ _ _ _ _ _ _ _ (fun h => h0 ((hcond1_0 t).mp h)) (fun h => h1 ((hcond1_1 t).mp h)) (fun h => h1 (le_of_eq ((hcond1_2 t).mp h))) Set.univ _)
        isplitl [R0 R1 R2 R3 R4 R5 R6 R7 R8 R9 HQ HM HL HA Hg]
        · isplitl [R0 R1 R2 R3 R4 R5 R6 R7 R8 R9 HQ HM HL HA]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [HQ]; · iexact HQ
            isplitl [HM]; · iexact HM
            isplitl [HL]; · iexact HL
            iexact HA
          iexact Hg
        isplitl [Ho]; · iexact Ho
        isplitl [H0]; · iexact H0
        isplitl [H1]; · iexact H1
        isplitl [H2]; · iexact H2
        isplitl [H3]; · iexact H3
        iexact H4
      · rw [Dat.leavesExact_idle (dat1 V c) 4 t (idleAt1_4 t (fun h => h1 (le_of_eq ((hcond1_2 t).mp h)))) (noFlush1_4 t h7)]
        iintro ⟨⟨⟨R0, R1, R2, R3, R4, R5, R6, R7, R8, R9, HQ, HM, HL, HA⟩, Hg⟩, Ho, ⟨%d0, H0⟩, ⟨%d1, H1⟩, ⟨%d2, H2⟩, ⟨%d3, H3⟩, ⟨%d4, H4⟩⟩
        iapply (runE c (grid1.coords t) _ _ _ _ _ _ _ _ _ _ _ _ _ _ _ _ _ _ (fun h => h0 ((hcond1_0 t).mp h)) (fun h => h1 ((hcond1_1 t).mp h)) (fun h => h1 (le_of_eq ((hcond1_2 t).mp h))) Set.univ _)
        isplitl [R0 R1 R2 R3 R4 R5 R6 R7 R8 R9 HQ HM HL HA Hg]
        · isplitl [R0 R1 R2 R3 R4 R5 R6 R7 R8 R9 HQ HM HL HA]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [HQ]; · iexact HQ
            isplitl [HM]; · iexact HM
            isplitl [HL]; · iexact HL
            iexact HA
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the call is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the state's name is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨R0, R1, R2, R3, R4, R5, R6, R7, R8, R9, HQ, HM, HL, HA⟩, Hg⟩
  isplitl [R0 R1 R2 R3 R4 R5 R6 R7 R8 R9 HQ HM HL HA]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HQ]; · iexists _; iexact HQ
    isplitl [HM]; · iexists _; iexact HM
    isplitl [HL]; · iexists _; iexact HL
    iexists _; iexact HA
  iexact Hg

theorem hout1 (c : Dev nD) : (dat1 V c).Φ (Fin.last cfg1.N) ⊢ Pipeline.ΦA spec1 c :=
  Phi_out1 V c _ (by rw [Fin.val_last]; have : cfg1.N = 256 := N_1; omega)

end Cert.Kernel.K1

end
-- ==== Proof.KBRun.lean ====
/-
  The whole run of @main: three host transposes, the key / value projection call, the flash-attention call.

  The unscoped buffers' contents are followed through @main: at launch the memory; after the transposes the
  transposed weights written; after the projection call its two output arrays at what its write-backs leave;
  after the attention call its output array likewise. Each call is entered from the contents before it and left at
  the contents after it, and the run ends with every unscoped buffer at the last contents — which gives both that
  the argument arrays are unchanged (no transpose and no call writes one) and what the result array holds.
-/
import proofs.«146551_j6992206758194_2_alg».proof.Proof.KB0Body
import proofs.«146551_j6992206758194_2_alg».proof.Proof.KB1Body
import proofs.«146551_j6992206758194_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.K0 Cert.Kernel.K1

variable (m : (ℓ : Loc nD τ sig) → Buf (Elt F) ℓ) (ρ : Dev nD → PrngReg)

/-! ## The buffers' contents at each boundary -/

/-- At launch. -/
abbrev WA : Dev nD → Valuation τ sig (Elt F) := fun c b => m (c, b)
/-- After the three transposes. -/
abbrev WB : Dev nD → Valuation τ sig (Elt F) := fun c => StableHlo.after hostOps0 (WA m c)
abbrev VB : (c : Dev nD) → (b : Ref sig .tc) → Buf (Elt F) ((c : Thread nD τ).loc b) := fun c b => WB m c b
/-- After the projection call: its arrays at what its write-backs leave, every other buffer as before. -/
def WC (c : Dev nD) : Valuation τ sig (Elt F) :=
  Pipeline.withArrays spec0 c (WB m c) fun w => (dat0 (VB m) c).arrAt w cfg0.N
theorem WC_arr (c : Dev nD) (w : Fin cfg0.W) :
    WC m c (Proc.devRef .tc (Pipeline.arrRef spec0 w)) = (dat0 (VB m) c).arrAt w cfg0.N := by
  unfold WC; exact Pipeline.withArrays_arr spec0 launch0.win.arr_inj c _ _ w
theorem WC_of_ne (c : Dev nD) (b : Ref sig .tc) (hb : ∀ w, Pipeline.arrRef spec0 w ≠ b) :
    WC m c (Proc.devRef .tc b) = WB m c (Proc.devRef .tc b) := by
  unfold WC; exact Pipeline.withArrays_of_ne spec0 c _ _ b hb
abbrev VC : (c : Dev nD) → (b : Ref sig .tc) → Buf (Elt F) ((c : Thread nD τ).loc b) := fun c b => WC m c b
theorem hF0 (c : Dev nD) (w : Fin cfg0.W) : (dat0 (VB m) c).arrAt w cfg0.N = VC m c (Pipeline.arrRef spec0 w) :=
  (WC_arr m c w).symm
theorem hrest0 (c : Dev nD) : ∀ b, b ∉ Finset.univ.image (Pipeline.arrRef spec0) → VC m c b = VB m c b :=
  fun b hb => WC_of_ne m c b fun w e => hb (Finset.mem_image.mpr ⟨w, Finset.mem_univ _, e⟩)
/-- After the attention call. -/
def WD (c : Dev nD) : Valuation τ sig (Elt F) :=
  Pipeline.withArrays spec1 c (WC m c) fun w => (dat1 (VC m) c).arrAt w cfg1.N
theorem WD_arr (c : Dev nD) (w : Fin cfg1.W) :
    WD m c (Proc.devRef .tc (Pipeline.arrRef spec1 w)) = (dat1 (VC m) c).arrAt w cfg1.N := by
  unfold WD; exact Pipeline.withArrays_arr spec1 launch1.win.arr_inj c _ _ w
theorem WD_of_ne (c : Dev nD) (b : Ref sig .tc) (hb : ∀ w, Pipeline.arrRef spec1 w ≠ b) :
    WD m c (Proc.devRef .tc b) = WC m c (Proc.devRef .tc b) := by
  unfold WD; exact Pipeline.withArrays_of_ne spec1 c _ _ b hb
abbrev VD : (c : Dev nD) → (b : Ref sig .tc) → Buf (Elt F) ((c : Thread nD τ).loc b) := fun c b => WD m c b
theorem hF1 (c : Dev nD) (w : Fin cfg1.W) : (dat1 (VC m) c).arrAt w cfg1.N = VD m c (Pipeline.arrRef spec1 w) :=
  (WD_arr m c w).symm
theorem hrest1 (c : Dev nD) : ∀ b, b ∉ Finset.univ.image (Pipeline.arrRef spec1) → VD m c b = VC m c b :=
  fun b hb => WD_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Both calls' proof data, each at the contents its call is entered from. -/
def pdats : (p : Fin 2) → (c : Dev nD) → Dat τ (Elt F) Unit ℕ (UR sig nD τ) ℕ (Pipeline.pin (pcfgs (F := F)) adm p) c
  | ⟨0, _⟩ => fun c => dat0 (VB m) c
  | ⟨1, _⟩ => fun c => dat1 (VC m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last contents, the generator register at some state. -/
abbrev Tₙ (c : Dev nD) : sProp 𝕄 := iprop(StableHlo.held (c : Thread nD τ) (Pipeline.ucRefs τ sig) (WD m c) ∗ ∃ r, prngReg c r)

/-! ## The two calls as segments -/

-- applying a library lemma stated over the pinned configuration unifies only when unification may unfold plain
-- definitions in a metavariable's type
set_option backward.isDefEq.respectTransparency.types false in
/-- Call 0 as a segment: entered from every unscoped buffer at `WB`, left at `WC`. Its windows' arrays are
    split out of the unscoped buffers and put back at what its write-backs leave; the generator register goes into
    the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VB m) c).loose
  hwaits := Pipeline.hwaits_of_owed_zero _ _ _ _ L lv 0 fun _ _ => rfl
  pre c := iprop(StableHlo.held (c : Thread nD τ) (Pipeline.ucRefs τ sig) (WB m c) ∗ R c)
  post c := iprop(StableHlo.held (c : Thread nD τ) (Pipeline.ucRefs τ sig) (WC m c) ∗ R c)
  X c := iprop(∃ r, prngReg c r)
  Y c := iprop(∃ r, prngReg c r)
  Z c := Pipeline.unscopedRest (Ix := Unit) (Name := ℕ) (U := UR sig nD τ) (Lvl := ℕ) spec0 c (VB m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VB m c) (VC m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies only when unification may unfold plain
-- definitions in a metavariable's type
set_option backward.isDefEq.respectTransparency.types false in
/-- Call 1 as a segment: entered from every unscoped buffer at `WC`, left at `WD`. Its windows' arrays are
    split out of the unscoped buffers and put back at what its write-backs leave; the generator register goes into
    the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VC m) c).loose
  hwaits := Pipeline.hwaits_of_owed_zero _ _ _ _ L lv 1 fun _ _ => rfl
  pre c := iprop(StableHlo.held (c : Thread nD τ) (Pipeline.ucRefs τ sig) (WC m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VC m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VC m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VC m) c)
    unfold Pipeline.ΦA
    iintro ⟨Hp, -, Hr⟩
    isplitl [Hr]; · iexact Hr
    iexact Hp
  hout c := by
    refine (hout1 (VC m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VC m c) (VD m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (WA m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and every final state has every unscoped buffer at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = WD m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WA m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (WA m c)
        from Pipeline.unscopedBufs_held c (WA m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WD m c b)
    (hfin := fun c s' => by
      iintro ⟨⟨Hh, -⟩, HSI⟩
      unfold StableHlo.held
      imodintro
      iapply (pointsTo_read_all (Pipeline.ucRefs τ sig) (fun b => (((c : Thread nD τ)).1, b)) (WD m c) s')
      isplitl [Hh] <;> iassumption)
    (hQ := fun s h => h)

end Cert.Kernel.Run

end
-- ==== Proof.KBFrame.lean ====
/-
  The argument arrays after the run, and the result array by name: the last contents read back through the boundaries.
-/
import proofs.«146551_j6992206758194_2_alg».proof.Proof.KBRun

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.K0 Cert.Kernel.K1

variable (m : (ℓ : Loc nD τ sig) → Buf (Elt F) ℓ) (ρ : Dev nD → PrngReg)

/-- Argument 0 ends as launched: no transpose writes it, and a call either reads it through an input window or leaves it alone. -/
theorem WD_main_arg0 (c : Dev nD) : WD m c (Proc.devRef .tc main_arg0) = m ((c.tc : Thread nD τ).loc main_arg0) :=
  calc WD m c (Proc.devRef .tc main_arg0)
    _ = WC m c (Proc.devRef .tc main_arg0) := (WD_arr m c 0).trans (((dat1 (VC m) c).arrAt_in 0 rfl _).trans (A_eq1 (VC m) c 0))
    _ = WB m c (Proc.devRef .tc main_arg0) := WC_of_ne m c main_arg0 (by decide)
    _ = m ((c.tc : Thread nD τ).loc main_arg0) := Gen.V1_of m c main_arg0 (by decide)
/-- Argument 1 ends as launched: no transpose writes it, and a call either reads it through an input window or leaves it alone. -/
theorem WD_main_arg1 (c : Dev nD) : WD m c (Proc.devRef .tc main_arg1) = m ((c.tc : Thread nD τ).loc main_arg1) :=
  calc WD m c (Proc.devRef .tc main_arg1)
    _ = WC m c (Proc.devRef .tc main_arg1) := WD_of_ne m c main_arg1 (by decide)
    _ = WB m c (Proc.devRef .tc main_arg1) := (WC_arr m c 0).trans (((dat0 (VB m) c).arrAt_in 0 rfl _).trans (A_eq0 (VB m) c 0))
    _ = m ((c.tc : Thread nD τ).loc main_arg1) := Gen.V1_of m c main_arg1 (by decide)
/-- Argument 2 ends as launched: no transpose writes it, and a call either reads it through an input window or leaves it alone. -/
theorem WD_main_arg2 (c : Dev nD) : WD m c (Proc.devRef .tc main_arg2) = m ((c.tc : Thread nD τ).loc main_arg2) :=
  calc WD m c (Proc.devRef .tc main_arg2)
    _ = WC m c (Proc.devRef .tc main_arg2) := WD_of_ne m c main_arg2 (by decide)
    _ = WB m c (Proc.devRef .tc main_arg2) := (WC_arr m c 1).trans (((dat0 (VB m) c).arrAt_in 1 rfl _).trans (A_eq0 (VB m) c 1))
    _ = m ((c.tc : Thread nD τ).loc main_arg2) := Gen.V1_of m c main_arg2 (by decide)
/-- Argument 3 ends as launched: no transpose writes it, and a call either reads it through an input window or leaves it alone. -/
theorem WD_main_arg3 (c : Dev nD) : WD m c (Proc.devRef .tc main_arg3) = m ((c.tc : Thread nD τ).loc main_arg3) :=
  calc WD m c (Proc.devRef .tc main_arg3)
    _ = WC m c (Proc.devRef .tc main_arg3) := WD_of_ne m c main_arg3 (by decide)
    _ = WB m c (Proc.devRef .tc main_arg3) := WC_of_ne m c main_arg3 (by decide)
    _ = m ((c.tc : Thread nD τ).loc main_arg3) := Gen.V1_of m c main_arg3 (by decide)
/-- Argument 4 ends as launched: no transpose writes it, and a call either reads it through an input window or leaves it alone. -/
theorem WD_main_arg4 (c : Dev nD) : WD m c (Proc.devRef .tc main_arg4) = m ((c.tc : Thread nD τ).loc main_arg4) :=
  calc WD m c (Proc.devRef .tc main_arg4)
    _ = WC m c (Proc.devRef .tc main_arg4) := WD_of_ne m c main_arg4 (by decide)
    _ = WB m c (Proc.devRef .tc main_arg4) := WC_of_ne m c main_arg4 (by decide)
    _ = m ((c.tc : Thread nD τ).loc main_arg4) := Gen.V1_of m c main_arg4 (by decide)
/-- Argument 5 ends as launched: no transpose writes it, and a call either reads it through an input window or leaves it alone. -/
theorem WD_main_arg5 (c : Dev nD) : WD m c (Proc.devRef .tc main_arg5) = m ((c.tc : Thread nD τ).loc main_arg5) :=
  calc WD m c (Proc.devRef .tc main_arg5)
    _ = WC m c (Proc.devRef .tc main_arg5) := WD_of_ne m c main_arg5 (by decide)
    _ = WB m c (Proc.devRef .tc main_arg5) := WC_of_ne m c main_arg5 (by decide)
    _ = m ((c.tc : Thread nD τ).loc main_arg5) := Gen.V1_of m c main_arg5 (by decide)

/-- The result array after the run is what the attention call's write-backs leave. -/
theorem WD_main_v4 (c : Dev nD) : WD m c (Proc.devRef .tc main_v4) = (dat1 (VC m) c).arrAt 4 cfg1.N := WD_arr m c 4

/-- THE FRAME: every weakly fair execution of @main terminates, nothing faulting, with every argument array as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_arg0 (by decide))).trans (WD_main_arg0 m c),
      (h c _ (mem_uc main_arg1 (by decide))).trans (WD_main_arg1 m c),
      (h c _ (mem_uc main_arg2 (by decide))).trans (WD_main_arg2 m c),
      (h c _ (mem_uc main_arg3 (by decide))).trans (WD_main_arg3 m c),
      (h c _ (mem_uc main_arg4 (by decide))).trans (WD_main_arg4 m c),
      (h c _ (mem_uc main_arg5 (by decide))).trans (WD_main_arg5 m c)⟩) (run_all m ρ)

/-- The same run with the result array named. -/
theorem run_value : θ_run defs (onTc (τ := τ) (main (F := F))) ⟨m, fun _ => 0, ρ⟩ (fun r => ∀ c : Dev nD,
      r.2.mem ((c.tc : Thread nD τ).loc main_v4) = (dat1 (VC m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_v4 (by decide))).trans (WD_main_v4 m c),
      (h c _ (mem_uc main_arg0 (by decide))).trans (WD_main_arg0 m c),
      (h c _ (mem_uc main_arg1 (by decide))).trans (WD_main_arg1 m c),
      (h c _ (mem_uc main_arg2 (by decide))).trans (WD_main_arg2 m c),
      (h c _ (mem_uc main_arg3 (by decide))).trans (WD_main_arg3 m c),
      (h c _ (mem_uc main_arg4 (by decide))).trans (WD_main_arg4 m c),
      (h c _ (mem_uc main_arg5 (by decide))).trans (WD_main_arg5 m c)⟩) (run_all m ρ)

end Cert.Kernel.Run

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.K0Value.lean ====
import proofs.«146551_j6992206758194_2_alg».proof.Proof.K0Body
import proofs.«146551_j6992206758194_2_alg».proof.Proof.LibPlainMatmul
import Idealize.ShloMosaic.Lib.Pipeline.Value
import Idealize.ShloMosaic.Lib.ValueLayout
import Idealize.ShloMosaic.Lib.ValueIdx

/-! # The key/value projection call: what its two output arrays hold

After all 16 points of the first kernel call, the key output holds, at batch b, row t and column e, the sum over
k < 1024 of  keys(b, t, k) · Wk(k, e),  where keys is the key embedding and Wk the transposed key weight matrix as the
call finds them; the value output likewise. Point (b, j) of the grid writes rows 1024 j … 1024 j + 1023 of batch b, and
the 16 blocks tile each output array. At the exact instance the narrowing to the 16-bit format is the identity and the
product into the zero accumulator is the plain sum. -/

set_option maxRecDepth 16384

noncomputable section

namespace Cert.KernelIdeal.K0V

open Cert.KernelIdeal Cert.KernelIdeal.Gen Cert.KernelIdeal.K0
open Idealize.ShloMosaic Idealize.ShloMosaic.TcCoe Idealize.ShloMosaic.ValueIdx
open Idealize.SL Idealize.SL.Sem
open Idealize.ShloMosaic.Pipeline (Dat Cfg Window)

/-! ## The body's one store per output is the payload itself -/

theorem hz3 : (![0, 0, 0] : Fin 3 → Nat) = fun _ => 0 := funext fun a => by fin_cases a <;> rfl
theorem hz2 : (![0, 0] : Fin 2 → Nat) = fun _ => 0 := funext fun a => by fin_cases a <;> rfl

section AnyInstance
variable {F : FTy → Type} [FloatOps F] [Named F]

theorem out0_4_eq (x0 : Vec F S1x1024x1024 .f32) (x2 : Vec F S1024x64 .f32) : out0_4 x0 x2 = k0_pay1 x0 x2 := by
  unfold out0_4
  rw [View.canon_unit_zero hz3]
  simp only [View.ld_unit_zero (S := S1x1024x1024) hz3, View.ld_unit_zero (S := S1024x64) hz2]

theorem out0_5_eq (x1 : Vec F S1x1024x1024 .f32) (x3 : Vec F S1024x64 .f32) : out0_5 x1 x3 = k0_pay2 x1 x3 := by
  unfold out0_5
  rw [View.canon_unit_zero hz3]
  simp only [View.ld_unit_zero (S := S1x1024x1024) hz3, View.ld_unit_zero (S := S1024x64) hz2]

end AnyInstance

/-! ## The payload at an index, at the exact instance -/

/-- Row r, column e of a projected block: the row of the embedding block against the column of the weight matrix. -/
theorem pay1_apply (x0 : Vec Ideal S1x1024x1024 .f32) (x2 : Vec Ideal S1024x64 .f32) (u : Fin 1) (r : Fin 1024) (e : Fin 64) :
    k0_pay1 x0 x2 (ix3 u r e) = ∑ k : Fin 1024, x0 (ix3 (0 : Fin 1) r k) * x2 (ix2 k e) := by
  unfold k0_pay1
  refine (shapeCast_ab_1ab_apply _ _ u r e).trans ?_
  refine (PlainMatmul.apply_zero (M := 1024) (K := 1024) (N := 64) _ _ r e).trans ?_
  refine Finset.sum_congr rfl fun k _ => ?_
  exact congrArg₂ (· * ·) (shapeCast_1ab_ab_apply x0 _ r k) (congrFun (shapeCast_self x2 _) (ix2 k e))

theorem pay2_apply (x1 : Vec Ideal S1x1024x1024 .f32) (x3 : Vec Ideal S1024x64 .f32) (u : Fin 1) (r : Fin 1024) (e : Fin 64) :
    k0_pay2 x1 x3 (ix3 u r e) = ∑ k : Fin 1024, x1 (ix3 (0 : Fin 1) r k) * x3 (ix2 k e) := by
  unfold k0_pay2
  refine (shapeCast_ab_1ab_apply _ _ u r e).trans ?_
  refine (PlainMatmul.apply_zero (M := 1024) (K := 1024) (N := 64) _ _ r e).trans ?_
  refine Finset.sum_congr rfl fun k _ => ?_
  exact congrArg₂ (· * ·) (shapeCast_1ab_ab_apply x1 _ r k) (congrFun (shapeCast_self x3 _) (ix2 k e))

/-! ## From blocks to the arrays -/

/-- A projected array: at batch b, row t, column e, the row of the embeddings against the column of the weights. -/
def projArr (a : S4x4096x1024.Idx → EReal) (w : S1024x64.Idx → EReal) : S4x4096x64.Idx → EReal :=
  fun i => ∑ k : Fin 1024, a (ix3 (n0 := 4) (n1 := 4096) (i 0) (i 1) k) * w (ix2 (n1 := 64) k (i 2))

theorem projArr_apply (a : S4x4096x1024.Idx → EReal) (w : S1024x64.Idx → EReal) (b : Fin 4) (t : Fin 4096) (e : Fin 64) :
    projArr a w (ix3 b t e) = ∑ k : Fin 1024, a (ix3 b t k) * w (ix2 k e) := rfl

/-- The index maps over the grid: an embedding window sits at its output's batch and row block, at column block 0; a
    weight window at block (0, 0); an output's batch and row block are below 4 and its column block is 0. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_5.index t (0 : Fin 3) ∧ win0_1.index t (1 : Fin 3) = win0_5.index t (1 : Fin 3)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 3 ∧ win0_4.index t (1 : Fin 3) ≤ 3 ∧ win0_4.index t (2 : Fin 3) = 0
    ∧ win0_5.index t (0 : Fin 3) ≤ 3 ∧ win0_5.index t (1 : Fin 3) ≤ 3 ∧ win0_5.index t (2 : Fin 3) = 0 :=
  (by decide +kernel : ∀ t : Fin grid0.N, _)

/-- Every (batch, row block) is some point's, for each output. -/
theorem idx_onto4 : ∀ (q0 : Fin 4) (q1 : Fin 4), ∃ t : Fin cfg0.N, win0_4.index t = ![q0.val, q1.val, 0] :=
  (by decide +kernel : ∀ (q0 : Fin 4) (q1 : Fin 4), ∃ t : Fin grid0.N, win0_4.index t = ![q0.val, q1.val, 0])
theorem idx_onto5 : ∀ (q0 : Fin 4) (q1 : Fin 4), ∃ t : Fin cfg0.N, win0_5.index t = ![q0.val, q1.val, 0] :=
  (by decide +kernel : ∀ (q0 : Fin 4) (q1 : Fin 4), ∃ t : Fin grid0.N, win0_5.index t = ![q0.val, q1.val, 0])

section Arrays
variable (V : (c : Dev nD) → (b : Ref sig .tc) → Buf (Elt Ideal) ((c : Thread nD τ).loc b))

/-- One entry of what point t leaves in the key output's buffer is the projected array's entry at that place of the
    point's block: the embedding block's row is the array's row 1024·(row block) + r of the point's batch. -/
theorem block4_apply (c : Dev nD) (t : Fin cfg0.N) (j : S1x1024x64.Idx) :
    k0_pay1 (iblk0 V c 0 t) (iblk0 V c 2 t) j
      = projArr (V c main_arg1) (V c main_v1) (((cfg0.win 4).blk t).view.emb j) := by
  obtain ⟨u, r, e, rfl⟩ : ∃ (u : Fin 1) (r : Fin 1024) (e : Fin 64), j = ix3 u r e := ⟨j 0, j 1, j 2, eq_ix3 j⟩
  obtain ⟨e00, e01, e02, -, -, -, e20, e21, -, -, b40, b41, e42, -, -, -⟩ := idx_facts t
  have hu : u.val = 0 := by omega
  have hr : r.val < 1024 := r.isLt
  have hemb4 : (((cfg0.win 4).blk t).view.emb (ix3 u r e) : S4x4096x64.Idx)
      = ix3 (⟨win0_4.index t (0 : Fin 3), by omega⟩ : Fin 4) (⟨win0_4.index t (1 : Fin 3) * 1024 + r.val, by omega⟩ : Fin 4096) e := by
    funext a; apply Fin.ext
    match a with
    | ⟨0, _⟩ => show win0_4.index t (0 : Fin 3) * 1 + 1 * u.val = win0_4.index t (0 : Fin 3); omega
    | ⟨1, _⟩ => show win0_4.index t (1 : Fin 3) * 1024 + 1 * r.val = win0_4.index t (1 : Fin 3) * 1024 + r.val; omega
    | ⟨2, _⟩ => show win0_4.index t (2 : Fin 3) * 64 + 1 * e.val = e.val; omega
  have hemb0 : ∀ k : Fin 1024, (((cfg0.win 0).blk t).view.emb (ix3 (0 : Fin 1) r k) : S4x4096x1024.Idx)
      = ix3 (⟨win0_4.index t (0 : Fin 3), by omega⟩ : Fin 4) (⟨win0_4.index t (1 : Fin 3) * 1024 + r.val, by omega⟩ : Fin 4096) k := by
    intro k; funext a; apply Fin.ext
    match a with
    | ⟨0, _⟩ => show win0_0.index t (0 : Fin 3) * 1 + 1 * 0 = win0_4.index t (0 : Fin 3); omega
    | ⟨1, _⟩ => show win0_0.index t (1 : Fin 3) * 1024 + 1 * r.val = win0_4.index t (1 : Fin 3) * 1024 + r.val; omega
    | ⟨2, _⟩ => show win0_0.index t (2 : Fin 3) * 1024 + 1 * k.val = k.val; omega
  have hemb2 : ∀ k : Fin 1024, (((cfg0.win 2).blk t).view.emb (ix2 k e) : S1024x64.Idx) = ix2 k e := by
    intro k; funext a; apply Fin.ext
    match a with
    | ⟨0, _⟩ => show win0_2.index t (0 : Fin 2) * 1024 + 1 * k.val = k.val; omega
    | ⟨1, _⟩ => show win0_2.index t (1 : Fin 2) * 64 + 1 * e.val = e.val; omega
  refine (pay1_apply (iblk0 V c 0 t) (iblk0 V c 2 t) u r e).trans ?_
  refine Eq.trans ?_ (congrArg (projArr (V c main_arg1) (V c main_v1)) hemb4).symm
  refine Eq.trans ?_ (projArr_apply _ _ _ _ e).symm
  refine Finset.sum_congr rfl fun k _ => ?_
  exact congrArg₂ (· * ·) (congrArg (V c main_arg1) (hemb0 k)) (congrArg (V c main_v1) (hemb2 k))

/-- The same for the value output. -/
theorem block5_apply (c : Dev nD) (t : Fin cfg0.N) (j : S1x1024x64.Idx) :
    k0_pay2 (iblk0 V c 1 t) (iblk0 V c 3 t) j
      = projArr (V c main_arg2) (V c main_v2) (((cfg0.win 5).blk t).view.emb j) := by
  obtain ⟨u, r, e, rfl⟩ : ∃ (u : Fin 1) (r : Fin 1024) (e : Fin 64), j = ix3 u r e := ⟨j 0, j 1, j 2, eq_ix3 j⟩
  obtain ⟨-, -, -, e10, e11, e12, -, -, e30, e31, -, -, -, b50, b51, e52⟩ := idx_facts t
  have hu : u.val = 0 := by omega
  have hr : r.val < 1024 := r.isLt
  have hemb5 : (((cfg0.win 5).blk t).view.emb (ix3 u r e) : S4x4096x64.Idx)
      = ix3 (⟨win0_5.index t (0 : Fin 3), by omega⟩ : Fin 4) (⟨win0_5.index t (1 : Fin 3) * 1024 + r.val, by omega⟩ : Fin 4096) e := by
    funext a; apply Fin.ext
    match a with
    | ⟨0, _⟩ => show win0_5.index t (0 : Fin 3) * 1 + 1 * u.val = win0_5.index t (0 : Fin 3); omega
    | ⟨1, _⟩ => show win0_5.index t (1 : Fin 3) * 1024 + 1 * r.val = win0_5.index t (1 : Fin 3) * 1024 + r.val; omega
    | ⟨2, _⟩ => show win0_5.index t (2 : Fin 3) * 64 + 1 * e.val = e.val; omega
  have hemb1 : ∀ k : Fin 1024, (((cfg0.win 1).blk t).view.emb (ix3 (0 : Fin 1) r k) : S4x4096x1024.Idx)
      = ix3 (⟨win0_5.index t (0 : Fin 3), by omega⟩ : Fin 4) (⟨win0_5.index t (1 : Fin 3) * 1024 + r.val, by omega⟩ : Fin 4096) k := by
    intro k; funext a; apply Fin.ext
    match a with
    | ⟨0, _⟩ => show win0_1.index t (0 : Fin 3) * 1 + 1 * 0 = win0_5.index t (0 : Fin 3); omega
    | ⟨1, _⟩ => show win0_1.index t (1 : Fin 3) * 1024 + 1 * r.val = win0_5.index t (1 : Fin 3) * 1024 + r.val; omega
    | ⟨2, _⟩ => show win0_1.index t (2 : Fin 3) * 1024 + 1 * k.val = k.val; omega
  have hemb3 : ∀ k : Fin 1024, (((cfg0.win 3).blk t).view.emb (ix2 k e) : S1024x64.Idx) = ix2 k e := by
    intro k; funext a; apply Fin.ext
    match a with
    | ⟨0, _⟩ => show win0_3.index t (0 : Fin 2) * 1024 + 1 * k.val = k.val; omega
    | ⟨1, _⟩ => show win0_3.index t (1 : Fin 2) * 64 + 1 * e.val = e.val; omega
  refine (pay2_apply (iblk0 V c 1 t) (iblk0 V c 3 t) u r e).trans ?_
  refine Eq.trans ?_ (congrArg (projArr (V c main_arg2) (V c main_v2)) hemb5).symm
  refine Eq.trans ?_ (projArr_apply _ _ _ _ e).symm
  refine Finset.sum_congr rfl fun k _ => ?_
  exact congrArg₂ (· * ·) (congrArg (V c main_arg2) (hemb1 k)) (congrArg (V c main_v2) (hemb3 k))

/-- What point t writes back into the key output is block t of the projected array. -/
theorem flushed4_eq (c : Dev nD) (t : Fin cfg0.N) :
    (dat0 V c).flushed 4 t = ((cfg0.win 4).blk t).view.read (Elt Ideal) (projArr (V c main_arg1) (V c main_v1)) := by
  show (cfg0.win 4).cut (grid0.coords t) ((dat0 V c).after 4 t) = _
  rw [after0_4, out0_4_eq]
  funext j
  exact block4_apply V c t j

theorem flushed5_eq (c : Dev nD) (t : Fin cfg0.N) :
    (dat0 V c).flushed 5 t = ((cfg0.win 5).blk t).view.read (Elt Ideal) (projArr (V c main_arg2) (V c main_v2)) := by
  show (cfg0.win 5).cut (grid0.coords t) ((dat0 V c).after 5 t) = _
  rw [after0_5, out0_5_eq]
  funext j
  exact block5_apply V c t j

end Arrays

/-- An index of an output array is in point t's block iff each coordinate is in the block's range on its axis. -/
theorem mem_blk4 (t : Fin cfg0.N) (i : S4x4096x64.Idx) :
    i ∈ ((cfg0.win 4).blk t).view.set ↔ ∀ a : Fin 3, win0_4.index t a * S1x1024x64.size a ≤ (i a).val ∧ (i a).val < win0_4.index t a * S1x1024x64.size a + S1x1024x64.size a := by
  show i ∈ ((View.whole main_v3_0).slice (win0_4.rect t)).set ↔ _
  rw [View.set_slice_whole, Rect.mem_set_unit]
  exact Iff.rfl
theorem mem_blk5 (t : Fin cfg0.N) (i : S4x4096x64.Idx) :
    i ∈ ((cfg0.win 5).blk t).view.set ↔ ∀ a : Fin 3, win0_5.index t a * S1x1024x64.size a ≤ (i a).val ∧ (i a).val < win0_5.index t a * S1x1024x64.size a + S1x1024x64.size a := by
  show i ∈ ((View.whole main_v3_1).slice (win0_5.rect t)).set ↔ _
  rw [View.set_slice_whole, Rect.mem_set_unit]
  exact Iff.rfl

/-- The 16 blocks cover each output: row t of batch b lies in the block of the point at batch b and row block t / 1024. -/
theorem cover4 (i : S4x4096x64.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 64 := (i 2).isLt
  obtain ⟨t, ht⟩ := idx_onto4 ⟨(i 0).val, by omega⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 64 ≤ (i 2).val ∧ (i 2).val < win0_4.index t (2 : Fin 3) * 64 + 64; omega
theorem cover5 (i : S4x4096x64.Idx) : ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 64 := (i 2).isLt
  obtain ⟨t, ht⟩ := idx_onto5 ⟨(i 0).val, by omega⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 64 ≤ (i 2).val ∧ (i 2).val < win0_5.index t (2 : Fin 3) * 64 + 64; omega

section Final
variable (V : (c : Dev nD) → (b : Ref sig .tc) → Buf (Elt Ideal) ((c : Thread nD τ).loc b))

/-- The key output after all 16 points, whole. -/
theorem arr4 (c : Dev nD) : (dat0 V c).arrAt 4 cfg0.N = projArr (V c main_arg1) (V c main_v1) :=
  (dat0 V c).arrAt_eq_of_cover 4 (projArr (V c main_arg1) (V c main_v1)) (fun t _ => flushed4_eq V c t) cover4

/-- The value output after all 16 points, whole. -/
theorem arr5 (c : Dev nD) : (dat0 V c).arrAt 5 cfg0.N = projArr (V c main_arg2) (V c main_v2) :=
  (dat0 V c).arrAt_eq_of_cover 5 (projArr (V c main_arg2) (V c main_v2)) (fun t _ => flushed5_eq V c t) cover5

/-- THE KEY OUTPUT, entry by entry: at batch b, row t, column e it is Σ_k keys(b, t, k) · Wk(k, e), over the key
    embeddings A and the transposed key weights W as the call finds them (the arrays enter as functions of their literal
    index types, each with the equation saying which buffer it is). -/
theorem arr4_apply (c : Dev nD) (A : S4x4096x1024.Idx → EReal) (W : S1024x64.Idx → EReal) (O : S4x4096x64.Idx → EReal)
    (hA : A = V c main_arg1) (hW : W = V c main_v1) (hO : O = (dat0 V c).arrAt 4 cfg0.N)
    (b : Fin 4) (t : Fin 4096) (e : Fin 64) :
    O (ix3 b t e) = ∑ k : Fin 1024, A (ix3 b t k) * W (ix2 k e) := by
  subst hA hW hO
  exact (congrFun (arr4 V c) (ix3 b t e)).trans (projArr_apply _ _ b t e)

/-- THE VALUE OUTPUT, entry by entry: at batch b, row t, column e it is Σ_k values(b, t, k) · Wv(k, e). -/
theorem arr5_apply (c : Dev nD) (A : S4x4096x1024.Idx → EReal) (W : S1024x64.Idx → EReal) (O : S4x4096x64.Idx → EReal)
    (hA : A = V c main_arg2) (hW : W = V c main_v2) (hO : O = (dat0 V c).arrAt 5 cfg0.N)
    (b : Fin 4) (t : Fin 4096) (e : Fin 64) :
    O (ix3 b t e) = ∑ k : Fin 1024, A (ix3 b t k) * W (ix2 k e) := by
  subst hA hW hO
  exact (congrFun (arr5 V c) (ix3 b t e)).trans (projArr_apply _ _ b t e)

end Final

end Cert.KernelIdeal.K0V

end
-- ==== Proof.KHost.lean ====
import proofs.«146551_j6992206758194_2_alg».proof.Proof.Gen.KernelIdeal.Regions
import Idealize.ShloMosaic.Lib.Pipeline.Value
import Idealize.ShloMosaic.Lib.ValueLayout
import Idealize.ShloMosaic.Lib.ValueIdx

/-! # What the host leaves before the first kernel call

Before the two kernel calls the host transposes the three [64,1024] weight matrices into [1024,64] buffers: the
transposed matrix at (k, e) is the weight matrix at (e, k). It writes nothing else, so the six argument arrays are
still what they were at launch. -/

noncomputable section

namespace Cert.KernelIdeal.KH

open Cert.KernelIdeal Cert.KernelIdeal.Gen
open Idealize.ShloMosaic Idealize.ShloMosaic.TcCoe Idealize.ShloMosaic.ValueIdx
open Idealize.SL Idealize.SL.Sem

/-- A [64,1024] matrix transposed: at (k, e) it is the matrix at (e, k). -/
def transposeArr (w : S64x1024.Idx → EReal) : S1024x64.Idx → EReal :=
  fun i => w (ix2 (n0 := 64) (n1 := 1024) (i 1) (i 0))

theorem transposeArr_apply (w : S64x1024.Idx → EReal) (k : Fin 1024) (e : Fin 64) :
    transposeArr w (ix2 k e) = w (ix2 e k) := rfl

/-- The printed transpose is that function. -/
theorem transpose_eq (w : S64x1024.Idx → EReal) :
    transpose S1024x64 [1, 0] w transposes_S64x1024_S1024x64_1_0 = transposeArr w := by
  funext i
  obtain ⟨k, e, rfl⟩ : ∃ (k : Fin 1024) (e : Fin 64), i = ix2 k e := ⟨i 0, i 1, eq_ix2 i⟩
  exact transpose_ix2_apply w _ k e

variable (m : (ℓ : Loc nD τ sig) → Buf (Elt Ideal) ℓ)

/-- The transposed query weights. -/
theorem v0_eq (c : Dev nD) :
    StableHlo.after (hostOps0 (F := Ideal)) (fun b => m (c, b)) (Proc.devRef .tc main_v0)
      = transposeArr (m ((c : Thread nD τ).loc main_arg3)) := by
  have e : (StableHlo.after (hostOps0 (F := Ideal)) (fun b => m (c, b)) (Proc.devRef .tc main_v0) : S1024x64.Idx → EReal)
      = transpose S1024x64 [1, 0] (m ((c : Thread nD τ).loc main_arg3)) transposes_S64x1024_S1024x64_1_0 := by
    dsimp only [hostOps0]; after_results
  exact e.trans (transpose_eq _)

/-- The transposed key weights. -/
theorem v1_eq (c : Dev nD) :
    StableHlo.after (hostOps0 (F := Ideal)) (fun b => m (c, b)) (Proc.devRef .tc main_v1)
      = transposeArr (m ((c : Thread nD τ).loc main_arg4)) := by
  have e : (StableHlo.after (hostOps0 (F := Ideal)) (fun b => m (c, b)) (Proc.devRef .tc main_v1) : S1024x64.Idx → EReal)
      = transpose S1024x64 [1, 0] (m ((c : Thread nD τ).loc main_arg4)) transposes_S64x1024_S1024x64_1_0 := by
    dsimp only [hostOps0]; after_results
  exact e.trans (transpose_eq _)

/-- The transposed value weights. -/
theorem v2_eq (c : Dev nD) :
    StableHlo.after (hostOps0 (F := Ideal)) (fun b => m (c, b)) (Proc.devRef .tc main_v2)
      = transposeArr (m ((c : Thread nD τ).loc main_arg5)) := by
  have e : (StableHlo.after (hostOps0 (F := Ideal)) (fun b => m (c, b)) (Proc.devRef .tc main_v2) : S1024x64.Idx → EReal)
      = transpose S1024x64 [1, 0] (m ((c : Thread nD τ).loc main_arg5)) transposes_S64x1024_S1024x64_1_0 := by
    dsimp only [hostOps0]; after_results
  exact e.trans (transpose_eq _)

/-! ## The transposes write no argument -/

theorem arg0_eq (c : Dev nD) :
    StableHlo.after (hostOps0 (F := Ideal)) (fun b => m (c, b)) (Proc.devRef .tc main_arg0) = m ((c : Thread nD τ).loc main_arg0) :=
  (V1_of m c main_arg0 (by decide)).trans rfl
theorem arg1_eq (c : Dev nD) :
    StableHlo.after (hostOps0 (F := Ideal)) (fun b => m (c, b)) (Proc.devRef .tc main_arg1) = m ((c : Thread nD τ).loc main_arg1) :=
  (V1_of m c main_arg1 (by decide)).trans rfl
theorem arg2_eq (c : Dev nD) :
    StableHlo.after (hostOps0 (F := Ideal)) (fun b => m (c, b)) (Proc.devRef .tc main_arg2) = m ((c : Thread nD τ).loc main_arg2) :=
  (V1_of m c main_arg2 (by decide)).trans rfl
theorem arg3_eq (c : Dev nD) :
    StableHlo.after (hostOps0 (F := Ideal)) (fun b => m (c, b)) (Proc.devRef .tc main_arg3) = m ((c : Thread nD τ).loc main_arg3) :=
  (V1_of m c main_arg3 (by decide)).trans rfl
theorem arg4_eq (c : Dev nD) :
    StableHlo.after (hostOps0 (F := Ideal)) (fun b => m (c, b)) (Proc.devRef .tc main_arg4) = m ((c : Thread nD τ).loc main_arg4) :=
  (V1_of m c main_arg4 (by decide)).trans rfl
theorem arg5_eq (c : Dev nD) :
    StableHlo.after (hostOps0 (F := Ideal)) (fun b => m (c, b)) (Proc.devRef .tc main_arg5) = m ((c : Thread nD τ).loc main_arg5) :=
  (V1_of m c main_arg5 (by decide)).trans rfl

end Cert.KernelIdeal.KH

end
-- ==== Proof.KEntry.lean ====
import proofs.«146551_j6992206758194_2_alg».proof.Proof.KRun
import proofs.«146551_j6992206758194_2_alg».proof.Proof.K0Value
import proofs.«146551_j6992206758194_2_alg».proof.Proof.KHost

/-! # What the attention call is entered with

When the attention call starts, the buffers it reads hold: the query embeddings, untouched since launch; the
transposed query weights, (k, e) ↦ Wq(e, k); and the projected keys and values the first call left,
(b, t, e) ↦ Σ_k keys(b, t, k) · Wk(e, k) and likewise for the values. Each is read off in two steps: the first
call rewrites only its own output arrays, and before it the host wrote only the three transposed weight matrices. -/

set_option maxRecDepth 16384

noncomputable section

namespace Cert.KernelIdeal.KE

open Cert.KernelIdeal Cert.KernelIdeal.Gen Cert.KernelIdeal.Run
open Idealize.ShloMosaic Idealize.ShloMosaic.TcCoe Idealize.ShloMosaic.ValueIdx
open Idealize.SL Idealize.SL.Sem

variable (m : (ℓ : Loc nD τ sig) → Buf (Elt Ideal) ℓ)

/-- The query embeddings are what they were at launch: neither the transposes nor the first call write them. -/
theorem entry_arg0 (c : Dev nD) : VC m c main_arg0 = m ((c : Thread nD τ).loc main_arg0) :=
  (WC_of_ne m c main_arg0 (by decide)).trans (KH.arg0_eq m c)

/-- The transposed query weights: written by the host, not touched by the first call. -/
theorem entry_v0 (c : Dev nD) : VC m c main_v0 = KH.transposeArr (m ((c : Thread nD τ).loc main_arg3)) :=
  (WC_of_ne m c main_v0 (by decide)).trans (KH.v0_eq m c)

/-- The projected keys: the first call's key output, over the key embeddings and the transposed key weights. -/
theorem entry_v3_0 (c : Dev nD) :
    VC m c main_v3_0
      = K0V.projArr (m ((c : Thread nD τ).loc main_arg1)) (KH.transposeArr (m ((c : Thread nD τ).loc main_arg4))) :=
  ((WC_arr m c 4).trans (K0V.arr4 (VB m) c)).trans (congrArg₂ K0V.projArr (KH.arg1_eq m c) (KH.v1_eq m c))

/-- The projected values: the first call's value output, over the value embeddings and the transposed value weights. -/
theorem entry_v3_1 (c : Dev nD) :
    VC m c main_v3_1
      = K0V.projArr (m ((c : Thread nD τ).loc main_arg2)) (KH.transposeArr (m ((c : Thread nD τ).loc main_arg5))) :=
  ((WC_arr m c 5).trans (K0V.arr5 (VB m) c)).trans (congrArg₂ K0V.projArr (KH.arg2_eq m c) (KH.v2_eq m c))

end Cert.KernelIdeal.KE

end
-- ==== Proof.AttnSpec.lean ====
/-
  Causal single-head attention, index by index, on the extended reals.

  Three arrays x_q, x_k, x_v of shape [4, 4096, 1024] and three weight matrices w_q, w_k, w_v of shape [64, 1024].
  Each array is projected along its last axis: proj x w (b, t, e) = Σ_c x(b, t, c) · w(e, c), giving queries, keys and
  values of shape [4, 4096, 64]. The score of query position t against key position s in batch b is the dot product of
  the two projected rows over the 64 features, times the scale 1/32 (the single-precision word 0x3D000000), when
  s ≤ t, and −∞ when s > t: a position attends only to itself and to earlier positions. A row of scores is turned into
  weights by the stable softmax: the row's maximum M (a fold of max from −∞, taken once more against −∞) is
  subtracted, the exponential is taken (exp (−∞ − M) = 0), and every weight is divided by the sum of the row's
  weights. The result at (b, t, d) is the sum over s of weight(b, t, s) · v(b, s, d).

  The definitions keep that arrangement: each weight is divided by the row's sum BEFORE it multiplies its value.
-/
import Mathlib
import Idealize.ShloMosaic.PureOps.Ideal
import Idealize.ShloMosaic.Lib.ValueIdx

noncomputable section

namespace Cert.Attn

open Idealize.ShloMosaic Idealize.ShloMosaic.ValueIdx
open scoped BigOperators

/-- The shape of the three input arrays: batch, position, embedding coordinate. -/
abbrev SX : Shape := ⟨3, ![4, 4096, 1024]⟩
/-- The shape of the three weight matrices: feature, embedding coordinate. -/
abbrev SW : Shape := ⟨2, ![64, 1024]⟩
/-- The shape of the result: batch, position, feature. -/
abbrev SO : Shape := ⟨3, ![4, 4096, 64]⟩

/-- The scale 1/32, as the single-precision word that spells it. -/
def scale : EReal := Ideal.ofBits .f32 0x3D000000#32

/-- A projection: entry (b, t, e) is the dot product of row (b, t) of x with row e of w. -/
def proj (x : SX.Idx → EReal) (w : SW.Idx → EReal) (b : Fin 4) (t : Fin 4096) (e : Fin 64) : EReal :=
  ∑ c : Fin 1024, x (ix3 b t c) * w (ix2 e c)

/-- The causal score of query position t against key position s: the scaled dot product of the two rows when
    s ≤ t, −∞ otherwise. -/
def score (q k : Fin 4 → Fin 4096 → Fin 64 → EReal) (b : Fin 4) (t s : Fin 4096) : EReal :=
  if s ≤ t then (∑ e : Fin 64, q b t e * k b s e) * scale else ⊥

/-- The shift of a row of scores: its maximum, a fold of max from −∞, taken once more against −∞. -/
def rowShift {N : ℕ} (sc : Fin N → EReal) : EReal := max ⊥ ((Finset.univ : Finset (Fin N)).fold max ⊥ sc)

/-- The unnormalised weight of position s: the exponential of its score relative to the row's shift. -/
def weight {N : ℕ} (sc : Fin N → EReal) (s : Fin N) : EReal := Ideal.exp (sc s - rowShift sc)

/-- One row of attention: every weight divided by the sum of the row's weights, times its value, summed. -/
def attnRow {N : ℕ} (sc v : Fin N → EReal) : EReal :=
  ∑ s : Fin N, Ideal.div (weight sc s) (∑ s' : Fin N, weight sc s') * v s

/-- Causal attention of the projected arrays, entry by entry. -/
def attn (xq xk xv : SX.Idx → EReal) (wq wk wv : SW.Idx → EReal) : SO.Idx → EReal := fun i =>
  attnRow (score (proj xq wq) (proj xk wk) (i 0) (i 1)) (fun s => proj xv wv (i 0) s (i 2))

/-- The result at explicit coordinates. -/
theorem attn_ix3 (xq xk xv : SX.Idx → EReal) (wq wk wv : SW.Idx → EReal) (b : Fin 4) (t : Fin 4096) (d : Fin 64) :
    attn xq xk xv wq wk wv (ix3 b t d)
      = attnRow (score (proj xq wq) (proj xk wk) b t) (fun s => proj xv wv b s d) := rfl

end Cert.Attn

end
-- ==== Proof.LibSoftmaxShift.lean ====
/-
  A softmax on the extended reals does not see a common real shift of its scores.

  For real scores s_j and a real M, exp (s_j − M) / Σ_j' exp (s_j' − M) = exp s_j / Σ_j' exp s_j': the common
  factor exp (−M) cancels, the sums being positive. It is an identity of real numbers, carried into the extended
  reals through the coercion of a finite sum (a sum of coerced reals is the coerced sum). The shift a stable
  softmax subtracts is the row's maximum, the fold of max from −∞ over the row; over at least one real it is
  a real: below +∞ because every entry is, and at least the first entry, hence above −∞.
-/
import Idealize.ShloMosaic.PureOps.Ideal

noncomputable section

namespace Cert.LibSoftmaxShift

open Idealize.ShloMosaic
open scoped BigOperators

/-- A finite sum of reals, each read as an extended real, is the real sum read as an extended real. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Softmax does not see a common real shift of its scores. -/
theorem softmax_shift {ι : Type} [Fintype ι] [Nonempty ι] (s : ι → ℝ) (M : ℝ) (j : ι) :
    Ideal.div (Ideal.exp ((s j : EReal) - (M : EReal))) (0 + ∑ j' : ι, Ideal.exp ((s j' : EReal) - (M : EReal)))
      = Ideal.div (Ideal.exp (s j : EReal)) (∑ j' : ι, Ideal.exp (s j' : EReal)) := by
  have hpos : ∀ t : ι → ℝ, (0 : ℝ) < ∑ j' : ι, Real.exp (t j') := fun t =>
    Finset.sum_pos (fun _ _ => Real.exp_pos _) Finset.univ_nonempty
  simp only [← EReal.coe_sub, Ideal.exp_coe, coe_sum, zero_add]
  rw [Ideal.div_coe (hpos fun j' => s j' - M).ne', Ideal.div_coe (hpos s).ne', ← EReal.coe_mul, ← EReal.coe_mul]
  congr 1
  have hM : Real.exp M ≠ 0 := (Real.exp_pos M).ne'
  have h1 : ∑ j' : ι, Real.exp (s j' - M) = (∑ j' : ι, Real.exp (s j')) / Real.exp M := by
    rw [Finset.sum_div]; exact Finset.sum_congr rfl fun j' _ => Real.exp_sub _ _
  rw [h1, Real.exp_sub]
  have := (hpos s).ne'
  field_simp

/-- The maximum of finitely many reals (at least one), started from ⊥, is a real. -/
theorem fold_max_real {n : Nat} (hn : 0 < n) (f : Fin n → EReal) (hf : ∀ k, ∃ r : ℝ, f k = (r : EReal)) :
    ∃ r : ℝ, (Finset.univ : Finset (Fin n)).fold max ⊥ f = (r : EReal) := by
  have hlt : (Finset.univ : Finset (Fin n)).fold max ⊥ f < ⊤ :=
    (Finset.fold_max_lt _).2 ⟨bot_lt_top, fun k _ => by obtain ⟨r, hr⟩ := hf k; rw [hr]; exact EReal.coe_lt_top r⟩
  have hge : f ⟨0, hn⟩ ≤ (Finset.univ : Finset (Fin n)).fold max ⊥ f :=
    (Finset.le_fold_max _).2 (Or.inr ⟨⟨0, hn⟩, Finset.mem_univ _, le_rfl⟩)
  have hne : (Finset.univ : Finset (Fin n)).fold max ⊥ f ≠ ⊥ := by
    obtain ⟨r, hr⟩ := hf ⟨0, hn⟩
    rw [hr] at hge
    exact ne_of_gt (lt_of_lt_of_le (EReal.bot_lt_coe r) hge)
  exact ⟨_, (EReal.coe_toReal hlt.ne hne).symm⟩

end Cert.LibSoftmaxShift

end
-- ==== Proof.LibBlockSums.lean ====
/-
  Finite sums regrouped into blocks. A sum over the m·n indices 0, …, m·n − 1 is the sum over the m blocks of n
  consecutive indices of the sums inside each block: index i·n + j is entry j of block i. Nothing is asked of the
  summands beyond commutative addition, so the regrouping holds on the extended reals without any finiteness.
-/
import Mathlib

noncomputable section

namespace BlockSums

open Finset

/-- A sum over Fin N, N = m·n, regrouped into m blocks of n: g i j is any naming of index i·n + j. -/
theorem sum_blocks {M : Type*} [AddCommMonoid M] {m n N : ℕ} (hN : N = m * n) (g : Fin m → Fin n → Fin N)
    (hg : ∀ i j, (g i j).val = i.val * n + j.val) (f : Fin N → M) :
    ∑ r, f r = ∑ i : Fin m, ∑ j : Fin n, f (g i j) := by
  subst hN
  have hp : ∀ p : Fin m × Fin n, g p.1 p.2 = finProdFinEquiv p := fun p =>
    Fin.ext (by rw [hg, finProdFinEquiv_apply_val, Nat.mul_comm, Nat.add_comm])
  calc ∑ r, f r = ∑ p : Fin m × Fin n, f (finProdFinEquiv p) := (Equiv.sum_comp finProdFinEquiv f).symm
    _ = ∑ p : Fin m × Fin n, f (g p.1 p.2) := by simp only [hp]
    _ = ∑ i : Fin m, ∑ j : Fin n, f (g i j) := Fintype.sum_prod_type _

end BlockSums

end
-- ==== Proof.LibOnlineSoftmax.lean ====
/-
  The running softmax of one row, on the extended reals.

  A row of scores arrives in blocks. The running state is a triple (m, l, a): a shift m, the sum l of the
  exponentials of the scores seen so far taken relative to m, and the sum a of those exponentials weighted by
  the values that go with the scores. A new block (s, v) moves the shift to m' = max m (max of s), rescales l
  and a by exp (m − m') and adds the block's own exponentials relative to m'. The state starts at (−∞, 0, 0) and
  the row's result is a / l.

  When every score and value is a real number, the state after at least one block is
      (M, exp (−M) · E, exp (−M) · W)   for SOME real M,
  where E is the sum of exp s and W the sum of exp s · v over everything seen: the step keeps this form
  whatever M is, because exp (M − M') · exp (−M) = exp (−M') and exp (s − M') = exp (−M') · exp s. Hence
  a / l = W / E, the shift cancelling since E > 0. The one-pass softmax — every exponential taken relative to
  one common real shift, each weight divided by 0 + the sum of all of them — is W / E as well, so the two
  agree; and a sum over 4·n scores is the sum over 4 blocks of n.
-/
import Mathlib
import Idealize.ShloMosaic.PureOps.Ideal
import proofs.«146551_j6992206758194_2_alg».proof.Proof.LibSoftmaxShift
import proofs.«146551_j6992206758194_2_alg».proof.Proof.LibBlockSums

noncomputable section

namespace OnlineSoftmax

open Idealize.ShloMosaic
open scoped BigOperators

variable {n : ℕ}

/-- The new shift: the old one against the block's maximum (a fold of max from −∞). -/
def stepM (m : EReal) (s : Fin n → EReal) : EReal := max m ((Finset.univ : Finset (Fin n)).fold max ⊥ s)

/-- The new sum of exponentials: the old one rescaled, plus the block's. -/
def stepL (m l : EReal) (s : Fin n → EReal) : EReal :=
  Ideal.exp (m - stepM m s) * l + ∑ c : Fin n, Ideal.exp (s c - stepM m s)

/-- The new weighted sum: the old one rescaled, plus the block's exponentials times its values. -/
def stepA (m a : EReal) (s v : Fin n → EReal) : EReal :=
  Ideal.exp (m - stepM m s) * a + ∑ c : Fin n, Ideal.exp (s c - stepM m s) * v c

/-- One block absorbed into the state (m, l, a). -/
def step (st : EReal × EReal × EReal) (s v : Fin n → EReal) : EReal × EReal × EReal :=
  (stepM st.1 s, stepL st.1 st.2.1 s, stepA st.1 st.2.2 s v)

/-- The state before any block. -/
def init : EReal × EReal × EReal := (⊥, 0, 0)

/-- Four blocks absorbed in order. -/
def run4 (s v : Fin 4 → Fin n → EReal) : EReal × EReal × EReal :=
  step (step (step (step init (s 0) (v 0)) (s 1) (v 1)) (s 2) (v 2)) (s 3) (v 3)

/-- The row's result: the weighted sum over the sum. -/
def out (st : EReal × EReal × EReal) : EReal := Ideal.div st.2.2 st.2.1

/-- The state has seen real scores with exponential sum `E` and weighted sum `W`, relative to some real shift. -/
def Seen (st : EReal × EReal × EReal) (E W : ℝ) : Prop :=
  ∃ M : ℝ, st = ((M : EReal), ((Real.exp (-M) * E : ℝ) : EReal), ((Real.exp (-M) * W : ℝ) : EReal))

theorem sum_exp_rel (s : Fin n → ℝ) (M : ℝ) :
    ∑ c : Fin n, Ideal.exp (((s c : ℝ) : EReal) - (M : EReal)) = ((Real.exp (-M) * ∑ c : Fin n, Real.exp (s c) : ℝ) : EReal) := by
  simp only [← EReal.coe_sub, Ideal.exp_coe, Cert.LibSoftmaxShift.coe_sum]
  congr 1
  rw [Finset.mul_sum]
  exact Finset.sum_congr rfl fun c _ => by rw [sub_eq_add_neg, Real.exp_add, mul_comm]

theorem sum_exp_rel_mul (s v : Fin n → ℝ) (M : ℝ) :
    ∑ c : Fin n, Ideal.exp (((s c : ℝ) : EReal) - (M : EReal)) * ((v c : ℝ) : EReal)
      = ((Real.exp (-M) * ∑ c : Fin n, Real.exp (s c) * v c : ℝ) : EReal) := by
  simp only [← EReal.coe_sub, Ideal.exp_coe, ← EReal.coe_mul, Cert.LibSoftmaxShift.coe_sum]
  congr 1
  rw [Finset.mul_sum]
  exact Finset.sum_congr rfl fun c _ => by rw [sub_eq_add_neg, Real.exp_add]; ring

/-- The first block: from (−∞, 0, 0) the old sums contribute nothing. -/
theorem seen_init (hn : 0 < n) (s v : Fin n → ℝ) :
    Seen (step init (fun c => ((s c : ℝ) : EReal)) (fun c => ((v c : ℝ) : EReal)))
      (∑ c : Fin n, Real.exp (s c)) (∑ c : Fin n, Real.exp (s c) * v c) := by
  obtain ⟨r, hr⟩ := Cert.LibSoftmaxShift.fold_max_real hn (fun c => ((s c : ℝ) : EReal)) (fun c => ⟨s c, rfl⟩)
  have hM : stepM (⊥ : EReal) (fun c => ((s c : ℝ) : EReal)) = (r : EReal) := by
    unfold stepM; rw [hr]; exact max_eq_right bot_le
  refine ⟨r, ?_⟩
  unfold step init
  dsimp only
  unfold stepL stepA
  rw [hM, sum_exp_rel, sum_exp_rel_mul, EReal.bot_sub, Ideal.exp_bot, mul_zero, zero_add, zero_add]

/-- A further block keeps the form, whatever the shifts are. -/
theorem seen_step (hn : 0 < n) (st : EReal × EReal × EReal) (E W : ℝ) (h : Seen st E W) (s v : Fin n → ℝ) :
    Seen (step st (fun c => ((s c : ℝ) : EReal)) (fun c => ((v c : ℝ) : EReal)))
      (E + ∑ c : Fin n, Real.exp (s c)) (W + ∑ c : Fin n, Real.exp (s c) * v c) := by
  obtain ⟨M, rfl⟩ := h
  obtain ⟨r, hr⟩ := Cert.LibSoftmaxShift.fold_max_real hn (fun c => ((s c : ℝ) : EReal)) (fun c => ⟨s c, rfl⟩)
  have hM : stepM (M : EReal) (fun c => ((s c : ℝ) : EReal)) = ((max M r : ℝ) : EReal) := by
    unfold stepM; rw [hr]; exact (EReal.coe_strictMono.monotone.map_max).symm
  refine ⟨max M r, ?_⟩
  unfold step
  dsimp only
  unfold stepL stepA
  rw [hM, sum_exp_rel, sum_exp_rel_mul, ← EReal.coe_sub, Ideal.exp_coe, ← EReal.coe_mul, ← EReal.coe_mul,
    ← EReal.coe_add, ← EReal.coe_add]
  have e : Real.exp (M - max M r) * Real.exp (-M) = Real.exp (-(max M r)) := by
    rw [← Real.exp_add]; congr 1; ring
  refine Prod.ext rfl (Prod.ext ?_ ?_)
  · show ((_ : ℝ) : EReal) = ((_ : ℝ) : EReal)
    congr 1
    rw [← mul_assoc, e]; ring
  · show ((_ : ℝ) : EReal) = ((_ : ℝ) : EReal)
    congr 1
    rw [← mul_assoc, e]; ring

/-- The result of a state that has seen (E, W), E positive, is W / E: the shift cancels. -/
theorem out_of_seen (st : EReal × EReal × EReal) (E W : ℝ) (h : Seen st E W) (hE : 0 < E) :
    out st = ((W / E : ℝ) : EReal) := by
  obtain ⟨M, rfl⟩ := h
  unfold out
  dsimp only
  have hx : Real.exp (-M) * E ≠ 0 := mul_ne_zero (Real.exp_pos _).ne' hE.ne'
  rw [Ideal.div_coe hx, ← EReal.coe_mul]
  congr 1
  have := (Real.exp_pos (-M)).ne'
  field_simp

/-- Four real blocks: the result is the exponential-weighted mean of the values over all four. -/
theorem out_run4 (hn : 0 < n) (s v : Fin 4 → Fin n → ℝ) :
    out (run4 (fun j c => ((s j c : ℝ) : EReal)) (fun j c => ((v j c : ℝ) : EReal)))
      = (((∑ j : Fin 4, ∑ c : Fin n, Real.exp (s j c) * v j c) / (∑ j : Fin 4, ∑ c : Fin n, Real.exp (s j c)) : ℝ) : EReal) := by
  have h4 := seen_step hn _ _ _ (seen_step hn _ _ _ (seen_step hn _ _ _ (seen_init hn (s 0) (v 0)) (s 1) (v 1)) (s 2) (v 2)) (s 3) (v 3)
  have hpos : ∀ j : Fin 4, 0 < ∑ c : Fin n, Real.exp (s j c) := fun j =>
    Finset.sum_pos (fun _ _ => Real.exp_pos _) ⟨⟨0, hn⟩, Finset.mem_univ _⟩
  rw [Fin.sum_univ_four, Fin.sum_univ_four]
  exact out_of_seen _ _ _ h4 (by have := hpos 0; have := hpos 1; have := hpos 2; have := hpos 3; positivity)

/-- The one-pass softmax-weighted sum over real scores, every exponential relative to one real shift `M` and each
    weight divided by `0 +` the sum of all of them, is the same exponential-weighted mean. -/
theorem softmax_sum {ι : Type} [Fintype ι] [Nonempty ι] (s v : ι → ℝ) (M : ℝ) :
    ∑ k : ι, Ideal.div (Ideal.exp (((s k : ℝ) : EReal) - (M : EReal))) (0 + ∑ k' : ι, Ideal.exp (((s k' : ℝ) : EReal) - (M : EReal)))
        * ((v k : ℝ) : EReal)
      = (((∑ k : ι, Real.exp (s k) * v k) / (∑ k : ι, Real.exp (s k)) : ℝ) : EReal) := by
  have hpos : (0 : ℝ) < ∑ k : ι, Real.exp (s k) := Finset.sum_pos (fun _ _ => Real.exp_pos _) Finset.univ_nonempty
  simp only [Cert.LibSoftmaxShift.softmax_shift, Ideal.exp_coe, Cert.LibSoftmaxShift.coe_sum, Ideal.div_coe hpos.ne',
    ← EReal.coe_mul]
  congr 1
  rw [Finset.sum_div]
  exact Finset.sum_congr rfl fun k _ => by field_simp

end OnlineSoftmax

end
-- ==== Proof.LibMaskedSoftmax.lean ====
/-
  The running softmax of one row whose scores may be masked, on the extended reals.

  A score is a real number or −∞; −∞ marks a masked position. At the exact values exp (−∞ − M) = 0 for a real M, so a
  masked position adds nothing to a sum of exponentials or to a sum of exponentials weighted by values. For a score x
  write e(x) for its exponential as a real number: exp r for a real r, 0 for −∞.

  The row arrives in blocks and the running state (m, l, a) is updated exactly as for unmasked scores: the shift moves
  to m' = max m (max of the block, a fold of max from −∞), l and a are rescaled by exp (m − m') and the block's
  exponentials relative to m' (times its values, for a) are added. If every block absorbed has at least one real score,
  its maximum is a real number, so from the first block on the shift is real, and the first step, taken from (−∞, 0, 0),
  contributes nothing from the old sums. The state after at least one such block is therefore
      (M, exp (−M) · E, exp (−M) · W)   for some real M,
  E the sum of e(x) over every score seen and W the sum of e(x) · v over every score seen with its (real) value: masked
  scores are counted with weight 0. E > 0, and a / l = W / E.

  The one-pass softmax of the whole row — shift max (−∞, fold of max from −∞), weights exp (x − shift), each weight
  divided by the sum of the weights before it multiplies its value — is W / E as well, E and W now taken over the whole
  row. A block made of −∞ only contributes 0 to both, whether or not the running form ever absorbed it. So for a row
  of m·n scores cut into m blocks of n, whose blocks 0, …, q each hold a real score and whose blocks after q are
  entirely −∞, the running form stopped after block q and the one-pass form over the whole row give the same result.

  Last, a law of real numbers read on the extended reals: in a sum of products the constant factor may be taken out,
  Σ (q_e · c) · k_e = (Σ q_e · k_e) · c, when every factor is a real number.
-/
import Mathlib
import Idealize.ShloMosaic.PureOps.Ideal
import proofs.«146551_j6992206758194_2_alg».proof.Proof.LibSoftmaxShift
import proofs.«146551_j6992206758194_2_alg».proof.Proof.LibBlockSums
import proofs.«146551_j6992206758194_2_alg».proof.Proof.LibOnlineSoftmax

noncomputable section

namespace MaskedSoftmax

open Idealize.ShloMosaic OnlineSoftmax
open scoped BigOperators

/-- A score: a real number, or −∞ for a masked position. -/
def Masked (x : EReal) : Prop := x = ⊥ ∨ ∃ r : ℝ, x = (r : EReal)

/-- An entry that is a real number. -/
def IsReal (x : EReal) : Prop := ∃ r : ℝ, x = (r : EReal)

theorem IsReal.masked {x : EReal} (h : IsReal x) : Masked x := Or.inr h
theorem masked_bot : Masked ⊥ := Or.inl rfl
theorem isReal_coe (r : ℝ) : IsReal (r : EReal) := ⟨r, rfl⟩
theorem IsReal.coe_toReal {x : EReal} (h : IsReal x) : ((x.toReal : ℝ) : EReal) = x := by
  obtain ⟨r, rfl⟩ := h; rw [EReal.toReal_coe]
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type} (s : Finset ι) (f : ι → EReal) (h : ∀ k ∈ s, IsReal (f k)) : IsReal (∑ k ∈ s, f k) := by
  classical
  induction s using Finset.induction_on with
  | empty => exact ⟨0, by simp⟩
  | insert a s ha ih =>
    rw [Finset.sum_insert ha]
    obtain ⟨x, hx⟩ := h a (Finset.mem_insert_self a s)
    obtain ⟨y, hy⟩ := ih fun k hk => h k (Finset.mem_insert_of_mem hk)
    exact ⟨x + y, by rw [hx, hy, EReal.coe_add]⟩

/-- The exponential of a score as a real number: exp r for a real r, 0 for −∞. -/
def expR (x : EReal) : ℝ := (Ideal.exp x).toReal

theorem expR_bot : expR ⊥ = 0 := by rw [expR, Ideal.exp_bot, EReal.toReal_zero]
theorem expR_coe (r : ℝ) : expR (r : EReal) = Real.exp r := by rw [expR, Ideal.exp_coe, EReal.toReal_coe]
theorem expR_nonneg {x : EReal} (hx : Masked x) : 0 ≤ expR x := by
  rcases hx with rfl | ⟨r, rfl⟩
  · rw [expR_bot]
  · rw [expR_coe]; exact (Real.exp_pos r).le
theorem expR_pos {x : EReal} (hx : IsReal x) : 0 < expR x := by
  obtain ⟨r, rfl⟩ := hx; rw [expR_coe]; exact Real.exp_pos r

/-- The exponential of a score relative to a real shift M is exp (−M) · e(x): 0 for a masked score. -/
theorem exp_sub_coe {x : EReal} (hx : Masked x) (M : ℝ) :
    Ideal.exp (x - (M : EReal)) = ((Real.exp (-M) * expR x : ℝ) : EReal) := by
  rcases hx with rfl | ⟨r, rfl⟩
  · rw [EReal.bot_sub, Ideal.exp_bot, expR_bot, mul_zero, EReal.coe_zero]
  · rw [← EReal.coe_sub, Ideal.exp_coe, expR_coe]
    congr 1
    rw [sub_eq_add_neg, Real.exp_add, mul_comm]

variable {n : ℕ}

/-- The sum of e(x) over a block (or a whole row). -/
def sumE (s : Fin n → EReal) : ℝ := ∑ c : Fin n, expR (s c)

/-- The sum of e(x) · v over a block (or a whole row), v read as a real number. -/
def sumW (s v : Fin n → EReal) : ℝ := ∑ c : Fin n, expR (s c) * (v c).toReal

theorem sumE_nonneg (s : Fin n → EReal) (hs : ∀ c, Masked (s c)) : 0 ≤ sumE s :=
  Finset.sum_nonneg fun c _ => expR_nonneg (hs c)

theorem sumE_pos (s : Fin n → EReal) (hs : ∀ c, Masked (s c)) (h1 : ∃ c, IsReal (s c)) : 0 < sumE s := by
  obtain ⟨c, hc⟩ := h1
  exact Finset.sum_pos' (fun c _ => expR_nonneg (hs c)) ⟨c, Finset.mem_univ _, expR_pos hc⟩

theorem sumE_bot (s : Fin n → EReal) (hs : ∀ c, s c = ⊥) : sumE s = 0 :=
  Finset.sum_eq_zero fun c _ => by rw [hs c, expR_bot]

theorem sumW_bot (s v : Fin n → EReal) (hs : ∀ c, s c = ⊥) : sumW s v = 0 :=
  Finset.sum_eq_zero fun c _ => by rw [hs c, expR_bot, zero_mul]

theorem sum_exp_rel (s : Fin n → EReal) (hs : ∀ c, Masked (s c)) (M : ℝ) :
    ∑ c : Fin n, Ideal.exp (s c - (M : EReal)) = ((Real.exp (-M) * sumE s : ℝ) : EReal) := by
  rw [Finset.sum_congr rfl fun c _ => exp_sub_coe (hs c) M, Cert.LibSoftmaxShift.coe_sum, sumE, Finset.mul_sum]

theorem sum_exp_rel_mul (s v : Fin n → EReal) (hs : ∀ c, Masked (s c)) (hv : ∀ c, IsReal (v c)) (M : ℝ) :
    ∑ c : Fin n, Ideal.exp (s c - (M : EReal)) * v c = ((Real.exp (-M) * sumW s v : ℝ) : EReal) := by
  have e : ∀ c : Fin n, Ideal.exp (s c - (M : EReal)) * v c
      = ((Real.exp (-M) * (expR (s c) * (v c).toReal) : ℝ) : EReal) := fun c => by
    rw [exp_sub_coe (hs c) M, ← (hv c).coe_toReal, EReal.toReal_coe, ← EReal.coe_mul, mul_assoc]
  rw [Finset.sum_congr rfl fun c _ => e c, Cert.LibSoftmaxShift.coe_sum, sumW, Finset.mul_sum]

/-- The maximum, started from −∞, of a block of scores of which at least one is real, is a real number. -/
theorem fold_max_real (s : Fin n → EReal) (hs : ∀ c, Masked (s c)) (h1 : ∃ c, IsReal (s c)) :
    ∃ r : ℝ, (Finset.univ : Finset (Fin n)).fold max ⊥ s = (r : EReal) := by
  have hlt : (Finset.univ : Finset (Fin n)).fold max ⊥ s < ⊤ :=
    (Finset.fold_max_lt _).2 ⟨bot_lt_top, fun c _ => by
      rcases hs c with h | ⟨r, h⟩
      · rw [h]; exact bot_lt_top
      · rw [h]; exact EReal.coe_lt_top r⟩
  obtain ⟨c, r, hr⟩ := h1
  have hge : s c ≤ (Finset.univ : Finset (Fin n)).fold max ⊥ s :=
    (Finset.le_fold_max _).2 (Or.inr ⟨c, Finset.mem_univ _, le_rfl⟩)
  have hne : (Finset.univ : Finset (Fin n)).fold max ⊥ s ≠ ⊥ := by
    rw [hr] at hge
    exact ne_of_gt (lt_of_lt_of_le (EReal.bot_lt_coe r) hge)
  exact ⟨_, (EReal.coe_toReal hlt.ne hne).symm⟩

/-- The first block: from (−∞, 0, 0) the old sums contribute nothing. -/
theorem seen_init (s v : Fin n → EReal) (hs : ∀ c, Masked (s c)) (h1 : ∃ c, IsReal (s c)) (hv : ∀ c, IsReal (v c)) :
    Seen (step init s v) (sumE s) (sumW s v) := by
  obtain ⟨r, hr⟩ := fold_max_real s hs h1
  have hM : stepM (⊥ : EReal) s = (r : EReal) := by
    unfold stepM; rw [hr]; exact max_eq_right bot_le
  refine ⟨r, ?_⟩
  unfold step init
  dsimp only
  unfold stepL stepA
  rw [hM, sum_exp_rel s hs, sum_exp_rel_mul s v hs hv, EReal.bot_sub, Ideal.exp_bot, mul_zero, zero_add, zero_add]

/-- A further block keeps the form, whatever the shifts are. -/
theorem seen_step (st : EReal × EReal × EReal) (E W : ℝ) (h : Seen st E W) (s v : Fin n → EReal)
    (hs : ∀ c, Masked (s c)) (h1 : ∃ c, IsReal (s c)) (hv : ∀ c, IsReal (v c)) :
    Seen (step st s v) (E + sumE s) (W + sumW s v) := by
  obtain ⟨M, rfl⟩ := h
  obtain ⟨r, hr⟩ := fold_max_real s hs h1
  have hM : stepM (M : EReal) s = ((max M r : ℝ) : EReal) := by
    unfold stepM; rw [hr]; exact (EReal.coe_strictMono.monotone.map_max).symm
  refine ⟨max M r, ?_⟩
  unfold step
  dsimp only
  unfold stepL stepA
  rw [hM, sum_exp_rel s hs, sum_exp_rel_mul s v hs hv, ← EReal.coe_sub, Ideal.exp_coe, ← EReal.coe_mul, ← EReal.coe_mul,
    ← EReal.coe_add, ← EReal.coe_add]
  have e : Real.exp (M - max M r) * Real.exp (-M) = Real.exp (-(max M r)) := by
    rw [← Real.exp_add]; congr 1; ring
  refine Prod.ext rfl (Prod.ext ?_ ?_)
  · show ((_ : ℝ) : EReal) = ((_ : ℝ) : EReal)
    congr 1
    rw [← mul_assoc, e]; ring
  · show ((_ : ℝ) : EReal) = ((_ : ℝ) : EReal)
    congr 1
    rw [← mul_assoc, e]; ring

/-- The one-pass softmax-weighted sum of a row: the shift is the row's maximum (a fold of max from −∞, taken once more
    against −∞), every weight is divided by the sum of the weights, then multiplies its value. -/
def onePass {N : ℕ} (sc v : Fin N → EReal) : EReal :=
  ∑ s : Fin N, Ideal.div (Ideal.exp (sc s - max ⊥ ((Finset.univ : Finset (Fin N)).fold max ⊥ sc)))
      (∑ s' : Fin N, Ideal.exp (sc s' - max ⊥ ((Finset.univ : Finset (Fin N)).fold max ⊥ sc))) * v s

/-- The one-pass form over masked scores, at least one of them real, with real values: W / E over the whole row. -/
theorem onePass_eq {N : ℕ} (sc v : Fin N → EReal) (hs : ∀ r, Masked (sc r)) (h1 : ∃ r, IsReal (sc r))
    (hv : ∀ r, IsReal (v r)) : onePass sc v = ((sumW sc v / sumE sc : ℝ) : EReal) := by
  obtain ⟨M, hM⟩ := fold_max_real sc hs h1
  have hE := sumE_pos sc hs h1
  have hx : Real.exp (-M) * sumE sc ≠ 0 := mul_ne_zero (Real.exp_pos _).ne' hE.ne'
  have e : ∀ s : Fin N, Ideal.div (Ideal.exp (sc s - (M : EReal))) ((Real.exp (-M) * sumE sc : ℝ) : EReal) * v s
      = ((expR (sc s) * (v s).toReal / sumE sc : ℝ) : EReal) := fun s => by
    rw [exp_sub_coe (hs s) M, Ideal.div_coe hx, ← EReal.coe_mul, ← (hv s).coe_toReal, EReal.toReal_coe, ← EReal.coe_mul]
    congr 1
    have := (Real.exp_pos (-M)).ne'
    have := hE.ne'
    field_simp
  unfold onePass
  rw [hM, max_eq_right bot_le, sum_exp_rel sc hs M, Finset.sum_congr rfl fun s _ => e s,
    Cert.LibSoftmaxShift.coe_sum, sumW, Finset.sum_div]

variable {m : ℕ}

/-- Blocks 0, …, k of a row absorbed in order, from the state before any block. -/
def runTo (s v : Fin m → Fin n → EReal) : (k : ℕ) → k < m → EReal × EReal × EReal
  | 0, h => step init (s ⟨0, h⟩) (v ⟨0, h⟩)
  | k + 1, h => step (runTo s v k (Nat.lt_of_succ_lt h)) (s ⟨k + 1, h⟩) (v ⟨k + 1, h⟩)

theorem runTo_zero (s v : Fin m → Fin n → EReal) (h : 0 < m) :
    runTo s v 0 h = step init (s ⟨0, h⟩) (v ⟨0, h⟩) := rfl

theorem runTo_succ (s v : Fin m → Fin n → EReal) (k : ℕ) (h : k + 1 < m) :
    runTo s v (k + 1) h = step (runTo s v k (Nat.lt_of_succ_lt h)) (s ⟨k + 1, h⟩) (v ⟨k + 1, h⟩) := rfl

/-- The sum over the blocks 0, …, k of a quantity attached to each block. -/
def upTo (f : Fin m → ℝ) (k : ℕ) : ℝ := ∑ i : Fin m, if i.val ≤ k then f i else 0

theorem upTo_zero (f : Fin m → ℝ) (h : 0 < m) : upTo f 0 = f ⟨0, h⟩ := by
  unfold upTo
  rw [Finset.sum_eq_single (⟨0, h⟩ : Fin m)]
  · rw [if_pos (Nat.le_refl 0)]
  · intro i _ hi
    rw [if_neg]
    intro hle
    exact hi (Fin.ext (Nat.le_zero.mp hle))
  · intro h'
    exact absurd (Finset.mem_univ _) h'

theorem upTo_succ (f : Fin m → ℝ) (k : ℕ) (h : k + 1 < m) : upTo f (k + 1) = upTo f k + f ⟨k + 1, h⟩ := by
  unfold upTo
  have e : ∀ i : Fin m, (if i.val ≤ k + 1 then f i else 0)
      = (if i.val ≤ k then f i else 0) + (if i = (⟨k + 1, h⟩ : Fin m) then f i else 0) := by
    intro i
    by_cases h1 : i.val ≤ k
    · have h2 : i ≠ (⟨k + 1, h⟩ : Fin m) := fun e => by
        have := congrArg Fin.val e
        simp only at this
        omega
      rw [if_pos (by omega), if_pos h1, if_neg h2, add_zero]
    · by_cases h2 : i = (⟨k + 1, h⟩ : Fin m)
      · have h3 : i.val ≤ k + 1 := by rw [h2]
        rw [if_pos h3, if_neg h1, if_pos h2, zero_add]
      · have h3 : ¬ i.val ≤ k + 1 := fun hle => h2 (Fin.ext (by simp only; omega))
        rw [if_neg h3, if_neg h1, if_neg h2, add_zero]
  rw [Finset.sum_congr rfl fun i _ => e i, Finset.sum_add_distrib, Finset.sum_ite_eq' Finset.univ (⟨k + 1, h⟩ : Fin m) f,
    if_pos (Finset.mem_univ _)]

/-- When the quantity vanishes on every block after k, the sum over the blocks up to k is the sum over all blocks. -/
theorem upTo_eq_sum (f : Fin m → ℝ) (k : ℕ) (hz : ∀ i : Fin m, k < i.val → f i = 0) : upTo f k = ∑ i : Fin m, f i := by
  unfold upTo
  refine Finset.sum_congr rfl fun i _ => ?_
  by_cases h : i.val ≤ k
  · rw [if_pos h]
  · rw [if_neg h, hz i (by omega)]

/-- After blocks 0, …, k, each holding at least one real score: the state has seen the sums of e(x) and of e(x) · v
    over those blocks. -/
theorem seen_runTo (s v : Fin m → Fin n → EReal) (k : ℕ) (hk : k < m)
    (hs : ∀ i : Fin m, i.val ≤ k → ∀ c, Masked (s i c)) (h1 : ∀ i : Fin m, i.val ≤ k → ∃ c, IsReal (s i c))
    (hv : ∀ i : Fin m, i.val ≤ k → ∀ c, IsReal (v i c)) :
    Seen (runTo s v k hk) (upTo (fun i => sumE (s i)) k) (upTo (fun i => sumW (s i) (v i)) k) := by
  induction k with
  | zero =>
    rw [runTo_zero, upTo_zero _ hk, upTo_zero _ hk]
    exact seen_init _ _ (hs _ (Nat.le_refl 0)) (h1 _ (Nat.le_refl 0)) (hv _ (Nat.le_refl 0))
  | succ k ih =>
    rw [runTo_succ, upTo_succ _ k hk, upTo_succ _ k hk]
    exact seen_step _ _ _
      (ih (Nat.lt_of_succ_lt hk) (fun i hi => hs i (Nat.le_succ_of_le hi)) (fun i hi => h1 i (Nat.le_succ_of_le hi))
        (fun i hi => hv i (Nat.le_succ_of_le hi)))
      _ _ (hs _ (Nat.le_refl _)) (h1 _ (Nat.le_refl _)) (hv _ (Nat.le_refl _))

/-- THE RUNNING FORM AGAINST THE ONE-PASS FORM. A row of m·n masked scores with real values, cut into m blocks of n
    (g i j names index i·n + j). Blocks 0, …, q each hold a real score; the blocks after q are entirely −∞. Then the
    running form stopped after block q gives what the one-pass form gives over the whole row. -/
theorem out_runTo_eq_onePass {N : ℕ} (hN : N = m * n) (g : Fin m → Fin n → Fin N)
    (hg : ∀ i j, (g i j).val = i.val * n + j.val) (sc vv : Fin N → EReal) (q : ℕ) (hq : q < m)
    (hs : ∀ r, Masked (sc r)) (hv : ∀ r, IsReal (vv r))
    (h1 : ∀ i : Fin m, i.val ≤ q → ∃ c, IsReal (sc (g i c)))
    (hlate : ∀ i : Fin m, q < i.val → ∀ c, sc (g i c) = ⊥) :
    out (runTo (fun i c => sc (g i c)) (fun i c => vv (g i c)) q hq) = onePass sc vv := by
  have hseen := seen_runTo (fun i c => sc (g i c)) (fun i c => vv (g i c)) q hq (fun i _ c => hs _) h1 (fun i _ c => hv _)
  have hE : upTo (fun i => sumE fun c => sc (g i c)) q = sumE sc := by
    rw [upTo_eq_sum _ q fun i hi => sumE_bot _ (hlate i hi)]
    exact (BlockSums.sum_blocks hN g hg fun r => expR (sc r)).symm
  have hW : upTo (fun i => sumW (fun c => sc (g i c)) fun c => vv (g i c)) q = sumW sc vv := by
    rw [upTo_eq_sum _ q fun i hi => sumW_bot _ _ (hlate i hi)]
    exact (BlockSums.sum_blocks hN g hg fun r => expR (sc r) * (vv r).toReal).symm
  obtain ⟨c, hc⟩ := h1 ⟨0, Nat.lt_of_le_of_lt (Nat.zero_le q) hq⟩ (Nat.zero_le q)
  have hrow : ∃ r, IsReal (sc r) := ⟨_, hc⟩
  rw [hE, hW] at hseen
  rw [out_of_seen _ _ _ hseen (sumE_pos sc hs hrow), onePass_eq sc vv hs hrow hv]

/-- In a sum of products of real numbers a constant factor moves out of the sum. -/
theorem sum_mul_const {ι : Type} [Fintype ι] (a b : ι → EReal) (c : EReal) (ha : ∀ e, IsReal (a e)) (hb : ∀ e, IsReal (b e))
    (hc : IsReal c) : ∑ e : ι, a e * c * b e = (∑ e : ι, a e * b e) * c := by
  obtain ⟨cr, rfl⟩ := hc
  choose ar har using ha
  choose br hbr using hb
  simp only [har, hbr, ← EReal.coe_mul, Cert.LibSoftmaxShift.coe_sum]
  congr 1
  rw [Finset.sum_mul]
  exact Finset.sum_congr rfl fun e _ => by ring

/-- … and the scaled sum is a real number. -/
theorem isReal_sum_mul_const {ι : Type} [Fintype ι] (a b : ι → EReal) (c : EReal) (ha : ∀ e, IsReal (a e))
    (hb : ∀ e, IsReal (b e)) (hc : IsReal c) : IsReal ((∑ e : ι, a e * b e) * c) :=
  (IsReal.sum _ _ fun e _ => (ha e).mul (hb e)).mul hc

end MaskedSoftmax

end
-- ==== Proof.AttnFacts.lean ====
/-
  The causal scores and the projections when every input is a real number.

  A projection of real arrays is a finite sum of products of real numbers, hence a real number. The scale is the
  real number 1/32. So a causal score is a real number at the positions a query may attend to (s ≤ t) and −∞ at
  the others: every score is a real number or −∞. A row of 4096 scores is cut into 8 blocks of 512; for the
  query position t, block t / 512 is the last one that holds a position s ≤ t, every block up to it starts with
  such a position (its first column, i · 512 ≤ t), and every later block is entirely −∞. Hence the running softmax
  stopped after block t / 512 gives the row's attention. The scale may multiply the query entries before the dot
  product or the dot product after it: with real factors the two are the same number.
-/
import proofs.«146551_j6992206758194_2_alg».proof.Proof.AttnSpec
import proofs.«146551_j6992206758194_2_alg».proof.Proof.LibMaskedSoftmax

noncomputable section

namespace Cert.Attn

open Idealize.ShloMosaic Idealize.ShloMosaic.ValueIdx MaskedSoftmax OnlineSoftmax
open scoped BigOperators

/-- The scale is the real number 1/32. -/
theorem scale_eq : scale = (((1 / 32 : ℝ) : ℝ) : EReal) := by
  unfold scale
  simp [Ideal.ofBits, Ideal.ieee, -EReal.coe_mul]
  norm_num

theorem scale_real : IsReal scale := ⟨1 / 32, scale_eq⟩

/-- A projection of real arrays is real. -/
theorem proj_real (x : SX.Idx → EReal) (w : SW.Idx → EReal) (hx : ∀ i, IsReal (x i)) (hw : ∀ i, IsReal (w i))
    (b : Fin 4) (t : Fin 4096) (e : Fin 64) : IsReal (proj x w b t e) :=
  IsReal.sum _ _ fun _ _ => (hx _).mul (hw _)

theorem score_of_le (q k : Fin 4 → Fin 4096 → Fin 64 → EReal) (b : Fin 4) {t s : Fin 4096} (h : s ≤ t) :
    score q k b t s = (∑ e : Fin 64, q b t e * k b s e) * scale := if_pos h

theorem score_of_lt (q k : Fin 4 → Fin 4096 → Fin 64 → EReal) (b : Fin 4) {t s : Fin 4096} (h : t < s) :
    score q k b t s = ⊥ := if_neg (not_le.mpr h)

/-- An attended score of real queries and keys is real. -/
theorem score_real (q k : Fin 4 → Fin 4096 → Fin 64 → EReal) (hq : ∀ b t e, IsReal (q b t e)) (hk : ∀ b t e, IsReal (k b t e))
    (b : Fin 4) {t s : Fin 4096} (h : s ≤ t) : IsReal (score q k b t s) := by
  rw [score_of_le q k b h]
  exact isReal_sum_mul_const _ _ _ (fun e => hq b t e) (fun e => hk b s e) scale_real

/-- Every causal score of real queries and keys is a real number or −∞. -/
theorem score_masked (q k : Fin 4 → Fin 4096 → Fin 64 → EReal) (hq : ∀ b t e, IsReal (q b t e)) (hk : ∀ b t e, IsReal (k b t e))
    (b : Fin 4) (t s : Fin 4096) : Masked (score q k b t s) := by
  by_cases h : s ≤ t
  · exact (score_real q k hq hk b h).masked
  · rw [score_of_lt q k b (not_le.mp h)]; exact masked_bot

/-- The scale applied to the query entries first, or to the dot product afterwards: the same attended score. -/
theorem score_scale_first (q k : Fin 4 → Fin 4096 → Fin 64 → EReal) (hq : ∀ b t e, IsReal (q b t e)) (hk : ∀ b t e, IsReal (k b t e))
    (b : Fin 4) (t s : Fin 4096) :
    ∑ e : Fin 64, q b t e * scale * k b s e = (∑ e : Fin 64, q b t e * k b s e) * scale :=
  sum_mul_const _ _ _ (fun e => hq b t e) (fun e => hk b s e) scale_real

/-- Position j of block i of a row of 4096 cut into 8 blocks of 512. -/
def blk (i : Fin 8) (j : Fin 512) : Fin 4096 := ⟨i.val * 512 + j.val, by have := i.isLt; have := j.isLt; omega⟩

theorem blk_val (i : Fin 8) (j : Fin 512) : (blk i j).val = i.val * 512 + j.val := rfl

/-- One row of attention is the one-pass softmax-weighted sum. -/
theorem attnRow_eq_onePass {N : ℕ} (sc v : Fin N → EReal) : attnRow sc v = MaskedSoftmax.onePass sc v := rfl

/-- THE RUNNING FORM GIVES THE ROW'S ATTENTION: for real queries, keys and values, the running softmax over the blocks
    0, …, t / 512 of row t's causal scores, with the matching blocks of the values, ends at the row's attention. -/
theorem out_runTo_eq_attnRow (q k : Fin 4 → Fin 4096 → Fin 64 → EReal) (hq : ∀ b t e, IsReal (q b t e))
    (hk : ∀ b t e, IsReal (k b t e)) (vv : Fin 4096 → EReal) (hv : ∀ s, IsReal (vv s)) (b : Fin 4) (t : Fin 4096)
    (hlt : t.val / 512 < 8) :
    out (runTo (fun i c => score q k b t (blk i c)) (fun i c => vv (blk i c)) (t.val / 512) hlt)
      = attnRow (score q k b t) vv := by
  rw [attnRow_eq_onePass]
  refine out_runTo_eq_onePass (m := 8) (n := 512) (N := 4096) rfl blk blk_val (score q k b t) vv (t.val / 512) hlt
    (fun s => score_masked q k hq hk b t s) hv ?_ ?_
  · intro i hi
    refine ⟨⟨0, by decide⟩, score_real q k hq hk b ?_⟩
    show (blk i ⟨0, by decide⟩).val ≤ t.val
    rw [blk_val]
    simp only
    omega
  · intro i hi c
    refine score_of_lt q k b ?_
    show t.val < (blk i c).val
    rw [blk_val]
    omega

end Cert.Attn

end
-- ==== Proof.AttnBridge.lean ====
/-
  From the running form the kernel computes to the specification's attention.

  The attention call is entered with the query embeddings, the TRANSPOSED query weights, and the keys and values
  already projected (against the transposed key and value weights). For the query position t = qi · 512 + r it forms the
  scaled projected query row Qt (the row of embeddings against the columns of the transposed weights, times 1/32),
  scores it against block j of the projected keys — entry c of the block is position j · 512 + c, kept when that
  position is at most t and −∞ otherwise — and absorbs the blocks 0, …, qi in order into the running softmax with the
  matching blocks of the projected values; the result entry is the accumulator over the sum.

  A matrix transposed and then contracted along its first axis is the matrix contracted along its second, so Qt is
  the specification's projected query times the scale, and the projected keys and values are the specification's. With
  real inputs the scale may be moved from the query factor to the dot product, so the block scores are the
  specification's causal scores of row t cut into blocks; the running form over the blocks up to qi = t / 512 then gives
  the row's attention, the later blocks being entirely −∞.
-/
import proofs.«146551_j6992206758194_2_alg».proof.Proof.AttnFacts
import proofs.«146551_j6992206758194_2_alg».proof.Proof.LibMaskedSoftmax
import proofs.«146551_j6992206758194_2_alg».proof.Proof.K0Value
import proofs.«146551_j6992206758194_2_alg».proof.Proof.KHost

noncomputable section

namespace Cert.Attn

open Idealize.ShloMosaic Idealize.ShloMosaic.ValueIdx MaskedSoftmax OnlineSoftmax
open Cert.KernelIdeal.K0V (projArr projArr_apply)
open Cert.KernelIdeal.KH (transposeArr transposeArr_apply)
open scoped BigOperators

/-- The shape of a transposed weight matrix: embedding coordinate, feature. -/
abbrev SWt : Shape := ⟨2, ![1024, 64]⟩

/-- The scaled projected query row of position qi · 512 + r, from the embeddings and the transposed weights. -/
def Qt (Qe : SX.Idx → EReal) (Wt : SWt.Idx → EReal) (b : Fin 4) (qi : Fin 8) (r : Fin 512) (e : Fin 64) : EReal :=
  (∑ k : Fin 1024, Qe (ix3 b (blk qi r) k) * Wt (ix2 k e)) * Ideal.ofBits .f32 0x3D000000#32

/-- Block j of the scores of query position qi · 512 + r against the projected keys: entry c is key position
    j · 512 + c, kept when it is at most the query position, −∞ otherwise. -/
def sK (Qe : SX.Idx → EReal) (Wt : SWt.Idx → EReal) (Kp : SO.Idx → EReal) (b : Fin 4) (qi : Fin 8) (r : Fin 512)
    (j : Fin 8) (c : Fin 512) : EReal :=
  if j.val * 512 + c.val ≤ qi.val * 512 + r.val then ∑ e : Fin 64, Qt Qe Wt b qi r e * Kp (ix3 b (blk j c) e) else ⊥

/-- Block j of column d of the projected values. -/
def vK (Vp : SO.Idx → EReal) (b : Fin 4) (d : Fin 64) (j : Fin 8) (c : Fin 512) : EReal := Vp (ix3 b (blk j c) d)

/-- What the attention call leaves, tile by tile: row r of query tile qi, column d, is the running softmax over the
    key blocks 0, …, qi. -/
def KernelResult (Qe : SX.Idx → EReal) (Wt : SWt.Idx → EReal) (Kp Vp : SO.Idx → EReal) (O : SO.Idx → EReal) : Prop :=
  ∀ (b : Fin 4) (qi : Fin 8) (r : Fin 512) (d : Fin 64),
    O (ix3 b (blk qi r) d) = out (runTo (sK Qe Wt Kp b qi r) (vK Vp b d) qi.val qi.isLt)

/-- The tile of a position. -/
def tileOf (t : Fin 4096) : Fin 8 := ⟨t.val / 512, by have := t.isLt; omega⟩
/-- The row of a position inside its tile. -/
def rowIn (t : Fin 4096) : Fin 512 := ⟨t.val % 512, Nat.mod_lt _ (by decide)⟩

theorem blk_tile_row (t : Fin 4096) : blk (tileOf t) (rowIn t) = t :=
  Fin.ext (by show t.val / 512 * 512 + t.val % 512 = t.val; omega)

/-- The same, position by position. -/
def KernelResultAt (Qe : SX.Idx → EReal) (Wt : SWt.Idx → EReal) (Kp Vp : SO.Idx → EReal) (O : SO.Idx → EReal) : Prop :=
  ∀ (b : Fin 4) (t : Fin 4096) (d : Fin 64),
    O (ix3 b t d) = out (runTo (sK Qe Wt Kp b (tileOf t) (rowIn t)) (vK Vp b d) (tileOf t).val (tileOf t).isLt)

theorem kernelResultAt_of_tiles {Qe : SX.Idx → EReal} {Wt : SWt.Idx → EReal} {Kp Vp O : SO.Idx → EReal}
    (h : KernelResult Qe Wt Kp Vp O) : KernelResultAt Qe Wt Kp Vp O := fun b t d => by
  have e := h b (tileOf t) (rowIn t) d
  rw [blk_tile_row] at e
  exact e

/-! ## The arrays the call is entered with are the specification's projections -/

/-- The scaled query row is the specification's projected query times the scale. -/
theorem Qt_eq (xq : SX.Idx → EReal) (wq : SW.Idx → EReal) (b : Fin 4) (qi : Fin 8) (r : Fin 512) (e : Fin 64) :
    Qt xq (transposeArr wq) b qi r e = proj xq wq b (blk qi r) e * scale := rfl

/-- A projection against the transposed weights is the specification's projection. -/
theorem projArr_transpose (x : SX.Idx → EReal) (w : SW.Idx → EReal) (b : Fin 4) (s : Fin 4096) (e : Fin 64) :
    projArr x (transposeArr w) (ix3 b s e) = proj x w b s e := rfl

/-- The running form does not depend on how the number of the last block is written. -/
theorem runTo_congr {m n : ℕ} (s v : Fin m → Fin n → EReal) {k k' : ℕ} (h : k = k') (hk : k < m) :
    runTo s v k hk = runTo s v k' (h ▸ hk) := by
  subst h; rfl

/-- A block of the kernel's scores is the block of the specification's causal scores of the row. -/
theorem sK_eq (xq xk : SX.Idx → EReal) (wq wk : SW.Idx → EReal) (hxq : ∀ i, IsReal (xq i)) (hxk : ∀ i, IsReal (xk i))
    (hwq : ∀ i, IsReal (wq i)) (hwk : ∀ i, IsReal (wk i)) (b : Fin 4) (qi : Fin 8) (r : Fin 512) (j : Fin 8) (c : Fin 512) :
    sK xq (transposeArr wq) (projArr xk (transposeArr wk)) b qi r j c
      = score (proj xq wq) (proj xk wk) b (blk qi r) (blk j c) := by
  unfold sK
  by_cases h : j.val * 512 + c.val ≤ qi.val * 512 + r.val
  · have hle : blk j c ≤ blk qi r := h
    rw [if_pos h, score_of_le _ _ b hle]
    simp only [Qt_eq, projArr_transpose]
    exact score_scale_first (proj xq wq) (proj xk wk) (fun b t e => proj_real xq wq hxq hwq b t e)
      (fun b t e => proj_real xk wk hxk hwk b t e) b (blk qi r) (blk j c)
  · have hlt : blk qi r < blk j c := not_le.mp h
    rw [if_neg h, score_of_lt _ _ b hlt]

/-- One row of one tile: the kernel's running form is the row's attention. -/
theorem row_eq (xq xk xv : SX.Idx → EReal) (wq wk wv : SW.Idx → EReal) (hxq : ∀ i, IsReal (xq i)) (hxk : ∀ i, IsReal (xk i))
    (hxv : ∀ i, IsReal (xv i)) (hwq : ∀ i, IsReal (wq i)) (hwk : ∀ i, IsReal (wk i)) (hwv : ∀ i, IsReal (wv i))
    (b : Fin 4) (qi : Fin 8) (r : Fin 512) (d : Fin 64) :
    out (runTo (sK xq (transposeArr wq) (projArr xk (transposeArr wk)) b qi r)
        (vK (projArr xv (transposeArr wv)) b d) qi.val qi.isLt)
      = attnRow (score (proj xq wq) (proj xk wk) b (blk qi r)) (fun s => proj xv wv b s d) := by
  have es : sK xq (transposeArr wq) (projArr xk (transposeArr wk)) b qi r
      = fun i c => score (proj xq wq) (proj xk wk) b (blk qi r) (blk i c) :=
    funext fun j => funext fun c => sK_eq xq xk wq wk hxq hxk hwq hwk b qi r j c
  have ev : vK (projArr xv (transposeArr wv)) b d = fun i c => (fun s => proj xv wv b s d) (blk i c) := rfl
  have hq : (blk qi r).val / 512 = qi.val := by
    rw [blk_val]; have := r.isLt; omega
  have hlt : (blk qi r).val / 512 < 8 := by rw [hq]; exact qi.isLt
  rw [es, ev, runTo_congr _ _ hq.symm qi.isLt]
  exact out_runTo_eq_attnRow (proj xq wq) (proj xk wk) (fun b t e => proj_real xq wq hxq hwq b t e)
    (fun b t e => proj_real xk wk hxk hwk b t e) (fun s => proj xv wv b s d) (fun s => proj_real xv wv hxv hwv b s d)
    b (blk qi r) hlt

/-- THE BRIDGE, position by position. -/
theorem bridge_at (xq xk xv : SX.Idx → EReal) (wq wk wv : SW.Idx → EReal) (hxq : ∀ i, ∃ r : ℝ, xq i = (r : EReal))
    (hxk : ∀ i, ∃ r : ℝ, xk i = (r : EReal)) (hxv : ∀ i, ∃ r : ℝ, xv i = (r : EReal))
    (hwq : ∀ i, ∃ r : ℝ, wq i = (r : EReal)) (hwk : ∀ i, ∃ r : ℝ, wk i = (r : EReal))
    (hwv : ∀ i, ∃ r : ℝ, wv i = (r : EReal)) (O : SO.Idx → EReal)
    (hO : KernelResultAt xq (transposeArr wq) (projArr xk (transposeArr wk)) (projArr xv (transposeArr wv)) O) :
    O = attn xq xk xv wq wk wv := by
  funext i
  obtain ⟨b, t, d, rfl⟩ : ∃ (b : Fin 4) (t : Fin 4096) (d : Fin 64), i = ix3 b t d := ⟨i 0, i 1, i 2, eq_ix3 i⟩
  rw [hO b t d, row_eq xq xk xv wq wk wv hxq hxk hxv hwq hwk hwv b (tileOf t) (rowIn t) d, blk_tile_row, attn_ix3]

/-- THE BRIDGE: an array that holds, tile by tile, the running softmax of the kernel's block scores over the projected
    values is the specification's causal attention of the six real input arrays. -/
theorem bridge (xq xk xv : SX.Idx → EReal) (wq wk wv : SW.Idx → EReal) (hxq : ∀ i, ∃ r : ℝ, xq i = (r : EReal))
    (hxk : ∀ i, ∃ r : ℝ, xk i = (r : EReal)) (hxv : ∀ i, ∃ r : ℝ, xv i = (r : EReal))
    (hwq : ∀ i, ∃ r : ℝ, wq i = (r : EReal)) (hwk : ∀ i, ∃ r : ℝ, wk i = (r : EReal))
    (hwv : ∀ i, ∃ r : ℝ, wv i = (r : EReal)) (O : SO.Idx → EReal)
    (hO : KernelResult xq (transposeArr wq) (projArr xk (transposeArr wk)) (projArr xv (transposeArr wv)) O) :
    O = attn xq xk xv wq wk wv :=
  bridge_at xq xk xv wq wk wv hxq hxk hxv hwq hwk hwv O (kernelResultAt_of_tiles hO)

end Cert.Attn

end
-- ==== Proof.Finite.lean ====
/-
  Under the precondition every entry of every argument array is a real number.

  The precondition says of each of the six argument arrays that the absolute value of every entry compares below
  +∞ (the single-precision word 0x7F800000), and takes the conjunction: a reduction by "and", from 1, of each array
  of comparison bits, and the "and" of the six results. If the result is 1 then each of the six reductions is 1, so
  every comparison bit is 1. An extended real x with max (x, −x) < +∞ is neither +∞ nor −∞ (for both, the maximum
  is +∞), hence a real number.
-/
import proofs.«146551_j6992206758194_2_alg».proof.Defs
import proofs.«146551_j6992206758194_2_alg».proof.Proof.Gen.Pre_finite_inputs
import Idealize.ShloMosaic.Lib.ReduceAll
import Idealize.ShloMosaic.Lib.Pipeline.Value
import Idealize.ShloMosaic.Lib.ValueIdx

noncomputable section

namespace Cert.Finite

open Idealize.ShloMosaic Idealize.ShloMosaic.ValueIdx Cert.Pre_finite_inputs Cert.Pre_finite_inputs.Gen

instance : Subsingleton S_.Idx := ⟨fun _ _ => funext fun d => d.elim0⟩

/-- The single-precision word 0x7F800000 is +∞. -/
theorem posInf : Ideal.ofBits .f32 0x7F800000#32 = ⊤ := by simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  rw [posInf] at h
  induction x using EReal.rec with
  | bot => exfalso; simp [Ideal.cmp] at h
  | top => exfalso; simp [Ideal.cmp] at h
  | coe r => exact ⟨r, rfl⟩

/-- One array: if the "and" over all its entries of "|entry| < +∞" is 1, every entry is a real number. -/
theorem entries_real {S : Shape} (hb : S_.BroadcastsInDim S (![] : Fin 0 → Fin S.rank)) {axes : List (Fin S.rank)}
    (hr : S.ReducesTo axes S_) (hu : 0 < S_.numel) (x : FVec Ideal S .f32)
    (h : Host.reduce IntOp.andi
        (cmpf .olt (Host.absf x) (broadcastInDim S ![] hb (constant (F := Ideal) S_ .f32 0x7F800000#32)))
        (constantI S_ 1 1#1) hr hu ix0 = 1#1) (i : S.Idx) : ∃ r : ℝ, x i = (r : EReal) := by
  have hi := Host.reduce_andi_all _ _ hr hu ix0 h i
  have eb : broadcastInDim S ![] hb (constant (F := Ideal) S_ .f32 0x7F800000#32) i = Ideal.ofBits .f32 0x7F800000#32 :=
    broadcastInDim_apply _ hb _ i ix0 (fun a => a.elim0)
  refine real_of_abs_lt (x i) ?_
  rw [← eb]
  exact hi

/-- The printed precondition, all ones, makes every entry of the six arrays real. -/
theorem real_of_fn (a0 a1 a2 : FVec Ideal S4x4096x1024 .f32) (a3 a4 a5 : FVec Ideal S64x1024 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ix0
  dsimp only [Cert.Pre_finite_inputs.fn, Cert.Pre_finite_inputs.fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨entries_real _ _ _ a0 h0', entries_real _ _ _ a1 h1, entries_real _ _ _ a2 h2, entries_real _ _ _ a3 h3,
    entries_real _ _ _ a4 h4, entries_real _ _ _ a5 h5⟩

/-- Under the idealized kernel's precondition, on every device every entry of each argument array is a real number. -/
theorem real_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal)) :=
  real_of_fn _ _ _ _ _ _ (hpre c)

end Cert.Finite

end
-- ==== Proof.K1Pieces.lean ====
/-
  What each control case of the flash-attention body leaves in the buffers it stores, as plain terms of the body's
  arithmetic.

  Every store of the body writes a WHOLE buffer, so what a buffer holds after a case is the payload of the last
  store into it, and a load of a buffer after a store into it reads that store's payload. Read in the order of
  the body's loads and stores this gives each buffer's contents after the case as one term over the blocks and
  scratch contents the case started from: the running maximum is the old maximum against the block's row maxima;
  the running sum is the old sum rescaled plus the block's row sums of exponentials; the accumulator is the old
  accumulator rescaled plus the exponentials times the value block; and, where the diagonal block is reached, the
  output block is the accumulator divided by the sum. Where the case begins a row (kv = 0) the query block is first
  projected and scaled into its scratch and the running state reset, and the rest reads those fresh contents.
-/
import proofs.«146551_j6992206758194_2_alg».proof.Proof.K1Cases
import Idealize.ShloMosaic.Lib.Pipeline.Value

set_option maxRecDepth 16384

noncomputable section

namespace Cert.KernelIdeal.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offset of a rank-2 whole-buffer rectangle. -/
theorem hz2 : (![0, 0] : Fin 2 → Nat) = fun _ => 0 := funext fun a => by fin_cases a <;> rfl
/-- The zero offset of a rank-3 whole-buffer rectangle. -/
theorem hz3 : (![0, 0, 0] : Fin 3 → Nat) = fun _ => 0 := funext fun a => by fin_cases a <;> rfl

/-- A load through the whole-buffer rectangle of what a LAST store through it left, whatever the earlier stores were,
    reads that store's payload. -/
theorem readCov_cons_unit_zero {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

/-! ## 0 < kv < qi: absorb block kv -/

/-- The running maximum after the case: the old one against the block's row maxima. -/
theorem mC_eq (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : ¬cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) :
    mC c i arg3 harg3 arg4 harg4 arg5 harg5 arg6 harg6 arg7 harg7 arg8 harg8 arg9 harg9 arg10 harg10 arg11 harg11 hc0 hc1 hc2 x5 x6 xs8 xs9 xs10 xs11 = k1_pay6 (k1_pay10 (BitVec.ofNat 32 (i 1).val) (BitVec.ofNat 32 (i 2).val) xs8 x5 xs9) := by
  unfold mC
  rw [View.read_writes_eq_canon _ _ _ (covC_9 c i arg3 harg3 arg4 harg4 arg5 harg5 arg6 harg6 arg7 harg7 arg8 harg8 arg9 harg9 arg10 harg10 arg11 harg11 hc0 hc1 hc2 x5 x6 xs8 xs9 xs10 xs11)]
  unfold runC
  dsimp only
  sl_unfold_words
  rw [View.canon_unit_zero hz2]
  simp only [View.readAt_eq_ld, harg5.read_unread, harg6.read_unread, harg8.read_unread, harg9.read_unread, harg10.read_unread, harg11.read_unread, View.ld_unit_zero (S := S512x64) hz2, View.ld_unit_zero (S := S512x1) hz2, View.ld_unit_zero (S := S1x512x64) hz3, View.ld_unit_zero (S := S1x512x1024) hz3, View.ld_unit_zero (S := S1024x64) hz2]

/-- The running sum after the case. -/
theorem lC_eq (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : ¬cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) :
    lC c i arg3 harg3 arg4 harg4 arg5 harg5 arg6 harg6 arg7 harg7 arg8 harg8 arg9 harg9 arg10 harg10 arg11 harg11 hc0 hc1 hc2 x5 x6 xs8 xs9 xs10 xs11 = k1_pay13 (BitVec.ofNat 32 (i 1).val) (BitVec.ofNat 32 (i 2).val) xs8 x5 xs9 xs10 := by
  unfold lC
  rw [View.read_writes_eq_canon _ _ _ (covC_10 c i arg3 harg3 arg4 harg4 arg5 harg5 arg6 harg6 arg7 harg7 arg8 harg8 arg9 harg9 arg10 harg10 arg11 harg11 hc0 hc1 hc2 x5 x6 xs8 xs9 xs10 xs11)]
  unfold runC
  dsimp only
  sl_unfold_words
  rw [View.canon_unit_zero hz2]
  simp only [View.readAt_eq_ld, harg5.read_unread, harg6.read_unread, harg8.read_unread, harg9.read_unread, harg10.read_unread, harg11.read_unread, View.ld_unit_zero (S := S512x64) hz2, View.ld_unit_zero (S := S512x1) hz2, View.ld_unit_zero (S := S1x512x64) hz3, View.ld_unit_zero (S := S1x512x1024) hz3, View.ld_unit_zero (S := S1024x64) hz2]

/-- The accumulator after the case. -/
theorem aC_eq (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : ¬cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) :
    aC c i arg3 harg3 arg4 harg4 arg5 harg5 arg6 harg6 arg7 harg7 arg8 harg8 arg9 harg9 arg10 harg10 arg11 harg11 hc0 hc1 hc2 x5 x6 xs8 xs9 xs10 xs11 = k1_pay5 (k1_pay8 x6) (k1_pay12 (BitVec.ofNat 32 (i 1).val) (BitVec.ofNat 32 (i 2).val) xs8 x5 xs9) xs11 (k1_pay14 (BitVec.ofNat 32 (i 1).val) (BitVec.ofNat 32 (i 2).val) xs8 x5 xs9) := by
  unfold aC
  rw [View.read_writes_eq_canon _ _ _ (covC_11 c i arg3 harg3 arg4 harg4 arg5 harg5 arg6 harg6 arg7 harg7 arg8 harg8 arg9 harg9 arg10 harg10 arg11 harg11 hc0 hc1 hc2 x5 x6 xs8 xs9 xs10 xs11)]
  unfold runC
  dsimp only
  sl_unfold_words
  rw [View.canon_unit_zero hz2]
  simp only [View.readAt_eq_ld, harg5.read_unread, harg6.read_unread, harg8.read_unread, harg9.read_unread, harg10.read_unread, harg11.read_unread, View.ld_unit_zero (S := S512x64) hz2, View.ld_unit_zero (S := S512x1) hz2, View.ld_unit_zero (S := S1x512x64) hz3, View.ld_unit_zero (S := S1x512x1024) hz3, View.ld_unit_zero (S := S1024x64) hz2]

/-! ## 0 < kv = qi: absorb the diagonal block, then divide into the output block -/

/-- The running maximum after the case. -/
theorem mD_eq (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) :
    mD c i arg3 harg3 arg4 harg4 arg5 harg5 arg6 harg6 arg7 harg7 arg8 harg8 arg9 harg9 arg10 harg10 arg11 harg11 hc0 hc1 hc2 x5 x6 xs8 xs9 xs10 xs11 = k1_pay6 (k1_pay10 (BitVec.ofNat 32 (i 1).val) (BitVec.ofNat 32 (i 2).val) xs8 x5 xs9) := by
  unfold mD
  rw [View.read_writes_eq_canon _ _ _ (covD_9 c i arg3 harg3 arg4 harg4 arg5 harg5 arg6 harg6 arg7 harg7 arg8 harg8 arg9 harg9 arg10 harg10 arg11 harg11 hc0 hc1 hc2 x5 x6 xs8 xs9 xs10 xs11)]
  unfold runD
  dsimp only
  sl_unfold_words
  rw [View.canon_unit_zero hz2]
  simp only [View.readAt_eq_ld, harg5.read_unread, harg6.read_unread, harg8.read_unread, harg9.read_unread, harg10.read_unread, harg11.read_unread, View.ld_unit_zero (S := S512x64) hz2, View.ld_unit_zero (S := S512x1) hz2, View.ld_unit_zero (S := S1x512x64) hz3, View.ld_unit_zero (S := S1x512x1024) hz3, View.ld_unit_zero (S := S1024x64) hz2]

/-- The running sum after the case. -/
theorem lD_eq (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) :
    lD c i arg3 harg3 arg4 harg4 arg5 harg5 arg6 harg6 arg7 harg7 arg8 harg8 arg9 harg9 arg10 harg10 arg11 harg11 hc0 hc1 hc2 x5 x6 xs8 xs9 xs10 xs11 = k1_pay13 (BitVec.ofNat 32 (i 1).val) (BitVec.ofNat 32 (i 2).val) xs8 x5 xs9 xs10 := by
  unfold lD
  rw [View.read_writes_eq_canon _ _ _ (covD_10 c i arg3 harg3 arg4 harg4 arg5 harg5 arg6 harg6 arg7 harg7 arg8 harg8 arg9 harg9 arg10 harg10 arg11 harg11 hc0 hc1 hc2 x5 x6 xs8 xs9 xs10 xs11)]
  unfold runD
  dsimp only
  sl_unfold_words
  rw [View.canon_unit_zero hz2]
  simp only [View.readAt_eq_ld, harg5.read_unread, harg6.read_unread, harg8.read_unread, harg9.read_unread, harg10.read_unread, harg11.read_unread, View.ld_unit_zero (S := S512x64) hz2, View.ld_unit_zero (S := S512x1) hz2, View.ld_unit_zero (S := S1x512x64) hz3, View.ld_unit_zero (S := S1x512x1024) hz3, View.ld_unit_zero (S := S1024x64) hz2]

/-- The accumulator after the case. -/
theorem aD_eq (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) :
    aD c i arg3 harg3 arg4 harg4 arg5 harg5 arg6 harg6 arg7 harg7 arg8 harg8 arg9 harg9 arg10 harg10 arg11 harg11 hc0 hc1 hc2 x5 x6 xs8 xs9 xs10 xs11 = k1_pay5 (k1_pay8 x6) (k1_pay12 (BitVec.ofNat 32 (i 1).val) (BitVec.ofNat 32 (i 2).val) xs8 x5 xs9) xs11 (k1_pay14 (BitVec.ofNat 32 (i 1).val) (BitVec.ofNat 32 (i 2).val) xs8 x5 xs9) := by
  unfold aD
  rw [View.read_writes_eq_canon _ _ _ (covD_11 c i arg3 harg3 arg4 harg4 arg5 harg5 arg6 harg6 arg7 harg7 arg8 harg8 arg9 harg9 arg10 harg10 arg11 harg11 hc0 hc1 hc2 x5 x6 xs8 xs9 xs10 xs11)]
  unfold runD
  dsimp only
  sl_unfold_words
  rw [View.canon_unit_zero hz2]
  simp only [View.readAt_eq_ld, harg5.read_unread, harg6.read_unread, harg8.read_unread, harg9.read_unread, harg10.read_unread, harg11.read_unread, View.ld_unit_zero (S := S512x64) hz2, View.ld_unit_zero (S := S512x1) hz2, View.ld_unit_zero (S := S1x512x64) hz3, View.ld_unit_zero (S := S1x512x1024) hz3, View.ld_unit_zero (S := S1024x64) hz2]

/-- The output block after the case: the new accumulator divided by the new sum. -/
theorem oD_eq (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i) (hc2 : cond1_2 i)
    (x5 : Vec F S1x512x64 .f32) (x6 : Vec F S1x512x64 .f32) (xs8 : Vec F S512x64 .f32) (xs9 : Vec F S512x1 .f32) (xs10 : Vec F S512x1 .f32) (xs11 : Vec F S512x64 .f32) :
    oD c i arg3 harg3 arg4 harg4 arg5 harg5 arg6 harg6 arg7 harg7 arg8 harg8 arg9 harg9 arg10 harg10 arg11 harg11 hc0 hc1 hc2 x5 x6 xs8 xs9 xs10 xs11
      = k1_pay7 (k1_pay5 (k1_pay8 x6) (k1_pay12 (BitVec.ofNat 32 (i 1).val) (BitVec.ofNat 32 (i 2).val) xs8 x5 xs9) xs11 (k1_pay14 (BitVec.ofNat 32 (i 1).val) (BitVec.ofNat 32 (i 2).val) xs8 x5 xs9))
          (k1_pay13 (BitVec.ofNat 32 (i 1).val) (BitVec.ofNat 32 (i 2).val) xs8 x5 xs9 xs10) := by
  unfold oD
  rw [View.read_writes_eq_canon _ _ _ (covD_7 c i arg3 harg3 arg4 harg4 arg5 harg5 arg6 harg6 arg7 harg7 arg8 harg8 arg9 harg9 arg10 harg10 arg11 harg11 hc0 hc1 hc2 x5 x6 xs8 xs9 xs10 xs11)]
  unfold runD
  dsimp only
  sl_unfold_words
  rw [View.canon_unit_zero hz3, View.readCov_unit_zero (S := S512x64) _ hz2, View.readCov_unit_zero (S := S512x1) _ hz2]
  simp only [View.readAt_eq_ld, harg5.read_unread, harg6.read_unread, harg8.read_unread, harg9.read_unread, harg10.read_unread, harg11.read_unread, View.ld_unit_zero (S := S512x64) hz2, View.ld_unit_zero (S := S512x1) hz2, View.ld_unit_zero (S := S1x512x64) hz3, View.ld_unit_zero (S := S1x512x1024) hz3, View.ld_unit_zero (S := S1024x64) hz2]

/-! ## kv = 0 < qi: project the query block, reset, absorb block 0 -/

/-- The scaled query block the case leaves in its scratch. -/
theorem qB_eq (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) :
    qB c i arg3 harg3 arg4 harg4 arg5 harg5 arg6 harg6 arg7 harg7 arg8 harg8 arg9 harg9 arg10 harg10 arg11 harg11 hc0 hc1 hc2 x3 x4 x5 x6 = k1_pay1 x3 x4 := by
  unfold qB
  rw [View.read_writes_eq_canon _ _ _ (covB_8 c i arg3 harg3 arg4 harg4 arg5 harg5 arg6 harg6 arg7 harg7 arg8 harg8 arg9 harg9 arg10 harg10 arg11 harg11 hc0 hc1 hc2 x3 x4 x5 x6)]
  unfold runB
  dsimp only
  sl_unfold_words
  rw [View.canon_unit_zero hz2]
  simp only [View.readAt_eq_ld, harg3.read_unread, harg4.read_unread, harg5.read_unread, harg6.read_unread, View.ld_unit_zero (S := S512x64) hz2, View.ld_unit_zero (S := S512x1) hz2, View.ld_unit_zero (S := S1x512x64) hz3, View.ld_unit_zero (S := S1x512x1024) hz3, View.ld_unit_zero (S := S1024x64) hz2]

/-- The running maximum after the case: the reset value against the block's row maxima. -/
theorem mB_eq (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) :
    mB c i arg3 harg3 arg4 harg4 arg5 harg5 arg6 harg6 arg7 harg7 arg8 harg8 arg9 harg9 arg10 harg10 arg11 harg11 hc0 hc1 hc2 x3 x4 x5 x6 = k1_pay6 (k1_pay10 (BitVec.ofNat 32 (i 1).val) (BitVec.ofNat 32 (i 2).val) (k1_pay1 x3 x4) x5 k1_pay2) := by
  unfold mB
  rw [View.read_writes_eq_canon _ _ _ (covB_9 c i arg3 harg3 arg4 harg4 arg5 harg5 arg6 harg6 arg7 harg7 arg8 harg8 arg9 harg9 arg10 harg10 arg11 harg11 hc0 hc1 hc2 x3 x4 x5 x6)]
  unfold runB
  dsimp only
  sl_unfold_words
  rw [View.canon_cons_unit_zero (S := S512x1) hz2]
  simp only [View.readCov_unit_zero (S := S512x64) _ hz2, View.readCov_unit_zero (S := S512x1) _ hz2]
  simp only [View.readAt_eq_ld, harg3.read_unread, harg4.read_unread, harg5.read_unread, harg6.read_unread, View.ld_unit_zero (S := S512x64) hz2, View.ld_unit_zero (S := S512x1) hz2, View.ld_unit_zero (S := S1x512x64) hz3, View.ld_unit_zero (S := S1x512x1024) hz3, View.ld_unit_zero (S := S1024x64) hz2]

/-- The running sum after the case. -/
theorem lB_eq (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) :
    lB c i arg3 harg3 arg4 harg4 arg5 harg5 arg6 harg6 arg7 harg7 arg8 harg8 arg9 harg9 arg10 harg10 arg11 harg11 hc0 hc1 hc2 x3 x4 x5 x6 = k1_pay13 (BitVec.ofNat 32 (i 1).val) (BitVec.ofNat 32 (i 2).val) (k1_pay1 x3 x4) x5 k1_pay2 k1_pay3 := by
  unfold lB
  rw [View.read_writes_eq_canon _ _ _ (covB_10 c i arg3 harg3 arg4 harg4 arg5 harg5 arg6 harg6 arg7 harg7 arg8 harg8 arg9 harg9 arg10 harg10 arg11 harg11 hc0 hc1 hc2 x3 x4 x5 x6)]
  unfold runB
  dsimp only
  sl_unfold_words
  rw [View.canon_cons_unit_zero (S := S512x1) hz2]
  simp only [View.readCov_unit_zero (S := S512x64) _ hz2, View.readCov_unit_zero (S := S512x1) _ hz2]
  simp only [View.readAt_eq_ld, harg3.read_unread, harg4.read_unread, harg5.read_unread, harg6.read_unread, View.ld_unit_zero (S := S512x64) hz2, View.ld_unit_zero (S := S512x1) hz2, View.ld_unit_zero (S := S1x512x64) hz3, View.ld_unit_zero (S := S1x512x1024) hz3, View.ld_unit_zero (S := S1024x64) hz2]

/-- The accumulator after the case. -/
theorem aB_eq (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : ¬cond1_2 i)
    (x3 : Vec F S1x512x1024 .f32) (x4 : Vec F S1024x64 .f32) (x5 : Vec F S1x512x64 .f32) (x6 : Vec F S1x512x64 .f32) :
    aB c i arg3 harg3 arg4 harg4 arg5 harg5 arg6 harg6 arg7 harg7 arg8 harg8 arg9 harg9 arg10 harg10 arg11 harg11 hc0 hc1 hc2 x3 x4 x5 x6 = k1_pay5 (k1_pay8 x6) (k1_pay12 (BitVec.ofNat 32 (i 1).val) (BitVec.ofNat 32 (i 2).val) (k1_pay1 x3 x4) x5 k1_pay2) k1_pay4 (k1_pay14 (BitVec.ofNat 32 (i 1).val) (BitVec.ofNat 32 (i 2).val) (k1_pay1 x3 x4) x5 k1_pay2) := by
  unfold aB
  rw [View.read_writes_eq_canon _ _ _ (covB_11 c i arg3 harg3 arg4 harg4 arg5 harg5 arg6 harg6 arg7 harg7 arg8 harg8 arg9 harg9 arg10 harg10 arg11 harg11 hc0 hc1 hc2 x3 x4 x5 x6)]
  unfold runB
  dsimp only
  sl_unfold_words
  rw [View.canon_cons_unit_zero (S := S512x64) hz2]
  simp only [View.readCov_unit_zero (S := S512x64) _ hz2, View.readCov_unit_zero (S := S512x1) _ hz2]
  simp only [View.readAt_eq_ld, harg3.read_unread, harg4.read_unread, harg5.read_unread, harg6.read_unread, View.ld_unit_zero (S := S512x64) hz2, View.ld_unit_zero (S := S512x1) hz2, View.ld_unit_zero (S := S1x512x64) hz3, View.ld_unit_zero (S := S1x512x1024) hz3, View.ld_unit_zero (S := S1024x64) hz2]

/-! ## kv = 0 = qi: project the query block, reset, absorb the diagonal block, divide into the output block -/

/-- The scaled query block the case leaves in its scratch. -/
theorem qA_eq (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) :
    qA c i arg3 harg3 arg4 harg4 arg5 harg5 arg6 harg6 arg7 harg7 arg8 harg8 arg9 harg9 arg10 harg10 arg11 harg11 hc0 hc1 hc2 x3 x4 x5 x6 = k1_pay1 x3 x4 := by
  unfold qA
  rw [View.read_writes_eq_canon _ _ _ (covA_8 c i arg3 harg3 arg4 harg4 arg5 harg5 arg6 harg6 arg7 harg7 arg8 harg8 arg9 harg9 arg10 harg10 arg11 harg11 hc0 hc1 hc2 x3 x4 x5 x6)]
  unfold runA
  dsimp only
  sl_unfold_words
  rw [View.canon_unit_zero hz2]
  simp only [View.readAt_eq_ld, harg3.read_unread, harg4.read_unread, harg5.read_unread, harg6.read_unread, View.ld_unit_zero (S := S512x64) hz2, View.ld_unit_zero (S := S512x1) hz2, View.ld_unit_zero (S := S1x512x64) hz3, View.ld_unit_zero (S := S1x512x1024) hz3, View.ld_unit_zero (S := S1024x64) hz2]

/-- The running maximum after the case: the reset value against the block's row maxima. -/
theorem mA_eq (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) :
    mA c i arg3 harg3 arg4 harg4 arg5 harg5 arg6 harg6 arg7 harg7 arg8 harg8 arg9 harg9 arg10 harg10 arg11 harg11 hc0 hc1 hc2 x3 x4 x5 x6 = k1_pay6 (k1_pay10 (BitVec.ofNat 32 (i 1).val) (BitVec.ofNat 32 (i 2).val) (k1_pay1 x3 x4) x5 k1_pay2) := by
  unfold mA
  rw [View.read_writes_eq_canon _ _ _ (covA_9 c i arg3 harg3 arg4 harg4 arg5 harg5 arg6 harg6 arg7 harg7 arg8 harg8 arg9 harg9 arg10 harg10 arg11 harg11 hc0 hc1 hc2 x3 x4 x5 x6)]
  unfold runA
  dsimp only
  sl_unfold_words
  rw [View.canon_cons_unit_zero (S := S512x1) hz2]
  simp only [View.readCov_unit_zero (S := S512x64) _ hz2, View.readCov_unit_zero (S := S512x1) _ hz2]
  simp only [View.readAt_eq_ld, harg3.read_unread, harg4.read_unread, harg5.read_unread, harg6.read_unread, View.ld_unit_zero (S := S512x64) hz2, View.ld_unit_zero (S := S512x1) hz2, View.ld_unit_zero (S := S1x512x64) hz3, View.ld_unit_zero (S := S1x512x1024) hz3, View.ld_unit_zero (S := S1024x64) hz2]

/-- The running sum after the case. -/
theorem lA_eq (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) :
    lA c i arg3 harg3 arg4 harg4 arg5 harg5 arg6 harg6 arg7 harg7 arg8 harg8 arg9 harg9 arg10 harg10 arg11 harg11 hc0 hc1 hc2 x3 x4 x5 x6 = k1_pay13 (BitVec.ofNat 32 (i 1).val) (BitVec.ofNat 32 (i 2).val) (k1_pay1 x3 x4) x5 k1_pay2 k1_pay3 := by
  unfold lA
  rw [View.read_writes_eq_canon _ _ _ (covA_10 c i arg3 harg3 arg4 harg4 arg5 harg5 arg6 harg6 arg7 harg7 arg8 harg8 arg9 harg9 arg10 harg10 arg11 harg11 hc0 hc1 hc2 x3 x4 x5 x6)]
  unfold runA
  dsimp only
  sl_unfold_words
  rw [View.canon_cons_unit_zero (S := S512x1) hz2]
  simp only [View.readCov_unit_zero (S := S512x64) _ hz2, View.readCov_unit_zero (S := S512x1) _ hz2]
  simp only [View.readAt_eq_ld, harg3.read_unread, harg4.read_unread, harg5.read_unread, harg6.read_unread, View.ld_unit_zero (S := S512x64) hz2, View.ld_unit_zero (S := S512x1) hz2, View.ld_unit_zero (S := S1x512x64) hz3, View.ld_unit_zero (S := S1x512x1024) hz3, View.ld_unit_zero (S := S1024x64) hz2]

/-- The accumulator after the case. -/
theorem aA_eq (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) :
    aA c i arg3 harg3 arg4 harg4 arg5 harg5 arg6 harg6 arg7 harg7 arg8 harg8 arg9 harg9 arg10 harg10 arg11 harg11 hc0 hc1 hc2 x3 x4 x5 x6 = k1_pay5 (k1_pay8 x6) (k1_pay12 (BitVec.ofNat 32 (i 1).val) (BitVec.ofNat 32 (i 2).val) (k1_pay1 x3 x4) x5 k1_pay2) k1_pay4 (k1_pay14 (BitVec.ofNat 32 (i 1).val) (BitVec.ofNat 32 (i 2).val) (k1_pay1 x3 x4) x5 k1_pay2) := by
  unfold aA
  rw [View.read_writes_eq_canon _ _ _ (covA_11 c i arg3 harg3 arg4 harg4 arg5 harg5 arg6 harg6 arg7 harg7 arg8 harg8 arg9 harg9 arg10 harg10 arg11 harg11 hc0 hc1 hc2 x3 x4 x5 x6)]
  unfold runA
  dsimp only
  sl_unfold_words
  rw [View.canon_cons_unit_zero (S := S512x64) hz2]
  simp only [View.readCov_unit_zero (S := S512x64) _ hz2, View.readCov_unit_zero (S := S512x1) _ hz2]
  simp only [View.readAt_eq_ld, harg3.read_unread, harg4.read_unread, harg5.read_unread, harg6.read_unread, View.ld_unit_zero (S := S512x64) hz2, View.ld_unit_zero (S := S512x1) hz2, View.ld_unit_zero (S := S1x512x64) hz3, View.ld_unit_zero (S := S1x512x1024) hz3, View.ld_unit_zero (S := S1024x64) hz2]

/-- The output block after the case: the new accumulator divided by the new sum. -/
theorem oA_eq (c : Dev nD) (i : grid1.Coords) (arg3 : Memref sig .tc .vmem S1x512x1024 .f32) (harg3 : arg3.IsWhole) (arg4 : Memref sig .tc .vmem S1024x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : cond1_1 i) (hc2 : cond1_2 i)
    (x3 : Vec F S1x512x1024 .f32) (x4 : Vec F S1024x64 .f32) (x5 : Vec F S1x512x64 .f32) (x6 : Vec F S1x512x64 .f32) :
    oA c i arg3 harg3 arg4 harg4 arg5 harg5 arg6 harg6 arg7 harg7 arg8 harg8 arg9 harg9 arg10 harg10 arg11 harg11 hc0 hc1 hc2 x3 x4 x5 x6
      = k1_pay7 (k1_pay5 (k1_pay8 x6) (k1_pay12 (BitVec.ofNat 32 (i 1).val) (BitVec.ofNat 32 (i 2).val) (k1_pay1 x3 x4) x5 k1_pay2) k1_pay4 (k1_pay14 (BitVec.ofNat 32 (i 1).val) (BitVec.ofNat 32 (i 2).val) (k1_pay1 x3 x4) x5 k1_pay2))
          (k1_pay13 (BitVec.ofNat 32 (i 1).val) (BitVec.ofNat 32 (i 2).val) (k1_pay1 x3 x4) x5 k1_pay2 k1_pay3) := by
  unfold oA
  rw [View.read_writes_eq_canon _ _ _ (covA_7 c i arg3 harg3 arg4 harg4 arg5 harg5 arg6 harg6 arg7 harg7 arg8 harg8 arg9 harg9 arg10 harg10 arg11 harg11 hc0 hc1 hc2 x3 x4 x5 x6)]
  unfold runA
  dsimp only
  sl_unfold_words
  rw [View.canon_unit_zero hz3]
  simp only [readCov_cons_unit_zero (S := S512x64) _ hz2, readCov_cons_unit_zero (S := S512x1) _ hz2, View.readCov_unit_zero (S := S512x64) _ hz2, View.readCov_unit_zero (S := S512x1) _ hz2]
  simp only [View.readAt_eq_ld, harg3.read_unread, harg4.read_unread, harg5.read_unread, harg6.read_unread, View.ld_unit_zero (S := S512x64) hz2, View.ld_unit_zero (S := S512x1) hz2, View.ld_unit_zero (S := S1x512x64) hz3, View.ld_unit_zero (S := S1x512x1024) hz3, View.ld_unit_zero (S := S1024x64) hz2]

end Cert.KernelIdeal.K1

end
-- ==== Proof.LibRowReduce.lean ====
/-
  Reductions along the rows of a matrix, read at a row. At the exact values a lane reduction of an a×b matrix over its
  second axis is, at row r, the sum (for an add reduction) or the fold of max from the accumulator's value (for a
  maximum reduction) of the b entries (r, k) of that row; the host's reduce over the same axis is the same fold from its
  initial value, and its sum the initial value plus the same sum. A fold of max that starts at a value is at least that
  value, so taking the maximum with the start once more changes nothing.
-/
import Idealize.ShloMosaic.PureOps.Ideal.Laws
import Idealize.ShloMosaic.Lib.ValueIdx

noncomputable section

namespace RowReduce

open Idealize.ShloMosaic Idealize.ShloMosaic.ValueIdx

variable {a b : ℕ}

/-- The index a reduction over axis 1 reads at row `r` and position `k` is `(r, k)`. -/
theorem lift_eq (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- A lane sum over the second axis, at row `r`: the sum of that row's entries. -/
theorem laneSum_at (src : FVec Ideal ⟨2, ![a, b]⟩ .f32) (acc : BitVec 32) (h : (⟨2, ![a, b]⟩ : Shape).Reduces [1] ⟨1, ![a]⟩)
    (hφ : FKind.Formats .f32) (hacc : acc = FKind.add.neutral .f32 hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_eq h r k))

/-- A lane maximum over the second axis, at row `r`: the fold of max over that row's entries from the accumulator's value. -/
theorem laneMax_at (src : FVec Ideal ⟨2, ![a, b]⟩ .f32) (acc : BitVec 32) (h : (⟨2, ![a, b]⟩ : Shape).Reduces [1] ⟨1, ![a]⟩)
    (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (Finset.fold max (Ideal.ofBits .f32 acc) · (Finset.univ : Finset (Fin b)))
      (funext fun k => congrArg src (lift_eq h r k)))

/-- The host's sum over the second axis, at row `r`: the initial value plus the sum of that row's entries. -/
theorem hostSum_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd (F := Ideal) x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (lift_eq h r k))

/-- The host's maximum over the second axis, at row `r`: the fold of max over that row's entries from the initial value. -/
theorem hostMax_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) :=
  (Host.reduce_eq_fold_single (FloatOps.maximumf (F := Ideal) (φ := .f32)) x init h' h hu (ix1 r)).trans
    (congrArg (Finset.fold max (init (Shape.Idx.first hu)) · (Finset.univ : Finset (Fin b)))
      (funext fun k => congrArg x (lift_eq h r k)))

/-- A fold of max from `m₀` is at least `m₀`: the maximum with `m₀` once more is the fold itself. -/
theorem max_fold_self {ι : Type} (s : Finset ι) (m₀ : EReal) (f : ι → EReal) :
    max m₀ (s.fold max m₀ f) = s.fold max m₀ f :=
  max_eq_right ((Finset.le_fold_max (s := s) (b := m₀) (f := f) (c := m₀)).2 (Or.inl le_rfl))

end RowReduce

end
-- ==== Proof.LibTransposedMatmul.lean ====
/-
  A matrix product with the right operand contracted on its LAST axis, read at an entry. For an M×K left operand and an
  N×K right operand (left axis 1 against right axis 1, no batch axis) the exact product into a zero accumulator has, at
  row r and column c, the value  Σ_k lhs(r, k) · rhs(c, k): the operand indices at output index (r, c) and contraction
  position k are (r, k) and (c, k). This is the product  A · Bᵀ.
-/
import Idealize.ShloMosaic.PureOps.Ideal.Laws
import Idealize.ShloMosaic.Lib.ValueIdx

noncomputable section

namespace TransposedMatmul

open Idealize.ShloMosaic Idealize.ShloMosaic.ValueIdx

variable {M K N : ℕ}

/-- The left operand's row is the output's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row is the output's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The product into the zero accumulator, at (r, c), is Σ_k lhs(r, k) · rhs(c, k). -/
theorem apply_zero {φ₁ φ₂ : FTy} (lhs : FVec Ideal ⟨2, ![M, K]⟩ φ₁) (rhs : FVec Ideal ⟨2, ![N, K]⟩ φ₂)
    (r : Fin M) (c : Fin N) :
    FloatOps.matmul (DotDims.transposedRhs M K N) none lhs rhs (constant (F := Ideal) ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact rhs_row _ _
      | ⟨1, _⟩ => exact ((DotDims.transposedRhs M K N).rhsIdx_val_of_single rfl _ _).trans hk)
  rw [el, er]

end TransposedMatmul

end
-- ==== Proof.LibKeepdimsColumn.lean ====
/-
  A column kept beside a matrix. A vector of a entries reshaped to an a×1 column reads its entry i at (i, 0); an a×1
  column broadcast along its unit axis to an a×b matrix reads, at (p, c), the column's entry p. Together they are how a
  per-row quantity (a row's maximum, a row's sum) is put back beside every entry of its row.
-/
import Idealize.ShloMosaic.Lib.ValueLayout

namespace KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.K1Pay.lean ====
import proofs.«146551_j6992206758194_2_alg».proof.Proof.Gen.KernelIdeal.Skeleton
import proofs.«146551_j6992206758194_2_alg».proof.Proof.LibOnlineSoftmax
import proofs.«146551_j6992206758194_2_alg».proof.Proof.LibRowReduce
import proofs.«146551_j6992206758194_2_alg».proof.Proof.LibPlainMatmul
import proofs.«146551_j6992206758194_2_alg».proof.Proof.LibTransposedMatmul
import proofs.«146551_j6992206758194_2_alg».proof.Proof.LibKeepdimsColumn
import Idealize.ShloMosaic.PureOps.Ideal.Laws
import Idealize.ShloMosaic.PureOps.IdealRules
import Idealize.ShloMosaic.Lib.Pipeline.Value
import Idealize.ShloMosaic.Lib.ValueLayout
import Idealize.ShloMosaic.Lib.ValueIdx

/-! # The attention body's arithmetic, entry by entry

Every value the attention body stores is read here at one entry, at the exact values. A query tile holds 512 rows and a
key tile 512 columns. The score of row r against column c is the inner product over the 64 head coordinates of the
scaled query row and the key row; it is kept when the column's position kv·512 + c in the sequence is at most the row's
position qi·512 + r, and is −∞ otherwise. From the masked score row the body forms the new running maximum, the new
running sum of exponentials and the new running weighted sum of value rows, exactly as one step of the running softmax
of a row; the final store divides the weighted sum by the sum of exponentials. The first visit of a row tile stores the
scaled projected query and the starting state (−∞, 0, 0). -/

set_option maxRecDepth 16384

noncomputable section

namespace Cert.KernelIdeal.K1P

open Cert.KernelIdeal Cert.KernelIdeal.Gen
open Idealize.ShloMosaic Idealize.ShloMosaic.ValueIdx
open scoped BigOperators

/-! ## The starting state -/

/-- The word of −∞. -/
theorem ofBits_neg_inf : Ideal.ofBits .f32 0xFF800000#32 = ⊥ := by simp [Ideal.ofBits, Ideal.ieee]

/-- The running maximum starts at −∞. -/
theorem pay2_apply (r : Fin 512) : k1_pay2 (F := Ideal) (ix2 r (0 : Fin 1)) = ⊥ := by
  unfold k1_pay2
  refine (congrFun (shapeCast_self _ _) _).trans ?_
  exact ofBits_neg_inf

/-- The running sum of exponentials starts at 0. -/
theorem pay3_apply (r : Fin 512) : k1_pay3 (F := Ideal) (ix2 r (0 : Fin 1)) = 0 := by
  unfold k1_pay3
  refine (congrFun (shapeCast_self _ _) _).trans ?_
  exact Ideal.ofBits_zero_f32

/-- The running weighted sum starts at 0. -/
theorem pay4_apply (r : Fin 512) (d : Fin 64) : k1_pay4 (F := Ideal) (ix2 r d) = 0 := by
  unfold k1_pay4
  refine (congrFun (shapeCast_self _ _) _).trans ?_
  exact Ideal.ofBits_zero_f32

/-! ## The result of a row tile -/

/-- The stored output row: the weighted sum over the sum of exponentials. -/
theorem pay7_apply (a : Vec Ideal S512x64 .f32) (l : Vec Ideal S512x1 .f32) (r : Fin 512) (d : Fin 64) :
    k1_pay7 a l (ix3 (0 : Fin 1) r d) = Ideal.div (a (ix2 r d)) (l (ix2 r (0 : Fin 1))) := by
  unfold k1_pay7
  refine (shapeCast_ab_1ab_apply _ _ (0 : Fin 1) r d).trans ?_
  refine (divf_apply _ _ _).trans ?_
  exact congrArg (Ideal.div (a (ix2 r d))) (KeepdimsColumn.broadcastTo_a1_ab_apply l _ r d)

/-! ## The scaled projected query -/

/-- Row r, coordinate e of the query tile: the embedding row against the weight column, times the scale. -/
theorem pay1_apply (x : Vec Ideal S1x512x1024 .f32) (w : Vec Ideal S1024x64 .f32) (r : Fin 512) (e : Fin 64) :
    k1_pay1 x w (ix2 r e)
      = (∑ k : Fin 1024, x (ix3 (0 : Fin 1) r k) * w (ix2 k e)) * Ideal.ofBits .f32 0x3D000000#32 := by
  unfold k1_pay1
  refine (congrFun (shapeCast_self _ _) _).trans ?_
  refine (mulf_apply _ _ _).trans ?_
  refine congrArg₂ (· * ·) ?_ rfl
  refine (PlainMatmul.apply_zero (M := 512) (K := 1024) (N := 64) _ _ r e).trans ?_
  refine Finset.sum_congr rfl fun k _ => ?_
  exact congrArg₂ (· * ·) (shapeCast_1ab_ab_apply x _ r k) (congrFun (shapeCast_self w _) (ix2 k e))

/-! ## The masked score row -/

/-- The masked scores of query row r against the 512 key columns of one tile: the inner product over the 64 head
    coordinates where the column's position in the sequence is at most the row's, −∞ elsewhere. -/
def sRow (qi kv : Fin 8) (q : Vec Ideal S512x64 .f32) (kb : Vec Ideal S1x512x64 .f32) (r : Fin 512) : Fin 512 → EReal :=
  fun c => if kv.val * 512 + c.val ≤ qi.val * 512 + r.val
    then ∑ e : Fin 64, q (ix2 r e) * kb (ix3 (0 : Fin 1) c e) else ⊥

/-- A tile offset plus a position inside the tile stays below 2^13, so as signed 32-bit words two such sums compare
    the way the numbers do. -/
theorem sle_words (qi kv : Fin 8) (r c : Fin 512) :
    IntOp.cmpi .sle (IntOp.addi (BitVec.ofNat 32 c.val) (Scalar.muli (BitVec.ofNat 32 kv.val) 512#32))
        (IntOp.addi (BitVec.ofNat 32 r.val) (Scalar.muli (BitVec.ofNat 32 qi.val) 512#32))
      = if kv.val * 512 + c.val ≤ qi.val * 512 + r.val then 1#1 else 0#1 := by
  have hc := c.isLt; have hr := r.isLt; have hk := kv.isLt; have hq := qi.isLt
  have e1 : IntOp.addi (BitVec.ofNat 32 c.val) (Scalar.muli (BitVec.ofNat 32 kv.val) 512#32)
      = BitVec.ofNat 32 (kv.val * 512 + c.val) := by
    show BitVec.ofNat 32 c.val + BitVec.ofNat 32 kv.val * BitVec.ofNat 32 512 = _
    rw [← BitVec.ofNat_mul, ← BitVec.ofNat_add, Nat.add_comm]
  have e2 : IntOp.addi (BitVec.ofNat 32 r.val) (Scalar.muli (BitVec.ofNat 32 qi.val) 512#32)
      = BitVec.ofNat 32 (qi.val * 512 + r.val) := by
    show BitVec.ofNat 32 r.val + BitVec.ofNat 32 qi.val * BitVec.ofNat 32 512 = _
    rw [← BitVec.ofNat_mul, ← BitVec.ofNat_add, Nat.add_comm]
  rw [e1, e2]
  have t : ∀ n : Nat, n < 8192 → (BitVec.ofNat 32 n).toInt = (n : Int) := by
    intro n hn
    have hN : (BitVec.ofNat 32 n).toNat = n := by rw [BitVec.toNat_ofNat]; omega
    rw [BitVec.toInt_eq_toNat_of_lt (by rw [hN]; omega), hN]
  show BitVec.ofBool ((BitVec.ofNat 32 (kv.val * 512 + c.val)).sle (BitVec.ofNat 32 (qi.val * 512 + r.val))) = _
  rw [BitVec.sle_eq_decide, t _ (by omega), t _ (by omega)]
  by_cases h : kv.val * 512 + c.val ≤ qi.val * 512 + r.val
  · rw [if_pos h, decide_eq_true (by exact_mod_cast h)]; rfl
  · rw [if_neg h, decide_eq_false (by exact_mod_cast h)]; rfl

/-- The masking constant is −∞ at the exact values. -/
theorem neg_big_eq : Named.named (F := Ideal) Cert.KernelIdeal.κ "neg_big" (φ := .f32) 0xFF333332#32 = ⊥ :=
  IdealRules.named_const.ideal_named_scalar _ _ _ _ rfl

/-- The body's masked scores, at row r and column c. -/
theorem pay9_apply (qi kv : Fin 8) (q : Vec Ideal S512x64 .f32) (kb : Vec Ideal S1x512x64 .f32) (r c : Fin 512) :
    k1_pay9 (BitVec.ofNat 32 qi.val) (BitVec.ofNat 32 kv.val) q kb (ix2 r c) = sRow qi kv q kb r c := by
  unfold k1_pay9
  refine (select_apply _ _ _ _).trans ?_
  have hi0 : iota .tc S512x512 32 [0] iota_S512x512_d0_w32 (ix2 r c) = BitVec.ofNat 32 r.val :=
    iota_single_apply .tc S512x512 32 (0 : Fin 2) _ (ix2 r c)
  have hi1 : iota .tc S512x512 32 [1] iota_S512x512_d1_w32 (ix2 r c) = BitVec.ofNat 32 c.val :=
    iota_single_apply .tc S512x512 32 (1 : Fin 2) _ (ix2 r c)
  show Scalar.select
      (IntOp.cmpi .sle
        (IntOp.addi (iota .tc S512x512 32 [1] iota_S512x512_d1_w32 (ix2 r c)) (Scalar.muli (BitVec.ofNat 32 kv.val) 512#32))
        (IntOp.addi (iota .tc S512x512 32 [0] iota_S512x512_d0_w32 (ix2 r c)) (Scalar.muli (BitVec.ofNat 32 qi.val) 512#32)))
      (matmul dot_S512x64_S512x64_S512x512_1_1_0_0_n_n none q (shapeCast S512x64 kb shapeCasts_S1x512x64_S512x64)
        (constant S512x512 .f32 0x00000000#32) (ix2 r c))
      (Named.named (F := Ideal) Cert.KernelIdeal.κ "neg_big" (φ := .f32) 0xFF333332#32) = sRow qi kv q kb r c
  rw [hi0, hi1, sle_words qi kv r c, neg_big_eq]
  unfold sRow
  by_cases h : kv.val * 512 + c.val ≤ qi.val * 512 + r.val
  · rw [if_pos h, if_pos h, select_one]
    refine (TransposedMatmul.apply_zero (M := 512) (K := 64) (N := 512) q _ r c).trans ?_
    exact Finset.sum_congr rfl fun e _ => congrArg (q (ix2 r e) * ·) (shapeCast_1ab_ab_apply kb _ c e)
  · rw [if_neg h, if_neg h, select_zero]

/-! ## The running maximum -/

/-- The new running maximum of row r: the old one against the maximum of the masked score row. -/
theorem pay10_apply (qi kv : Fin 8) (q : Vec Ideal S512x64 .f32) (kb : Vec Ideal S1x512x64 .f32)
    (mo : Vec Ideal S512x1 .f32) (r : Fin 512) :
    k1_pay10 (BitVec.ofNat 32 qi.val) (BitVec.ofNat 32 kv.val) q kb mo (ix2 r (0 : Fin 1))
      = OnlineSoftmax.stepM (mo (ix2 r (0 : Fin 1))) (sRow qi kv q kb r) := by
  unfold k1_pay10
  refine (maximumf_apply _ _ _).trans ?_
  unfold OnlineSoftmax.stepM
  refine congrArg (max (mo (ix2 r (0 : Fin 1)))) ?_
  refine (KeepdimsColumn.shapeCast_a_a1_apply _ _ r (0 : Fin 1)).trans ?_
  refine (RowReduce.laneMax_at (a := 512) (b := 512) _ _ _ _ _ r).trans ?_
  refine Eq.trans (congrArg (fun z => Finset.fold max z
    (fun k => k1_pay9 (BitVec.ofNat 32 qi.val) (BitVec.ofNat 32 kv.val) q kb (ix2 r k)) (Finset.univ : Finset (Fin 512)))
    ofBits_neg_inf) ?_
  exact congrArg (fun f => Finset.fold max ⊥ f (Finset.univ : Finset (Fin 512)))
    (funext fun c => pay9_apply qi kv q kb r c)

/-- The stored running maximum is the new one. -/
theorem pay6_apply (qi kv : Fin 8) (q : Vec Ideal S512x64 .f32) (kb : Vec Ideal S1x512x64 .f32)
    (mo : Vec Ideal S512x1 .f32) (r : Fin 512) :
    k1_pay6 (k1_pay10 (BitVec.ofNat 32 qi.val) (BitVec.ofNat 32 kv.val) q kb mo) (ix2 r (0 : Fin 1))
      = OnlineSoftmax.stepM (mo (ix2 r (0 : Fin 1))) (sRow qi kv q kb r) := by
  unfold k1_pay6
  exact (congrFun (shapeCast_self _ _) _).trans (pay10_apply qi kv q kb mo r)

/-! ## The running sum of exponentials -/

/-- The factor that rescales the old sums of row r: the exponential of the old maximum relative to the new one. -/
theorem pay11_apply (qi kv : Fin 8) (q : Vec Ideal S512x64 .f32) (kb : Vec Ideal S1x512x64 .f32)
    (mo : Vec Ideal S512x1 .f32) (r : Fin 512) :
    k1_pay11 (BitVec.ofNat 32 qi.val) (BitVec.ofNat 32 kv.val) q kb mo (ix2 r (0 : Fin 1))
      = Ideal.exp (mo (ix2 r (0 : Fin 1)) - OnlineSoftmax.stepM (mo (ix2 r (0 : Fin 1))) (sRow qi kv q kb r)) := by
  unfold k1_pay11
  show Ideal.exp (mo (ix2 r (0 : Fin 1))
    - k1_pay10 (BitVec.ofNat 32 qi.val) (BitVec.ofNat 32 kv.val) q kb mo (ix2 r (0 : Fin 1))) = _
  exact congrArg (fun z => Ideal.exp (mo (ix2 r (0 : Fin 1)) - z)) (pay10_apply qi kv q kb mo r)

/-- The exponential of a masked score relative to the new maximum of its row. -/
theorem pay12_apply (qi kv : Fin 8) (q : Vec Ideal S512x64 .f32) (kb : Vec Ideal S1x512x64 .f32)
    (mo : Vec Ideal S512x1 .f32) (r c : Fin 512) :
    k1_pay12 (BitVec.ofNat 32 qi.val) (BitVec.ofNat 32 kv.val) q kb mo (ix2 r c)
      = Ideal.exp (sRow qi kv q kb r c - OnlineSoftmax.stepM (mo (ix2 r (0 : Fin 1))) (sRow qi kv q kb r)) := by
  unfold k1_pay12
  show Ideal.exp (k1_pay9 (BitVec.ofNat 32 qi.val) (BitVec.ofNat 32 kv.val) q kb (ix2 r c)
    - broadcastTo S512x512 (k1_pay10 (BitVec.ofNat 32 qi.val) (BitVec.ofNat 32 kv.val) q kb mo)
        broadcasts_S512x1_S512x512 (ix2 r c)) = _
  exact congrArg Ideal.exp (congrArg₂ (· - ·) (pay9_apply qi kv q kb r c)
    ((KeepdimsColumn.broadcastTo_a1_ab_apply _ _ r c).trans (pay10_apply qi kv q kb mo r)))

/-- The new running sum of exponentials of row r: the old one rescaled, plus the row's exponentials (the lane sum from
    the zero word is the plain sum of the row). -/
theorem pay13_apply (qi kv : Fin 8) (q : Vec Ideal S512x64 .f32) (kb : Vec Ideal S1x512x64 .f32)
    (mo lo : Vec Ideal S512x1 .f32) (r : Fin 512) :
    k1_pay13 (BitVec.ofNat 32 qi.val) (BitVec.ofNat 32 kv.val) q kb mo lo (ix2 r (0 : Fin 1))
      = OnlineSoftmax.stepL (mo (ix2 r (0 : Fin 1))) (lo (ix2 r (0 : Fin 1))) (sRow qi kv q kb r) := by
  unfold k1_pay13
  refine (congrFun (shapeCast_self _ _) _).trans ?_
  refine (addf_apply _ _ _).trans ?_
  unfold OnlineSoftmax.stepL
  refine congrArg₂ (· + ·) ?_ ?_
  · refine (mulf_apply _ _ _).trans ?_
    exact congrArg (· * lo (ix2 r (0 : Fin 1))) (pay11_apply qi kv q kb mo r)
  · refine (KeepdimsColumn.shapeCast_a_a1_apply _ _ r (0 : Fin 1)).trans ?_
    refine (RowReduce.laneSum_at (a := 512) (b := 512) _ _ _ _ _ r).trans ?_
    exact Finset.sum_congr rfl fun c _ => pay12_apply qi kv q kb mo r c

/-! ## The running weighted sum of value rows -/

/-- The new weighted sum at row r, coordinate d: the old one rescaled, plus the row's exponentials against column d of
    the value tile. -/
theorem pay5_apply (qi kv : Fin 8) (q : Vec Ideal S512x64 .f32) (kb vb : Vec Ideal S1x512x64 .f32)
    (mo : Vec Ideal S512x1 .f32) (ao : Vec Ideal S512x64 .f32) (r : Fin 512) (d : Fin 64) :
    k1_pay5 (k1_pay8 vb) (k1_pay12 (BitVec.ofNat 32 qi.val) (BitVec.ofNat 32 kv.val) q kb mo) ao
        (k1_pay14 (BitVec.ofNat 32 qi.val) (BitVec.ofNat 32 kv.val) q kb mo) (ix2 r d)
      = OnlineSoftmax.stepA (mo (ix2 r (0 : Fin 1))) (ao (ix2 r d)) (sRow qi kv q kb r)
          (fun c => vb (ix3 (0 : Fin 1) c d)) := by
  unfold k1_pay5
  refine (congrFun (shapeCast_self _ _) _).trans ?_
  refine (addf_apply _ _ _).trans ?_
  unfold OnlineSoftmax.stepA
  refine congrArg₂ (· + ·) ?_ ?_
  · refine (mulf_apply _ _ _).trans ?_
    refine congrArg (· * ao (ix2 r d)) ?_
    unfold k1_pay14
    exact (KeepdimsColumn.broadcastTo_a1_ab_apply _ _ r d).trans (pay11_apply qi kv q kb mo r)
  · refine (PlainMatmul.apply_zero (M := 512) (K := 512) (N := 64) _ _ r d).trans ?_
    refine Finset.sum_congr rfl fun c _ => ?_
    refine congrArg₂ (· * ·) (pay12_apply qi kv q kb mo r c) ?_
    unfold k1_pay8
    exact shapeCast_1ab_ab_apply vb _ c d

end Cert.KernelIdeal.K1P

end
-- ==== Proof.K1SemStep.lean ====
import proofs.«146551_j6992206758194_2_alg».proof.Proof.K1Body
import proofs.«146551_j6992206758194_2_alg».proof.Proof.K1Pieces
import proofs.«146551_j6992206758194_2_alg».proof.Proof.K1Pay

/-! # The attention call: one grid point as one step of a row's running softmax

Fix a row r of a query tile and a head coordinate d. What a grid point (b, qi, kv) leaves in the four scratch buffers,
read at that row, is one step of the running softmax of the row: the triple (running maximum, running sum, weighted
sum) after the point is the step of the triple before it by the masked score row of the tile pair (qi, kv) and column d
of the value tile. At kv = 0 the scaled query tile is stored first and the step starts from (−∞, 0, 0); where kv = qi
the output tile's row is the weighted sum over the sum of the triple just formed; a point with kv > qi changes
nothing. -/

set_option maxRecDepth 16384

noncomputable section

namespace Cert.KernelIdeal.K1S

open Cert.KernelIdeal Cert.KernelIdeal.Gen Cert.KernelIdeal.K1 Cert.KernelIdeal.K1P
open Idealize.ShloMosaic Idealize.ShloMosaic.TcCoe Idealize.ShloMosaic.ValueIdx
open Idealize.SL Idealize.SL.Sem

/-- The buffers a point leaves: the output tile, the scaled query tile, the running maximum, the running sum, the
    weighted sums. -/
abbrev St : Type := Vec Ideal S1x512x64 .f32 × Vec Ideal S512x64 .f32 × Vec Ideal S512x1 .f32 × Vec Ideal S512x1 .f32 × Vec Ideal S512x64 .f32

/-- The point at position n is (n / 64, (n / 8) % 8, n % 8). -/
theorem coords1 : ∀ t : Fin cfg1.N, ((grid1.coords t) 1).val = (t.val / 8) % 8 ∧ ((grid1.coords t) 2).val = t.val % 8 :=
  (by decide +kernel : ∀ t : Fin grid1.N, _)

/-- The three stored values of one absorbed tile, read at row r and coordinate d, are one step of the running triple. -/
theorem step_read (qi kv : Fin 8) (q : Vec Ideal S512x64 .f32) (kb vb : Vec Ideal S1x512x64 .f32)
    (mo lo : Vec Ideal S512x1 .f32) (ao : Vec Ideal S512x64 .f32) (r : Fin 512) (d : Fin 64) :
    ((k1_pay6 (k1_pay10 (BitVec.ofNat 32 qi.val) (BitVec.ofNat 32 kv.val) q kb mo) (ix2 r (0 : Fin 1)),
      k1_pay13 (BitVec.ofNat 32 qi.val) (BitVec.ofNat 32 kv.val) q kb mo lo (ix2 r (0 : Fin 1)),
      k1_pay5 (k1_pay8 vb) (k1_pay12 (BitVec.ofNat 32 qi.val) (BitVec.ofNat 32 kv.val) q kb mo) ao
        (k1_pay14 (BitVec.ofNat 32 qi.val) (BitVec.ofNat 32 kv.val) q kb mo) (ix2 r d)) : EReal × EReal × EReal)
      = OnlineSoftmax.step (mo (ix2 r (0 : Fin 1)), lo (ix2 r (0 : Fin 1)), ao (ix2 r d)) (sRow qi kv q kb r)
          (fun x => vb (ix3 (0 : Fin 1) x d)) :=
  Prod.ext (pay6_apply qi kv q kb mo r) (Prod.ext (pay13_apply qi kv q kb mo lo r) (pay5_apply qi kv q kb vb mo ao r d))

section Points
variable (V : (c : Dev nD) → (b : Ref sig .tc) → Buf (Elt Ideal) ((c : Thread nD τ).loc b))

/-! ## What each kind of point leaves, as payload terms -/

/-- 0 < kv < qi. -/
theorem cur_C (c : Dev nD) (t : Fin cfg1.N) (qi kv : Fin 8) (hq : qi.val = (t.val / 8) % 8) (hk : kv.val = t.val % 8)
    (h0 : ¬t.val % 8 = 0) (h1 : t.val % 8 ≤ (t.val / 8) % 8) (h2 : ¬t.val % 8 = (t.val / 8) % 8) :
    (outsAt1 V c t.val t.isLt) = (((outsAt1 V c (t.val - 1) (Nat.lt_of_le_of_lt (Nat.sub_le _ _) t.isLt)).1, (outsAt1 V c (t.val - 1) (Nat.lt_of_le_of_lt (Nat.sub_le _ _) t.isLt)).2.1, (k1_pay6 (k1_pay10 (BitVec.ofNat 32 qi.val) (BitVec.ofNat 32 kv.val) (outsAt1 V c (t.val - 1) (Nat.lt_of_le_of_lt (Nat.sub_le _ _) t.isLt)).2.1 (iblk1 V c 2 t) (outsAt1 V c (t.val - 1) (Nat.lt_of_le_of_lt (Nat.sub_le _ _) t.isLt)).2.2.1)), (k1_pay13 (BitVec.ofNat 32 qi.val) (BitVec.ofNat 32 kv.val) (outsAt1 V c (t.val - 1) (Nat.lt_of_le_of_lt (Nat.sub_le _ _) t.isLt)).2.1 (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2.1), (k1_pay5 (k1_pay8 (iblk1 V c 3 t)) (k1_pay12 (BitVec.ofNat 32 qi.val) (BitVec.ofNat 32 kv.val) (outsAt1 V c (t.val - 1) (Nat.lt_of_le_of_lt (Nat.sub_le _ _) t.isLt)).2.1 (iblk1 V c 2 t) (outsAt1 V c (t.val - 1) (Nat.lt_of_le_of_lt (Nat.sub_le _ _) t.isLt)).2.2.1) (outsAt1 V c (t.val - 1) (Nat.lt_of_le_of_lt (Nat.sub_le _ _) t.isLt)).2.2.2.2 (k1_pay14 (BitVec.ofNat 32 qi.val) (BitVec.ofNat 32 kv.val) (outsAt1 V c (t.val - 1) (Nat.lt_of_le_of_lt (Nat.sub_le _ _) t.isLt)).2.1 (iblk1 V c 2 t) (outsAt1 V c (t.val - 1) (Nat.lt_of_le_of_lt (Nat.sub_le _ _) t.isLt)).2.2.1))) : St) := by
  have e1 : BitVec.ofNat 32 ((grid1.coords t) 1).val = BitVec.ofNat 32 qi.val := congrArg _ ((coords1 t).1.trans hq.symm)
  have e2 : BitVec.ofNat 32 ((grid1.coords t) 2).val = BitVec.ofNat 32 kv.val := congrArg _ ((coords1 t).2.trans hk.symm)
  exact (outsAt1_C V c t h0 h1 h2).trans (by rw [mC_eq, lC_eq, aC_eq, e1, e2])

/-- 0 < kv = qi. -/
theorem cur_D (c : Dev nD) (t : Fin cfg1.N) (qi kv : Fin 8) (hq : qi.val = (t.val / 8) % 8) (hk : kv.val = t.val % 8)
    (h0 : ¬t.val % 8 = 0) (h1 : t.val % 8 ≤ (t.val / 8) % 8) (h2 : t.val % 8 = (t.val / 8) % 8) :
    (outsAt1 V c t.val t.isLt) = (((k1_pay7 (k1_pay5 (k1_pay8 (iblk1 V c 3 t)) (k1_pay12 (BitVec.ofNat 32 qi.val) (BitVec.ofNat 32 kv.val) (outsAt1 V c (t.val - 1) (Nat.lt_of_le_of_lt (Nat.sub_le _ _) t.isLt)).2.1 (iblk1 V c 2 t) (outsAt1 V c (t.val - 1) (Nat.lt_of_le_of_lt (Nat.sub_le _ _) t.isLt)).2.2.1) (outsAt1 V c (t.val - 1) (Nat.lt_of_le_of_lt (Nat.sub_le _ _) t.isLt)).2.2.2.2 (k1_pay14 (BitVec.ofNat 32 qi.val) (BitVec.ofNat 32 kv.val) (outsAt1 V c (t.val - 1) (Nat.lt_of_le_of_lt (Nat.sub_le _ _) t.isLt)).2.1 (iblk1 V c 2 t) (outsAt1 V c (t.val - 1) (Nat.lt_of_le_of_lt (Nat.sub_le _ _) t.isLt)).2.2.1)) (k1_pay13 (BitVec.ofNat 32 qi.val) (BitVec.ofNat 32 kv.val) (outsAt1 V c (t.val - 1) (Nat.lt_of_le_of_lt (Nat.sub_le _ _) t.isLt)).2.1 (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2.1)), (outsAt1 V c (t.val - 1) (Nat.lt_of_le_of_lt (Nat.sub_le _ _) t.isLt)).2.1, (k1_pay6 (k1_pay10 (BitVec.ofNat 32 qi.val) (BitVec.ofNat 32 kv.val) (outsAt1 V c (t.val - 1) (Nat.lt_of_le_of_lt (Nat.sub_le _ _) t.isLt)).2.1 (iblk1 V c 2 t) (outsAt1 V c (t.val - 1) (Nat.lt_of_le_of_lt (Nat.sub_le _ _) t.isLt)).2.2.1)), (k1_pay13 (BitVec.ofNat 32 qi.val) (BitVec.ofNat 32 kv.val) (outsAt1 V c (t.val - 1) (Nat.lt_of_le_of_lt (Nat.sub_le _ _) t.isLt)).2.1 (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2.1), (k1_pay5 (k1_pay8 (iblk1 V c 3 t)) (k1_pay12 (BitVec.ofNat 32 qi.val) (BitVec.ofNat 32 kv.val) (outsAt1 V c (t.val - 1) (Nat.lt_of_le_of_lt (Nat.sub_le _ _) t.isLt)).2.1 (iblk1 V c 2 t) (outsAt1 V c (t.val - 1) (Nat.lt_of_le_of_lt (Nat.sub_le _ _) t.isLt)).2.2.1) (outsAt1 V c (t.val - 1) (Nat.lt_of_le_of_lt (Nat.sub_le _ _) t.isLt)).2.2.2.2 (k1_pay14 (BitVec.ofNat 32 qi.val) (BitVec.ofNat 32 kv.val) (outsAt1 V c (t.val - 1) (Nat.lt_of_le_of_lt (Nat.sub_le _ _) t.isLt)).2.1 (iblk1 V c 2 t) (outsAt1 V c (t.val - 1) (Nat.lt_of_le_of_lt (Nat.sub_le _ _) t.isLt)).2.2.1))) : St) := by
  have e1 : BitVec.ofNat 32 ((grid1.coords t) 1).val = BitVec.ofNat 32 qi.val := congrArg _ ((coords1 t).1.trans hq.symm)
  have e2 : BitVec.ofNat 32 ((grid1.coords t) 2).val = BitVec.ofNat 32 kv.val := congrArg _ ((coords1 t).2.trans hk.symm)
  exact (outsAt1_D V c t h0 h1 h2).trans (by rw [oD_eq, mD_eq, lD_eq, aD_eq, e1, e2])

/-- kv = 0 < qi. -/
theorem cur_B (c : Dev nD) (t : Fin cfg1.N) (qi kv : Fin 8) (hq : qi.val = (t.val / 8) % 8) (hk : kv.val = t.val % 8)
    (h0 : t.val % 8 = 0) (h2 : ¬t.val % 8 = (t.val / 8) % 8) :
    (outsAt1 V c t.val t.isLt) = (((outsAt1 V c (t.val - 1) (Nat.lt_of_le_of_lt (Nat.sub_le _ _) t.isLt)).1, (k1_pay1 (iblk1 V c 0 t) (iblk1 V c 1 t)), (k1_pay6 (k1_pay10 (BitVec.ofNat 32 qi.val) (BitVec.ofNat 32 kv.val) (k1_pay1 (iblk1 V c 0 t) (iblk1 V c 1 t)) (iblk1 V c 2 t) (k1_pay2 (F := Ideal)))), (k1_pay13 (BitVec.ofNat 32 qi.val) (BitVec.ofNat 32 kv.val) (k1_pay1 (iblk1 V c 0 t) (iblk1 V c 1 t)) (iblk1 V c 2 t) (k1_pay2 (F := Ideal)) (k1_pay3 (F := Ideal))), (k1_pay5 (k1_pay8 (iblk1 V c 3 t)) (k1_pay12 (BitVec.ofNat 32 qi.val) (BitVec.ofNat 32 kv.val) (k1_pay1 (iblk1 V c 0 t) (iblk1 V c 1 t)) (iblk1 V c 2 t) (k1_pay2 (F := Ideal))) (k1_pay4 (F := Ideal)) (k1_pay14 (BitVec.ofNat 32 qi.val) (BitVec.ofNat 32 kv.val) (k1_pay1 (iblk1 V c 0 t) (iblk1 V c 1 t)) (iblk1 V c 2 t) (k1_pay2 (F := Ideal))))) : St) := by
  have e1 : BitVec.ofNat 32 ((grid1.coords t) 1).val = BitVec.ofNat 32 qi.val := congrArg _ ((coords1 t).1.trans hq.symm)
  have e2 : BitVec.ofNat 32 ((grid1.coords t) 2).val = BitVec.ofNat 32 kv.val := congrArg _ ((coords1 t).2.trans hk.symm)
  exact (outsAt1_B V c t h0 h2).trans (by rw [qB_eq, mB_eq, lB_eq, aB_eq, e1, e2])

/-- kv = 0 = qi. -/
theorem cur_A (c : Dev nD) (t : Fin cfg1.N) (qi kv : Fin 8) (hq : qi.val = (t.val / 8) % 8) (hk : kv.val = t.val % 8)
    (h0 : t.val % 8 = 0) (h2 : t.val % 8 = (t.val / 8) % 8) :
    (outsAt1 V c t.val t.isLt) = (((k1_pay7 (k1_pay5 (k1_pay8 (iblk1 V c 3 t)) (k1_pay12 (BitVec.ofNat 32 qi.val) (BitVec.ofNat 32 kv.val) (k1_pay1 (iblk1 V c 0 t) (iblk1 V c 1 t)) (iblk1 V c 2 t) (k1_pay2 (F := Ideal))) (k1_pay4 (F := Ideal)) (k1_pay14 (BitVec.ofNat 32 qi.val) (BitVec.ofNat 32 kv.val) (k1_pay1 (iblk1 V c 0 t) (iblk1 V c 1 t)) (iblk1 V c 2 t) (k1_pay2 (F := Ideal)))) (k1_pay13 (BitVec.ofNat 32 qi.val) (BitVec.ofNat 32 kv.val) (k1_pay1 (iblk1 V c 0 t) (iblk1 V c 1 t)) (iblk1 V c 2 t) (k1_pay2 (F := Ideal)) (k1_pay3 (F := Ideal)))), (k1_pay1 (iblk1 V c 0 t) (iblk1 V c 1 t)), (k1_pay6 (k1_pay10 (BitVec.ofNat 32 qi.val) (BitVec.ofNat 32 kv.val) (k1_pay1 (iblk1 V c 0 t) (iblk1 V c 1 t)) (iblk1 V c 2 t) (k1_pay2 (F := Ideal)))), (k1_pay13 (BitVec.ofNat 32 qi.val) (BitVec.ofNat 32 kv.val) (k1_pay1 (iblk1 V c 0 t) (iblk1 V c 1 t)) (iblk1 V c 2 t) (k1_pay2 (F := Ideal)) (k1_pay3 (F := Ideal))), (k1_pay5 (k1_pay8 (iblk1 V c 3 t)) (k1_pay12 (BitVec.ofNat 32 qi.val) (BitVec.ofNat 32 kv.val) (k1_pay1 (iblk1 V c 0 t) (iblk1 V c 1 t)) (iblk1 V c 2 t) (k1_pay2 (F := Ideal))) (k1_pay4 (F := Ideal)) (k1_pay14 (BitVec.ofNat 32 qi.val) (BitVec.ofNat 32 kv.val) (k1_pay1 (iblk1 V c 0 t) (iblk1 V c 1 t)) (iblk1 V c 2 t) (k1_pay2 (F := Ideal))))) : St) := by
  have e1 : BitVec.ofNat 32 ((grid1.coords t) 1).val = BitVec.ofNat 32 qi.val := congrArg _ ((coords1 t).1.trans hq.symm)
  have e2 : BitVec.ofNat 32 ((grid1.coords t) 2).val = BitVec.ofNat 32 kv.val := congrArg _ ((coords1 t).2.trans hk.symm)
  exact (outsAt1_A V c t h0 h2).trans (by rw [oA_eq, qA_eq, mA_eq, lA_eq, aA_eq, e1, e2])

/-! ## The points as steps of the row's running softmax -/

/-- A point with 0 < kv ≤ qi absorbs the key / value tile kv into the state the point before left, and keeps the scaled
    query tile. -/
theorem point_CD (c : Dev nD) (t : Fin cfg1.N) (qi kv : Fin 8) (hq : qi.val = (t.val / 8) % 8) (hk : kv.val = t.val % 8)
    (h0 : ¬t.val % 8 = 0) (h1 : t.val % 8 ≤ (t.val / 8) % 8) (r : Fin 512) (d : Fin 64) :
    (((outsAt1 V c t.val t.isLt).2.2.1 (ix2 r (0 : Fin 1)), (outsAt1 V c t.val t.isLt).2.2.2.1 (ix2 r (0 : Fin 1)), (outsAt1 V c t.val t.isLt).2.2.2.2 (ix2 r d)) : EReal × EReal × EReal)
        = OnlineSoftmax.step ((outsAt1 V c (t.val - 1) (Nat.lt_of_le_of_lt (Nat.sub_le _ _) t.isLt)).2.2.1 (ix2 r (0 : Fin 1)), (outsAt1 V c (t.val - 1) (Nat.lt_of_le_of_lt (Nat.sub_le _ _) t.isLt)).2.2.2.1 (ix2 r (0 : Fin 1)), (outsAt1 V c (t.val - 1) (Nat.lt_of_le_of_lt (Nat.sub_le _ _) t.isLt)).2.2.2.2 (ix2 r d))
            (sRow qi kv (outsAt1 V c (t.val - 1) (Nat.lt_of_le_of_lt (Nat.sub_le _ _) t.isLt)).2.1 (iblk1 V c 2 t) r) (fun x => iblk1 V c 3 t (ix3 (0 : Fin 1) x d))
      ∧ (outsAt1 V c t.val t.isLt).2.1 = (outsAt1 V c (t.val - 1) (Nat.lt_of_le_of_lt (Nat.sub_le _ _) t.isLt)).2.1 := by
  by_cases h2 : t.val % 8 = (t.val / 8) % 8
  · rw [cur_D V c t qi kv hq hk h0 h1 h2]
    exact ⟨step_read qi kv _ _ _ _ _ _ r d, rfl⟩
  · rw [cur_C V c t qi kv hq hk h0 h1 h2]
    exact ⟨step_read qi kv _ _ _ _ _ _ r d, rfl⟩

/-- At 0 < kv = qi the output tile's row is the weighted sum over the sum of the state just formed. -/
theorem point_D_out (c : Dev nD) (t : Fin cfg1.N) (qi kv : Fin 8) (hq : qi.val = (t.val / 8) % 8) (hk : kv.val = t.val % 8)
    (h0 : ¬t.val % 8 = 0) (h1 : t.val % 8 ≤ (t.val / 8) % 8) (h2 : t.val % 8 = (t.val / 8) % 8) (r : Fin 512) (d : Fin 64) :
    (outsAt1 V c t.val t.isLt).1 (ix3 (0 : Fin 1) r d) = OnlineSoftmax.out (((outsAt1 V c t.val t.isLt).2.2.1 (ix2 r (0 : Fin 1)), (outsAt1 V c t.val t.isLt).2.2.2.1 (ix2 r (0 : Fin 1)), (outsAt1 V c t.val t.isLt).2.2.2.2 (ix2 r d)) : EReal × EReal × EReal) := by
  rw [cur_D V c t qi kv hq hk h0 h1 h2]
  exact pay7_apply _ _ r d

/-- A point with kv > qi changes nothing. -/
theorem point_E (c : Dev nD) (t : Fin cfg1.N) (h0 : ¬t.val % 8 = 0) (h1 : ¬t.val % 8 ≤ (t.val / 8) % 8) :
    (outsAt1 V c t.val t.isLt) = (outsAt1 V c (t.val - 1) (Nat.lt_of_le_of_lt (Nat.sub_le _ _) t.isLt)) := outsAt1_E V c t h0 h1

/-- A point with kv = 0 stores the scaled projected query tile and absorbs tile 0 from the starting state. -/
theorem point_AB (c : Dev nD) (t : Fin cfg1.N) (qi kv : Fin 8) (hq : qi.val = (t.val / 8) % 8) (hk : kv.val = t.val % 8)
    (h0 : t.val % 8 = 0) (r : Fin 512) (d : Fin 64) :
    (outsAt1 V c t.val t.isLt).2.1 = k1_pay1 (iblk1 V c 0 t) (iblk1 V c 1 t)
      ∧ (((outsAt1 V c t.val t.isLt).2.2.1 (ix2 r (0 : Fin 1)), (outsAt1 V c t.val t.isLt).2.2.2.1 (ix2 r (0 : Fin 1)), (outsAt1 V c t.val t.isLt).2.2.2.2 (ix2 r d)) : EReal × EReal × EReal)
        = OnlineSoftmax.step OnlineSoftmax.init
            (sRow qi kv (k1_pay1 (iblk1 V c 0 t) (iblk1 V c 1 t)) (iblk1 V c 2 t) r) (fun x => iblk1 V c 3 t (ix3 (0 : Fin 1) x d)) := by
  have hinit : ((k1_pay2 (F := Ideal) (ix2 r (0 : Fin 1)), k1_pay3 (F := Ideal) (ix2 r (0 : Fin 1)), k1_pay4 (F := Ideal) (ix2 r d)) : EReal × EReal × EReal)
      = OnlineSoftmax.init := Prod.ext (pay2_apply r) (Prod.ext (pay3_apply r) (pay4_apply r d))
  by_cases h2 : t.val % 8 = (t.val / 8) % 8
  · rw [cur_A V c t qi kv hq hk h0 h2]
    exact ⟨rfl, (step_read qi kv _ _ _ _ _ _ r d).trans (congrArg (fun st => OnlineSoftmax.step st _ _) hinit)⟩
  · rw [cur_B V c t qi kv hq hk h0 h2]
    exact ⟨rfl, (step_read qi kv _ _ _ _ _ _ r d).trans (congrArg (fun st => OnlineSoftmax.step st _ _) hinit)⟩

/-- At kv = 0 = qi the output tile's row is the weighted sum over the sum of the state just formed. -/
theorem point_A_out (c : Dev nD) (t : Fin cfg1.N) (qi kv : Fin 8) (hq : qi.val = (t.val / 8) % 8) (hk : kv.val = t.val % 8)
    (h0 : t.val % 8 = 0) (h2 : t.val % 8 = (t.val / 8) % 8) (r : Fin 512) (d : Fin 64) :
    (outsAt1 V c t.val t.isLt).1 (ix3 (0 : Fin 1) r d) = OnlineSoftmax.out (((outsAt1 V c t.val t.isLt).2.2.1 (ix2 r (0 : Fin 1)), (outsAt1 V c t.val t.isLt).2.2.2.1 (ix2 r (0 : Fin 1)), (outsAt1 V c t.val t.isLt).2.2.2.2 (ix2 r d)) : EReal × EReal × EReal) := by
  rw [cur_A V c t qi kv hq hk h0 h2]
  exact pay7_apply _ _ r d

end Points

end Cert.KernelIdeal.K1S

end
-- ==== Proof.K1Value.lean ====
import proofs.«146551_j6992206758194_2_alg».proof.Proof.K1Body
import Idealize.ShloMosaic.Lib.Pipeline.Value
import Idealize.ShloMosaic.Lib.ValueLayout
import Idealize.ShloMosaic.Lib.ValueIdx

/-! # The attention call: its input blocks at an index, and its output array

The grid of the second kernel call has 4 × 8 × 8 points; the point at linear position n is (b, qi, kv) with
b = n / 64, qi = (n / 8) % 8, kv = n % 8. At that point the query window holds rows 512 qi … 512 qi + 511 of batch b
of the query embeddings, the weight window the whole transposed query weights, and the key and value windows rows
512 kv … 512 kv + 511 of batch b of the projected keys and values. The output block (b, qi) is written back once, at
kv = 7, so row t of batch b of the output array is row t % 512 of what the point ((b·8 + t / 512)·8 + 7) holds in the
output's buffer; the 32 blocks written back tile the array. -/

set_option maxRecDepth 16384

noncomputable section

namespace Cert.KernelIdeal.K1V

open Cert.KernelIdeal Cert.KernelIdeal.Gen Cert.KernelIdeal.K1
open Idealize.ShloMosaic Idealize.ShloMosaic.TcCoe Idealize.ShloMosaic.ValueIdx
open Idealize.SL Idealize.SL.Sem
open Idealize.ShloMosaic.Pipeline (Dat Cfg Window)

/-! ## The index maps over the grid -/

/-- Every window's block index at the point at position n: the query and the output windows sit at (n / 64, (n / 8) % 8, 0),
    the key and value windows at (n / 64, n % 8, 0), the weight window at (0, 0). -/
theorem idx_facts1 : ∀ t : Fin cfg1.N,
    win1_0.index t (0 : Fin 3) = t.val / 64 ∧ win1_0.index t (1 : Fin 3) = (t.val / 8) % 8 ∧ win1_0.index t (2 : Fin 3) = 0
    ∧ win1_1.index t (0 : Fin 2) = 0 ∧ win1_1.index t (1 : Fin 2) = 0
    ∧ win1_2.index t (0 : Fin 3) = t.val / 64 ∧ win1_2.index t (1 : Fin 3) = t.val % 8 ∧ win1_2.index t (2 : Fin 3) = 0
    ∧ win1_3.index t (0 : Fin 3) = t.val / 64 ∧ win1_3.index t (1 : Fin 3) = t.val % 8 ∧ win1_3.index t (2 : Fin 3) = 0
    ∧ win1_4.index t (0 : Fin 3) = t.val / 64 ∧ win1_4.index t (1 : Fin 3) = (t.val / 8) % 8 ∧ win1_4.index t (2 : Fin 3) = 0 :=
  (by decide +kernel : ∀ t : Fin grid1.N, _)

/-- The grid has 256 points. -/
theorem N1 : cfg1.N = 256 := N_1

/-! ## The input windows' blocks at an index

Each array enters as a function of its literal index type with the equation saying which buffer it is, and each block
as a function of its literal index type with the equation saying which block it is; the batch b and the row of the
array come with their values as hypotheses. -/

section Blocks
variable (V : (c : Dev nD) → (b : Ref sig .tc) → Buf (Elt Ideal) ((c : Thread nD τ).loc b))

/-- The query block at the point (b, qi, kv): row r of the block is row 512 qi + r of batch b of the query embeddings. -/
theorem iblk1_0_apply (c : Dev nD) (t : Fin cfg1.N) (A : S4x4096x1024.Idx → EReal) (hA : A = V c main_arg0)
    (X : S1x512x1024.Idx → EReal) (hX : X = iblk1 V c 0 t)
    (b : Fin 4) (row : Fin 4096) (u : Fin 1) (r : Fin 512) (k : Fin 1024)
    (hb : b.val = t.val / 64) (hrow : row.val = ((t.val / 8) % 8) * 512 + r.val) :
    X (ix3 u r k) = A (ix3 b row k) := by
  subst hA hX
  obtain ⟨q0, q1, q2, -⟩ := idx_facts1 t
  have hu : u.val = 0 := by omega
  show V c main_arg0 (((cfg1.win 0).blk t).view.emb (ix3 u r k)) = V c main_arg0 (ix3 b row k)
  refine congrArg (V c main_arg0) ?_
  funext a; apply Fin.ext
  match a with
  | ⟨0, _⟩ => show win1_0.index t (0 : Fin 3) * 1 + 1 * u.val = b.val; omega
  | ⟨1, _⟩ => show win1_0.index t (1 : Fin 3) * 512 + 1 * r.val = row.val; omega
  | ⟨2, _⟩ => show win1_0.index t (2 : Fin 3) * 1024 + 1 * k.val = k.val; omega

/-- The weight block is the whole transposed query weight matrix, at every point. -/
theorem iblk1_1_eq (c : Dev nD) (t : Fin cfg1.N) (W : S1024x64.Idx → EReal) (hW : W = V c main_v0)
    (X : S1024x64.Idx → EReal) (hX : X = iblk1 V c 1 t) : X = W := by
  subst hW hX
  obtain ⟨-, -, -, q0, q1, -⟩ := idx_facts1 t
  funext j
  obtain ⟨k, e, rfl⟩ : ∃ (k : Fin 1024) (e : Fin 64), j = ix2 k e := ⟨j 0, j 1, eq_ix2 j⟩
  show V c main_v0 (((cfg1.win 1).blk t).view.emb (ix2 k e)) = V c main_v0 (ix2 k e)
  refine congrArg (V c main_v0) ?_
  funext a; apply Fin.ext
  match a with
  | ⟨0, _⟩ => show win1_1.index t (0 : Fin 2) * 1024 + 1 * k.val = k.val; omega
  | ⟨1, _⟩ => show win1_1.index t (1 : Fin 2) * 64 + 1 * e.val = e.val; omega

/-- The key block at the point (b, qi, kv): row j of the block is row 512 kv + j of batch b of the projected keys. -/
theorem iblk1_2_apply (c : Dev nD) (t : Fin cfg1.N) (A : S4x4096x64.Idx → EReal) (hA : A = V c main_v3_0)
    (X : S1x512x64.Idx → EReal) (hX : X = iblk1 V c 2 t)
    (b : Fin 4) (row : Fin 4096) (u : Fin 1) (j : Fin 512) (e : Fin 64)
    (hb : b.val = t.val / 64) (hrow : row.val = (t.val % 8) * 512 + j.val) :
    X (ix3 u j e) = A (ix3 b row e) := by
  subst hA hX
  obtain ⟨-, -, -, -, -, q0, q1, q2, -⟩ := idx_facts1 t
  have hu : u.val = 0 := by omega
  show V c main_v3_0 (((cfg1.win 2).blk t).view.emb (ix3 u j e)) = V c main_v3_0 (ix3 b row e)
  refine congrArg (V c main_v3_0) ?_
  funext a; apply Fin.ext
  match a with
  | ⟨0, _⟩ => show win1_2.index t (0 : Fin 3) * 1 + 1 * u.val = b.val; omega
  | ⟨1, _⟩ => show win1_2.index t (1 : Fin 3) * 512 + 1 * j.val = row.val; omega
  | ⟨2, _⟩ => show win1_2.index t (2 : Fin 3) * 64 + 1 * e.val = e.val; omega

/-- The value block, likewise, of the projected values. -/
theorem iblk1_3_apply (c : Dev nD) (t : Fin cfg1.N) (A : S4x4096x64.Idx → EReal) (hA : A = V c main_v3_1)
    (X : S1x512x64.Idx → EReal) (hX : X = iblk1 V c 3 t)
    (b : Fin 4) (row : Fin 4096) (u : Fin 1) (j : Fin 512) (e : Fin 64)
    (hb : b.val = t.val / 64) (hrow : row.val = (t.val % 8) * 512 + j.val) :
    X (ix3 u j e) = A (ix3 b row e) := by
  subst hA hX
  obtain ⟨-, -, -, -, -, -, -, -, q0, q1, q2, -⟩ := idx_facts1 t
  have hu : u.val = 0 := by omega
  show V c main_v3_1 (((cfg1.win 3).blk t).view.emb (ix3 u j e)) = V c main_v3_1 (ix3 b row e)
  refine congrArg (V c main_v3_1) ?_
  funext a; apply Fin.ext
  match a with
  | ⟨0, _⟩ => show win1_3.index t (0 : Fin 3) * 1 + 1 * u.val = b.val; omega
  | ⟨1, _⟩ => show win1_3.index t (1 : Fin 3) * 512 + 1 * j.val = row.val; omega
  | ⟨2, _⟩ => show win1_3.index t (2 : Fin 3) * 64 + 1 * e.val = e.val; omega

end Blocks

/-! ## The output array -/

/-- The point that writes back the block holding row t of batch b: (b, t / 512, 7). -/
theorem flushPoint_lt (b : Fin 4) (row : Fin 4096) : (b.val * 8 + row.val / 512) * 8 + 7 < cfg1.N := by
  have h0 : b.val < 4 := b.isLt
  have h1 : row.val < 4096 := row.isLt
  have e : cfg1.N = 256 := N_1
  omega

section Output
variable (V : (c : Dev nD) → (b : Ref sig .tc) → Buf (Elt Ideal) ((c : Thread nD τ).loc b))

/-- The output at batch b, row t, column d: row t % 512 of the output buffer after the point (b, t / 512, 7). -/
def outAt (c : Dev nD) (b : Fin 4) (row : Fin 4096) (d : Fin 64) : EReal :=
  (outsAt1 V c ((b.val * 8 + row.val / 512) * 8 + 7) (flushPoint_lt b row)).1
    (ix3 (0 : Fin 1) (⟨row.val % 512, Nat.mod_lt _ (by decide)⟩ : Fin 512) d)

/-- The output array, whole. -/
def outArr (c : Dev nD) : S4x4096x64.Idx → EReal := fun i => outAt V c (i 0) (i 1) (i 2)

theorem outArr_apply (c : Dev nD) (b : Fin 4) (row : Fin 4096) (d : Fin 64) :
    outArr V c (ix3 b row d) = outAt V c b row d := rfl

/-- Reading the recursion at equal positions and equal rows. -/
theorem outsAt1_read_congr (c : Dev nD) {n n' : ℕ} (h : n = n') (hn : n < cfg1.N) (hn' : n' < cfg1.N)
    {r r' : Fin 512} (hr : r = r') (d : Fin 64) :
    (outsAt1 V c n hn).1 (ix3 (0 : Fin 1) r d) = (outsAt1 V c n' hn').1 (ix3 (0 : Fin 1) r' d) := by
  subst h; subst hr; rfl

/-- At a point with kv = 7, row r of the output buffer is the output array's row 512 qi + r of batch b. -/
theorem outAt_eq (c : Dev nD) (t : Fin cfg1.N) (ht : t.val % 8 = 7) (b : Fin 4) (row : Fin 4096) (r : Fin 512) (d : Fin 64)
    (hb : b.val = t.val / 64) (hrow : row.val = ((t.val / 8) % 8) * 512 + r.val) :
    outAt V c b row d = (outsAt1 V c t.val t.isLt).1 (ix3 (0 : Fin 1) r d) := by
  have hN : t.val < 256 := by have h := t.isLt; have e : cfg1.N = 256 := N_1; omega
  have hr : r.val < 512 := r.isLt
  have hn : (b.val * 8 + row.val / 512) * 8 + 7 = t.val := by omega
  unfold outAt
  exact outsAt1_read_congr V c hn _ _ (Fin.ext (by show row.val % 512 = r.val; omega)) d

/-- What a point with kv = 7 writes back is its block of the output array. -/
theorem flushed1_4_eq (c : Dev nD) (t : Fin cfg1.N) (ht : t.val % 8 = 7) :
    (dat1 V c).flushed 4 t = ((cfg1.win 4).blk t).view.read (Elt Ideal) (outArr V c) := by
  show (cfg1.win 4).cut (grid1.coords t) ((dat1 V c).after 4 t) = _
  rw [after1_4]
  funext j
  obtain ⟨u, r, d, rfl⟩ : ∃ (u : Fin 1) (r : Fin 512) (d : Fin 64), j = ix3 u r d := ⟨j 0, j 1, j 2, eq_ix3 j⟩
  obtain ⟨-, -, -, -, -, -, -, -, -, -, -, q0, q1, q2⟩ := idx_facts1 t
  have hN : t.val < 256 := by have h := t.isLt; have e : cfg1.N = 256 := N_1; omega
  have hr : r.val < 512 := r.isLt
  have hu : u = (0 : Fin 1) := Fin.ext (by omega)
  subst hu
  have hemb : (((cfg1.win 4).blk t).view.emb (ix3 (0 : Fin 1) r d) : S4x4096x64.Idx)
      = ix3 (⟨t.val / 64, by omega⟩ : Fin 4) (⟨((t.val / 8) % 8) * 512 + r.val, by omega⟩ : Fin 4096) d := by
    funext a; apply Fin.ext
    match a with
    | ⟨0, _⟩ => show win1_4.index t (0 : Fin 3) * 1 + 1 * 0 = t.val / 64; omega
    | ⟨1, _⟩ => show win1_4.index t (1 : Fin 3) * 512 + 1 * r.val = ((t.val / 8) % 8) * 512 + r.val; omega
    | ⟨2, _⟩ => show win1_4.index t (2 : Fin 3) * 64 + 1 * d.val = d.val; omega
  show (outsAt1 V c t.val t.isLt).1 (ix3 (0 : Fin 1) r d) = outArr V c (((cfg1.win 4).blk t).view.emb (ix3 (0 : Fin 1) r d))
  refine Eq.trans ?_ (congrArg (outArr V c) hemb).symm
  exact (outAt_eq V c t ht _ _ r d rfl rfl).symm

end Output

/-- An index of the output array is in point t's block iff each coordinate is in the block's range on its axis. -/
theorem mem_blk1_4 (t : Fin cfg1.N) (i : S4x4096x64.Idx) :
    i ∈ ((cfg1.win 4).blk t).view.set ↔ ∀ a : Fin 3, win1_4.index t a * S1x512x64.size a ≤ (i a).val ∧ (i a).val < win1_4.index t a * S1x512x64.size a + S1x512x64.size a := by
  show i ∈ ((View.whole main_v4).slice (win1_4.rect t)).set ↔ _
  rw [View.set_slice_whole, Rect.mem_set_unit]
  exact Iff.rfl

/-- The 32 blocks written back cover the output: row t of batch b lies in the block of the point (b, t / 512, 7). -/
theorem cover1_4 (i : S4x4096x64.Idx) : ∃ t : Fin cfg1.N, (cfg1.win 4).flush t = true ∧ i ∈ ((cfg1.win 4).blk t).view.set := by
  have hi0 : (i 0).val < 4 := (i 0).isLt
  have hi1 : (i 1).val < 4096 := (i 1).isLt
  have hi2 : (i 2).val < 64 := (i 2).isLt
  have e : cfg1.N = 256 := N_1
  obtain ⟨n, hn⟩ : ∃ n, n = ((i 0).val * 8 + (i 1).val / 512) * 8 + 7 := ⟨_, rfl⟩
  have hlt : n < cfg1.N := by omega
  refine ⟨⟨n, hlt⟩, (flush1_4 _).mpr (by show n % 8 = 7; omega), ?_⟩
  rw [mem_blk1_4]
  obtain ⟨-, -, -, -, -, -, -, -, -, -, -, q0, q1, q2⟩ := idx_facts1 ⟨n, hlt⟩
  have q0' : win1_4.index ⟨n, hlt⟩ (0 : Fin 3) = n / 64 := q0
  have q1' : win1_4.index ⟨n, hlt⟩ (1 : Fin 3) = (n / 8) % 8 := q1
  intro a
  match a with
  | ⟨0, _⟩ => show win1_4.index ⟨n, hlt⟩ (0 : Fin 3) * 1 ≤ (i 0).val ∧ (i 0).val < win1_4.index ⟨n, hlt⟩ (0 : Fin 3) * 1 + 1; omega
  | ⟨1, _⟩ => show win1_4.index ⟨n, hlt⟩ (1 : Fin 3) * 512 ≤ (i 1).val ∧ (i 1).val < win1_4.index ⟨n, hlt⟩ (1 : Fin 3) * 512 + 512; omega
  | ⟨2, _⟩ => show win1_4.index ⟨n, hlt⟩ (2 : Fin 3) * 64 ≤ (i 2).val ∧ (i 2).val < win1_4.index ⟨n, hlt⟩ (2 : Fin 3) * 64 + 64; omega

section Final
variable (V : (c : Dev nD) → (b : Ref sig .tc) → Buf (Elt Ideal) ((c : Thread nD τ).loc b))

/-- THE OUTPUT ARRAY after all 256 points, whole. -/
theorem arr1_4 (c : Dev nD) : (dat1 V c).arrAt 4 cfg1.N = outArr V c :=
  (dat1 V c).arrAt_eq_of_cover 4 (outArr V c) (fun t hf => flushed1_4_eq V c t ((flush1_4 t).mp hf)) cover1_4

/-- Entry by entry: at batch b, row t, column d it is row t % 512 of what the point ((b·8 + t / 512)·8 + 7) leaves in
    the output's buffer. -/
theorem arr1_4_apply (c : Dev nD) (O : S4x4096x64.Idx → EReal) (hO : O = (dat1 V c).arrAt 4 cfg1.N)
    (b : Fin 4) (t : Fin 4096) (d : Fin 64) :
    O (ix3 b t d) = (outsAt1 V c ((b.val * 8 + t.val / 512) * 8 + 7) (flushPoint_lt b t)).1
      (ix3 (0 : Fin 1) (⟨t.val % 512, Nat.mod_lt _ (by decide)⟩ : Fin 512) d) := by
  subst hO
  exact congrFun (arr1_4 V c) (ix3 b t d)

end Final

end Cert.KernelIdeal.K1V

end
-- ==== Proof.K1Sem.lean ====
import proofs.«146551_j6992206758194_2_alg».proof.Proof.K1SemStep
import proofs.«146551_j6992206758194_2_alg».proof.Proof.K1Value
import proofs.«146551_j6992206758194_2_alg».proof.Proof.AttnBridge

/-! # The attention call computes, row by row, the running softmax over the key tiles

Fix a batch b, a query tile qi, a row r of the tile and a head coordinate d. As in the specification's bridge, write Qt for the scaled projected query
row (the query embedding row 512 qi + r of batch b against the transposed query weights, times 1/32), sK j x for the
masked score of that row against key row 512 j + x of batch b — the inner product of Qt with the projected key row
where 512 j + x ≤ 512 qi + r, −∞ elsewhere — and vK j x for coordinate d of the projected value row 512 j + x.

After the grid point (b, qi, kv) with kv ≤ qi the scratch buffers hold, at that row, Qt and the running triple after
key tiles 0, …, kv; from kv = qi on, the output tile's row holds the weighted sum over the sum of the triple after tiles
0, …, qi. By induction on kv, one point at a time. Hence every entry of the output array is the result of the running
softmax of its row over the key tiles up to its own. -/

set_option maxRecDepth 16384

noncomputable section

namespace Cert.KernelIdeal.K1S

open Cert.KernelIdeal Cert.KernelIdeal.Gen Cert.KernelIdeal.K1 Cert.KernelIdeal.K1P Cert.KernelIdeal.K1V
open Idealize.ShloMosaic Idealize.ShloMosaic.TcCoe Idealize.ShloMosaic.ValueIdx
open Idealize.SL Idealize.SL.Sem
open OnlineSoftmax MaskedSoftmax
open Cert.Attn (blk blk_val Qt sK vK KernelResult)

/-- The running form at equal tile counts. -/
theorem runTo_at {m n : ℕ} (s v : Fin m → Fin n → EReal) {k k' : ℕ} (h : k = k') (hk : k < m) (hk' : k' < m) :
    runTo s v k hk = runTo s v k' hk' := by subst h; rfl

section Sem
variable (V : (c : Dev nD) → (b : Ref sig .tc) → Buf (Elt Ideal) ((c : Thread nD τ).loc b)) (c : Dev nD)
variable (Qe : S4x4096x1024.Idx → EReal) (Wt : S1024x64.Idx → EReal) (Kp Vp : S4x4096x64.Idx → EReal)
variable (hQe : Qe = V c main_arg0) (hWt : Wt = V c main_v0) (hKp : Kp = V c main_v3_0) (hVp : Vp = V c main_v3_1)

/-- The recursion at equal positions. -/
theorem outsAt1_congr {n n' : ℕ} (h : n = n') (hn : n < cfg1.N) (hn' : n' < cfg1.N) :
    outsAt1 V c n hn = outsAt1 V c n' hn' := by subst h; rfl

/-! ## The blocks a point reads, in the row's terms -/

include hQe hWt in
/-- The scaled query tile a point with kv = 0 stores, at row r. -/
theorem Q_read (t : Fin cfg1.N) (b : Fin 4) (qi : Fin 8) (hb : b.val = t.val / 64) (hq : qi.val = (t.val / 8) % 8)
    (r : Fin 512) (e : Fin 64) :
    k1_pay1 (iblk1 V c 0 t) (iblk1 V c 1 t) (ix2 r e) = Qt Qe Wt b qi r e := by
  refine (pay1_apply (iblk1 V c 0 t) (iblk1 V c 1 t) r e).trans ?_
  unfold Qt
  refine congrArg (· * Ideal.ofBits .f32 0x3D000000#32) ?_
  refine Finset.sum_congr rfl fun k _ => ?_
  refine congrArg₂ (· * ·) ?_ ?_
  · exact iblk1_0_apply V c t Qe hQe (iblk1 V c 0 t) rfl b (blk qi r) (0 : Fin 1) r k hb (by rw [blk_val, hq])
  · exact congrFun (iblk1_1_eq V c t Wt hWt (iblk1 V c 1 t) rfl) (ix2 k e)

include hKp in
/-- The masked score row of a point, once its query row is the scaled projected one. -/
theorem sRow_eq (t : Fin cfg1.N) (b : Fin 4) (qi kv : Fin 8) (hb : b.val = t.val / 64) (hk : kv.val = t.val % 8)
    (q : Vec Ideal S512x64 .f32) (r : Fin 512) (hqr : ∀ e, q (ix2 r e) = Qt Qe Wt b qi r e) :
    sRow qi kv q (iblk1 V c 2 t) r = sK Qe Wt Kp b qi r kv := by
  funext x
  unfold sRow sK
  refine if_congr Iff.rfl ?_ rfl
  refine Finset.sum_congr rfl fun e _ => ?_
  refine congrArg₂ (· * ·) (hqr e) ?_
  exact iblk1_2_apply V c t Kp hKp (iblk1 V c 2 t) rfl b (blk kv x) (0 : Fin 1) x e hb (by rw [blk_val, hk])

include hVp in
/-- Column d of the value tile of a point. -/
theorem vRow_eq (t : Fin cfg1.N) (b : Fin 4) (kv : Fin 8) (hb : b.val = t.val / 64) (hk : kv.val = t.val % 8) (d : Fin 64) :
    (fun x : Fin 512 => (iblk1 V c 3 t (ix3 (0 : Fin 1) x d) : EReal)) = vK Vp b d kv := by
  funext x
  unfold vK
  exact iblk1_3_apply V c t Vp hVp (iblk1 V c 3 t) rfl b (blk kv x) (0 : Fin 1) x d hb (by rw [blk_val, hk])

/-! ## The invariant, and its induction over the key tiles -/

/-- The position of the point (b, qi, k). -/
theorem pt_lt (b : Fin 4) (qi : Fin 8) (k : ℕ) (hk : k < 8) : (b.val * 8 + qi.val) * 8 + k < cfg1.N := by
  have h0 := b.isLt; have h1 := qi.isLt; have e : cfg1.N = 256 := N_1; omega

/-- What the buffers hold at row r, coordinate d after the point (b, qi, k): up to the diagonal the scaled query row and
    the running triple after tiles 0, …, k; from the diagonal on the output row. -/
def Good (S : St) (b : Fin 4) (qi : Fin 8) (k : ℕ) (hk : k < 8) (r : Fin 512) (d : Fin 64) : Prop :=
  (k ≤ qi.val → (∀ e, S.2.1 (ix2 r e) = Qt Qe Wt b qi r e)
      ∧ ((S.2.2.1 (ix2 r (0 : Fin 1)), S.2.2.2.1 (ix2 r (0 : Fin 1)), S.2.2.2.2 (ix2 r d)) : EReal × EReal × EReal)
          = runTo (sK Qe Wt Kp b qi r) (vK Vp b d) k hk)
  ∧ (qi.val ≤ k → S.1 (ix3 (0 : Fin 1) r d) = out (runTo (sK Qe Wt Kp b qi r) (vK Vp b d) qi.val qi.isLt))

include hQe hWt hKp hVp in
/-- THE INVARIANT holds after every point of the row tile (b, qi). -/
theorem good_all (b : Fin 4) (qi : Fin 8) (r : Fin 512) (d : Fin 64) :
    ∀ (k : ℕ) (hk : k < 8), Good Qe Wt Kp Vp (outsAt1 V c ((b.val * 8 + qi.val) * 8 + k) (pt_lt b qi k hk)) b qi k hk r d := by
  have hb4 := b.isLt; have hq8 := qi.isLt
  intro k
  induction k with
  | zero =>
    intro hk
    -- the point (b, qi, 0)
    obtain ⟨t, ht⟩ : ∃ t : Fin cfg1.N, t.val = (b.val * 8 + qi.val) * 8 + 0 := ⟨⟨_, pt_lt b qi 0 hk⟩, rfl⟩
    have hb : b.val = t.val / 64 := by omega
    have hq : qi.val = (t.val / 8) % 8 := by omega
    have hkv : ((⟨0, hk⟩ : Fin 8)).val = t.val % 8 := by show 0 = t.val % 8; omega
    have h0 : t.val % 8 = 0 := by omega
    have hS : outsAt1 V c ((b.val * 8 + qi.val) * 8 + 0) (pt_lt b qi 0 hk) = outsAt1 V c t.val t.isLt :=
      outsAt1_congr V c ht.symm _ _
    rw [hS]
    obtain ⟨hQ, hT⟩ := point_AB V c t qi ⟨0, hk⟩ hq hkv h0 r d
    have hqr : ∀ e, (outsAt1 V c t.val t.isLt).2.1 (ix2 r e) = Qt Qe Wt b qi r e := fun e =>
      (congrFun hQ (ix2 r e)).trans (Q_read V c Qe Wt hQe hWt t b qi hb hq r e)
    have hT' : ((((outsAt1 V c t.val t.isLt).2.2.1 (ix2 r (0 : Fin 1)), (outsAt1 V c t.val t.isLt).2.2.2.1 (ix2 r (0 : Fin 1)),
        (outsAt1 V c t.val t.isLt).2.2.2.2 (ix2 r d)) : EReal × EReal × EReal))
        = runTo (sK Qe Wt Kp b qi r) (vK Vp b d) 0 hk := by
      rw [hT, sRow_eq V c Qe Wt Kp hKp t b qi ⟨0, hk⟩ hb hkv _ r (fun e => Q_read V c Qe Wt hQe hWt t b qi hb hq r e),
        vRow_eq V c Vp hVp t b ⟨0, hk⟩ hb hkv d]
      rfl
    refine ⟨fun _ => ⟨hqr, hT'⟩, fun hle => ?_⟩
    have hq0 : qi.val = 0 := by omega
    have h2 : t.val % 8 = (t.val / 8) % 8 := by omega
    rw [point_A_out V c t qi ⟨0, hk⟩ hq hkv h0 h2 r d, hT']
    exact congrArg out (runTo_at _ _ hq0.symm _ _)
  | succ k ih =>
    intro hk
    have ihk := ih (Nat.lt_of_succ_lt hk)
    obtain ⟨t, ht⟩ : ∃ t : Fin cfg1.N, t.val = (b.val * 8 + qi.val) * 8 + (k + 1) := ⟨⟨_, pt_lt b qi (k + 1) hk⟩, rfl⟩
    have hb : b.val = t.val / 64 := by omega
    have hq : qi.val = (t.val / 8) % 8 := by omega
    have hkv : ((⟨k + 1, hk⟩ : Fin 8)).val = t.val % 8 := by show k + 1 = t.val % 8; omega
    have h0 : ¬t.val % 8 = 0 := by omega
    have hS : outsAt1 V c ((b.val * 8 + qi.val) * 8 + (k + 1)) (pt_lt b qi (k + 1) hk) = outsAt1 V c t.val t.isLt :=
      outsAt1_congr V c ht.symm _ _
    have hP : outsAt1 V c ((b.val * 8 + qi.val) * 8 + k) (pt_lt b qi k (Nat.lt_of_succ_lt hk))
        = outsAt1 V c (t.val - 1) (Nat.lt_of_le_of_lt (Nat.sub_le _ _) t.isLt) :=
      outsAt1_congr V c (by omega) _ _
    rw [hS]
    rw [hP] at ihk
    obtain ⟨ih1, ih2⟩ := ihk
    by_cases h1 : t.val % 8 ≤ (t.val / 8) % 8
    · -- kv ≤ qi: one more tile absorbed
      have hkq : k ≤ qi.val := by omega
      obtain ⟨ihq, ihT⟩ := ih1 hkq
      obtain ⟨hT, hQ⟩ := point_CD V c t qi ⟨k + 1, hk⟩ hq hkv h0 h1 r d
      have hqr : ∀ e, (outsAt1 V c t.val t.isLt).2.1 (ix2 r e) = Qt Qe Wt b qi r e := fun e =>
        (congrFun hQ (ix2 r e)).trans (ihq e)
      have hT' : ((((outsAt1 V c t.val t.isLt).2.2.1 (ix2 r (0 : Fin 1)), (outsAt1 V c t.val t.isLt).2.2.2.1 (ix2 r (0 : Fin 1)),
          (outsAt1 V c t.val t.isLt).2.2.2.2 (ix2 r d)) : EReal × EReal × EReal))
          = runTo (sK Qe Wt Kp b qi r) (vK Vp b d) (k + 1) hk := by
        rw [hT, ihT, sRow_eq V c Qe Wt Kp hKp t b qi ⟨k + 1, hk⟩ hb hkv _ r ihq, vRow_eq V c Vp hVp t b ⟨k + 1, hk⟩ hb hkv d]
        rfl
      refine ⟨fun _ => ⟨hqr, hT'⟩, fun hle => ?_⟩
      have hqk : qi.val = k + 1 := by omega
      have h2 : t.val % 8 = (t.val / 8) % 8 := by omega
      rw [point_D_out V c t qi ⟨k + 1, hk⟩ hq hkv h0 h1 h2 r d, hT']
      exact congrArg out (runTo_at _ _ hqk.symm _ _)
    · -- kv > qi: nothing changes
      rw [point_E V c t h0 h1]
      refine ⟨fun hle => absurd hle (by omega), fun _ => ih2 (by omega)⟩

/-! ## The output array -/

include hQe hWt hKp hVp in
/-- THE OUTPUT ARRAY, tile by tile: at batch b, row r of query tile qi, coordinate d it is the result of the running
    softmax of the row over key tiles 0, …, qi — the scores of the scaled projected query row against the projected keys,
    masked beyond the row's own position, weighting coordinate d of the projected values. -/
theorem out_tile (O : S4x4096x64.Idx → EReal) (hO : O = (dat1 V c).arrAt 4 cfg1.N) (b : Fin 4) (qi : Fin 8) (r : Fin 512) (d : Fin 64) :
    O (ix3 b (blk qi r) d) = out (runTo (sK Qe Wt Kp b qi r) (vK Vp b d) qi.val qi.isLt) := by
  have hq8 := qi.isLt; have hr := r.isLt
  have hv : (blk qi r).val = qi.val * 512 + r.val := blk_val qi r
  rw [arr1_4_apply V c O hO b (blk qi r) d]
  refine (outsAt1_read_congr V c (n' := (b.val * 8 + qi.val) * 8 + 7) (by omega) _ (pt_lt b qi 7 (by decide))
    (r' := r) (Fin.ext (by show (blk qi r).val % 512 = r.val; omega)) d).trans ?_
  exact (good_all V c Qe Wt Kp Vp hQe hWt hKp hVp b qi r d 7 (by decide)).2 (by omega)

include hQe hWt hKp hVp in
/-- The same, in the form the specification's bridge takes. -/
theorem kernel_result (O : S4x4096x64.Idx → EReal) (hO : O = (dat1 V c).arrAt 4 cfg1.N) :
    KernelResult Qe Wt Kp Vp O := fun b qi r d => out_tile V c Qe Wt Kp Vp hQe hWt hKp hVp O hO b qi r d

end Sem

/-- THE ATTENTION CALL'S RESULT, in the form the specification's bridge takes: the output array after all 256 points, as
    a function of the four arrays the call is entered with. -/
theorem kernelResult (V : (c : Dev nD) → (b : Ref sig .tc) → Buf (Elt Ideal) ((c : Thread nD τ).loc b)) (c : Dev nD) :
    Cert.Attn.KernelResult (V c main_arg0) (V c main_v0) (V c main_v3_0) (V c main_v3_1) ((dat1 V c).arrAt 4 cfg1.N) :=
  kernel_result V c (V c main_arg0) (V c main_v0) (V c main_v3_0) (V c main_v3_1) rfl rfl rfl rfl ((dat1 V c).arrAt 4 cfg1.N) rfl

end Cert.KernelIdeal.K1S

end
-- ==== Proof.KFinal.lean ====
/-
  The attention call's result is the specification's causal attention of the six argument arrays.

  When the attention call starts, its buffers hold the query embeddings as launched, the transposed query weights, and
  the keys and values projected against the transposed key and value weights. From those contents it leaves, tile by
  tile, the running softmax of each query row over the key blocks up to the row's own. Under the precondition all six
  argument arrays are real, so that running form is the row's attention: the result array is the specification's
  function of the six argument arrays.
-/
import proofs.«146551_j6992206758194_2_alg».proof.Proof.KEntry
import proofs.«146551_j6992206758194_2_alg».proof.Proof.AttnBridge
import proofs.«146551_j6992206758194_2_alg».proof.Proof.Finite
import proofs.«146551_j6992206758194_2_alg».proof.Proof.K1Sem
set_option maxRecDepth 16384

noncomputable section

namespace Cert.KernelIdeal.KF

open Cert.KernelIdeal Cert.KernelIdeal.Gen Cert.KernelIdeal.Run Cert.KernelIdeal.K1
open Idealize.ShloMosaic Idealize.ShloMosaic.TcCoe Idealize.ShloMosaic.ValueIdx
open Idealize.SL Idealize.SL.Sem

variable (m : (ℓ : Loc nD τ sig) → Buf (Elt Ideal) ℓ)

/-- From the tile-by-tile reading of the attention call's result — for any contents the call may be entered with —
    to the specification: under the precondition the result array is causal attention of the six argument arrays. -/
theorem result_eq_of
    (hK : ∀ (V : (c : Dev nD) → (b : Ref sig .tc) → Buf (Elt Ideal) ((c : Thread nD τ).loc b)) (c : Dev nD)
      (Qe : S4x4096x1024.Idx → EReal) (Wt : S1024x64.Idx → EReal) (Kp Vp : S4x4096x64.Idx → EReal),
      Qe = V c main_arg0 → Wt = V c main_v0 → Kp = V c main_v3_0 → Vp = V c main_v3_1 →
      ∀ O : S4x4096x64.Idx → EReal, O = (dat1 V c).arrAt 4 cfg1.N → Cert.Attn.KernelResult Qe Wt Kp Vp O)
    (hpre : Cert.Pre_KernelIdeal m) (c : Dev nD) :
    (dat1 (VC m) c).arrAt 4 cfg1.N
      = Cert.Attn.attn (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  obtain ⟨h0, h1, h2, h3, h4, h5⟩ := Cert.Finite.real_of_pre m hpre c
  refine Cert.Attn.bridge _ _ _ _ _ _ h0 h1 h2 h3 h4 h5 _ ?_
  exact hK (VC m) c _ _ _ _ (KE.entry_arg0 m c).symm (KE.entry_v0 m c).symm (KE.entry_v3_0 m c).symm
    (KE.entry_v3_1 m c).symm _ rfl

/-- THE KERNEL'S RESULT: under the precondition the attention call leaves causal attention of the six argument
    arrays in its output array. -/
theorem result_eq (hpre : Cert.Pre_KernelIdeal m) (c : Dev nD) :
    (dat1 (VC m) c).arrAt 4 cfg1.N
      = Cert.Attn.attn (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) :=
  result_eq_of m (fun V c Qe Wt Kp Vp hQe hWt hKp hVp O hO =>
    Cert.KernelIdeal.K1S.kernel_result V c Qe Wt Kp Vp hQe hWt hKp hVp O hO) hpre c

end Cert.KernelIdeal.KF

end
-- ==== Proof.RefValue.lean ====
/-
  The reference program computes causal attention.

  The reference's run ends with its result array at the composition of its operations applied to the six argument
  arrays. Read one operation at a time and one entry at a time, that composition is the causal attention of
  the specification: the three projections are sums over the 1024 embedding coordinates; the scores are the sums over
  the 64 features of products of projected entries, times the scale; the mask keeps entry (t, s) exactly when s ≤ t
  (the comparison of the row counter against the column counter, both below 4096, so the signed comparison of
  32-bit words is the comparison of the numbers) and puts −∞ elsewhere; the row maximum is the fold of max from −∞
  over the row, taken once more against −∞; the weights are the exponentials of the scores relative to that maximum;
  their sum is 0 plus the sum over the row; every weight is divided by that sum; and the result is the sum over the
  key positions of the normalised weight times the projected value.
-/
import proofs.«146551_j6992206758194_2_alg».proof.Proof.Gen.ReferenceIdeal.Read
import proofs.«146551_j6992206758194_2_alg».proof.Proof.AttnSpec

noncomputable section

namespace Cert.ReferenceIdeal.RefValue

open Cert.ReferenceIdeal Cert.ReferenceIdeal.Gen Cert.ReferenceIdeal.Read Idealize.ShloMosaic Idealize.ShloMosaic.ValueIdx
open scoped BigOperators

/-- The single-precision word 0xFF800000 is −∞. -/
theorem negInf : Ideal.ofBits .f32 0xFF800000#32 = ⊥ := by simp [Ideal.ofBits, Ideal.ieee]

/-- A number below 4096, written as a 32-bit word and read back signed, is itself. -/
theorem toInt_small (k : ℕ) (hk : k < 4096) : (BitVec.ofNat 32 k).toInt = (k : ℤ) := by
  rw [BitVec.toInt_eq_toNat_of_lt (by rw [BitVec.toNat_ofNat]; omega), BitVec.toNat_ofNat]
  omega

/-- The lower-triangle bit at (t, s): the signed comparison row + 0 ≥ column holds exactly when s ≤ t. -/
theorem tril_bit (t s : Fin 4096) :
    IntOp.cmpi .sge (IntOp.addi (BitVec.ofNat 32 t.val) 0#32) (BitVec.ofNat 32 s.val) = if s ≤ t then 1#1 else 0#1 := by
  have e : IntOp.addi (BitVec.ofNat 32 t.val) 0#32 = BitVec.ofNat 32 t.val := by
    unfold IntOp.addi; exact BitVec.add_zero _
  rw [e]
  by_cases h : s ≤ t
  · rw [if_pos h]
    refine IntOp.cmpi_sge.mpr ?_
    rw [toInt_small _ s.isLt, toInt_small _ t.isLt]
    exact_mod_cast h
  · rw [if_neg h]
    refine eq_zero_of_ne_one fun hc => h ?_
    have := IntOp.cmpi_sge.mp hc
    rw [toInt_small _ s.isLt, toInt_small _ t.isLt] at this
    exact_mod_cast this

/-- Stage 0: a projection, entry by entry. -/
theorem v0_at (x0 : (⟨S4x4096x1024, .f32⟩ : BufTy).Contents (Elt Ideal)) (x3 : (⟨S64x1024, .f32⟩ : BufTy).Contents (Elt Ideal))
    (b : Fin 4) (t : Fin 4096) (e : Fin 64) :
    val_main_v0 (F := Ideal) x0 x3 (ix3 b t e) = Cert.Attn.proj x0 x3 b t e := by
  rw [val_main_v0_apply]
  unfold Cert.Attn.proj
  refine Finset.sum_congr rfl fun k _ => ?_
  have el : lidx_main_v0 (ix3 b t e) k = ix3 b t k := funext fun a => Fin.ext (by match a with | ⟨0, _⟩ => rfl | ⟨1, _⟩ => rfl | ⟨2, _⟩ => rfl)
  have er : ridx_main_v0 (ix3 b t e) k = ix2 e k := funext fun a => Fin.ext (by match a with | ⟨0, _⟩ => rfl | ⟨1, _⟩ => rfl)
  rw [el, er]

/-- Stage 1: a projection, entry by entry. -/
theorem v1_at (x1 : (⟨S4x4096x1024, .f32⟩ : BufTy).Contents (Elt Ideal)) (x4 : (⟨S64x1024, .f32⟩ : BufTy).Contents (Elt Ideal))
    (b : Fin 4) (t : Fin 4096) (e : Fin 64) :
    val_main_v1 (F := Ideal) x1 x4 (ix3 b t e) = Cert.Attn.proj x1 x4 b t e := by
  rw [val_main_v1_apply]
  unfold Cert.Attn.proj
  refine Finset.sum_congr rfl fun k _ => ?_
  have el : lidx_main_v1 (ix3 b t e) k = ix3 b t k := funext fun a => Fin.ext (by match a with | ⟨0, _⟩ => rfl | ⟨1, _⟩ => rfl | ⟨2, _⟩ => rfl)
  have er : ridx_main_v1 (ix3 b t e) k = ix2 e k := funext fun a => Fin.ext (by match a with | ⟨0, _⟩ => rfl | ⟨1, _⟩ => rfl)
  rw [el, er]

/-- Stage 2: a projection, entry by entry. -/
theorem v2_at (x2 : (⟨S4x4096x1024, .f32⟩ : BufTy).Contents (Elt Ideal)) (x5 : (⟨S64x1024, .f32⟩ : BufTy).Contents (Elt Ideal))
    (b : Fin 4) (t : Fin 4096) (e : Fin 64) :
    val_main_v2 (F := Ideal) x2 x5 (ix3 b t e) = Cert.Attn.proj x2 x5 b t e := by
  rw [val_main_v2_apply]
  unfold Cert.Attn.proj
  refine Finset.sum_congr rfl fun k _ => ?_
  have el : lidx_main_v2 (ix3 b t e) k = ix3 b t k := funext fun a => Fin.ext (by match a with | ⟨0, _⟩ => rfl | ⟨1, _⟩ => rfl | ⟨2, _⟩ => rfl)
  have er : ridx_main_v2 (ix3 b t e) k = ix2 e k := funext fun a => Fin.ext (by match a with | ⟨0, _⟩ => rfl | ⟨1, _⟩ => rfl)
  rw [el, er]

/-- The unscaled scores: the dot product of a projected query row with a projected key row. -/
theorem v3_at (x0 x1 : (⟨S4x4096x1024, .f32⟩ : BufTy).Contents (Elt Ideal)) (x3 x4 : (⟨S64x1024, .f32⟩ : BufTy).Contents (Elt Ideal)) (b : Fin 4) (t s : Fin 4096) :
    val_main_v3 (F := Ideal) x0 x1 x3 x4 (ix3 b t s)
      = ∑ e : Fin 64, Cert.Attn.proj x0 x3 b t e * Cert.Attn.proj x1 x4 b s e := by
  rw [val_main_v3_apply]
  refine Finset.sum_congr rfl fun k _ => ?_
  have el : lidx_main_v3 (ix3 b t s) k = ix3 b t k := funext fun a => Fin.ext (by match a with | ⟨0, _⟩ => rfl | ⟨1, _⟩ => rfl | ⟨2, _⟩ => rfl)
  have er : ridx_main_v3 (ix3 b t s) k = ix3 b s k := funext fun a => Fin.ext (by match a with | ⟨0, _⟩ => rfl | ⟨1, _⟩ => rfl | ⟨2, _⟩ => rfl)
  rw [el, er, v0_at, v1_at]

/-- The scaled scores. -/
theorem v5_at (x0 x1 : (⟨S4x4096x1024, .f32⟩ : BufTy).Contents (Elt Ideal)) (x3 x4 : (⟨S64x1024, .f32⟩ : BufTy).Contents (Elt Ideal)) (b : Fin 4) (t s : Fin 4096) :
    val_main_v5 (F := Ideal) x0 x1 x3 x4 (ix3 b t s)
      = (∑ e : Fin 64, Cert.Attn.proj x0 x3 b t e * Cert.Attn.proj x1 x4 b s e) * Cert.Attn.scale := by
  rw [val_main_v5_apply, v3_at, val_main_v4_apply, val_main_cst_apply]
  rfl

/-- The lower-triangle mask at (t, s). -/
theorem v7_at (t s : Fin 4096) : val_main_v7 (F := Ideal) (ix2 t s) = if s ≤ t then 1#1 else 0#1 := by
  rw [val_main_v7_apply, val_main_call0_v4_apply, val_main_call0_v2_apply, val_main_call0_v0_apply, val_main_call0_v1_apply,
    val_main_call0_c_apply, val_main_call0_v3_apply, val_main_v6_apply, val_main_c_apply, val_main_call0_v5_apply,
    val_main_call0_c_0_apply]
  show Scalar.select (IntOp.cmpi .sge (IntOp.addi (BitVec.ofNat 32 t.val) 0#32) (BitVec.ofNat 32 s.val)) 1#1 0#1 = _
  rw [tril_bit]
  by_cases h : s ≤ t
  · rw [if_pos h]; exact select_one _ _
  · rw [if_neg h]; exact select_zero _ _

/-- The masked scores are the specification's causal scores. -/
theorem v8_at (x0 x1 : (⟨S4x4096x1024, .f32⟩ : BufTy).Contents (Elt Ideal)) (x3 x4 : (⟨S64x1024, .f32⟩ : BufTy).Contents (Elt Ideal)) (b : Fin 4) (t s : Fin 4096) :
    val_main_v8 (F := Ideal) x0 x1 x3 x4 (ix3 b t s)
      = Cert.Attn.score (Cert.Attn.proj x0 x3) (Cert.Attn.proj x1 x4) b t s := by
  have ei : idx_main_call1_v1 (ix3 b t s) = ix2 t s := funext fun a => Fin.ext (by match a with | ⟨0, _⟩ => rfl | ⟨1, _⟩ => rfl)
  rw [val_main_v8_apply, val_main_call1_v1_apply, ei, v7_at, v5_at, val_main_call1_v2_apply, val_main_call1_v0_apply,
    val_main_cst_0_apply]
  unfold Cert.Attn.score
  by_cases h : s ≤ t
  · rw [if_pos h, if_pos h]; exact select_one _ _
  · rw [if_neg h, if_neg h]; exact (select_zero _ _).trans negInf

/-- The row maximum: the fold of max from −∞ over the row of causal scores. -/
theorem v9_at (x0 x1 : (⟨S4x4096x1024, .f32⟩ : BufTy).Contents (Elt Ideal)) (x3 x4 : (⟨S64x1024, .f32⟩ : BufTy).Contents (Elt Ideal)) (b : Fin 4) (t : Fin 4096) :
    val_main_v9 (F := Ideal) x0 x1 x3 x4 (ix2 b t)
      = (Finset.univ : Finset (Fin 4096)).fold max ⊥
          (fun s => Cert.Attn.score (Cert.Attn.proj x0 x3) (Cert.Attn.proj x1 x4) b t s) := by
  have h : S4x4096x4096.Reduces [2] S4x4096 := by decide
  have e0 : val_main_cst_1 (F := Ideal) (Shape.Idx.first h_S_) = ⊥ := negInf
  have ef : (val_main_v8 (F := Ideal) x0 x1 x3 x4 ∘ h.lift (ix2 b t))
      = fun s : Fin 4096 => Cert.Attn.score (Cert.Attn.proj x0 x3) (Cert.Attn.proj x1 x4) b t s :=
    funext fun s => (congrArg (val_main_v8 (F := Ideal) x0 x1 x3 x4)
      (show h.lift (ix2 b t) s = ix3 b t s from funext fun a => Fin.ext (by match a with | ⟨0, _⟩ => rfl | ⟨1, _⟩ => rfl | ⟨2, _⟩ => rfl))).trans (v8_at x0 x1 x3 x4 b t s)
  unfold val_main_v9
  exact (Host.reduce_eq_fold_single (FloatOps.maximumf (F := Ideal) (φ := .f32)) (val_main_v8 (F := Ideal) x0 x1 x3 x4)
      (val_main_cst_1 (F := Ideal)) reducesTo_S4x4096x4096_S4x4096_d2 h h_S_ (ix2 b t)).trans
    (congrArg₂ (fun i f => (Finset.univ : Finset (Fin 4096)).fold max i f) e0 ef)

/-- The shift: the row maximum taken once more against −∞. -/
theorem v11_at (x0 x1 : (⟨S4x4096x1024, .f32⟩ : BufTy).Contents (Elt Ideal)) (x3 x4 : (⟨S64x1024, .f32⟩ : BufTy).Contents (Elt Ideal)) (b : Fin 4) (t : Fin 4096) :
    val_main_v11 (F := Ideal) x0 x1 x3 x4 (ix2 b t)
      = Cert.Attn.rowShift (Cert.Attn.score (Cert.Attn.proj x0 x3) (Cert.Attn.proj x1 x4) b t) := by
  rw [val_main_v11_apply, val_main_v10_apply, val_main_cst_2_apply, v9_at]
  show max (Ideal.ofBits .f32 0xFF800000#32) _ = _
  rw [negInf]
  rfl

/-- The shift broadcast along the row. -/
theorem v13_at (x0 x1 : (⟨S4x4096x1024, .f32⟩ : BufTy).Contents (Elt Ideal)) (x3 x4 : (⟨S64x1024, .f32⟩ : BufTy).Contents (Elt Ideal)) (b : Fin 4) (t s : Fin 4096) :
    val_main_v13 (F := Ideal) x0 x1 x3 x4 (ix3 b t s)
      = Cert.Attn.rowShift (Cert.Attn.score (Cert.Attn.proj x0 x3) (Cert.Attn.proj x1 x4) b t) := by
  have ei : idx_main_v12 (idx_main_v13 (ix3 b t s)) = ix2 b t := funext fun a => Fin.ext (by match a with | ⟨0, _⟩ => rfl | ⟨1, _⟩ => rfl)
  rw [val_main_v13_apply, val_main_v12_apply, ei, v11_at]

/-- The unnormalised weights. -/
theorem v15_at (x0 x1 : (⟨S4x4096x1024, .f32⟩ : BufTy).Contents (Elt Ideal)) (x3 x4 : (⟨S64x1024, .f32⟩ : BufTy).Contents (Elt Ideal)) (b : Fin 4) (t s : Fin 4096) :
    val_main_v15 (F := Ideal) x0 x1 x3 x4 (ix3 b t s)
      = Cert.Attn.weight (Cert.Attn.score (Cert.Attn.proj x0 x3) (Cert.Attn.proj x1 x4) b t) s := by
  rw [val_main_v15_apply, val_main_v14_apply, v8_at, v13_at]
  rfl

/-- The sum of a row's weights: 0 plus the sum, which is the sum. -/
theorem v16_at (x0 x1 : (⟨S4x4096x1024, .f32⟩ : BufTy).Contents (Elt Ideal)) (x3 x4 : (⟨S64x1024, .f32⟩ : BufTy).Contents (Elt Ideal)) (b : Fin 4) (t : Fin 4096) :
    val_main_v16 (F := Ideal) x0 x1 x3 x4 (ix2 b t)
      = ∑ s : Fin 4096, Cert.Attn.weight (Cert.Attn.score (Cert.Attn.proj x0 x3) (Cert.Attn.proj x1 x4) b t) s := by
  rw [val_main_v16_apply, val_main_cst_3_apply]
  show Ideal.ofBits .f32 0x00000000#32 + _ = _
  rw [Ideal.ofBits_zero_f32, zero_add]
  refine Finset.sum_congr rfl fun k _ => ?_
  have ei : idx_main_v16 (ix2 b t) k = ix3 b t k := funext fun a => Fin.ext (by match a with | ⟨0, _⟩ => rfl | ⟨1, _⟩ => rfl | ⟨2, _⟩ => rfl)
  rw [ei, v15_at]

/-- The sum broadcast along the row. -/
theorem v18_at (x0 x1 : (⟨S4x4096x1024, .f32⟩ : BufTy).Contents (Elt Ideal)) (x3 x4 : (⟨S64x1024, .f32⟩ : BufTy).Contents (Elt Ideal)) (b : Fin 4) (t s : Fin 4096) :
    val_main_v18 (F := Ideal) x0 x1 x3 x4 (ix3 b t s)
      = ∑ s' : Fin 4096, Cert.Attn.weight (Cert.Attn.score (Cert.Attn.proj x0 x3) (Cert.Attn.proj x1 x4) b t) s' := by
  have ei : idx_main_v17 (idx_main_v18 (ix3 b t s)) = ix2 b t := funext fun a => Fin.ext (by match a with | ⟨0, _⟩ => rfl | ⟨1, _⟩ => rfl)
  rw [val_main_v18_apply, val_main_v17_apply, ei, v16_at]

/-- The normalised weights. -/
theorem v19_at (x0 x1 : (⟨S4x4096x1024, .f32⟩ : BufTy).Contents (Elt Ideal)) (x3 x4 : (⟨S64x1024, .f32⟩ : BufTy).Contents (Elt Ideal)) (b : Fin 4) (t s : Fin 4096) :
    val_main_v19 (F := Ideal) x0 x1 x3 x4 (ix3 b t s)
      = Ideal.div (Cert.Attn.weight (Cert.Attn.score (Cert.Attn.proj x0 x3) (Cert.Attn.proj x1 x4) b t) s)
          (∑ s' : Fin 4096, Cert.Attn.weight (Cert.Attn.score (Cert.Attn.proj x0 x3) (Cert.Attn.proj x1 x4) b t) s') := by
  rw [val_main_v19_apply, v15_at, v18_at]
  rfl

/-- The last stage at explicit coordinates. -/
theorem v20_at (x0 x1 x2 : (⟨S4x4096x1024, .f32⟩ : BufTy).Contents (Elt Ideal)) (x3 x4 x5 : (⟨S64x1024, .f32⟩ : BufTy).Contents (Elt Ideal))
    (b : Fin 4) (t : Fin 4096) (d : Fin 64) :
    val_main_v20 (F := Ideal) x0 x1 x2 x3 x4 x5 (ix3 b t d) = Cert.Attn.attn x0 x1 x2 x3 x4 x5 (ix3 b t d) := by
  rw [val_main_v20_apply, Cert.Attn.attn_ix3]
  unfold Cert.Attn.attnRow
  refine Finset.sum_congr rfl fun k _ => ?_
  have el : lidx_main_v20 (ix3 b t d) k = ix3 b t k := funext fun a => Fin.ext (by match a with | ⟨0, _⟩ => rfl | ⟨1, _⟩ => rfl | ⟨2, _⟩ => rfl)
  have er : ridx_main_v20 (ix3 b t d) k = ix3 b k d := funext fun a => Fin.ext (by match a with | ⟨0, _⟩ => rfl | ⟨1, _⟩ => rfl | ⟨2, _⟩ => rfl)
  rw [el, er, v19_at, v2_at]

/-- THE REFERENCE IS CAUSAL ATTENTION: its last stage, as a function of the six argument arrays, is the specification. -/
theorem val_main_v20_eq_attn (x0 x1 x2 : (⟨S4x4096x1024, .f32⟩ : BufTy).Contents (Elt Ideal))
    (x3 x4 x5 : (⟨S64x1024, .f32⟩ : BufTy).Contents (Elt Ideal)) :
    val_main_v20 (F := Ideal) x0 x1 x2 x3 x4 x5 = Cert.Attn.attn x0 x1 x2 x3 x4 x5 := by
  funext i
  obtain ⟨b, t, d, rfl⟩ : ∃ (b : Fin 4) (t : Fin 4096) (d : Fin 64), i = ix3 b t d := ⟨i 0, i 1, i 2, eq_ix3 i⟩
  exact v20_at x0 x1 x2 x3 x4 x5 b t d

/-- The term the reference's run ends with is causal attention of the six argument arrays as the run found them. -/
theorem res_eq_attn (m : (ℓ : Loc nD τ sig) → Buf (Elt Ideal) ℓ) (c : Dev nD) :
    Cert.ReferenceIdeal.Value.res_main_v20 (F := Ideal) m c
      = Cert.Attn.attn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (val_main_v20_eq (F := Ideal) m c).trans (val_main_v20_eq_attn _ _ _ _ _ _)

end Cert.ReferenceIdeal.RefValue

end
-- ==== Proof.lean ====
/-
  Causal scaled-dot-product attention, computed tile by tile with a running softmax, against the plain
  softmax(Q Kᵀ / 32 + causal mask) V of the reference: the two agree on the extended reals when the inputs are finite.

  The kernel program transposes the three weight matrices, projects the keys and values in a first call (blocks of
  1024 rows; a matrix product into a zero accumulator is the plain sum over the contracted axis), and in a second call
  runs over (batch, query tile qi, key tile kv), tiles of 512. At kv = 0 the query tile is projected and scaled by the
  exact word 1/32 and the running maximum, sum and accumulator are reset to −∞, 0, 0; for kv ≤ qi the key tile's scores
  — masked to −∞ above the diagonal by the kernel's fill constant, which is −∞ on the extended reals — are absorbed
  into the running state; at kv = qi the accumulator is divided by the sum; tiles with kv > qi are skipped. Every
  absorbed tile has its first column unmasked, so each tile's maximum is real and the state after any number of
  tiles is (M, e^(−M)·E, e^(−M)·W) for a real M, E the sum of the exponentials of the unmasked scores seen and W the
  same weighted by the values; the quotient is W / E whatever M is. The reference's one-pass softmax over the whole
  masked row — shift by the row maximum, exponentials (0 at the masked entries), each divided by their sum, then the
  product with the values — is the same W / E over the entries at or below the diagonal, which are exactly the tiles
  kv ≤ qi. Finiteness of the inputs is what makes every projection real, lets the factor 1/32 move across the sum over
  the 64 features, and keeps the sums clear of the infinities.

  The three frames — each program runs to the end, faults nowhere and leaves its arguments unchanged — come from the
  runs themselves: the two kernel programs' from following the buffers' contents through the transposes and the two
  calls, the reference's from its operations' composed term. The one rewrite of the idealization is the fill constant
  read as −∞.
-/
import proofs.«146551_j6992206758194_2_alg».proof.Defs
import proofs.«146551_j6992206758194_2_alg».proof.Proof.Gen.Kernel
import proofs.«146551_j6992206758194_2_alg».proof.Proof.Gen.KernelIdeal
import proofs.«146551_j6992206758194_2_alg».proof.Proof.Gen.ReferenceIdeal
import proofs.«146551_j6992206758194_2_alg».proof.Proof.Gen.ReferenceIdeal.Run
import proofs.«146551_j6992206758194_2_alg».proof.Proof.Gen.ReferenceIdeal.Read
import proofs.«146551_j6992206758194_2_alg».proof.Proof.Gen.Pre_finite_inputs
import proofs.«146551_j6992206758194_2_alg».proof.Proof.KFrame
import proofs.«146551_j6992206758194_2_alg».proof.Proof.KBFrame
import proofs.«146551_j6992206758194_2_alg».proof.Proof.KFinal
import proofs.«146551_j6992206758194_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_kernel : Cert.frame_Kernel := fun m ρ _ => Cert.Kernel.Run.frame (F := Bits) m ρ

/-- So does its idealization. -/
theorem frame_kernelIdeal : Cert.frame_KernelIdeal := fun m ρ _ => Cert.KernelIdeal.Run.frame (F := Ideal) m ρ

/-- The reference's run, with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's one rewrite: the mask's fill constant, a large negative number, is −∞ on the extended reals. -/
theorem preserves : Cert.preserves_Kernel_KernelIdeal :=
  IdealRules.named_const.statement Cert.KernelIdeal.κ "neg_big" .f32 0xFF333332#32 ⊥ rfl

/-- From memories agreeing on the six arguments both programs end with the attention function of those arguments
    in their result arrays. -/
theorem algebraic : Cert.algebraic_KernelIdeal_ReferenceIdeal := by
  intro m ρ m' ρ' hpre hagree
  refine ⟨fun c => Cert.Attn.attn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KF.result_eq m hpre c), (h c).2⟩)
      (Cert.KernelIdeal.Run.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq_attn, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
